-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_c_17 : IVec S_ 1 := constantI S_ 1 1#1
  let main_v48 : IVec S_ 1 := (fun x v => Host.reduce IntOp.andi x v reducesTo_S800000_S_d0 h_S_) main_v47 main_c_17
  let main_v49 : IVec S_ 1 := andi main_v43 main_v48
  main_v49

def fn_part1 {F : FTy → Type} [FloatOps F] (main_arg1 : IVec S2x800000 32) (main_arg6 : FVec F S4x128 .f32) (main_arg7 : FVec F S4x128 .f32) (main_arg8 : FVec F S4x128 .f32) (main_arg9 : FVec F S128x128 .f32) (main_arg10 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128x128 .f32) (main_arg6 : FVec F S4x128 .f32) (main_arg7 : FVec F S4x128 .f32) (main_arg8 : FVec F S4x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S2000x128 : Shape := ⟨2, ![2000, 128]⟩
abbrev S256x128 : Shape := ⟨2, ![256, 128]⟩
abbrev S50000x1 : Shape := ⟨2, ![50000, 1]⟩

abbrev nBuf : Space → Nat
  | .hbm => 209
  | .vmem => 92
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S1x128x128, .f32⟩
  | 51 => ⟨S128x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S50000x128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S50000x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S50000x128, .f32⟩
  | 75 => ⟨S_, .f32⟩
  | 76 => ⟨S256x128, .f32⟩
  | 77 => ⟨S50000x1, .i32⟩
  | 78 => ⟨S256x128, .f32⟩
  | 79 => ⟨S1x128, .f32⟩
  | 80 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S128x128, .f32⟩
  | .local _ .vmem, ⟨69, _⟩ => ⟨S1x128, .f32⟩
  | .local _ .vmem, ⟨70, _⟩ => ⟨S128x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | .local _ .vmem, ⟨78, _⟩ => ⟨S128x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S256x128, .f32⟩
  | .local _ .vmem, ⟨89, _⟩ => ⟨S128x128, .f32⟩
  | .local _ .vmem, ⟨90, _⟩ => ⟨S1x128, .f32⟩
  | .local _ .vmem, ⟨91, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_3 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_5 : Ref sig .tc := ⟨.hbm, 71, rfl⟩
abbrev main_v53 : Ref sig .tc := ⟨.hbm, 72, rfl⟩
abbrev main_v54 : Ref sig .tc := ⟨.hbm, 73, rfl⟩
abbrev main_c_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70_0 : Ref sig .tc := ⟨.hbm, 90, rfl⟩
abbrev main_v70_1 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_7 : Ref sig .tc := ⟨.hbm, 109, rfl⟩
abbrev main_v88 : Ref sig .tc := ⟨.hbm, 110, rfl⟩
abbrev main_v89 : Ref sig .tc := ⟨.hbm, 111, rfl⟩
abbrev main_c_8 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_9 : Ref sig .tc := ⟨.hbm, 118, rfl⟩
abbrev main_v95 : Ref sig .tc := ⟨.hbm, 119, rfl⟩
abbrev main_v96 : Ref sig .tc := ⟨.hbm, 120, rfl⟩
abbrev main_c_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112_0 : Ref sig .tc := ⟨.hbm, 137, rfl⟩
abbrev main_v112_1 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_c_11 : Ref sig .tc := ⟨.hbm, 156, rfl⟩
abbrev main_v130 : Ref sig .tc := ⟨.hbm, 157, rfl⟩
abbrev main_v131 : Ref sig .tc := ⟨.hbm, 158, rfl⟩
abbrev main_c_12 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_c_13 : Ref sig .tc := ⟨.hbm, 165, rfl⟩
abbrev main_v137 : Ref sig .tc := ⟨.hbm, 166, rfl⟩
abbrev main_v138 : Ref sig .tc := ⟨.hbm, 167, rfl⟩
abbrev main_c_14 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154_0 : Ref sig .tc := ⟨.hbm, 184, rfl⟩
abbrev main_v154_1 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_cst : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_scratch0 : Ref sig .tc := ⟨.vmem, 74, rfl⟩
abbrev cc6_scratch1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc7_stg7_0 : Ref sig .tc := ⟨.vmem, 84, rfl⟩
abbrev cc7_stg8_0 : Ref sig .tc := ⟨.vmem, 85, rfl⟩
abbrev cc7_stg9_0 : Ref sig .tc := ⟨.vmem, 86, rfl⟩
abbrev cc7_stg9_1 : Ref sig .tc := ⟨.vmem, 87, rfl⟩
abbrev cc8_stg0_0 : Ref sig .tc := ⟨.vmem, 88, rfl⟩
abbrev cc8_stg1_0 : Ref sig .tc := ⟨.vmem, 89, rfl⟩
abbrev cc8_stg2_0 : Ref sig .tc := ⟨.vmem, 90, rfl⟩
abbrev cc8_stg3_0 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem8_0 : DmaSem sig := 57
abbrev cc5_sem9_0 : DmaSem sig := 58
abbrev cc5_sem9_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem6_0 : DmaSem sig := 75
abbrev cc7_sem7_0 : DmaSem sig := 76
abbrev cc7_sem8_0 : DmaSem sig := 77
abbrev cc7_sem9_0 : DmaSem sig := 78
abbrev cc7_sem9_1 : DmaSem sig := 79
abbrev cc8_sem0_0 : DmaSem sig := 80
abbrev cc8_sem1_0 : DmaSem sig := 81
abbrev cc8_sem2_0 : DmaSem sig := 82
abbrev cc8_sem3_0 : DmaSem sig := 83

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_23 : BitVec 32 := 0#32
  let v44 : BitVec 1 := Scalar.cmpi .ne v43 c0_i32_23
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_23 : BitVec 32 := 0#32
  let v44 : BitVec 1 := Scalar.cmpi .ne v43 c0_i32_23
  v44

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_23 : BitVec 32 := 0#32
  let v44 : BitVec 1 := Scalar.cmpi .ne v43 c0_i32_23
  v44

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S2000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S256x128_S50000x1_S50000x128_1_0_0_1_wf : ScatterDims.WF S256x128 S50000x1 S50000x128 [1] [0] [0] 1
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S50000x128.size a
  hwx5_9 : ∀ i : grid5.Coords, EltTy.bits .f32 = 32 ∨ (Rect.block (s := S50000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x128.size a ≤ S50000x128.size a
  hwx7_9 : ∀ i : grid7.Coords, EltTy.bits .f32 = 32 ∨ (Rect.block (s := S50000x128) S2000x128.size (cc7_transform_9 i) (hinb7_9 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x128.size a ≤ S256x128.size a
  hwx8_0 : ∀ i : grid8.Coords, EltTy.bits .f32 = 32 ∨ (Rect.block (s := S256x128) S256x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S256x128.size a
  hwx8_3 : ∀ i : grid8.Coords, EltTy.bits .f32 = 32 ∨ (Rect.block (s := S256x128) S256x128.size (cc8_transform_3 i) (hinb8_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_0) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_0) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70_1) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70_0) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70_1) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v83) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v86) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v87) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v101) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112_0) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112_1) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v101) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v112_0) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v112_1) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v125) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v128) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v129) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v143) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v145) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v148) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v150) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v153) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v154_0) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v154_1) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v143) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v156) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v159) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v161) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v164) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v154_0) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v154_1) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v167) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v170) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v171) S2000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v174) S256x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v175) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v176) S256x128.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S256x128 : Shape := ⟨2, ![256, 128]⟩
abbrev S50000x1 : Shape := ⟨2, ![50000, 1]⟩

abbrev nBuf : Space → Nat
  | .hbm => 306
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S1x128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S256x128, .f32⟩
  | 41 => ⟨S50000x1, .i32⟩
  | 42 => ⟨S256x128, .f32⟩
  | 43 => ⟨S256x128, .f32⟩
  | 44 => ⟨S1x128, .f32⟩
  | 45 => ⟨S256x128, .f32⟩
  | 46 => ⟨S256x128, .f32⟩
  | 47 => ⟨S_, .f32⟩
  | 48 => ⟨S256x128, .f32⟩
  | 49 => ⟨S256x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_6 : Ref sig .tc := ⟨.hbm, 85, rfl⟩
abbrev main_v62 : Ref sig .tc := ⟨.hbm, 86, rfl⟩
abbrev main_v63 : Ref sig .tc := ⟨.hbm, 87, rfl⟩
abbrev main_c_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_8 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call2_cst : Ref sig .tc := ⟨.hbm, 107, rfl⟩
abbrev main_call2_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call3_cst : Ref sig .tc := ⟨.hbm, 118, rfl⟩
abbrev main_call3_v0 : Ref sig .tc := ⟨.hbm, 119, rfl⟩
abbrev main_v90 : Ref sig .tc := ⟨.hbm, 120, rfl⟩
abbrev main_cst_9 : Ref sig .tc := ⟨.hbm, 121, rfl⟩
abbrev main_v91 : Ref sig .tc := ⟨.hbm, 122, rfl⟩
abbrev main_cst_10 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_11 : Ref sig .tc := ⟨.hbm, 130, rfl⟩
abbrev main_v98 : Ref sig .tc := ⟨.hbm, 131, rfl⟩
abbrev main_cst_12 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_13 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_14 : Ref sig .tc := ⟨.hbm, 155, rfl⟩
abbrev main_v120 : Ref sig .tc := ⟨.hbm, 156, rfl⟩
abbrev main_v121 : Ref sig .tc := ⟨.hbm, 157, rfl⟩
abbrev main_c_15 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_16 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_call4_cst : Ref sig .tc := ⟨.hbm, 177, rfl⟩
abbrev main_call4_v0 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_call5_cst : Ref sig .tc := ⟨.hbm, 188, rfl⟩
abbrev main_call5_v0 : Ref sig .tc := ⟨.hbm, 189, rfl⟩
abbrev main_v148 : Ref sig .tc := ⟨.hbm, 190, rfl⟩
abbrev main_cst_17 : Ref sig .tc := ⟨.hbm, 191, rfl⟩
abbrev main_v149 : Ref sig .tc := ⟨.hbm, 192, rfl⟩
abbrev main_cst_18 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_19 : Ref sig .tc := ⟨.hbm, 200, rfl⟩
abbrev main_v156 : Ref sig .tc := ⟨.hbm, 201, rfl⟩
abbrev main_cst_20 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_21 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_c_22 : Ref sig .tc := ⟨.hbm, 225, rfl⟩
abbrev main_v178 : Ref sig .tc := ⟨.hbm, 226, rfl⟩
abbrev main_v179 : Ref sig .tc := ⟨.hbm, 227, rfl⟩
abbrev main_c_23 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_24 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_call6_cst : Ref sig .tc := ⟨.hbm, 247, rfl⟩
abbrev main_call6_v0 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_call7_cst : Ref sig .tc := ⟨.hbm, 258, rfl⟩
abbrev main_call7_v0 : Ref sig .tc := ⟨.hbm, 259, rfl⟩
abbrev main_v206 : Ref sig .tc := ⟨.hbm, 260, rfl⟩
abbrev main_cst_25 : Ref sig .tc := ⟨.hbm, 261, rfl⟩
abbrev main_v207 : Ref sig .tc := ⟨.hbm, 262, rfl⟩
abbrev main_cst_26 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_27 : Ref sig .tc := ⟨.hbm, 270, rfl⟩
abbrev main_v214 : Ref sig .tc := ⟨.hbm, 271, rfl⟩
abbrev main_cst_28 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_29 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_cst_30 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_call8_cst : Ref sig .tc := ⟨.hbm, 303, rfl⟩
abbrev main_call8_v0 : Ref sig .tc := ⟨.hbm, 304, rfl⟩
abbrev main_v243 : Ref sig .tc := ⟨.hbm, 305, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S1x128_S256x128_0_1 : S1x128.BroadcastsInDim S256x128 (![0, 1] : Fin 2 → Fin S256x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  dot_S256x128_S128x128_S256x128_1_0_0_1_n_n_wf : DotDims.WF S256x128 S128x128 S256x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

class Facts : Prop extends Facts₀ where

variable [Facts]
-- ==== Proof.KI.StatsLib.lean ====
/-
  Two facts about a buffer that is stored and loaded through its whole rectangle (offsets zero, the buffer's own
  sizes), shared by the column-statistics regions of both kernel programs: what the buffer reads after such a store,
  and what such a load reads.
-/
import Idealize.ShloMosaic.Lib.Pipeline.FrameBody
import Idealize.ShloMosaic.Lib.Pipeline.Value

noncomputable section

namespace Cert.StatsLib

open Idealize.ShloMosaic Idealize.SL.RA

/-- The zero offsets of a rank-2 rectangle, as the programs spell them. -/
theorem hz : (![0, 0] : Fin 2 → Nat) = fun _ => 0 := funext fun a => by fin_cases a <;> rfl

/-- After stores the last of which went through the buffer's whole rectangle, the buffer reads that store's payload. -/
theorem read_writes_cons_whole {sg : RefSig} {κ' : Kind} {sp : Space} {S : Shape} {e : EltTy} {Val : EltTy → Type} [∀ e, Nonempty (Val e)]
    (v : View sg κ' sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through the whole rectangle reads the buffer's contents. -/
theorem readAt_whole {sg : RefSig} {κ' : Kind} {sp : Space} {S : Shape} {e : EltTy} {Val : EltTy → Type}
    (v : View sg κ' sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- At a point that is not idle for window `w`, the body must leave the window's buffer at `after w t`. -/
theorem leavesExact_live {nD : Nat} {τ : Topo} {sg : RefSig} {Val : EltTy → Type}
    {Ix : Type} [DecidableEq Ix] {Name : Type} [DecidableEq Name] {U : Type} [URA U] {Lvl : Type}
    {Λ₀ : Idealize.SL.Sem.Labels} {cfg : Pipeline.Cfg sg Λ₀} {c : Dev nD} (dat : Pipeline.Dat τ Val Ix Name U Lvl cfg c)
    (w : Fin cfg.W) (t : Fin cfg.N) (hi : cfg.idle w (cfg.grid.coords t) = false) :
    dat.leavesExact w t = owns (c.tc : Thread nD τ) ((cfg.win w).stage (cfg.slots t w)) fullShare (dat.after w t) := by
  unfold Pipeline.Dat.leavesExact; rw [hi]

end Cert.StatsLib

end
-- ==== Proof.KI.R0.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two carried rows -/

/-- The row of column sums after the first `n` tiles: the zero row, then tile by tile the body's update. -/
def sum0 (c : Dev nD) : ℕ → Vec F S1x128 .f32
  | 0 => k0_pay4
  | n + 1 =>
    if h : n < cfg0.N then
      k0_pay7 (iblk0 V c 0 ⟨n, h⟩) (iblk0 V c 1 ⟨n, h⟩) (iblk0 V c 2 ⟨n, h⟩) (iblk0 V c 3 ⟨n, h⟩) (iblk0 V c 4 ⟨n, h⟩) (sum0 c n)
    else sum0 c n

/-- The row of column sums of squares after the first `n` tiles. -/
def sq0 (c : Dev nD) : ℕ → Vec F S1x128 .f32
  | 0 => k0_pay5
  | n + 1 =>
    if h : n < cfg0.N then
      k0_pay1 (k0_pay6 (iblk0 V c 0 ⟨n, h⟩) (iblk0 V c 1 ⟨n, h⟩) (iblk0 V c 2 ⟨n, h⟩) (iblk0 V c 3 ⟨n, h⟩) (iblk0 V c 4 ⟨n, h⟩)) (sq0 c n)
    else sq0 c n

/-- One more tile: the body's update of the sums by the tile at `t`. -/
theorem sum0_succ (c : Dev nD) (t : Fin cfg0.N) :
    sum0 V c (t.val + 1) = k0_pay7 (iblk0 V c 0 t) (iblk0 V c 1 t) (iblk0 V c 2 t) (iblk0 V c 3 t) (iblk0 V c 4 t) (sum0 V c t.val) := by
  rw [sum0, dif_pos t.isLt]

theorem sq0_succ (c : Dev nD) (t : Fin cfg0.N) :
    sq0 V c (t.val + 1) = k0_pay1 (k0_pay6 (iblk0 V c 0 t) (iblk0 V c 1 t) (iblk0 V c 2 t) (iblk0 V c 3 t) (iblk0 V c 4 t)) (sq0 V c t.val) := by
  rw [sq0, dif_pos t.isLt]

/-! ## The invariant carried between points -/

/-- Before point `t`: the two scratch rows hold the sums over the first `t` tiles (before the first point,
    anything: the body zeroes them there), beside every other scoped buffer and the generator register, untouched. -/
def Φ0 (c : Dev nD) (t : Fin (cfg0.N + 1)) : sProp 𝕄 :=
  iprop((∃ d, ⌜t.val ≠ 0 → d = sum0 V c t.val⌝ ∗ owns (c : Thread nD τ) (Memref.whole cc0_scratch0) fullShare d)
    ∗ (∃ d, ⌜t.val ≠ 0 → d = sq0 V c t.val⌝ ∗ owns (c : Thread nD τ) (Memref.whole cc0_scratch1) fullShare d)
    ∗ Pipeline.scopedRestBut (Ix := Unit) (Name := ℕ) (U := UR sig nD τ) (Lvl := ℕ) (Val := Elt F) spec0 c [cc0_scratch0, cc0_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (sum0 V c (t.val + 1))
    | ⟨6, _⟩ => k0_pay3 (sum0 V c (t.val + 1)) (sq0 V c (t.val + 1))
  Φ t := Φ0 V c t
  q _ := fullShare
  owed _ := 0

theorem A_eq0 (c : Dev nD) (w : Fin cfg0.W) : (dat0 V c).A w = V c (Pipeline.arrRef spec0 w) := by
  dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (sum0 V c (t.val + 1)) := by dsimp only [dat0]
theorem after0_6 (c : Dev nD) (t : Fin cfg0.N) : (dat0 V c).after 6 t = k0_pay3 (sum0 V c (t.val + 1)) (sq0 V c (t.val + 1)) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Φ_eq0 (c : Dev nD) (t : Fin (cfg0.N + 1)) : (dat0 V c).Φ t = Φ0 V c t := by dsimp only [dat0]

/-- Entering the region: the two scratch rows are carved out of the scoped rest, at whatever they hold. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [Φ_eq0, scopedRest0_split]; unfold Φ0
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout0 (c : Dev nD) : (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  rw [Φ_eq0, scopedRest0_split]; unfold Φ0
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond0_1 (i : grid0.Coords) : Prop := (Scalar.cmpi .ne (Scalar.extui (Scalar.cmpi .eq (BitVec.ofNat 32 (i 0).val) 0#32)) 0#32) = 1#1

/-- It holds at the first point only — decided over the grid. -/
theorem hcond0_1 : ∀ t : Fin cfg0.N, cond0_1 (grid0.coords t) ↔ t.val = 0 :=
  (by decide +kernel : ∀ t : Fin grid0.N, cond0_1 (grid0.coords t) ↔ t.val = 0)
/-- The second condition (forming the mean and the variance) holds at the last point only. -/
theorem hcond0_2 : ∀ t : Fin cfg0.N, k0_cond2 (grid0.coords t) = 1#1 ↔ t.val = 24 :=
  (by decide +kernel : ∀ t : Fin grid0.N, k0_cond2 (grid0.coords t) = 1#1 ↔ t.val = 24)
/-- The two output windows are idle (the body stores nothing into them) except at the last point. -/
theorem hidle0_5 : ∀ t : Fin cfg0.N, cfg0.idle 5 (cfg0.grid.coords t) = true ↔ t.val ≠ 24 :=
  (by decide +kernel : ∀ t : Fin grid0.N, idle0 5 (grid0.coords t) = true ↔ t.val ≠ 24)
theorem hidle0_6 : ∀ t : Fin cfg0.N, cfg0.idle 6 (cfg0.grid.coords t) = true ↔ t.val ≠ 24 :=
  (by decide +kernel : ∀ t : Fin grid0.N, idle0 6 (grid0.coords t) = true ↔ t.val ≠ 24)

theorem hflush0_5 (t : Fin cfg0.N) (h : t.val ≠ 24) : (cfg0.win 5).flush t = false :=
  Bool.eq_false_iff.mpr fun hf => by
    have h1 := (flush0_5 t).mp hf
    have hN : t.val < 25 := lt_of_lt_of_eq t.isLt (show cfg0.N = 25 from N_0)
    omega
theorem hflush0_6 (t : Fin cfg0.N) (h : t.val ≠ 24) : (cfg0.win 6).flush t = false :=
  Bool.eq_false_iff.mpr fun hf => by
    have h1 := (flush0_6 t).mp hf
    have hN : t.val < 25 := lt_of_lt_of_eq t.isLt (show cfg0.N = 25 from N_0)
    omega

/-! ## The body's triple, one per control case -/

set_option maxHeartbeats 2000000 in
/-- A middle point (neither condition holds): the two rows, at `s` and `q`, are updated by the tile; nothing else is stored. -/
theorem sound_kernel0_mid (c : Dev nD) (E : Set ℕ) (i : grid0.Coords) (hc1 : ¬ cond0_1 i) (hc2 : ¬ k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay7 x0 x1 x2 x3 x4 s)
            ∗ owns (c : Thread nD τ) arg9 fullShare (k0_pay1 (k0_pay6 x0 x1 x2 x3 x4) q)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel0_first (c : Dev nD) (E : Set ℕ) (i : grid0.Coords) (hc1 : cond0_1 i) (hc2 : ¬ k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay7 x0 x1 x2 x3 x4 k0_pay4)
            ∗ owns (c : Thread nD τ) arg9 fullShare (k0_pay1 (k0_pay6 x0 x1 x2 x3 x4) k0_pay5)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel0_last (c : Dev nD) (E : Set ℕ) (i : grid0.Coords) (hc1 : ¬ cond0_1 i) (hc2 : k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 (k0_pay7 x0 x1 x2 x3 x4 s))
            ∗ owns (c : Thread nD τ) arg7 fullShare (k0_pay3 (k0_pay7 x0 x1 x2 x3 x4 s) (k0_pay1 (k0_pay6 x0 x1 x2 x3 x4) q))
            ∗ owns (c : Thread nD τ) arg8 fullShare (k0_pay7 x0 x1 x2 x3 x4 s)
            ∗ owns (c : Thread nD τ) arg9 fullShare (k0_pay1 (k0_pay6 x0 x1 x2 x3 x4) q)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the two outputs' buffers as found wherever the point is idle for them. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [Φ_eq0, Φ_eq0, show (dat0 V c).owesAt () t.succ = (dat0 V c).owesAt () t.castSucc from rfl,
    after0_0, after0_1, after0_2, after0_3, after0_4]
  have hN : t.val < 25 := lt_of_lt_of_eq t.isLt (show cfg0.N = 25 from N_0)
  have hsum : sum0 V c t.succ.val = k0_pay7 (iblk0 V c 0 t) (iblk0 V c 1 t) (iblk0 V c 2 t) (iblk0 V c 3 t) (iblk0 V c 4 t) (sum0 V c t.val) := by
    rw [Fin.val_succ]; exact sum0_succ V c t
  have hsq : sq0 V c t.succ.val = k0_pay1 (k0_pay6 (iblk0 V c 0 t) (iblk0 V c 1 t) (iblk0 V c 2 t) (iblk0 V c 3 t) (iblk0 V c 4 t)) (sq0 V c t.val) := by
    rw [Fin.val_succ]; exact sq0_succ V c t
  unfold Φ0
  by_cases hlast : t.val = 24
  · -- the last point: the rows are updated, then the mean and the variance are stored
    have h0 : t.val ≠ 0 := by omega
    rw [Cert.StatsLib.leavesExact_live _ 5 t (Bool.eq_false_iff.mpr fun h => (hidle0_5 t).mp h hlast),
      Cert.StatsLib.leavesExact_live _ 6 t (Bool.eq_false_iff.mpr fun h => (hidle0_6 t).mp h hlast),
      after0_5, after0_6, sum0_succ, sq0_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum0 V c t.val := hs h0
    have hq' : q = sq0 V c t.val := hq h0
    subst hs' hq'
    iapply (sound_kernel0_last c Set.univ (grid0.coords t) (fun h => h0 ((hcond0_1 t).mp h)) ((hcond0_2 t).mpr hlast)
      _ _ _ _ _ _ _ _ _ _ _ _ _ _ _ _ _ _ (iblk0 V c 0 t) (iblk0 V c 1 t) (iblk0 V c 2 t) (iblk0 V c 3 t) (iblk0 V c 4 t) (sum0 V c t.val) (sq0 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat0 V c).leavesExact_idle 5 t ((hidle0_5 t).mpr hlast) (hflush0_5 t hlast),
      (dat0 V c).leavesExact_idle 6 t ((hidle0_6 t).mpr hlast) (hflush0_6 t hlast)]
    by_cases h0 : t.val = 0
    · -- the first point: the rows are zeroed, then updated
      have e0 : sum0 V c t.val = k0_pay4 := by rw [h0]; rfl
      have e1 : sq0 V c t.val = k0_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel0_first c Set.univ (grid0.coords t) ((hcond0_1 t).mpr h0) (fun h => hlast ((hcond0_2 t).mp h))
        _ _ _ _ _ _ _ _ _ _ _ _ _ _ _ _ _ _ (iblk0 V c 0 t) (iblk0 V c 1 t) (iblk0 V c 2 t) (iblk0 V c 3 t) (iblk0 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum0 V c t.val := hs h0
      have hq' : q = sq0 V c t.val := hq h0
      subst hs' hq'
      iapply (sound_kernel0_mid c Set.univ (grid0.coords t) (fun h => h0 ((hcond0_1 t).mp h)) (fun h => hlast ((hcond0_2 t).mp h))
        _ _ _ _ _ _ _ _ _ _ _ _ _ _ _ _ _ _ (iblk0 V c 0 t) (iblk0 V c 1 t) (iblk0 V c 2 t) (iblk0 V c 3 t) (iblk0 V c 4 t) (sum0 V c t.val) (sq0 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of @main (custom_call 1): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: when the window is not fetched its block index
    has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: when the window is not fetched its block index
    has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: when the window is not fetched its block index
    has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: when the window is not fetched its block index
    has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: when the window is not fetched its block index
    has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: when the window is not fetched its block index
    has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: when the window is not fetched its block index
    has not moved, so the block kept from the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: when the window is not fetched its block index
    has not moved, so the block kept from the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: when the window is not fetched its block index
    has not moved, so the block kept from the point before is this point's. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out1_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r1_0, k1_pay1 (k1_pay2 (View.ld x0 r1_0) (View.ld x1 r1_1) (View.ld x2 r1_2) (View.ld x3 r1_1) (View.ld x4 r1_2)) (k1_pay3 (View.ld x6 r1_2)) (k1_pay4 (View.ld x7 r1_2)) (k1_pay5 (View.ld x8 r1_2)) (k1_pay6 (View.ld x5 r1_2))⟩]

/-- The one store is of the whole block, so it covers it. -/
theorem cover1_9 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 4000000 in
/-- The kernel body on whole staging memrefs, the inputs' at read contents `xW` and the output's at anything, runs to the
    continuation holding the inputs' as they were and the output's at `out1_9` of the inputs'. -/
theorem sound_kernel1 (c : Dev nD) (E : Set ℕ) (i : grid1.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__mlp_bn_kernel i arg1 harg1 arg2 harg2 arg3 harg3 arg4 harg4 arg5 harg5 arg6 harg6 arg7 harg7 arg8 harg8 arg9 harg9 arg10 harg10) K := by
  simp only [cc1__mlp_bn_kernel_eq_skeleton]; unfold cc1__mlp_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends: the generator register and the scoped rest go in, and come out -/

theorem hin1 (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

theorem hout1 (c : Dev nD) : (dat1 V c).Φ (Fin.last cfg1.N) ⊢ (iprop(Pipeline.scopedRest spec1 c ∗ ∃ r, prngReg c r) : sProp 𝕄) := by
  rw [show (dat1 V c).Φ (Fin.last _) = Pipeline.ΦA spec1 c from rfl]; unfold Pipeline.ΦA
  iintro ⟨Hr, Hp⟩
  isplitl [Hr]; · iexact Hr
  iexact Hp

end Cert.KernelIdeal.Hand

end
-- ==== Proof.KI.R2.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried rows -/

/-- The row of column sums after the first `n` tiles: the zero row, then tile by tile the body's update. -/
def sum2 (c : Dev nD) : ℕ → Vec F S1x128 .f32
  | 0 => k2_pay4
  | n + 1 =>
    if h : n < cfg2.N then
      k2_pay7 (iblk2 V c 0 ⟨n, h⟩) (iblk2 V c 1 ⟨n, h⟩) (iblk2 V c 2 ⟨n, h⟩) (iblk2 V c 3 ⟨n, h⟩) (iblk2 V c 4 ⟨n, h⟩) (sum2 c n)
    else sum2 c n

/-- The row of column sums of squares after the first `n` tiles. -/
def sq2 (c : Dev nD) : ℕ → Vec F S1x128 .f32
  | 0 => k2_pay5
  | n + 1 =>
    if h : n < cfg2.N then
      k2_pay1 (k2_pay6 (iblk2 V c 0 ⟨n, h⟩) (iblk2 V c 1 ⟨n, h⟩) (iblk2 V c 2 ⟨n, h⟩) (iblk2 V c 3 ⟨n, h⟩) (iblk2 V c 4 ⟨n, h⟩)) (sq2 c n)
    else sq2 c n

/-- One more tile: the body's update of the sums by the tile at `t`. -/
theorem sum2_succ (c : Dev nD) (t : Fin cfg2.N) :
    sum2 V c (t.val + 1) = k2_pay7 (iblk2 V c 0 t) (iblk2 V c 1 t) (iblk2 V c 2 t) (iblk2 V c 3 t) (iblk2 V c 4 t) (sum2 V c t.val) := by
  rw [sum2, dif_pos t.isLt]

theorem sq2_succ (c : Dev nD) (t : Fin cfg2.N) :
    sq2 V c (t.val + 1) = k2_pay1 (k2_pay6 (iblk2 V c 0 t) (iblk2 V c 1 t) (iblk2 V c 2 t) (iblk2 V c 3 t) (iblk2 V c 4 t)) (sq2 V c t.val) := by
  rw [sq2, dif_pos t.isLt]

/-! ## The invariant carried between points -/

/-- Before point `t`: the two scratch rows hold the sums over the first `t` tiles (before the first point,
    anything: the body zeroes them there), beside every other scoped buffer and the generator register, untouched. -/
def Φ2 (c : Dev nD) (t : Fin (cfg2.N + 1)) : sProp 𝕄 :=
  iprop((∃ d, ⌜t.val ≠ 0 → d = sum2 V c t.val⌝ ∗ owns (c : Thread nD τ) (Memref.whole cc2_scratch0) fullShare d)
    ∗ (∃ d, ⌜t.val ≠ 0 → d = sq2 V c t.val⌝ ∗ owns (c : Thread nD τ) (Memref.whole cc2_scratch1) fullShare d)
    ∗ Pipeline.scopedRestBut (Ix := Unit) (Name := ℕ) (U := UR sig nD τ) (Lvl := ℕ) (Val := Elt F) spec2 c [cc2_scratch0, cc2_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (sum2 V c (t.val + 1))
    | ⟨6, _⟩ => k2_pay3 (sum2 V c (t.val + 1)) (sq2 V c (t.val + 1))
  Φ t := Φ2 V c t
  q _ := fullShare
  owed _ := 0

theorem A_eq2 (c : Dev nD) (w : Fin cfg2.W) : (dat2 V c).A w = V c (Pipeline.arrRef spec2 w) := by
  dsimp only [dat2]

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (sum2 V c (t.val + 1)) := by dsimp only [dat2]
theorem after2_6 (c : Dev nD) (t : Fin cfg2.N) : (dat2 V c).after 6 t = k2_pay3 (sum2 V c (t.val + 1)) (sq2 V c (t.val + 1)) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem Φ_eq2 (c : Dev nD) (t : Fin (cfg2.N + 1)) : (dat2 V c).Φ t = Φ2 V c t := by dsimp only [dat2]

/-- Entering the region: the two scratch rows are carved out of the scoped rest, at whatever they hold. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [Φ_eq2, scopedRest2_split]; unfold Φ2
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout2 (c : Dev nD) : (dat2 V c).Φ (Fin.last cfg2.N) ⊢ (iprop(Pipeline.scopedRest (Ix := Unit) (Name := ℕ) (U := UR sig nD τ) (Lvl := ℕ) (Val := Elt F) spec2 c ∗ ∃ r, prngReg c r) : sProp 𝕄) := by
  rw [Φ_eq2, scopedRest2_split]; unfold Φ2
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond2_1 (i : grid2.Coords) : Prop := (Scalar.cmpi .ne (Scalar.extui (Scalar.cmpi .eq (BitVec.ofNat 32 (i 0).val) 0#32)) 0#32) = 1#1

/-- It holds at the first point only — decided over the grid. -/
theorem hcond2_1 : ∀ t : Fin cfg2.N, cond2_1 (grid2.coords t) ↔ t.val = 0 :=
  (by decide +kernel : ∀ t : Fin grid2.N, cond2_1 (grid2.coords t) ↔ t.val = 0)
/-- The second condition (forming the mean and the variance) holds at the last point only. -/
theorem hcond2_2 : ∀ t : Fin cfg2.N, k2_cond2 (grid2.coords t) = 1#1 ↔ t.val = 24 :=
  (by decide +kernel : ∀ t : Fin grid2.N, k2_cond2 (grid2.coords t) = 1#1 ↔ t.val = 24)
/-- The two output windows are idle (the body stores nothing into them) except at the last point. -/
theorem hidle2_5 : ∀ t : Fin cfg2.N, cfg2.idle 5 (cfg2.grid.coords t) = true ↔ t.val ≠ 24 :=
  (by decide +kernel : ∀ t : Fin grid2.N, idle2 5 (grid2.coords t) = true ↔ t.val ≠ 24)
theorem hidle2_6 : ∀ t : Fin cfg2.N, cfg2.idle 6 (cfg2.grid.coords t) = true ↔ t.val ≠ 24 :=
  (by decide +kernel : ∀ t : Fin grid2.N, idle2 6 (grid2.coords t) = true ↔ t.val ≠ 24)

theorem hflush2_5 (t : Fin cfg2.N) (h : t.val ≠ 24) : (cfg2.win 5).flush t = false :=
  Bool.eq_false_iff.mpr fun hf => by
    have h1 := (flush2_5 t).mp hf
    have hN : t.val < 25 := lt_of_lt_of_eq t.isLt (show cfg2.N = 25 from N_2)
    omega
theorem hflush2_6 (t : Fin cfg2.N) (h : t.val ≠ 24) : (cfg2.win 6).flush t = false :=
  Bool.eq_false_iff.mpr fun hf => by
    have h1 := (flush2_6 t).mp hf
    have hN : t.val < 25 := lt_of_lt_of_eq t.isLt (show cfg2.N = 25 from N_2)
    omega

/-! ## The body's triple, one per control case -/

set_option maxHeartbeats 2000000 in
/-- A middle point (neither condition holds): the two rows, at `s` and `q`, are updated by the tile; nothing else is stored. -/
theorem sound_kernel2_mid (c : Dev nD) (E : Set ℕ) (i : grid2.Coords) (hc1 : ¬ cond2_1 i) (hc2 : ¬ k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay7 x0 x1 x2 x3 x4 s)
            ∗ owns (c : Thread nD τ) arg9 fullShare (k2_pay1 (k2_pay6 x0 x1 x2 x3 x4) q)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel2_first (c : Dev nD) (E : Set ℕ) (i : grid2.Coords) (hc1 : cond2_1 i) (hc2 : ¬ k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay7 x0 x1 x2 x3 x4 k2_pay4)
            ∗ owns (c : Thread nD τ) arg9 fullShare (k2_pay1 (k2_pay6 x0 x1 x2 x3 x4) k2_pay5)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel2_last (c : Dev nD) (E : Set ℕ) (i : grid2.Coords) (hc1 : ¬ cond2_1 i) (hc2 : k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay2 (k2_pay7 x0 x1 x2 x3 x4 s))
            ∗ owns (c : Thread nD τ) arg7 fullShare (k2_pay3 (k2_pay7 x0 x1 x2 x3 x4 s) (k2_pay1 (k2_pay6 x0 x1 x2 x3 x4) q))
            ∗ owns (c : Thread nD τ) arg8 fullShare (k2_pay7 x0 x1 x2 x3 x4 s)
            ∗ owns (c : Thread nD τ) arg9 fullShare (k2_pay1 (k2_pay6 x0 x1 x2 x3 x4) q)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the two outputs' buffers as found wherever the point is idle for them. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t
    ∗ (dat2 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [Φ_eq2, Φ_eq2, show (dat2 V c).owesAt () t.succ = (dat2 V c).owesAt () t.castSucc from rfl,
    after2_0, after2_1, after2_2, after2_3, after2_4]
  have hN : t.val < 25 := lt_of_lt_of_eq t.isLt (show cfg2.N = 25 from N_2)
  have hsum : sum2 V c t.succ.val = k2_pay7 (iblk2 V c 0 t) (iblk2 V c 1 t) (iblk2 V c 2 t) (iblk2 V c 3 t) (iblk2 V c 4 t) (sum2 V c t.val) := by
    rw [Fin.val_succ]; exact sum2_succ V c t
  have hsq : sq2 V c t.succ.val = k2_pay1 (k2_pay6 (iblk2 V c 0 t) (iblk2 V c 1 t) (iblk2 V c 2 t) (iblk2 V c 3 t) (iblk2 V c 4 t)) (sq2 V c t.val) := by
    rw [Fin.val_succ]; exact sq2_succ V c t
  unfold Φ2
  by_cases hlast : t.val = 24
  · -- the last point: the rows are updated, then the mean and the variance are stored
    have h0 : t.val ≠ 0 := by omega
    rw [Cert.StatsLib.leavesExact_live _ 5 t (Bool.eq_false_iff.mpr fun h => (hidle2_5 t).mp h hlast),
      Cert.StatsLib.leavesExact_live _ 6 t (Bool.eq_false_iff.mpr fun h => (hidle2_6 t).mp h hlast),
      after2_5, after2_6, sum2_succ, sq2_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum2 V c t.val := hs h0
    have hq' : q = sq2 V c t.val := hq h0
    subst hs' hq'
    iapply (sound_kernel2_last c Set.univ (grid2.coords t) (fun h => h0 ((hcond2_1 t).mp h)) ((hcond2_2 t).mpr hlast)
      _ _ _ _ _ _ _ _ _ _ _ _ _ _ _ _ _ _ (iblk2 V c 0 t) (iblk2 V c 1 t) (iblk2 V c 2 t) (iblk2 V c 3 t) (iblk2 V c 4 t) (sum2 V c t.val) (sq2 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat2 V c).leavesExact_idle 5 t ((hidle2_5 t).mpr hlast) (hflush2_5 t hlast),
      (dat2 V c).leavesExact_idle 6 t ((hidle2_6 t).mpr hlast) (hflush2_6 t hlast)]
    by_cases h0 : t.val = 0
    · -- the first point: the rows are zeroed, then updated
      have e0 : sum2 V c t.val = k2_pay4 := by rw [h0]; rfl
      have e1 : sq2 V c t.val = k2_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel2_first c Set.univ (grid2.coords t) ((hcond2_1 t).mpr h0) (fun h => hlast ((hcond2_2 t).mp h))
        _ _ _ _ _ _ _ _ _ _ _ _ _ _ _ _ _ _ (iblk2 V c 0 t) (iblk2 V c 1 t) (iblk2 V c 2 t) (iblk2 V c 3 t) (iblk2 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum2 V c t.val := hs h0
      have hq' : q = sq2 V c t.val := hq h0
      subst hs' hq'
      iapply (sound_kernel2_mid c Set.univ (grid2.coords t) (fun h => h0 ((hcond2_1 t).mp h)) (fun h => hlast ((hcond2_2 t).mp h))
        _ _ _ _ _ _ _ _ _ _ _ _ _ _ _ _ _ _ (iblk2 V c 0 t) (iblk2 V c 1 t) (iblk2 V c 2 t) (iblk2 V c 3 t) (iblk2 V c 4 t) (sum2 V c t.val) (sq2 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of @main (custom_call 3): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: when the window is not fetched its block index
    has not moved, so the block kept from the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: when the window is not fetched its block index
    has not moved, so the block kept from the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: when the window is not fetched its block index
    has not moved, so the block kept from the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: when the window is not fetched its block index
    has not moved, so the block kept from the point before is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: when the window is not fetched its block index
    has not moved, so the block kept from the point before is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: when the window is not fetched its block index
    has not moved, so the block kept from the point before is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: when the window is not fetched its block index
    has not moved, so the block kept from the point before is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: when the window is not fetched its block index
    has not moved, so the block kept from the point before is this point's. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: when the window is not fetched its block index
    has not moved, so the block kept from the point before is this point's. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer through its whole rectangle -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out3_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r3_0, k3_pay1 (k3_pay2 (View.ld x0 r3_0) (View.ld x1 r3_1) (View.ld x2 r3_2) (View.ld x3 r3_1) (View.ld x4 r3_2)) (k3_pay3 (View.ld x6 r3_2)) (k3_pay4 (View.ld x7 r3_2)) (k3_pay5 (View.ld x8 r3_2)) (k3_pay6 (View.ld x5 r3_2))⟩]

/-- The one store is of the whole block, so it covers it. -/
theorem cover3_9 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 4000000 in
/-- The kernel body on whole staging memrefs, the inputs' at read contents `xW` and the output's at anything, runs to the
    continuation holding the inputs' as they were and the output's at `out3_9` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__mlp_bn_kernel i arg1 harg1 arg2 harg2 arg3 harg3 arg4 harg4 arg5 harg5 arg6 harg6 arg7 harg7 arg8 harg8 arg9 harg9 arg10 harg10) K := by
  simp only [cc3__mlp_bn_kernel_eq_skeleton]; unfold cc3__mlp_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of pipeline 3 on core `c`: the arrays as the region finds them (`V`); after the body at point `t`
    each input's buffer at its block and the output's at `out3_9` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the two ends: the generator register and the scoped rest go in, and come out -/

theorem hin3 (c : Dev nD) : (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) : (dat3 V c).Φ (Fin.last cfg3.N) ⊢ (iprop(Pipeline.scopedRest spec3 c ∗ ∃ r, prngReg c r) : sProp 𝕄) := by
  rw [show (dat3 V c).Φ (Fin.last _) = Pipeline.ΦA spec3 c from rfl]; unfold Pipeline.ΦA
  iintro ⟨Hr, Hp⟩
  isplitl [Hr]; · iexact Hr
  iexact Hp

end Cert.KernelIdeal.Hand

end
-- ==== Proof.KI.R4.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two carried rows -/

/-- The row of column sums after the first `n` tiles: the zero row, then tile by tile the body's update. -/
def sum4 (c : Dev nD) : ℕ → Vec F S1x128 .f32
  | 0 => k4_pay4
  | n + 1 =>
    if h : n < cfg4.N then
      k4_pay7 (iblk4 V c 0 ⟨n, h⟩) (iblk4 V c 1 ⟨n, h⟩) (iblk4 V c 2 ⟨n, h⟩) (iblk4 V c 3 ⟨n, h⟩) (iblk4 V c 4 ⟨n, h⟩) (sum4 c n)
    else sum4 c n

/-- The row of column sums of squares after the first `n` tiles. -/
def sq4 (c : Dev nD) : ℕ → Vec F S1x128 .f32
  | 0 => k4_pay5
  | n + 1 =>
    if h : n < cfg4.N then
      k4_pay1 (k4_pay6 (iblk4 V c 0 ⟨n, h⟩) (iblk4 V c 1 ⟨n, h⟩) (iblk4 V c 2 ⟨n, h⟩) (iblk4 V c 3 ⟨n, h⟩) (iblk4 V c 4 ⟨n, h⟩)) (sq4 c n)
    else sq4 c n

/-- One more tile: the body's update of the sums by the tile at `t`. -/
theorem sum4_succ (c : Dev nD) (t : Fin cfg4.N) :
    sum4 V c (t.val + 1) = k4_pay7 (iblk4 V c 0 t) (iblk4 V c 1 t) (iblk4 V c 2 t) (iblk4 V c 3 t) (iblk4 V c 4 t) (sum4 V c t.val) := by
  rw [sum4, dif_pos t.isLt]

theorem sq4_succ (c : Dev nD) (t : Fin cfg4.N) :
    sq4 V c (t.val + 1) = k4_pay1 (k4_pay6 (iblk4 V c 0 t) (iblk4 V c 1 t) (iblk4 V c 2 t) (iblk4 V c 3 t) (iblk4 V c 4 t)) (sq4 V c t.val) := by
  rw [sq4, dif_pos t.isLt]

/-! ## The invariant carried between points -/

/-- Before point `t`: the two scratch rows hold the sums over the first `t` tiles (before the first point,
    anything: the body zeroes them there), beside every other scoped buffer and the generator register, untouched. -/
def Φ4 (c : Dev nD) (t : Fin (cfg4.N + 1)) : sProp 𝕄 :=
  iprop((∃ d, ⌜t.val ≠ 0 → d = sum4 V c t.val⌝ ∗ owns (c : Thread nD τ) (Memref.whole cc4_scratch0) fullShare d)
    ∗ (∃ d, ⌜t.val ≠ 0 → d = sq4 V c t.val⌝ ∗ owns (c : Thread nD τ) (Memref.whole cc4_scratch1) fullShare d)
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay2 (sum4 V c (t.val + 1))
    | ⟨6, _⟩ => k4_pay3 (sum4 V c (t.val + 1)) (sq4 V c (t.val + 1))
  Φ t := Φ4 V c t
  q _ := fullShare
  owed _ := 0

theorem A_eq4 (c : Dev nD) (w : Fin cfg4.W) : (dat4 V c).A w = V c (Pipeline.arrRef spec4 w) := by
  dsimp only [dat4]

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = k4_pay2 (sum4 V c (t.val + 1)) := by dsimp only [dat4]
theorem after4_6 (c : Dev nD) (t : Fin cfg4.N) : (dat4 V c).after 6 t = k4_pay3 (sum4 V c (t.val + 1)) (sq4 V c (t.val + 1)) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem Φ_eq4 (c : Dev nD) (t : Fin (cfg4.N + 1)) : (dat4 V c).Φ t = Φ4 V c t := by dsimp only [dat4]

/-- Entering the region: the two scratch rows are carved out of the scoped rest, at whatever they hold. -/
theorem hin4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 := by
  rw [Φ_eq4, scopedRest4_split]; unfold Φ4
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout4 (c : Dev nD) : (dat4 V c).Φ (Fin.last cfg4.N) ⊢ (iprop(Pipeline.scopedRest (Ix := Unit) (Name := ℕ) (U := UR sig nD τ) (Lvl := ℕ) (Val := Elt F) spec4 c ∗ ∃ r, prngReg c r) : sProp 𝕄) := by
  rw [Φ_eq4, scopedRest4_split]; unfold Φ4
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond4_1 (i : grid4.Coords) : Prop := (Scalar.cmpi .ne (Scalar.extui (Scalar.cmpi .eq (BitVec.ofNat 32 (i 0).val) 0#32)) 0#32) = 1#1

/-- It holds at the first point only — decided over the grid. -/
theorem hcond4_1 : ∀ t : Fin cfg4.N, cond4_1 (grid4.coords t) ↔ t.val = 0 :=
  (by decide +kernel : ∀ t : Fin grid4.N, cond4_1 (grid4.coords t) ↔ t.val = 0)
/-- The second condition (forming the mean and the variance) holds at the last point only. -/
theorem hcond4_2 : ∀ t : Fin cfg4.N, k4_cond2 (grid4.coords t) = 1#1 ↔ t.val = 24 :=
  (by decide +kernel : ∀ t : Fin grid4.N, k4_cond2 (grid4.coords t) = 1#1 ↔ t.val = 24)
/-- The two output windows are idle (the body stores nothing into them) except at the last point. -/
theorem hidle4_5 : ∀ t : Fin cfg4.N, cfg4.idle 5 (cfg4.grid.coords t) = true ↔ t.val ≠ 24 :=
  (by decide +kernel : ∀ t : Fin grid4.N, idle4 5 (grid4.coords t) = true ↔ t.val ≠ 24)
theorem hidle4_6 : ∀ t : Fin cfg4.N, cfg4.idle 6 (cfg4.grid.coords t) = true ↔ t.val ≠ 24 :=
  (by decide +kernel : ∀ t : Fin grid4.N, idle4 6 (grid4.coords t) = true ↔ t.val ≠ 24)

theorem hflush4_5 (t : Fin cfg4.N) (h : t.val ≠ 24) : (cfg4.win 5).flush t = false :=
  Bool.eq_false_iff.mpr fun hf => by
    have h1 := (flush4_5 t).mp hf
    have hN : t.val < 25 := lt_of_lt_of_eq t.isLt (show cfg4.N = 25 from N_4)
    omega
theorem hflush4_6 (t : Fin cfg4.N) (h : t.val ≠ 24) : (cfg4.win 6).flush t = false :=
  Bool.eq_false_iff.mpr fun hf => by
    have h1 := (flush4_6 t).mp hf
    have hN : t.val < 25 := lt_of_lt_of_eq t.isLt (show cfg4.N = 25 from N_4)
    omega

/-! ## The body's triple, one per control case -/

set_option maxHeartbeats 2000000 in
/-- A middle point (neither condition holds): the two rows, at `s` and `q`, are updated by the tile; nothing else is stored. -/
theorem sound_kernel4_mid (c : Dev nD) (E : Set ℕ) (i : grid4.Coords) (hc1 : ¬ cond4_1 i) (hc2 : ¬ k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k4_pay7 x0 x1 x2 x3 x4 s)
            ∗ owns (c : Thread nD τ) arg9 fullShare (k4_pay1 (k4_pay6 x0 x1 x2 x3 x4) q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel4_first (c : Dev nD) (E : Set ℕ) (i : grid4.Coords) (hc1 : cond4_1 i) (hc2 : ¬ k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k4_pay7 x0 x1 x2 x3 x4 k4_pay4)
            ∗ owns (c : Thread nD τ) arg9 fullShare (k4_pay1 (k4_pay6 x0 x1 x2 x3 x4) k4_pay5)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel4_last (c : Dev nD) (E : Set ℕ) (i : grid4.Coords) (hc1 : ¬ cond4_1 i) (hc2 : k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k4_pay2 (k4_pay7 x0 x1 x2 x3 x4 s))
            ∗ owns (c : Thread nD τ) arg7 fullShare (k4_pay3 (k4_pay7 x0 x1 x2 x3 x4 s) (k4_pay1 (k4_pay6 x0 x1 x2 x3 x4) q))
            ∗ owns (c : Thread nD τ) arg8 fullShare (k4_pay7 x0 x1 x2 x3 x4 s)
            ∗ owns (c : Thread nD τ) arg9 fullShare (k4_pay1 (k4_pay6 x0 x1 x2 x3 x4) q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns: the two outputs' buffers as found wherever the point is idle for them. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ (dat4 V c).leavesExact 5 t
    ∗ (dat4 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [Φ_eq4, Φ_eq4, show (dat4 V c).owesAt () t.succ = (dat4 V c).owesAt () t.castSucc from rfl,
    after4_0, after4_1, after4_2, after4_3, after4_4]
  have hN : t.val < 25 := lt_of_lt_of_eq t.isLt (show cfg4.N = 25 from N_4)
  have hsum : sum4 V c t.succ.val = k4_pay7 (iblk4 V c 0 t) (iblk4 V c 1 t) (iblk4 V c 2 t) (iblk4 V c 3 t) (iblk4 V c 4 t) (sum4 V c t.val) := by
    rw [Fin.val_succ]; exact sum4_succ V c t
  have hsq : sq4 V c t.succ.val = k4_pay1 (k4_pay6 (iblk4 V c 0 t) (iblk4 V c 1 t) (iblk4 V c 2 t) (iblk4 V c 3 t) (iblk4 V c 4 t)) (sq4 V c t.val) := by
    rw [Fin.val_succ]; exact sq4_succ V c t
  unfold Φ4
  by_cases hlast : t.val = 24
  · -- the last point: the rows are updated, then the mean and the variance are stored
    have h0 : t.val ≠ 0 := by omega
    rw [Cert.StatsLib.leavesExact_live _ 5 t (Bool.eq_false_iff.mpr fun h => (hidle4_5 t).mp h hlast),
      Cert.StatsLib.leavesExact_live _ 6 t (Bool.eq_false_iff.mpr fun h => (hidle4_6 t).mp h hlast),
      after4_5, after4_6, sum4_succ, sq4_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum4 V c t.val := hs h0
    have hq' : q = sq4 V c t.val := hq h0
    subst hs' hq'
    iapply (sound_kernel4_last c Set.univ (grid4.coords t) (fun h => h0 ((hcond4_1 t).mp h)) ((hcond4_2 t).mpr hlast)
      _ _ _ _ _ _ _ _ _ _ _ _ _ _ _ _ _ _ (iblk4 V c 0 t) (iblk4 V c 1 t) (iblk4 V c 2 t) (iblk4 V c 3 t) (iblk4 V c 4 t) (sum4 V c t.val) (sq4 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat4 V c).leavesExact_idle 5 t ((hidle4_5 t).mpr hlast) (hflush4_5 t hlast),
      (dat4 V c).leavesExact_idle 6 t ((hidle4_6 t).mpr hlast) (hflush4_6 t hlast)]
    by_cases h0 : t.val = 0
    · -- the first point: the rows are zeroed, then updated
      have e0 : sum4 V c t.val = k4_pay4 := by rw [h0]; rfl
      have e1 : sq4 V c t.val = k4_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel4_first c Set.univ (grid4.coords t) ((hcond4_1 t).mpr h0) (fun h => hlast ((hcond4_2 t).mp h))
        _ _ _ _ _ _ _ _ _ _ _ _ _ _ _ _ _ _ (iblk4 V c 0 t) (iblk4 V c 1 t) (iblk4 V c 2 t) (iblk4 V c 3 t) (iblk4 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum4 V c t.val := hs h0
      have hq' : q = sq4 V c t.val := hq h0
      subst hs' hq'
      iapply (sound_kernel4_mid c Set.univ (grid4.coords t) (fun h => h0 ((hcond4_1 t).mp h)) (fun h => hlast ((hcond4_2 t).mp h))
        _ _ _ _ _ _ _ _ _ _ _ _ _ _ _ _ _ _ (iblk4 V c 0 t) (iblk4 V c 1 t) (iblk4 V c 2 t) (iblk4 V c 3 t) (iblk4 V c 4 t) (sum4 V c t.val) (sq4 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5 of @main (custom_call 5): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: when the window is not fetched its block index
    has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: when the window is not fetched its block index
    has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: when the window is not fetched its block index
    has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: when the window is not fetched its block index
    has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: when the window is not fetched its block index
    has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: when the window is not fetched its block index
    has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: when the window is not fetched its block index
    has not moved, so the block kept from the point before is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof
    data whose array is `V`'s and whose body leaves the block in place: when the window is not fetched its block index
    has not moved, so the block kept from the point before is this point's. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof
    data whose array is `V`'s and whose body leaves the block in place: when the window is not fetched its block index
    has not moved, so the block kept from the point before is this point's. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer through its whole rectangle -/

abbrev r5_0 : Rect S2000x128 := Rect.unit (s := S2000x128) ![0, 0] S2000x128.size inb_S2000x128_S2000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out5_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r5_0, k5_pay1 (k5_pay2 (View.ld x0 r5_0) (View.ld x1 r5_1) (View.ld x2 r5_2) (View.ld x3 r5_1) (View.ld x4 r5_2)) (k5_pay3 (View.ld x6 r5_2)) (k5_pay4 (View.ld x7 r5_2)) (k5_pay5 (View.ld x8 r5_2)) (k5_pay6 (View.ld x5 r5_2))⟩]

/-- The one store is of the whole block, so it covers it. -/
theorem cover5_9 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 4000000 in
/-- The kernel body on whole staging memrefs, the inputs' at read contents `xW` and the output's at anything, runs to the
    continuation holding the inputs' as they were and the output's at `out5_9` of the inputs'. -/
theorem sound_kernel5 (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__mlp_bn_kernel i arg1 harg1 arg2 harg2 arg3 harg3 arg4 harg4 arg5 harg5 arg6 harg6 arg7 harg7 arg8 harg8 arg9 harg9 arg10 harg10) K := by
  simp only [cc5__mlp_bn_kernel_eq_skeleton]; unfold cc5__mlp_bn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them (`V`); after the body at point `t`
    each input's buffer at its block and the output's at `out5_9` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends: the generator register and the scoped rest go in, and come out -/

theorem hin5 (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 (c : Dev nD) : (dat5 V c).Φ (Fin.last cfg5.N) ⊢ (iprop(Pipeline.scopedRest spec5 c ∗ ∃ r, prngReg c r) : sProp 𝕄) := by
  rw [show (dat5 V c).Φ (Fin.last _) = Pipeline.ΦA spec5 c from rfl]; unfold Pipeline.ΦA
  iintro ⟨Hr, Hp⟩
  isplitl [Hr]; · iexact Hr
  iexact Hp

end Cert.KernelIdeal.Hand

end
-- ==== Proof.KI.R6.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The two carried rows -/

/-- The row of column sums after the first `n` tiles: the zero row, then tile by tile the body's update. -/
def sum6 (c : Dev nD) : ℕ → Vec F S1x128 .f32
  | 0 => k6_pay4
  | n + 1 =>
    if h : n < cfg6.N then
      k6_pay7 (iblk6 V c 0 ⟨n, h⟩) (iblk6 V c 1 ⟨n, h⟩) (iblk6 V c 2 ⟨n, h⟩) (iblk6 V c 3 ⟨n, h⟩) (iblk6 V c 4 ⟨n, h⟩) (sum6 c n)
    else sum6 c n

/-- The row of column sums of squares after the first `n` tiles. -/
def sq6 (c : Dev nD) : ℕ → Vec F S1x128 .f32
  | 0 => k6_pay5
  | n + 1 =>
    if h : n < cfg6.N then
      k6_pay1 (k6_pay6 (iblk6 V c 0 ⟨n, h⟩) (iblk6 V c 1 ⟨n, h⟩) (iblk6 V c 2 ⟨n, h⟩) (iblk6 V c 3 ⟨n, h⟩) (iblk6 V c 4 ⟨n, h⟩)) (sq6 c n)
    else sq6 c n

/-- One more tile: the body's update of the sums by the tile at `t`. -/
theorem sum6_succ (c : Dev nD) (t : Fin cfg6.N) :
    sum6 V c (t.val + 1) = k6_pay7 (iblk6 V c 0 t) (iblk6 V c 1 t) (iblk6 V c 2 t) (iblk6 V c 3 t) (iblk6 V c 4 t) (sum6 V c t.val) := by
  rw [sum6, dif_pos t.isLt]

theorem sq6_succ (c : Dev nD) (t : Fin cfg6.N) :
    sq6 V c (t.val + 1) = k6_pay1 (k6_pay6 (iblk6 V c 0 t) (iblk6 V c 1 t) (iblk6 V c 2 t) (iblk6 V c 3 t) (iblk6 V c 4 t)) (sq6 V c t.val) := by
  rw [sq6, dif_pos t.isLt]

/-! ## The invariant carried between points -/

/-- Before point `t`: the two scratch rows hold the sums over the first `t` tiles (before the first point,
    anything: the body zeroes them there), beside every other scoped buffer and the generator register, untouched. -/
def Φ6 (c : Dev nD) (t : Fin (cfg6.N + 1)) : sProp 𝕄 :=
  iprop((∃ d, ⌜t.val ≠ 0 → d = sum6 V c t.val⌝ ∗ owns (c : Thread nD τ) (Memref.whole cc6_scratch0) fullShare d)
    ∗ (∃ d, ⌜t.val ≠ 0 → d = sq6 V c t.val⌝ ∗ owns (c : Thread nD τ) (Memref.whole cc6_scratch1) fullShare d)
    ∗ Pipeline.scopedRestBut (Ix := Unit) (Name := ℕ) (U := UR sig nD τ) (Lvl := ℕ) (Val := Elt F) spec6 c [cc6_scratch0, cc6_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay2 (sum6 V c (t.val + 1))
    | ⟨6, _⟩ => k6_pay3 (sum6 V c (t.val + 1)) (sq6 V c (t.val + 1))
  Φ t := Φ6 V c t
  q _ := fullShare
  owed _ := 0

theorem A_eq6 (c : Dev nD) (w : Fin cfg6.W) : (dat6 V c).A w = V c (Pipeline.arrRef spec6 w) := by
  dsimp only [dat6]

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = k6_pay2 (sum6 V c (t.val + 1)) := by dsimp only [dat6]
theorem after6_6 (c : Dev nD) (t : Fin cfg6.N) : (dat6 V c).after 6 t = k6_pay3 (sum6 V c (t.val + 1)) (sq6 V c (t.val + 1)) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

theorem Φ_eq6 (c : Dev nD) (t : Fin (cfg6.N + 1)) : (dat6 V c).Φ t = Φ6 V c t := by dsimp only [dat6]

/-- Entering the region: the two scratch rows are carved out of the scoped rest, at whatever they hold. -/
theorem hin6 (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [Φ_eq6, scopedRest6_split]; unfold Φ6
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout6 (c : Dev nD) : (dat6 V c).Φ (Fin.last cfg6.N) ⊢ (iprop(Pipeline.scopedRest (Ix := Unit) (Name := ℕ) (U := UR sig nD τ) (Lvl := ℕ) (Val := Elt F) spec6 c ∗ ∃ r, prngReg c r) : sProp 𝕄) := by
  rw [Φ_eq6, scopedRest6_split]; unfold Φ6
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond6_1 (i : grid6.Coords) : Prop := (Scalar.cmpi .ne (Scalar.extui (Scalar.cmpi .eq (BitVec.ofNat 32 (i 0).val) 0#32)) 0#32) = 1#1

/-- It holds at the first point only — decided over the grid. -/
theorem hcond6_1 : ∀ t : Fin cfg6.N, cond6_1 (grid6.coords t) ↔ t.val = 0 :=
  (by decide +kernel : ∀ t : Fin grid6.N, cond6_1 (grid6.coords t) ↔ t.val = 0)
/-- The second condition (forming the mean and the variance) holds at the last point only. -/
theorem hcond6_2 : ∀ t : Fin cfg6.N, k6_cond2 (grid6.coords t) = 1#1 ↔ t.val = 24 :=
  (by decide +kernel : ∀ t : Fin grid6.N, k6_cond2 (grid6.coords t) = 1#1 ↔ t.val = 24)
/-- The two output windows are idle (the body stores nothing into them) except at the last point. -/
theorem hidle6_5 : ∀ t : Fin cfg6.N, cfg6.idle 5 (cfg6.grid.coords t) = true ↔ t.val ≠ 24 :=
  (by decide +kernel : ∀ t : Fin grid6.N, idle6 5 (grid6.coords t) = true ↔ t.val ≠ 24)
theorem hidle6_6 : ∀ t : Fin cfg6.N, cfg6.idle 6 (cfg6.grid.coords t) = true ↔ t.val ≠ 24 :=
  (by decide +kernel : ∀ t : Fin grid6.N, idle6 6 (grid6.coords t) = true ↔ t.val ≠ 24)

theorem hflush6_5 (t : Fin cfg6.N) (h : t.val ≠ 24) : (cfg6.win 5).flush t = false :=
  Bool.eq_false_iff.mpr fun hf => by
    have h1 := (flush6_5 t).mp hf
    have hN : t.val < 25 := lt_of_lt_of_eq t.isLt (show cfg6.N = 25 from N_6)
    omega
theorem hflush6_6 (t : Fin cfg6.N) (h : t.val ≠ 24) : (cfg6.win 6).flush t = false :=
  Bool.eq_false_iff.mpr fun hf => by
    have h1 := (flush6_6 t).mp hf
    have hN : t.val < 25 := lt_of_lt_of_eq t.isLt (show cfg6.N = 25 from N_6)
    omega

/-! ## The body's triple, one per control case -/

set_option maxHeartbeats 2000000 in
/-- A middle point (neither condition holds): the two rows, at `s` and `q`, are updated by the tile; nothing else is stored. -/
theorem sound_kernel6_mid (c : Dev nD) (E : Set ℕ) (i : grid6.Coords) (hc1 : ¬ cond6_1 i) (hc2 : ¬ k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k6_pay7 x0 x1 x2 x3 x4 s)
            ∗ owns (c : Thread nD τ) arg9 fullShare (k6_pay1 (k6_pay6 x0 x1 x2 x3 x4) q)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel6_first (c : Dev nD) (E : Set ℕ) (i : grid6.Coords) (hc1 : cond6_1 i) (hc2 : ¬ k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k6_pay7 x0 x1 x2 x3 x4 k6_pay4)
            ∗ owns (c : Thread nD τ) arg9 fullShare (k6_pay1 (k6_pay6 x0 x1 x2 x3 x4) k6_pay5)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel6_last (c : Dev nD) (E : Set ℕ) (i : grid6.Coords) (hc1 : ¬ cond6_1 i) (hc2 : k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k6_pay2 (k6_pay7 x0 x1 x2 x3 x4 s))
            ∗ owns (c : Thread nD τ) arg7 fullShare (k6_pay3 (k6_pay7 x0 x1 x2 x3 x4 s) (k6_pay1 (k6_pay6 x0 x1 x2 x3 x4) q))
            ∗ owns (c : Thread nD τ) arg8 fullShare (k6_pay7 x0 x1 x2 x3 x4 s)
            ∗ owns (c : Thread nD τ) arg9 fullShare (k6_pay1 (k6_pay6 x0 x1 x2 x3 x4) q)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns: the two outputs' buffers as found wherever the point is idle for them. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ (dat6 V c).leavesExact 5 t
    ∗ (dat6 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [Φ_eq6, Φ_eq6, show (dat6 V c).owesAt () t.succ = (dat6 V c).owesAt () t.castSucc from rfl,
    after6_0, after6_1, after6_2, after6_3, after6_4]
  have hN : t.val < 25 := lt_of_lt_of_eq t.isLt (show cfg6.N = 25 from N_6)
  have hsum : sum6 V c t.succ.val = k6_pay7 (iblk6 V c 0 t) (iblk6 V c 1 t) (iblk6 V c 2 t) (iblk6 V c 3 t) (iblk6 V c 4 t) (sum6 V c t.val) := by
    rw [Fin.val_succ]; exact sum6_succ V c t
  have hsq : sq6 V c t.succ.val = k6_pay1 (k6_pay6 (iblk6 V c 0 t) (iblk6 V c 1 t) (iblk6 V c 2 t) (iblk6 V c 3 t) (iblk6 V c 4 t)) (sq6 V c t.val) := by
    rw [Fin.val_succ]; exact sq6_succ V c t
  unfold Φ6
  by_cases hlast : t.val = 24
  · -- the last point: the rows are updated, then the mean and the variance are stored
    have h0 : t.val ≠ 0 := by omega
    rw [Cert.StatsLib.leavesExact_live _ 5 t (Bool.eq_false_iff.mpr fun h => (hidle6_5 t).mp h hlast),
      Cert.StatsLib.leavesExact_live _ 6 t (Bool.eq_false_iff.mpr fun h => (hidle6_6 t).mp h hlast),
      after6_5, after6_6, sum6_succ, sq6_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum6 V c t.val := hs h0
    have hq' : q = sq6 V c t.val := hq h0
    subst hs' hq'
    iapply (sound_kernel6_last c Set.univ (grid6.coords t) (fun h => h0 ((hcond6_1 t).mp h)) ((hcond6_2 t).mpr hlast)
      _ _ _ _ _ _ _ _ _ _ _ _ _ _ _ _ _ _ (iblk6 V c 0 t) (iblk6 V c 1 t) (iblk6 V c 2 t) (iblk6 V c 3 t) (iblk6 V c 4 t) (sum6 V c t.val) (sq6 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat6 V c).leavesExact_idle 5 t ((hidle6_5 t).mpr hlast) (hflush6_5 t hlast),
      (dat6 V c).leavesExact_idle 6 t ((hidle6_6 t).mpr hlast) (hflush6_6 t hlast)]
    by_cases h0 : t.val = 0
    · -- the first point: the rows are zeroed, then updated
      have e0 : sum6 V c t.val = k6_pay4 := by rw [h0]; rfl
      have e1 : sq6 V c t.val = k6_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel6_first c Set.univ (grid6.coords t) ((hcond6_1 t).mpr h0) (fun h => hlast ((hcond6_2 t).mp h))
        _ _ _ _ _ _ _ _ _ _ _ _ _ _ _ _ _ _ (iblk6 V c 0 t) (iblk6 V c 1 t) (iblk6 V c 2 t) (iblk6 V c 3 t) (iblk6 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum6 V c t.val := hs h0
      have hq' : q = sq6 V c t.val := hq h0
      subst hs' hq'
      iapply (sound_kernel6_mid c Set.univ (grid6.coords t) (fun h => h0 ((hcond6_1 t).mp h)) (fun h => hlast ((hcond6_2 t).mp h))
        _ _ _ _ _ _ _ _ _ _ _ _ _ _ _ _ _ _ (iblk6 V c 0 t) (iblk6 V c 1 t) (iblk6 V c 2 t) (iblk6 V c 3 t) (iblk6 V c 4 t) (sum6 V c t.val) (sq6 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/-
  Region 7 of @main (custom_call 7): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: when the window is not fetched its block index
    has not moved, so the block kept from the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: when the window is not fetched its block index
    has not moved, so the block kept from the point before is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: when the window is not fetched its block index
    has not moved, so the block kept from the point before is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s and whose body leaves the block in place: when the window is not fetched its block index
    has not moved, so the block kept from the point before is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s and whose body leaves the block in place: when the window is not fetched its block index
    has not moved, so the block kept from the point before is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s and whose body leaves the block in place: when the window is not fetched its block index
    has not moved, so the block kept from the point before is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s and whose body leaves the block in place: when the window is not fetched its block index
    has not moved, so the block kept from the point before is this point's. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof
    data whose array is `V`'s and whose body leaves the block in place: when the window is not fetched its block index
    has not moved, so the block kept from the point before is this point's. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof
    data whose array is `V`'s and whose body leaves the block in place: when the window is not fetched its block index
    has not moved, so the block kept from the point before is this point's. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer through its whole rectangle -/

abbrev r7_0 : Rect S2000x128 := Rect.unit (s := S2000x128) ![0, 0] S2000x128.size inb_S2000x128_S2000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out7_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r7_0, k7_pay1 (k7_pay2 (View.ld x0 r7_0) (View.ld x1 r7_1) (View.ld x2 r7_2) (View.ld x3 r7_1) (View.ld x4 r7_2)) (k7_pay3 (View.ld x6 r7_2)) (k7_pay4 (View.ld x7 r7_2)) (k7_pay5 (View.ld x8 r7_2)) (k7_pay6 (View.ld x5 r7_2))⟩]

/-- The one store is of the whole block, so it covers it. -/
theorem cover7_9 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 4000000 in
/-- The kernel body on whole staging memrefs, the inputs' at read contents `xW` and the output's at anything, runs to the
    continuation holding the inputs' as they were and the output's at `out7_9` of the inputs'. -/
theorem sound_kernel7 (c : Dev nD) (E : Set ℕ) (i : grid7.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8)) -∗ K ⟨⟩))
      ⊢ wp frame (wpE (defs₀ (F := F)) Variants.none c none) E (cc7__mlp_bn_kernel i arg1 harg1 arg2 harg2 arg3 harg3 arg4 harg4 arg5 harg5 arg6 harg6 arg7 harg7 arg8 harg8 arg9 harg9 arg10 harg10) K := by
  simp only [cc7__mlp_bn_kernel_eq_skeleton]; unfold cc7__mlp_bn_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover7_9 _)

/-! ## The pipeline's proof data -/

/-- The proof data of pipeline 7 on core `c`: the arrays as the region finds them (`V`); after the body at point `t`
    each input's buffer at its block and the output's at `out7_9` of the input blocks; the invariant is the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

/-- The body at any point: the inputs' memrefs hold their blocks, so the body's triple applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the two ends: the generator register and the scoped rest go in, and come out -/

theorem hin7 (c : Dev nD) : (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp

theorem hout7 (c : Dev nD) : (dat7 V c).Φ (Fin.last cfg7.N) ⊢ (iprop(Pipeline.scopedRest spec7 c ∗ ∃ r, prngReg c r) : sProp 𝕄) := by
  rw [show (dat7 V c).Φ (Fin.last _) = Pipeline.ΦA spec7 c from rfl]; unfold Pipeline.ΦA
  iintro ⟨Hr, Hp⟩
  isplitl [Hr]; · iexact Hr
  iexact Hp

end Cert.KernelIdeal.Hand

end
-- ==== Proof.KI.R8.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8 of @main: the projection kernel, at the contents `V` the region is entered with

The grid has one point. Windows 0, 1, 2 are the inputs g [256,128], w [128,128], b [1,128], each its whole array;
window 3 is the output [256,128]. The body loads the three inputs whole, loads the output buffer (a value it never
uses) and stores  max (g · w + b) 0  over the whole output buffer. So after the body every input's staging buffer
holds its block unchanged and the output's holds that one store, which covers it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The same for input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S256x128 := Rect.unit (s := S256x128) ![0, 0] S256x128.size inb_S256x128_S256x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in the output window's buffer -/

/-- Window 3's staging buffer after the body, from the input windows' blocks: its one store. -/
def out8_3 (x0 : Vec F S256x128 .f32) (x1 : Vec F S128x128 .f32) (x2 : Vec F S1x128 .f32) : Vec F S256x128 .f32 :=
  View.canon [⟨r8_0, k8_pay1 (View.ld x0 r8_0) (View.ld x1 r8_1) (View.ld x2 r8_2)⟩]

/-- The store is of the whole buffer, so it covers it. -/
theorem cover8_3 (p0 : Vec F S256x128 .f32) (y : S256x128.Idx) :
    ∃ pc ∈ ([⟨r8_0, p0⟩] : List (View.Piece (Elt F) S256x128 .f32)), y ∈ pc.1.set :=
  View.cover_of_tiled [⟨r8_0, p0⟩] S256x128.size (by rfl) y

/-! ## The body's triple -/

set_option maxHeartbeats 1000000 in
/-- The kernel body on whole staging memrefs, the inputs' at contents `x0 x1 x2` and the output's at anything, runs to
    the continuation holding the inputs' as they were and the output's at `out8_3` of the inputs'. -/
theorem sound_kernel8 (c : Dev nD) (E : Set ℕ) (i : grid8.Coords) (arg1 : Memref sig .tc .vmem S256x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S256x128 .f32) (harg4 : arg4.IsWhole)
    (x0 : Vec F S256x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__proj_kernel i arg1 harg1 arg2 harg2 arg3 harg3 arg4 harg4) K := by
  simp only [cc8__proj_kernel_eq_skeleton]; unfold cc8__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body each input's
    buffer at its block and the output's at `out8_3` of the input blocks; the invariant the scoped rest and the generator
    register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the invariant and out of it -/

/-- Entering: the generator register and the scoped rest make the invariant at point 0. -/
theorem hin8 (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem hout8 (c : Dev nD) : (dat8 V c).Φ (Fin.last cfg8.N) ⊢ (iprop(Pipeline.scopedRest spec8 c ∗ ∃ r, prngReg c r) : sProp 𝕄) := by
  rw [show (dat8 V c).Φ (Fin.last _) = Pipeline.ΦA spec8 c from rfl]; unfold Pipeline.ΦA
  iintro ⟨Hr, Hp⟩
  isplitl [Hr]; · iexact Hr
  iexact Hp

end Cert.KernelIdeal.Hand

end
-- ==== Proof.KI.RunW.lean ====
import proofs.«132655_j36919538876779_2_alg».proof.Proof.Gen.KernelIdeal.Launch
import proofs.«132655_j36919538876779_2_alg».proof.Proof.Gen.KernelIdeal.Skeleton
import proofs.«132655_j36919538876779_2_alg».proof.Proof.Gen.KernelIdeal.Points
import proofs.«132655_j36919538876779_2_alg».proof.Proof.Gen.KernelIdeal.Regions
import proofs.«132655_j36919538876779_2_alg».proof.Proof.KI.R0
import proofs.«132655_j36919538876779_2_alg».proof.Proof.KI.R1
import proofs.«132655_j36919538876779_2_alg».proof.Proof.KI.R2
import proofs.«132655_j36919538876779_2_alg».proof.Proof.KI.R3
import proofs.«132655_j36919538876779_2_alg».proof.Proof.KI.R4
import proofs.«132655_j36919538876779_2_alg».proof.Proof.KI.R5
import proofs.«132655_j36919538876779_2_alg».proof.Proof.KI.R6
import proofs.«132655_j36919538876779_2_alg».proof.Proof.KI.R7
import proofs.«132655_j36919538876779_2_alg».proof.Proof.KI.R8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: the buffer contents at every boundary between its eighteen segments

@main is nine host stretches, each followed by a kernel region. The contents of core `c`'s buffers are followed
from the launch memory: a host stretch applies its operations (`StableHlo.after`); a region leaves each of its
windows' arrays at what its write-backs leave (`Dat.arrAt … N`) and every other buffer as it found it. No stretch
and no region writes an argument, so each argument's buffer reads back to its launch contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
theorem W1_def (c : Dev nD) : W1 m ρ c = StableHlo.after hostOps0 (W0 m ρ c) := rfl
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves alone every buffer none of its operations writes. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- After `hostOps1` (region 1's entry). -/
abbrev W3 : Dev nD → Valuation τ sig (Elt F) := fun c => StableHlo.after hostOps1 (W2 m ρ c)
theorem W3_def (c : Dev nD) : W3 m ρ c = StableHlo.after hostOps1 (W2 m ρ c) := rfl
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves alone every buffer none of its operations writes. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- After `hostOps2` (region 2's entry). -/
abbrev W5 : Dev nD → Valuation τ sig (Elt F) := fun c => StableHlo.after hostOps2 (W4 m ρ c)
theorem W5_def (c : Dev nD) : W5 m ρ c = StableHlo.after hostOps2 (W4 m ρ c) := rfl
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves alone every buffer none of its operations writes. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-- After `hostOps3` (region 3's entry). -/
abbrev W7 : Dev nD → Valuation τ sig (Elt F) := fun c => StableHlo.after hostOps3 (W6 m ρ c)
theorem W7_def (c : Dev nD) : W7 m ρ c = StableHlo.after hostOps3 (W6 m ρ c) := rfl
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves alone every buffer none of its operations writes. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-- After `hostOps4` (region 4's entry). -/
abbrev W9 : Dev nD → Valuation τ sig (Elt F) := fun c => StableHlo.after hostOps4 (W8 m ρ c)
theorem W9_def (c : Dev nD) : W9 m ρ c = StableHlo.after hostOps4 (W8 m ρ c) := rfl
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch leaves alone every buffer none of its operations writes. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

/-- After `hostOps5` (region 5's entry). -/
abbrev W11 : Dev nD → Valuation τ sig (Elt F) := fun c => StableHlo.after hostOps5 (W10 m ρ c)
theorem W11_def (c : Dev nD) : W11 m ρ c = StableHlo.after hostOps5 (W10 m ρ c) := rfl
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch leaves alone every buffer none of its operations writes. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h

/-- After `hostOps6` (region 6's entry). -/
abbrev W13 : Dev nD → Valuation τ sig (Elt F) := fun c => StableHlo.after hostOps6 (W12 m ρ c)
theorem W13_def (c : Dev nD) : W13 m ρ c = StableHlo.after hostOps6 (W12 m ρ c) := rfl
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A host stretch leaves alone every buffer none of its operations writes. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h

/-- After `hostOps7` (region 7's entry). -/
abbrev W15 : Dev nD → Valuation τ sig (Elt F) := fun c => StableHlo.after hostOps7 (W14 m ρ c)
theorem W15_def (c : Dev nD) : W15 m ρ c = StableHlo.after hostOps7 (W14 m ρ c) := rfl
/-- The same read at the TensorCore's references (what region 7's proof data take). -/
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A host stretch leaves alone every buffer none of its operations writes. -/
theorem W15_of (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h

/-- After `hostOps8` (region 8's entry). -/
abbrev W17 : Dev nD → Valuation τ sig (Elt F) := fun c => StableHlo.after hostOps8 (W16 m ρ c)
theorem W17_def (c : Dev nD) : W17 m ρ c = StableHlo.after hostOps8 (W16 m ρ c) := rfl
/-- The same read at the TensorCore's references (what region 8's proof data take). -/
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A host stretch leaves alone every buffer none of its operations writes. -/
theorem W17_of (c : Dev nD) (r : Ref sig .tc) (h : r ∉ (hostOps8_W : List (Ref sig .tc))) :
    W17 m ρ c (Proc.devRef .tc r) = W16 m ρ c (Proc.devRef .tc r) :=
  StableHlo.after_of_writes_sub hostOps8 _ hostOps8_writes h

/-! ## The arguments end as launched

No host operation writes an argument and no region has one as an output window (region 8 reads `main_arg9` through
an input window, whose array the pipeline leaves as entered), so the fold at an argument's buffer walks back to the
launch memory. -/

theorem W18_main_arg0 (c : Dev nD) : W18 m ρ c (Proc.devRef .tc main_arg0) = m ((c : Thread nD τ).loc main_arg0) :=
  (W18_of_ne m ρ c main_arg0 (by decide)).trans <|
    (W17_of m ρ c main_arg0 (by decide)).trans <|
    (W16_of_ne m ρ c main_arg0 (by decide)).trans <|
    (W15_of m ρ c main_arg0 (by decide)).trans <|
    (W14_of_ne m ρ c main_arg0 (by decide)).trans <|
    (W13_of m ρ c main_arg0 (by decide)).trans <|
    (W12_of_ne m ρ c main_arg0 (by decide)).trans <|
    (W11_of m ρ c main_arg0 (by decide)).trans <|
    (W10_of_ne m ρ c main_arg0 (by decide)).trans <|
    (W9_of m ρ c main_arg0 (by decide)).trans <|
    (W8_of_ne m ρ c main_arg0 (by decide)).trans <|
    (W7_of m ρ c main_arg0 (by decide)).trans <|
    (W6_of_ne m ρ c main_arg0 (by decide)).trans <|
    (W5_of m ρ c main_arg0 (by decide)).trans <|
    (W4_of_ne m ρ c main_arg0 (by decide)).trans <|
    (W3_of m ρ c main_arg0 (by decide)).trans <|
    (W2_of_ne m ρ c main_arg0 (by decide)).trans <| (W1_of m ρ c main_arg0 (by decide))

theorem W18_main_arg1 (c : Dev nD) : W18 m ρ c (Proc.devRef .tc main_arg1) = m ((c : Thread nD τ).loc main_arg1) :=
  (W18_of_ne m ρ c main_arg1 (by decide)).trans <|
    (W17_of m ρ c main_arg1 (by decide)).trans <|
    (W16_of_ne m ρ c main_arg1 (by decide)).trans <|
    (W15_of m ρ c main_arg1 (by decide)).trans <|
    (W14_of_ne m ρ c main_arg1 (by decide)).trans <|
    (W13_of m ρ c main_arg1 (by decide)).trans <|
    (W12_of_ne m ρ c main_arg1 (by decide)).trans <|
    (W11_of m ρ c main_arg1 (by decide)).trans <|
    (W10_of_ne m ρ c main_arg1 (by decide)).trans <|
    (W9_of m ρ c main_arg1 (by decide)).trans <|
    (W8_of_ne m ρ c main_arg1 (by decide)).trans <|
    (W7_of m ρ c main_arg1 (by decide)).trans <|
    (W6_of_ne m ρ c main_arg1 (by decide)).trans <|
    (W5_of m ρ c main_arg1 (by decide)).trans <|
    (W4_of_ne m ρ c main_arg1 (by decide)).trans <|
    (W3_of m ρ c main_arg1 (by decide)).trans <|
    (W2_of_ne m ρ c main_arg1 (by decide)).trans <| (W1_of m ρ c main_arg1 (by decide))

theorem W18_main_arg2 (c : Dev nD) : W18 m ρ c (Proc.devRef .tc main_arg2) = m ((c : Thread nD τ).loc main_arg2) :=
  (W18_of_ne m ρ c main_arg2 (by decide)).trans <|
    (W17_of m ρ c main_arg2 (by decide)).trans <|
    (W16_of_ne m ρ c main_arg2 (by decide)).trans <|
    (W15_of m ρ c main_arg2 (by decide)).trans <|
    (W14_of_ne m ρ c main_arg2 (by decide)).trans <|
    (W13_of m ρ c main_arg2 (by decide)).trans <|
    (W12_of_ne m ρ c main_arg2 (by decide)).trans <|
    (W11_of m ρ c main_arg2 (by decide)).trans <|
    (W10_of_ne m ρ c main_arg2 (by decide)).trans <|
    (W9_of m ρ c main_arg2 (by decide)).trans <|
    (W8_of_ne m ρ c main_arg2 (by decide)).trans <|
    (W7_of m ρ c main_arg2 (by decide)).trans <|
    (W6_of_ne m ρ c main_arg2 (by decide)).trans <|
    (W5_of m ρ c main_arg2 (by decide)).trans <|
    (W4_of_ne m ρ c main_arg2 (by decide)).trans <|
    (W3_of m ρ c main_arg2 (by decide)).trans <|
    (W2_of_ne m ρ c main_arg2 (by decide)).trans <| (W1_of m ρ c main_arg2 (by decide))

theorem W18_main_arg3 (c : Dev nD) : W18 m ρ c (Proc.devRef .tc main_arg3) = m ((c : Thread nD τ).loc main_arg3) :=
  (W18_of_ne m ρ c main_arg3 (by decide)).trans <|
    (W17_of m ρ c main_arg3 (by decide)).trans <|
    (W16_of_ne m ρ c main_arg3 (by decide)).trans <|
    (W15_of m ρ c main_arg3 (by decide)).trans <|
    (W14_of_ne m ρ c main_arg3 (by decide)).trans <|
    (W13_of m ρ c main_arg3 (by decide)).trans <|
    (W12_of_ne m ρ c main_arg3 (by decide)).trans <|
    (W11_of m ρ c main_arg3 (by decide)).trans <|
    (W10_of_ne m ρ c main_arg3 (by decide)).trans <|
    (W9_of m ρ c main_arg3 (by decide)).trans <|
    (W8_of_ne m ρ c main_arg3 (by decide)).trans <|
    (W7_of m ρ c main_arg3 (by decide)).trans <|
    (W6_of_ne m ρ c main_arg3 (by decide)).trans <|
    (W5_of m ρ c main_arg3 (by decide)).trans <|
    (W4_of_ne m ρ c main_arg3 (by decide)).trans <|
    (W3_of m ρ c main_arg3 (by decide)).trans <|
    (W2_of_ne m ρ c main_arg3 (by decide)).trans <| (W1_of m ρ c main_arg3 (by decide))

theorem W18_main_arg4 (c : Dev nD) : W18 m ρ c (Proc.devRef .tc main_arg4) = m ((c : Thread nD τ).loc main_arg4) :=
  (W18_of_ne m ρ c main_arg4 (by decide)).trans <|
    (W17_of m ρ c main_arg4 (by decide)).trans <|
    (W16_of_ne m ρ c main_arg4 (by decide)).trans <|
    (W15_of m ρ c main_arg4 (by decide)).trans <|
    (W14_of_ne m ρ c main_arg4 (by decide)).trans <|
    (W13_of m ρ c main_arg4 (by decide)).trans <|
    (W12_of_ne m ρ c main_arg4 (by decide)).trans <|
    (W11_of m ρ c main_arg4 (by decide)).trans <|
    (W10_of_ne m ρ c main_arg4 (by decide)).trans <|
    (W9_of m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <| (W1_of m ρ c main_arg4 (by decide))

theorem W18_main_arg5 (c : Dev nD) : W18 m ρ c (Proc.devRef .tc main_arg5) = m ((c : Thread nD τ).loc main_arg5) :=
  (W18_of_ne m ρ c main_arg5 (by decide)).trans <|
    (W17_of m ρ c main_arg5 (by decide)).trans <|
    (W16_of_ne m ρ c main_arg5 (by decide)).trans <|
    (W15_of m ρ c main_arg5 (by decide)).trans <|
    (W14_of_ne m ρ c main_arg5 (by decide)).trans <|
    (W13_of m ρ c main_arg5 (by decide)).trans <|
    (W12_of_ne m ρ c main_arg5 (by decide)).trans <|
    (W11_of m ρ c main_arg5 (by decide)).trans <|
    (W10_of_ne m ρ c main_arg5 (by decide)).trans <|
    (W9_of m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <| (W1_of m ρ c main_arg5 (by decide))

theorem W18_main_arg6 (c : Dev nD) : W18 m ρ c (Proc.devRef .tc main_arg6) = m ((c : Thread nD τ).loc main_arg6) :=
  (W18_of_ne m ρ c main_arg6 (by decide)).trans <|
    (W17_of m ρ c main_arg6 (by decide)).trans <|
    (W16_of_ne m ρ c main_arg6 (by decide)).trans <|
    (W15_of m ρ c main_arg6 (by decide)).trans <|
    (W14_of_ne m ρ c main_arg6 (by decide)).trans <|
    (W13_of m ρ c main_arg6 (by decide)).trans <|
    (W12_of_ne m ρ c main_arg6 (by decide)).trans <|
    (W11_of m ρ c main_arg6 (by decide)).trans <|
    (W10_of_ne m ρ c main_arg6 (by decide)).trans <|
    (W9_of m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <| (W1_of m ρ c main_arg6 (by decide))

theorem W18_main_arg7 (c : Dev nD) : W18 m ρ c (Proc.devRef .tc main_arg7) = m ((c : Thread nD τ).loc main_arg7) :=
  (W18_of_ne m ρ c main_arg7 (by decide)).trans <|
    (W17_of m ρ c main_arg7 (by decide)).trans <|
    (W16_of_ne m ρ c main_arg7 (by decide)).trans <|
    (W15_of m ρ c main_arg7 (by decide)).trans <|
    (W14_of_ne m ρ c main_arg7 (by decide)).trans <|
    (W13_of m ρ c main_arg7 (by decide)).trans <|
    (W12_of_ne m ρ c main_arg7 (by decide)).trans <|
    (W11_of m ρ c main_arg7 (by decide)).trans <|
    (W10_of_ne m ρ c main_arg7 (by decide)).trans <|
    (W9_of m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <| (W1_of m ρ c main_arg7 (by decide))

theorem W18_main_arg8 (c : Dev nD) : W18 m ρ c (Proc.devRef .tc main_arg8) = m ((c : Thread nD τ).loc main_arg8) :=
  (W18_of_ne m ρ c main_arg8 (by decide)).trans <|
    (W17_of m ρ c main_arg8 (by decide)).trans <|
    (W16_of_ne m ρ c main_arg8 (by decide)).trans <|
    (W15_of m ρ c main_arg8 (by decide)).trans <|
    (W14_of_ne m ρ c main_arg8 (by decide)).trans <|
    (W13_of m ρ c main_arg8 (by decide)).trans <|
    (W12_of_ne m ρ c main_arg8 (by decide)).trans <|
    (W11_of m ρ c main_arg8 (by decide)).trans <|
    (W10_of_ne m ρ c main_arg8 (by decide)).trans <|
    (W9_of m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <| (W1_of m ρ c main_arg8 (by decide))

theorem W18_main_arg9 (c : Dev nD) : W18 m ρ c (Proc.devRef .tc main_arg9) = m ((c : Thread nD τ).loc main_arg9) :=
  ((W18_arr m ρ c 1).trans (((dat8 (V17 m ρ) c).arrAt_in 1 rfl _).trans (A_eq8 (V17 m ρ) c 1))).trans <|
    (W17_of m ρ c main_arg9 (by decide)).trans <|
    (W16_of_ne m ρ c main_arg9 (by decide)).trans <|
    (W15_of m ρ c main_arg9 (by decide)).trans <|
    (W14_of_ne m ρ c main_arg9 (by decide)).trans <|
    (W13_of m ρ c main_arg9 (by decide)).trans <|
    (W12_of_ne m ρ c main_arg9 (by decide)).trans <|
    (W11_of m ρ c main_arg9 (by decide)).trans <|
    (W10_of_ne m ρ c main_arg9 (by decide)).trans <|
    (W9_of m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <| (W1_of m ρ c main_arg9 (by decide))

theorem W18_main_arg10 (c : Dev nD) : W18 m ρ c (Proc.devRef .tc main_arg10) = m ((c : Thread nD τ).loc main_arg10) :=
  (W18_of_ne m ρ c main_arg10 (by decide)).trans <|
    (W17_of m ρ c main_arg10 (by decide)).trans <|
    (W16_of_ne m ρ c main_arg10 (by decide)).trans <|
    (W15_of m ρ c main_arg10 (by decide)).trans <|
    (W14_of_ne m ρ c main_arg10 (by decide)).trans <|
    (W13_of m ρ c main_arg10 (by decide)).trans <|
    (W12_of_ne m ρ c main_arg10 (by decide)).trans <|
    (W11_of m ρ c main_arg10 (by decide)).trans <|
    (W10_of_ne m ρ c main_arg10 (by decide)).trans <|
    (W9_of m ρ c main_arg10 (by decide)).trans <|
    (W8_of_ne m ρ c main_arg10 (by decide)).trans <|
    (W7_of m ρ c main_arg10 (by decide)).trans <|
    (W6_of_ne m ρ c main_arg10 (by decide)).trans <|
    (W5_of m ρ c main_arg10 (by decide)).trans <|
    (W4_of_ne m ρ c main_arg10 (by decide)).trans <|
    (W3_of m ρ c main_arg10 (by decide)).trans <|
    (W2_of_ne m ρ c main_arg10 (by decide)).trans <| (W1_of m ρ c main_arg10 (by decide))

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W18`, the
    generator register at some state. -/
abbrev Tₙ (c : Dev nD) : sProp 𝕄 := iprop(StableHlo.held (c : Thread nD τ) (Pipeline.ucRefs τ sig) (W18 m ρ c) ∗ ∃ r, prngReg c r)

end Cert.KernelIdeal.Hand

end
-- ==== Proof.KI.RunReg0.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 0 over the thread state: entered from every unscoped buffer at `W1`, left at `W2`. Its arrays are
    split out of the unscoped buffers and put back at the exit contents; the generator register and the scoped rest go
    into the region's invariant and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg1.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 1 over the thread state: entered from every unscoped buffer at `W3`, left at `W4`. Its arrays are
    split out of the unscoped buffers and put back at the exit contents; the generator register and the scoped rest go
    into the region's invariant and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg2.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 2 over the thread state: entered from every unscoped buffer at `W5`, left at `W6`. Its arrays are
    split out of the unscoped buffers and put back at the exit contents; the generator register and the scoped rest go
    into the region's invariant and come back out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    isplitl [Hp]; · iexact Hp
    iexact Hr
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg3.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 3 over the thread state: entered from every unscoped buffer at `W7`, left at `W8`. Its arrays are
    split out of the unscoped buffers and put back at the exit contents; the generator register and the scoped rest go
    into the region's invariant and come back out of it; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (hin3 (V7 m ρ) c)
    isplitl [Hp]; · iexact Hp
    iexact Hr
  hout c := by
    rw [Pipeline.ownSems0_none, show (pdats m ρ 3 c).Φ (Fin.last _) = (dat3 (V7 m ρ) c).Φ (Fin.last cfg3.N) from rfl]
    iintro H
    ihave H' := (hout3 (V7 m ρ) c) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg4.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 4 over the thread state: entered from every unscoped buffer at `W9`, left at `W10`. Its arrays are
    split out of the unscoped buffers and put back at the exit contents; the generator register and the scoped rest go
    into the region's invariant and come back out of it; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply (hin4 (V9 m ρ) c)
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H' := (hout4 (V9 m ρ) c) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg5.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 5 over the thread state: entered from every unscoped buffer at `W11`, left at `W12`. Its arrays are
    split out of the unscoped buffers and put back at the exit contents; the generator register and the scoped rest go
    into the region's invariant and come back out of it; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    iintro ⟨Hp, -, Hr⟩
    iapply (hin5 (V11 m ρ) c)
    isplitl [Hp]; · iexact Hp
    iexact Hr
  hout c := by
    rw [Pipeline.ownSems0_none, show (pdats m ρ 5 c).Φ (Fin.last _) = (dat5 (V11 m ρ) c).Φ (Fin.last cfg5.N) from rfl]
    iintro H
    ihave H' := (hout5 (V11 m ρ) c) $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg6.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 6 over the thread state: entered from every unscoped buffer at `W13`, left at `W14`. Its arrays are
    split out of the unscoped buffers and put back at the exit contents; the generator register and the scoped rest go
    into the region's invariant and come back out of it; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    iintro ⟨Hp, -, Hr⟩
    iapply (hin6 (V13 m ρ) c)
    isplitl [Hp]; · iexact Hp
    iexact Hr
  hout c := by
    rw [Pipeline.ownSems0_none, show (pdats m ρ 6 c).Φ (Fin.last _) = (dat6 (V13 m ρ) c).Φ (Fin.last cfg6.N) from rfl]
    iintro H
    ihave H' := (hout6 (V13 m ρ) c) $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg7.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 7 over the thread state: entered from every unscoped buffer at `W15`, left at `W16`. Its arrays are
    split out of the unscoped buffers and put back at the exit contents; the generator register and the scoped rest go
    into the region's invariant and come back out of it; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    iintro ⟨Hp, -, Hr⟩
    iapply (hin7 (V15 m ρ) c)
    isplitl [Hp]; · iexact Hp
    iexact Hr
  hout c := by
    rw [Pipeline.ownSems0_none, show (pdats m ρ 7 c).Φ (Fin.last _) = (dat7 (V15 m ρ) c).Φ (Fin.last cfg7.N) from rfl]
    iintro H
    ihave H' := (hout7 (V15 m ρ) c) $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg8.lean ====
import proofs.«132655_j36919538876779_2_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 of @main as a segment of the run -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 8 over the thread state: entered from every unscoped buffer at `W17`, left at `W18`. Its arrays are
    split out of the unscoped buffers and put back at the exit contents; the generator register and the scoped rest go
    into the region's invariant and come back out of it; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    iintro ⟨Hp, -, Hr⟩
    iapply (hin8 (V17 m ρ) c)
    isplitl [Hp]; · iexact Hp
    iexact Hr
  hout c := by
    rw [Pipeline.ownSems0_none, show (pdats m ρ 8 c).Φ (Fin.last _) = (dat8 (V17 m ρ) c).Φ (Fin.last cfg8.N) from rfl]
    iintro H
    ihave H' := (hout8 (V17 m ρ) c) $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«132655_j36919538876779_2_alg».proof.Proof.KI.RunReg0
import proofs.«132655_j36919538876779_2_alg».proof.Proof.KI.RunReg1
import proofs.«132655_j36919538876779_2_alg».proof.Proof.KI.RunReg2
import proofs.«132655_j36919538876779_2_alg».proof.Proof.KI.RunReg3
import proofs.«132655_j36919538876779_2_alg».proof.Proof.KI.RunReg4
import proofs.«132655_j36919538876779_2_alg».proof.Proof.KI.RunReg5
import proofs.«132655_j36919538876779_2_alg».proof.Proof.KI.RunReg6
import proofs.«132655_j36919538876779_2_alg».proof.Proof.KI.RunReg7
import proofs.«132655_j36919538876779_2_alg».proof.Proof.KI.RunReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: its eighteen segments assembled, and the frame with the result in its post
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 18 segments in order: a host segment per stretch from its boundary's contents, a region per pallas_call. -/
abbrev segs : List (Pipeline.Seg (pcfgs (F := F)) adm (pdats m ρ) () defs₀ 𝒱₀ L lv) :=
  [ .host (hseg hostOps0 hostOps0_sub Gen.hostOps0_fresh (W0 m ρ)),
    .region (reg0 m ρ),
    .host (hseg hostOps1 hostOps1_sub Gen.hostOps1_fresh (W2 m ρ)),
    .region (reg1 m ρ),
    .host (hseg hostOps2 hostOps2_sub Gen.hostOps2_fresh (W4 m ρ)),
    .region (reg2 m ρ),
    .host (hseg hostOps3 hostOps3_sub Gen.hostOps3_fresh (W6 m ρ)),
    .region (reg3 m ρ),
    .host (hseg hostOps4 hostOps4_sub Gen.hostOps4_fresh (W8 m ρ)),
    .region (reg4 m ρ),
    .host (hseg hostOps5 hostOps5_sub Gen.hostOps5_fresh (W10 m ρ)),
    .region (reg5 m ρ),
    .host (hseg hostOps6 hostOps6_sub Gen.hostOps6_fresh (W12 m ρ)),
    .region (reg6 m ρ),
    .host (hseg hostOps7 hostOps7_sub Gen.hostOps7_fresh (W14 m ρ)),
    .region (reg7 m ρ),
    .host (hseg hostOps8 hostOps8_sub Gen.hostOps8_fresh (W16 m ρ)),
    .region (reg8 m ρ) ]

/-- @main is the run of the segments: it is the chain of its items, and the segments' programs are those items. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at the last boundary's contents and the
    argument arrays as launched. -/
theorem run_main : θ_run defs (onTc (τ := τ) (main (F := F))) ⟨m, fun _ => 0, ρ⟩ (fun r => ∀ c : Dev nD,
      r.2.mem ((c.tc : Thread nD τ).loc main_v176) = W18 m ρ c (Proc.devRef .tc main_v176)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v176 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.KernelIdeal.Hand

end
-- ==== Proof.K.R0.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two carried rows -/

/-- The row of column sums after the first `n` tiles: the zero row, then tile by tile the body's update. -/
def sum0 (c : Dev nD) : ℕ → Vec F S1x128 .f32
  | 0 => k0_pay4
  | n + 1 =>
    if h : n < cfg0.N then
      k0_pay7 (iblk0 V c 0 ⟨n, h⟩) (iblk0 V c 1 ⟨n, h⟩) (iblk0 V c 2 ⟨n, h⟩) (iblk0 V c 3 ⟨n, h⟩) (iblk0 V c 4 ⟨n, h⟩) (sum0 c n)
    else sum0 c n

/-- The row of column sums of squares after the first `n` tiles. -/
def sq0 (c : Dev nD) : ℕ → Vec F S1x128 .f32
  | 0 => k0_pay5
  | n + 1 =>
    if h : n < cfg0.N then
      k0_pay1 (k0_pay6 (iblk0 V c 0 ⟨n, h⟩) (iblk0 V c 1 ⟨n, h⟩) (iblk0 V c 2 ⟨n, h⟩) (iblk0 V c 3 ⟨n, h⟩) (iblk0 V c 4 ⟨n, h⟩)) (sq0 c n)
    else sq0 c n

/-- One more tile: the body's update of the sums by the tile at `t`. -/
theorem sum0_succ (c : Dev nD) (t : Fin cfg0.N) :
    sum0 V c (t.val + 1) = k0_pay7 (iblk0 V c 0 t) (iblk0 V c 1 t) (iblk0 V c 2 t) (iblk0 V c 3 t) (iblk0 V c 4 t) (sum0 V c t.val) := by
  rw [sum0, dif_pos t.isLt]

theorem sq0_succ (c : Dev nD) (t : Fin cfg0.N) :
    sq0 V c (t.val + 1) = k0_pay1 (k0_pay6 (iblk0 V c 0 t) (iblk0 V c 1 t) (iblk0 V c 2 t) (iblk0 V c 3 t) (iblk0 V c 4 t)) (sq0 V c t.val) := by
  rw [sq0, dif_pos t.isLt]

/-! ## The invariant carried between points -/

/-- Before point `t`: the two scratch rows hold the sums over the first `t` tiles (before the first point,
    anything: the body zeroes them there), beside every other scoped buffer and the generator register, untouched. -/
def Φ0 (c : Dev nD) (t : Fin (cfg0.N + 1)) : sProp 𝕄 :=
  iprop((∃ d, ⌜t.val ≠ 0 → d = sum0 V c t.val⌝ ∗ owns (c : Thread nD τ) (Memref.whole cc0_scratch0) fullShare d)
    ∗ (∃ d, ⌜t.val ≠ 0 → d = sq0 V c t.val⌝ ∗ owns (c : Thread nD τ) (Memref.whole cc0_scratch1) fullShare d)
    ∗ Pipeline.scopedRestBut (Ix := Unit) (Name := ℕ) (U := UR sig nD τ) (Lvl := ℕ) (Val := Elt F) spec0 c [cc0_scratch0, cc0_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (sum0 V c (t.val + 1))
    | ⟨6, _⟩ => k0_pay3 (sum0 V c (t.val + 1)) (sq0 V c (t.val + 1))
  Φ t := Φ0 V c t
  q _ := fullShare
  owed _ := 0

theorem A_eq0 (c : Dev nD) (w : Fin cfg0.W) : (dat0 V c).A w = V c (Pipeline.arrRef spec0 w) := by
  dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (sum0 V c (t.val + 1)) := by dsimp only [dat0]
theorem after0_6 (c : Dev nD) (t : Fin cfg0.N) : (dat0 V c).after 6 t = k0_pay3 (sum0 V c (t.val + 1)) (sq0 V c (t.val + 1)) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Φ_eq0 (c : Dev nD) (t : Fin (cfg0.N + 1)) : (dat0 V c).Φ t = Φ0 V c t := by dsimp only [dat0]

/-- Entering the region: the two scratch rows are carved out of the scoped rest, at whatever they hold. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [Φ_eq0, scopedRest0_split]; unfold Φ0
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout0 (c : Dev nD) : (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  rw [Φ_eq0, scopedRest0_split]; unfold Φ0
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond0_1 (i : grid0.Coords) : Prop := (Scalar.cmpi .ne (Scalar.extui (Scalar.cmpi .eq (BitVec.ofNat 32 (i 0).val) 0#32)) 0#32) = 1#1

/-- It holds at the first point only — decided over the grid. -/
theorem hcond0_1 : ∀ t : Fin cfg0.N, cond0_1 (grid0.coords t) ↔ t.val = 0 :=
  (by decide +kernel : ∀ t : Fin grid0.N, cond0_1 (grid0.coords t) ↔ t.val = 0)
/-- The second condition (forming the mean and the variance) holds at the last point only. -/
theorem hcond0_2 : ∀ t : Fin cfg0.N, k0_cond2 (grid0.coords t) = 1#1 ↔ t.val = 24 :=
  (by decide +kernel : ∀ t : Fin grid0.N, k0_cond2 (grid0.coords t) = 1#1 ↔ t.val = 24)
/-- The two output windows are idle (the body stores nothing into them) except at the last point. -/
theorem hidle0_5 : ∀ t : Fin cfg0.N, cfg0.idle 5 (cfg0.grid.coords t) = true ↔ t.val ≠ 24 :=
  (by decide +kernel : ∀ t : Fin grid0.N, idle0 5 (grid0.coords t) = true ↔ t.val ≠ 24)
theorem hidle0_6 : ∀ t : Fin cfg0.N, cfg0.idle 6 (cfg0.grid.coords t) = true ↔ t.val ≠ 24 :=
  (by decide +kernel : ∀ t : Fin grid0.N, idle0 6 (grid0.coords t) = true ↔ t.val ≠ 24)

theorem hflush0_5 (t : Fin cfg0.N) (h : t.val ≠ 24) : (cfg0.win 5).flush t = false :=
  Bool.eq_false_iff.mpr fun hf => by
    have h1 := (flush0_5 t).mp hf
    have hN : t.val < 25 := lt_of_lt_of_eq t.isLt (show cfg0.N = 25 from N_0)
    omega
theorem hflush0_6 (t : Fin cfg0.N) (h : t.val ≠ 24) : (cfg0.win 6).flush t = false :=
  Bool.eq_false_iff.mpr fun hf => by
    have h1 := (flush0_6 t).mp hf
    have hN : t.val < 25 := lt_of_lt_of_eq t.isLt (show cfg0.N = 25 from N_0)
    omega

/-! ## The body's triple, one per control case -/

set_option maxHeartbeats 2000000 in
/-- A middle point (neither condition holds): the two rows, at `s` and `q`, are updated by the tile; nothing else is stored. -/
theorem sound_kernel0_mid (c : Dev nD) (E : Set ℕ) (i : grid0.Coords) (hc1 : ¬ cond0_1 i) (hc2 : ¬ k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay7 x0 x1 x2 x3 x4 s)
            ∗ owns (c : Thread nD τ) arg9 fullShare (k0_pay1 (k0_pay6 x0 x1 x2 x3 x4) q)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel0_first (c : Dev nD) (E : Set ℕ) (i : grid0.Coords) (hc1 : cond0_1 i) (hc2 : ¬ k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay7 x0 x1 x2 x3 x4 k0_pay4)
            ∗ owns (c : Thread nD τ) arg9 fullShare (k0_pay1 (k0_pay6 x0 x1 x2 x3 x4) k0_pay5)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel0_last (c : Dev nD) (E : Set ℕ) (i : grid0.Coords) (hc1 : ¬ cond0_1 i) (hc2 : k0_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 (k0_pay7 x0 x1 x2 x3 x4 s))
            ∗ owns (c : Thread nD τ) arg7 fullShare (k0_pay3 (k0_pay7 x0 x1 x2 x3 x4 s) (k0_pay1 (k0_pay6 x0 x1 x2 x3 x4) q))
            ∗ owns (c : Thread nD τ) arg8 fullShare (k0_pay7 x0 x1 x2 x3 x4 s)
            ∗ owns (c : Thread nD τ) arg9 fullShare (k0_pay1 (k0_pay6 x0 x1 x2 x3 x4) q)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the two outputs' buffers as found wherever the point is idle for them. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [Φ_eq0, Φ_eq0, show (dat0 V c).owesAt () t.succ = (dat0 V c).owesAt () t.castSucc from rfl,
    after0_0, after0_1, after0_2, after0_3, after0_4]
  have hN : t.val < 25 := lt_of_lt_of_eq t.isLt (show cfg0.N = 25 from N_0)
  have hsum : sum0 V c t.succ.val = k0_pay7 (iblk0 V c 0 t) (iblk0 V c 1 t) (iblk0 V c 2 t) (iblk0 V c 3 t) (iblk0 V c 4 t) (sum0 V c t.val) := by
    rw [Fin.val_succ]; exact sum0_succ V c t
  have hsq : sq0 V c t.succ.val = k0_pay1 (k0_pay6 (iblk0 V c 0 t) (iblk0 V c 1 t) (iblk0 V c 2 t) (iblk0 V c 3 t) (iblk0 V c 4 t)) (sq0 V c t.val) := by
    rw [Fin.val_succ]; exact sq0_succ V c t
  unfold Φ0
  by_cases hlast : t.val = 24
  · -- the last point: the rows are updated, then the mean and the variance are stored
    have h0 : t.val ≠ 0 := by omega
    rw [Cert.StatsLib.leavesExact_live _ 5 t (Bool.eq_false_iff.mpr fun h => (hidle0_5 t).mp h hlast),
      Cert.StatsLib.leavesExact_live _ 6 t (Bool.eq_false_iff.mpr fun h => (hidle0_6 t).mp h hlast),
      after0_5, after0_6, sum0_succ, sq0_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum0 V c t.val := hs h0
    have hq' : q = sq0 V c t.val := hq h0
    subst hs' hq'
    iapply (sound_kernel0_last c Set.univ (grid0.coords t) (fun h => h0 ((hcond0_1 t).mp h)) ((hcond0_2 t).mpr hlast)
      _ _ _ _ _ _ _ _ _ _ _ _ _ _ _ _ _ _ (iblk0 V c 0 t) (iblk0 V c 1 t) (iblk0 V c 2 t) (iblk0 V c 3 t) (iblk0 V c 4 t) (sum0 V c t.val) (sq0 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat0 V c).leavesExact_idle 5 t ((hidle0_5 t).mpr hlast) (hflush0_5 t hlast),
      (dat0 V c).leavesExact_idle 6 t ((hidle0_6 t).mpr hlast) (hflush0_6 t hlast)]
    by_cases h0 : t.val = 0
    · -- the first point: the rows are zeroed, then updated
      have e0 : sum0 V c t.val = k0_pay4 := by rw [h0]; rfl
      have e1 : sq0 V c t.val = k0_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel0_first c Set.univ (grid0.coords t) ((hcond0_1 t).mpr h0) (fun h => hlast ((hcond0_2 t).mp h))
        _ _ _ _ _ _ _ _ _ _ _ _ _ _ _ _ _ _ (iblk0 V c 0 t) (iblk0 V c 1 t) (iblk0 V c 2 t) (iblk0 V c 3 t) (iblk0 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum0 V c t.val := hs h0
      have hq' : q = sq0 V c t.val := hq h0
      subst hs' hq'
      iapply (sound_kernel0_mid c Set.univ (grid0.coords t) (fun h => h0 ((hcond0_1 t).mp h)) (fun h => hlast ((hcond0_2 t).mp h))
        _ _ _ _ _ _ _ _ _ _ _ _ _ _ _ _ _ _ (iblk0 V c 0 t) (iblk0 V c 1 t) (iblk0 V c 2 t) (iblk0 V c 3 t) (iblk0 V c 4 t) (sum0 V c t.val) (sq0 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of @main (custom_call 1): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: when the window is not fetched its block index
    has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: when the window is not fetched its block index
    has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: when the window is not fetched its block index
    has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: when the window is not fetched its block index
    has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: when the window is not fetched its block index
    has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: when the window is not fetched its block index
    has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: when the window is not fetched its block index
    has not moved, so the block kept from the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: when the window is not fetched its block index
    has not moved, so the block kept from the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: when the window is not fetched its block index
    has not moved, so the block kept from the point before is this point's. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out1_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r1_0, k1_pay1 (k1_pay2 (View.ld x0 r1_0) (View.ld x1 r1_1) (View.ld x2 r1_2) (View.ld x3 r1_1) (View.ld x4 r1_2)) (k1_pay3 (View.ld x6 r1_2)) (k1_pay4 (View.ld x7 r1_2)) (k1_pay5 (View.ld x8 r1_2)) (k1_pay6 (View.ld x5 r1_2))⟩]

/-- The one store is of the whole block, so it covers it. -/
theorem cover1_9 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 4000000 in
/-- The kernel body on whole staging memrefs, the inputs' at read contents `xW` and the output's at anything, runs to the
    continuation holding the inputs' as they were and the output's at `out1_9` of the inputs'. -/
theorem sound_kernel1 (c : Dev nD) (E : Set ℕ) (i : grid1.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__mlp_bn_kernel i arg1 harg1 arg2 harg2 arg3 harg3 arg4 harg4 arg5 harg5 arg6 harg6 arg7 harg7 arg8 harg8 arg9 harg9 arg10 harg10) K := by
  simp only [cc1__mlp_bn_kernel_eq_skeleton]; unfold cc1__mlp_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends: the generator register and the scoped rest go in, and come out -/

theorem hin1 (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp

theorem hout1 (c : Dev nD) : (dat1 V c).Φ (Fin.last cfg1.N) ⊢ (iprop(Pipeline.scopedRest spec1 c ∗ ∃ r, prngReg c r) : sProp 𝕄) := by
  rw [show (dat1 V c).Φ (Fin.last _) = Pipeline.ΦA spec1 c from rfl]; unfold Pipeline.ΦA
  iintro ⟨Hr, Hp⟩
  isplitl [Hr]; · iexact Hr
  iexact Hp

end Cert.Kernel.Hand

end
-- ==== Proof.K.R2.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried rows -/

/-- The row of column sums after the first `n` tiles: the zero row, then tile by tile the body's update. -/
def sum2 (c : Dev nD) : ℕ → Vec F S1x128 .f32
  | 0 => k2_pay4
  | n + 1 =>
    if h : n < cfg2.N then
      k2_pay7 (iblk2 V c 0 ⟨n, h⟩) (iblk2 V c 1 ⟨n, h⟩) (iblk2 V c 2 ⟨n, h⟩) (iblk2 V c 3 ⟨n, h⟩) (iblk2 V c 4 ⟨n, h⟩) (sum2 c n)
    else sum2 c n

/-- The row of column sums of squares after the first `n` tiles. -/
def sq2 (c : Dev nD) : ℕ → Vec F S1x128 .f32
  | 0 => k2_pay5
  | n + 1 =>
    if h : n < cfg2.N then
      k2_pay1 (k2_pay6 (iblk2 V c 0 ⟨n, h⟩) (iblk2 V c 1 ⟨n, h⟩) (iblk2 V c 2 ⟨n, h⟩) (iblk2 V c 3 ⟨n, h⟩) (iblk2 V c 4 ⟨n, h⟩)) (sq2 c n)
    else sq2 c n

/-- One more tile: the body's update of the sums by the tile at `t`. -/
theorem sum2_succ (c : Dev nD) (t : Fin cfg2.N) :
    sum2 V c (t.val + 1) = k2_pay7 (iblk2 V c 0 t) (iblk2 V c 1 t) (iblk2 V c 2 t) (iblk2 V c 3 t) (iblk2 V c 4 t) (sum2 V c t.val) := by
  rw [sum2, dif_pos t.isLt]

theorem sq2_succ (c : Dev nD) (t : Fin cfg2.N) :
    sq2 V c (t.val + 1) = k2_pay1 (k2_pay6 (iblk2 V c 0 t) (iblk2 V c 1 t) (iblk2 V c 2 t) (iblk2 V c 3 t) (iblk2 V c 4 t)) (sq2 V c t.val) := by
  rw [sq2, dif_pos t.isLt]

/-! ## The invariant carried between points -/

/-- Before point `t`: the two scratch rows hold the sums over the first `t` tiles (before the first point,
    anything: the body zeroes them there), beside every other scoped buffer and the generator register, untouched. -/
def Φ2 (c : Dev nD) (t : Fin (cfg2.N + 1)) : sProp 𝕄 :=
  iprop((∃ d, ⌜t.val ≠ 0 → d = sum2 V c t.val⌝ ∗ owns (c : Thread nD τ) (Memref.whole cc2_scratch0) fullShare d)
    ∗ (∃ d, ⌜t.val ≠ 0 → d = sq2 V c t.val⌝ ∗ owns (c : Thread nD τ) (Memref.whole cc2_scratch1) fullShare d)
    ∗ Pipeline.scopedRestBut (Ix := Unit) (Name := ℕ) (U := UR sig nD τ) (Lvl := ℕ) (Val := Elt F) spec2 c [cc2_scratch0, cc2_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (sum2 V c (t.val + 1))
    | ⟨6, _⟩ => k2_pay3 (sum2 V c (t.val + 1)) (sq2 V c (t.val + 1))
  Φ t := Φ2 V c t
  q _ := fullShare
  owed _ := 0

theorem A_eq2 (c : Dev nD) (w : Fin cfg2.W) : (dat2 V c).A w = V c (Pipeline.arrRef spec2 w) := by
  dsimp only [dat2]

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay2 (sum2 V c (t.val + 1)) := by dsimp only [dat2]
theorem after2_6 (c : Dev nD) (t : Fin cfg2.N) : (dat2 V c).after 6 t = k2_pay3 (sum2 V c (t.val + 1)) (sq2 V c (t.val + 1)) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem Φ_eq2 (c : Dev nD) (t : Fin (cfg2.N + 1)) : (dat2 V c).Φ t = Φ2 V c t := by dsimp only [dat2]

/-- Entering the region: the two scratch rows are carved out of the scoped rest, at whatever they hold. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [Φ_eq2, scopedRest2_split]; unfold Φ2
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout2 (c : Dev nD) : (dat2 V c).Φ (Fin.last cfg2.N) ⊢ (iprop(Pipeline.scopedRest (Ix := Unit) (Name := ℕ) (U := UR sig nD τ) (Lvl := ℕ) (Val := Elt F) spec2 c ∗ ∃ r, prngReg c r) : sProp 𝕄) := by
  rw [Φ_eq2, scopedRest2_split]; unfold Φ2
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond2_1 (i : grid2.Coords) : Prop := (Scalar.cmpi .ne (Scalar.extui (Scalar.cmpi .eq (BitVec.ofNat 32 (i 0).val) 0#32)) 0#32) = 1#1

/-- It holds at the first point only — decided over the grid. -/
theorem hcond2_1 : ∀ t : Fin cfg2.N, cond2_1 (grid2.coords t) ↔ t.val = 0 :=
  (by decide +kernel : ∀ t : Fin grid2.N, cond2_1 (grid2.coords t) ↔ t.val = 0)
/-- The second condition (forming the mean and the variance) holds at the last point only. -/
theorem hcond2_2 : ∀ t : Fin cfg2.N, k2_cond2 (grid2.coords t) = 1#1 ↔ t.val = 24 :=
  (by decide +kernel : ∀ t : Fin grid2.N, k2_cond2 (grid2.coords t) = 1#1 ↔ t.val = 24)
/-- The two output windows are idle (the body stores nothing into them) except at the last point. -/
theorem hidle2_5 : ∀ t : Fin cfg2.N, cfg2.idle 5 (cfg2.grid.coords t) = true ↔ t.val ≠ 24 :=
  (by decide +kernel : ∀ t : Fin grid2.N, idle2 5 (grid2.coords t) = true ↔ t.val ≠ 24)
theorem hidle2_6 : ∀ t : Fin cfg2.N, cfg2.idle 6 (cfg2.grid.coords t) = true ↔ t.val ≠ 24 :=
  (by decide +kernel : ∀ t : Fin grid2.N, idle2 6 (grid2.coords t) = true ↔ t.val ≠ 24)

theorem hflush2_5 (t : Fin cfg2.N) (h : t.val ≠ 24) : (cfg2.win 5).flush t = false :=
  Bool.eq_false_iff.mpr fun hf => by
    have h1 := (flush2_5 t).mp hf
    have hN : t.val < 25 := lt_of_lt_of_eq t.isLt (show cfg2.N = 25 from N_2)
    omega
theorem hflush2_6 (t : Fin cfg2.N) (h : t.val ≠ 24) : (cfg2.win 6).flush t = false :=
  Bool.eq_false_iff.mpr fun hf => by
    have h1 := (flush2_6 t).mp hf
    have hN : t.val < 25 := lt_of_lt_of_eq t.isLt (show cfg2.N = 25 from N_2)
    omega

/-! ## The body's triple, one per control case -/

set_option maxHeartbeats 2000000 in
/-- A middle point (neither condition holds): the two rows, at `s` and `q`, are updated by the tile; nothing else is stored. -/
theorem sound_kernel2_mid (c : Dev nD) (E : Set ℕ) (i : grid2.Coords) (hc1 : ¬ cond2_1 i) (hc2 : ¬ k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay7 x0 x1 x2 x3 x4 s)
            ∗ owns (c : Thread nD τ) arg9 fullShare (k2_pay1 (k2_pay6 x0 x1 x2 x3 x4) q)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel2_first (c : Dev nD) (E : Set ℕ) (i : grid2.Coords) (hc1 : cond2_1 i) (hc2 : ¬ k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay7 x0 x1 x2 x3 x4 k2_pay4)
            ∗ owns (c : Thread nD τ) arg9 fullShare (k2_pay1 (k2_pay6 x0 x1 x2 x3 x4) k2_pay5)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel2_last (c : Dev nD) (E : Set ℕ) (i : grid2.Coords) (hc1 : ¬ cond2_1 i) (hc2 : k2_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay2 (k2_pay7 x0 x1 x2 x3 x4 s))
            ∗ owns (c : Thread nD τ) arg7 fullShare (k2_pay3 (k2_pay7 x0 x1 x2 x3 x4 s) (k2_pay1 (k2_pay6 x0 x1 x2 x3 x4) q))
            ∗ owns (c : Thread nD τ) arg8 fullShare (k2_pay7 x0 x1 x2 x3 x4 s)
            ∗ owns (c : Thread nD τ) arg9 fullShare (k2_pay1 (k2_pay6 x0 x1 x2 x3 x4) q)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the two outputs' buffers as found wherever the point is idle for them. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t
    ∗ (dat2 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [Φ_eq2, Φ_eq2, show (dat2 V c).owesAt () t.succ = (dat2 V c).owesAt () t.castSucc from rfl,
    after2_0, after2_1, after2_2, after2_3, after2_4]
  have hN : t.val < 25 := lt_of_lt_of_eq t.isLt (show cfg2.N = 25 from N_2)
  have hsum : sum2 V c t.succ.val = k2_pay7 (iblk2 V c 0 t) (iblk2 V c 1 t) (iblk2 V c 2 t) (iblk2 V c 3 t) (iblk2 V c 4 t) (sum2 V c t.val) := by
    rw [Fin.val_succ]; exact sum2_succ V c t
  have hsq : sq2 V c t.succ.val = k2_pay1 (k2_pay6 (iblk2 V c 0 t) (iblk2 V c 1 t) (iblk2 V c 2 t) (iblk2 V c 3 t) (iblk2 V c 4 t)) (sq2 V c t.val) := by
    rw [Fin.val_succ]; exact sq2_succ V c t
  unfold Φ2
  by_cases hlast : t.val = 24
  · -- the last point: the rows are updated, then the mean and the variance are stored
    have h0 : t.val ≠ 0 := by omega
    rw [Cert.StatsLib.leavesExact_live _ 5 t (Bool.eq_false_iff.mpr fun h => (hidle2_5 t).mp h hlast),
      Cert.StatsLib.leavesExact_live _ 6 t (Bool.eq_false_iff.mpr fun h => (hidle2_6 t).mp h hlast),
      after2_5, after2_6, sum2_succ, sq2_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum2 V c t.val := hs h0
    have hq' : q = sq2 V c t.val := hq h0
    subst hs' hq'
    iapply (sound_kernel2_last c Set.univ (grid2.coords t) (fun h => h0 ((hcond2_1 t).mp h)) ((hcond2_2 t).mpr hlast)
      _ _ _ _ _ _ _ _ _ _ _ _ _ _ _ _ _ _ (iblk2 V c 0 t) (iblk2 V c 1 t) (iblk2 V c 2 t) (iblk2 V c 3 t) (iblk2 V c 4 t) (sum2 V c t.val) (sq2 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat2 V c).leavesExact_idle 5 t ((hidle2_5 t).mpr hlast) (hflush2_5 t hlast),
      (dat2 V c).leavesExact_idle 6 t ((hidle2_6 t).mpr hlast) (hflush2_6 t hlast)]
    by_cases h0 : t.val = 0
    · -- the first point: the rows are zeroed, then updated
      have e0 : sum2 V c t.val = k2_pay4 := by rw [h0]; rfl
      have e1 : sq2 V c t.val = k2_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel2_first c Set.univ (grid2.coords t) ((hcond2_1 t).mpr h0) (fun h => hlast ((hcond2_2 t).mp h))
        _ _ _ _ _ _ _ _ _ _ _ _ _ _ _ _ _ _ (iblk2 V c 0 t) (iblk2 V c 1 t) (iblk2 V c 2 t) (iblk2 V c 3 t) (iblk2 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum2 V c t.val := hs h0
      have hq' : q = sq2 V c t.val := hq h0
      subst hs' hq'
      iapply (sound_kernel2_mid c Set.univ (grid2.coords t) (fun h => h0 ((hcond2_1 t).mp h)) (fun h => hlast ((hcond2_2 t).mp h))
        _ _ _ _ _ _ _ _ _ _ _ _ _ _ _ _ _ _ (iblk2 V c 0 t) (iblk2 V c 1 t) (iblk2 V c 2 t) (iblk2 V c 3 t) (iblk2 V c 4 t) (sum2 V c t.val) (sq2 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of @main (custom_call 3): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: when the window is not fetched its block index
    has not moved, so the block kept from the point before is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: when the window is not fetched its block index
    has not moved, so the block kept from the point before is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: when the window is not fetched its block index
    has not moved, so the block kept from the point before is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: when the window is not fetched its block index
    has not moved, so the block kept from the point before is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: when the window is not fetched its block index
    has not moved, so the block kept from the point before is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: when the window is not fetched its block index
    has not moved, so the block kept from the point before is this point's. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: when the window is not fetched its block index
    has not moved, so the block kept from the point before is this point's. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: when the window is not fetched its block index
    has not moved, so the block kept from the point before is this point's. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: when the window is not fetched its block index
    has not moved, so the block kept from the point before is this point's. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer through its whole rectangle -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out3_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r3_0, k3_pay1 (k3_pay2 (View.ld x0 r3_0) (View.ld x1 r3_1) (View.ld x2 r3_2) (View.ld x3 r3_1) (View.ld x4 r3_2)) (k3_pay3 (View.ld x6 r3_2)) (k3_pay4 (View.ld x7 r3_2)) (k3_pay5 (View.ld x8 r3_2)) (k3_pay6 (View.ld x5 r3_2))⟩]

/-- The one store is of the whole block, so it covers it. -/
theorem cover3_9 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 4000000 in
/-- The kernel body on whole staging memrefs, the inputs' at read contents `xW` and the output's at anything, runs to the
    continuation holding the inputs' as they were and the output's at `out3_9` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__mlp_bn_kernel i arg1 harg1 arg2 harg2 arg3 harg3 arg4 harg4 arg5 harg5 arg6 harg6 arg7 harg7 arg8 harg8 arg9 harg9 arg10 harg10) K := by
  simp only [cc3__mlp_bn_kernel_eq_skeleton]; unfold cc3__mlp_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-! ## The pipeline's proof data -/

/-- The proof data of pipeline 3 on core `c`: the arrays as the region finds them (`V`); after the body at point `t`
    each input's buffer at its block and the output's at `out3_9` of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the two ends: the generator register and the scoped rest go in, and come out -/

theorem hin3 (c : Dev nD) : (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) : (dat3 V c).Φ (Fin.last cfg3.N) ⊢ (iprop(Pipeline.scopedRest spec3 c ∗ ∃ r, prngReg c r) : sProp 𝕄) := by
  rw [show (dat3 V c).Φ (Fin.last _) = Pipeline.ΦA spec3 c from rfl]; unfold Pipeline.ΦA
  iintro ⟨Hr, Hp⟩
  isplitl [Hr]; · iexact Hr
  iexact Hp

end Cert.Kernel.Hand

end
-- ==== Proof.K.R4.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two carried rows -/

/-- The row of column sums after the first `n` tiles: the zero row, then tile by tile the body's update. -/
def sum4 (c : Dev nD) : ℕ → Vec F S1x128 .f32
  | 0 => k4_pay4
  | n + 1 =>
    if h : n < cfg4.N then
      k4_pay7 (iblk4 V c 0 ⟨n, h⟩) (iblk4 V c 1 ⟨n, h⟩) (iblk4 V c 2 ⟨n, h⟩) (iblk4 V c 3 ⟨n, h⟩) (iblk4 V c 4 ⟨n, h⟩) (sum4 c n)
    else sum4 c n

/-- The row of column sums of squares after the first `n` tiles. -/
def sq4 (c : Dev nD) : ℕ → Vec F S1x128 .f32
  | 0 => k4_pay5
  | n + 1 =>
    if h : n < cfg4.N then
      k4_pay1 (k4_pay6 (iblk4 V c 0 ⟨n, h⟩) (iblk4 V c 1 ⟨n, h⟩) (iblk4 V c 2 ⟨n, h⟩) (iblk4 V c 3 ⟨n, h⟩) (iblk4 V c 4 ⟨n, h⟩)) (sq4 c n)
    else sq4 c n

/-- One more tile: the body's update of the sums by the tile at `t`. -/
theorem sum4_succ (c : Dev nD) (t : Fin cfg4.N) :
    sum4 V c (t.val + 1) = k4_pay7 (iblk4 V c 0 t) (iblk4 V c 1 t) (iblk4 V c 2 t) (iblk4 V c 3 t) (iblk4 V c 4 t) (sum4 V c t.val) := by
  rw [sum4, dif_pos t.isLt]

theorem sq4_succ (c : Dev nD) (t : Fin cfg4.N) :
    sq4 V c (t.val + 1) = k4_pay1 (k4_pay6 (iblk4 V c 0 t) (iblk4 V c 1 t) (iblk4 V c 2 t) (iblk4 V c 3 t) (iblk4 V c 4 t)) (sq4 V c t.val) := by
  rw [sq4, dif_pos t.isLt]

/-! ## The invariant carried between points -/

/-- Before point `t`: the two scratch rows hold the sums over the first `t` tiles (before the first point,
    anything: the body zeroes them there), beside every other scoped buffer and the generator register, untouched. -/
def Φ4 (c : Dev nD) (t : Fin (cfg4.N + 1)) : sProp 𝕄 :=
  iprop((∃ d, ⌜t.val ≠ 0 → d = sum4 V c t.val⌝ ∗ owns (c : Thread nD τ) (Memref.whole cc4_scratch0) fullShare d)
    ∗ (∃ d, ⌜t.val ≠ 0 → d = sq4 V c t.val⌝ ∗ owns (c : Thread nD τ) (Memref.whole cc4_scratch1) fullShare d)
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay2 (sum4 V c (t.val + 1))
    | ⟨6, _⟩ => k4_pay3 (sum4 V c (t.val + 1)) (sq4 V c (t.val + 1))
  Φ t := Φ4 V c t
  q _ := fullShare
  owed _ := 0

theorem A_eq4 (c : Dev nD) (w : Fin cfg4.W) : (dat4 V c).A w = V c (Pipeline.arrRef spec4 w) := by
  dsimp only [dat4]

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = k4_pay2 (sum4 V c (t.val + 1)) := by dsimp only [dat4]
theorem after4_6 (c : Dev nD) (t : Fin cfg4.N) : (dat4 V c).after 6 t = k4_pay3 (sum4 V c (t.val + 1)) (sq4 V c (t.val + 1)) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem Φ_eq4 (c : Dev nD) (t : Fin (cfg4.N + 1)) : (dat4 V c).Φ t = Φ4 V c t := by dsimp only [dat4]

/-- Entering the region: the two scratch rows are carved out of the scoped rest, at whatever they hold. -/
theorem hin4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 := by
  rw [Φ_eq4, scopedRest4_split]; unfold Φ4
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout4 (c : Dev nD) : (dat4 V c).Φ (Fin.last cfg4.N) ⊢ (iprop(Pipeline.scopedRest (Ix := Unit) (Name := ℕ) (U := UR sig nD τ) (Lvl := ℕ) (Val := Elt F) spec4 c ∗ ∃ r, prngReg c r) : sProp 𝕄) := by
  rw [Φ_eq4, scopedRest4_split]; unfold Φ4
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond4_1 (i : grid4.Coords) : Prop := (Scalar.cmpi .ne (Scalar.extui (Scalar.cmpi .eq (BitVec.ofNat 32 (i 0).val) 0#32)) 0#32) = 1#1

/-- It holds at the first point only — decided over the grid. -/
theorem hcond4_1 : ∀ t : Fin cfg4.N, cond4_1 (grid4.coords t) ↔ t.val = 0 :=
  (by decide +kernel : ∀ t : Fin grid4.N, cond4_1 (grid4.coords t) ↔ t.val = 0)
/-- The second condition (forming the mean and the variance) holds at the last point only. -/
theorem hcond4_2 : ∀ t : Fin cfg4.N, k4_cond2 (grid4.coords t) = 1#1 ↔ t.val = 24 :=
  (by decide +kernel : ∀ t : Fin grid4.N, k4_cond2 (grid4.coords t) = 1#1 ↔ t.val = 24)
/-- The two output windows are idle (the body stores nothing into them) except at the last point. -/
theorem hidle4_5 : ∀ t : Fin cfg4.N, cfg4.idle 5 (cfg4.grid.coords t) = true ↔ t.val ≠ 24 :=
  (by decide +kernel : ∀ t : Fin grid4.N, idle4 5 (grid4.coords t) = true ↔ t.val ≠ 24)
theorem hidle4_6 : ∀ t : Fin cfg4.N, cfg4.idle 6 (cfg4.grid.coords t) = true ↔ t.val ≠ 24 :=
  (by decide +kernel : ∀ t : Fin grid4.N, idle4 6 (grid4.coords t) = true ↔ t.val ≠ 24)

theorem hflush4_5 (t : Fin cfg4.N) (h : t.val ≠ 24) : (cfg4.win 5).flush t = false :=
  Bool.eq_false_iff.mpr fun hf => by
    have h1 := (flush4_5 t).mp hf
    have hN : t.val < 25 := lt_of_lt_of_eq t.isLt (show cfg4.N = 25 from N_4)
    omega
theorem hflush4_6 (t : Fin cfg4.N) (h : t.val ≠ 24) : (cfg4.win 6).flush t = false :=
  Bool.eq_false_iff.mpr fun hf => by
    have h1 := (flush4_6 t).mp hf
    have hN : t.val < 25 := lt_of_lt_of_eq t.isLt (show cfg4.N = 25 from N_4)
    omega

/-! ## The body's triple, one per control case -/

set_option maxHeartbeats 2000000 in
/-- A middle point (neither condition holds): the two rows, at `s` and `q`, are updated by the tile; nothing else is stored. -/
theorem sound_kernel4_mid (c : Dev nD) (E : Set ℕ) (i : grid4.Coords) (hc1 : ¬ cond4_1 i) (hc2 : ¬ k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k4_pay7 x0 x1 x2 x3 x4 s)
            ∗ owns (c : Thread nD τ) arg9 fullShare (k4_pay1 (k4_pay6 x0 x1 x2 x3 x4) q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel4_first (c : Dev nD) (E : Set ℕ) (i : grid4.Coords) (hc1 : cond4_1 i) (hc2 : ¬ k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k4_pay7 x0 x1 x2 x3 x4 k4_pay4)
            ∗ owns (c : Thread nD τ) arg9 fullShare (k4_pay1 (k4_pay6 x0 x1 x2 x3 x4) k4_pay5)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel4_last (c : Dev nD) (E : Set ℕ) (i : grid4.Coords) (hc1 : ¬ cond4_1 i) (hc2 : k4_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k4_pay2 (k4_pay7 x0 x1 x2 x3 x4 s))
            ∗ owns (c : Thread nD τ) arg7 fullShare (k4_pay3 (k4_pay7 x0 x1 x2 x3 x4 s) (k4_pay1 (k4_pay6 x0 x1 x2 x3 x4) q))
            ∗ owns (c : Thread nD τ) arg8 fullShare (k4_pay7 x0 x1 x2 x3 x4 s)
            ∗ owns (c : Thread nD τ) arg9 fullShare (k4_pay1 (k4_pay6 x0 x1 x2 x3 x4) q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8 arg9 harg9) K := by
  simp only [cc4__stats_kernel_eq_skeleton]; unfold cc4__stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns: the two outputs' buffers as found wherever the point is idle for them. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ (dat4 V c).leavesExact 5 t
    ∗ (dat4 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [Φ_eq4, Φ_eq4, show (dat4 V c).owesAt () t.succ = (dat4 V c).owesAt () t.castSucc from rfl,
    after4_0, after4_1, after4_2, after4_3, after4_4]
  have hN : t.val < 25 := lt_of_lt_of_eq t.isLt (show cfg4.N = 25 from N_4)
  have hsum : sum4 V c t.succ.val = k4_pay7 (iblk4 V c 0 t) (iblk4 V c 1 t) (iblk4 V c 2 t) (iblk4 V c 3 t) (iblk4 V c 4 t) (sum4 V c t.val) := by
    rw [Fin.val_succ]; exact sum4_succ V c t
  have hsq : sq4 V c t.succ.val = k4_pay1 (k4_pay6 (iblk4 V c 0 t) (iblk4 V c 1 t) (iblk4 V c 2 t) (iblk4 V c 3 t) (iblk4 V c 4 t)) (sq4 V c t.val) := by
    rw [Fin.val_succ]; exact sq4_succ V c t
  unfold Φ4
  by_cases hlast : t.val = 24
  · -- the last point: the rows are updated, then the mean and the variance are stored
    have h0 : t.val ≠ 0 := by omega
    rw [Cert.StatsLib.leavesExact_live _ 5 t (Bool.eq_false_iff.mpr fun h => (hidle4_5 t).mp h hlast),
      Cert.StatsLib.leavesExact_live _ 6 t (Bool.eq_false_iff.mpr fun h => (hidle4_6 t).mp h hlast),
      after4_5, after4_6, sum4_succ, sq4_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum4 V c t.val := hs h0
    have hq' : q = sq4 V c t.val := hq h0
    subst hs' hq'
    iapply (sound_kernel4_last c Set.univ (grid4.coords t) (fun h => h0 ((hcond4_1 t).mp h)) ((hcond4_2 t).mpr hlast)
      _ _ _ _ _ _ _ _ _ _ _ _ _ _ _ _ _ _ (iblk4 V c 0 t) (iblk4 V c 1 t) (iblk4 V c 2 t) (iblk4 V c 3 t) (iblk4 V c 4 t) (sum4 V c t.val) (sq4 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat4 V c).leavesExact_idle 5 t ((hidle4_5 t).mpr hlast) (hflush4_5 t hlast),
      (dat4 V c).leavesExact_idle 6 t ((hidle4_6 t).mpr hlast) (hflush4_6 t hlast)]
    by_cases h0 : t.val = 0
    · -- the first point: the rows are zeroed, then updated
      have e0 : sum4 V c t.val = k4_pay4 := by rw [h0]; rfl
      have e1 : sq4 V c t.val = k4_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel4_first c Set.univ (grid4.coords t) ((hcond4_1 t).mpr h0) (fun h => hlast ((hcond4_2 t).mp h))
        _ _ _ _ _ _ _ _ _ _ _ _ _ _ _ _ _ _ (iblk4 V c 0 t) (iblk4 V c 1 t) (iblk4 V c 2 t) (iblk4 V c 3 t) (iblk4 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum4 V c t.val := hs h0
      have hq' : q = sq4 V c t.val := hq h0
      subst hs' hq'
      iapply (sound_kernel4_mid c Set.univ (grid4.coords t) (fun h => h0 ((hcond4_1 t).mp h)) (fun h => hlast ((hcond4_2 t).mp h))
        _ _ _ _ _ _ _ _ _ _ _ _ _ _ _ _ _ _ (iblk4 V c 0 t) (iblk4 V c 1 t) (iblk4 V c 2 t) (iblk4 V c 3 t) (iblk4 V c 4 t) (sum4 V c t.val) (sq4 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5 of @main (custom_call 5): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: when the window is not fetched its block index
    has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: when the window is not fetched its block index
    has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: when the window is not fetched its block index
    has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: when the window is not fetched its block index
    has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: when the window is not fetched its block index
    has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s and whose body leaves the block in place: when the window is not fetched its block index
    has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s and whose body leaves the block in place: when the window is not fetched its block index
    has not moved, so the block kept from the point before is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof
    data whose array is `V`'s and whose body leaves the block in place: when the window is not fetched its block index
    has not moved, so the block kept from the point before is this point's. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof
    data whose array is `V`'s and whose body leaves the block in place: when the window is not fetched its block index
    has not moved, so the block kept from the point before is this point's. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer through its whole rectangle -/

abbrev r5_0 : Rect S2000x128 := Rect.unit (s := S2000x128) ![0, 0] S2000x128.size inb_S2000x128_S2000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out5_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r5_0, k5_pay1 (k5_pay2 (View.ld x0 r5_0) (View.ld x1 r5_1) (View.ld x2 r5_2) (View.ld x3 r5_1) (View.ld x4 r5_2)) (k5_pay3 (View.ld x6 r5_2)) (k5_pay4 (View.ld x7 r5_2)) (k5_pay5 (View.ld x8 r5_2)) (k5_pay6 (View.ld x5 r5_2))⟩]

/-- The one store is of the whole block, so it covers it. -/
theorem cover5_9 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 4000000 in
/-- The kernel body on whole staging memrefs, the inputs' at read contents `xW` and the output's at anything, runs to the
    continuation holding the inputs' as they were and the output's at `out5_9` of the inputs'. -/
theorem sound_kernel5 (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__mlp_bn_kernel i arg1 harg1 arg2 harg2 arg3 harg3 arg4 harg4 arg5 harg5 arg6 harg6 arg7 harg7 arg8 harg8 arg9 harg9 arg10 harg10) K := by
  simp only [cc5__mlp_bn_kernel_eq_skeleton]; unfold cc5__mlp_bn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them (`V`); after the body at point `t`
    each input's buffer at its block and the output's at `out5_9` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends: the generator register and the scoped rest go in, and come out -/

theorem hin5 (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 (c : Dev nD) : (dat5 V c).Φ (Fin.last cfg5.N) ⊢ (iprop(Pipeline.scopedRest spec5 c ∗ ∃ r, prngReg c r) : sProp 𝕄) := by
  rw [show (dat5 V c).Φ (Fin.last _) = Pipeline.ΦA spec5 c from rfl]; unfold Pipeline.ΦA
  iintro ⟨Hr, Hp⟩
  isplitl [Hr]; · iexact Hr
  iexact Hp

end Cert.Kernel.Hand

end
-- ==== Proof.K.R6.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132655_j36919538876779_2_alg».proof.Proof.KI.StatsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: column statistics of the layer's hidden features, accumulated over the 25 row tiles

Each grid point t holds one tile of 2000 rows of the aggregated features. The body applies Linear, ReLU, Linear,
ReLU to the tile and adds the tile's column sums, and the column sums of its squares, to two scratch rows that are
carried from point to point (zeroed at point 0). At the last point it turns the two rows into the column mean and
the clamped column variance and stores them to the two output windows, which are written back there only. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The two carried rows -/

/-- The row of column sums after the first `n` tiles: the zero row, then tile by tile the body's update. -/
def sum6 (c : Dev nD) : ℕ → Vec F S1x128 .f32
  | 0 => k6_pay4
  | n + 1 =>
    if h : n < cfg6.N then
      k6_pay7 (iblk6 V c 0 ⟨n, h⟩) (iblk6 V c 1 ⟨n, h⟩) (iblk6 V c 2 ⟨n, h⟩) (iblk6 V c 3 ⟨n, h⟩) (iblk6 V c 4 ⟨n, h⟩) (sum6 c n)
    else sum6 c n

/-- The row of column sums of squares after the first `n` tiles. -/
def sq6 (c : Dev nD) : ℕ → Vec F S1x128 .f32
  | 0 => k6_pay5
  | n + 1 =>
    if h : n < cfg6.N then
      k6_pay1 (k6_pay6 (iblk6 V c 0 ⟨n, h⟩) (iblk6 V c 1 ⟨n, h⟩) (iblk6 V c 2 ⟨n, h⟩) (iblk6 V c 3 ⟨n, h⟩) (iblk6 V c 4 ⟨n, h⟩)) (sq6 c n)
    else sq6 c n

/-- One more tile: the body's update of the sums by the tile at `t`. -/
theorem sum6_succ (c : Dev nD) (t : Fin cfg6.N) :
    sum6 V c (t.val + 1) = k6_pay7 (iblk6 V c 0 t) (iblk6 V c 1 t) (iblk6 V c 2 t) (iblk6 V c 3 t) (iblk6 V c 4 t) (sum6 V c t.val) := by
  rw [sum6, dif_pos t.isLt]

theorem sq6_succ (c : Dev nD) (t : Fin cfg6.N) :
    sq6 V c (t.val + 1) = k6_pay1 (k6_pay6 (iblk6 V c 0 t) (iblk6 V c 1 t) (iblk6 V c 2 t) (iblk6 V c 3 t) (iblk6 V c 4 t)) (sq6 V c t.val) := by
  rw [sq6, dif_pos t.isLt]

/-! ## The invariant carried between points -/

/-- Before point `t`: the two scratch rows hold the sums over the first `t` tiles (before the first point,
    anything: the body zeroes them there), beside every other scoped buffer and the generator register, untouched. -/
def Φ6 (c : Dev nD) (t : Fin (cfg6.N + 1)) : sProp 𝕄 :=
  iprop((∃ d, ⌜t.val ≠ 0 → d = sum6 V c t.val⌝ ∗ owns (c : Thread nD τ) (Memref.whole cc6_scratch0) fullShare d)
    ∗ (∃ d, ⌜t.val ≠ 0 → d = sq6 V c t.val⌝ ∗ owns (c : Thread nD τ) (Memref.whole cc6_scratch1) fullShare d)
    ∗ Pipeline.scopedRestBut (Ix := Unit) (Name := ℕ) (U := UR sig nD τ) (Lvl := ℕ) (Val := Elt F) spec6 c [cc6_scratch0, cc6_scratch1]
    ∗ ∃ r, prngReg c r)

/-! ## The pipeline's proof data -/

/-- The arrays as the region finds them; after the body each input's buffer at its block, the mean's buffer at the
    sums times 1/50000 and the variance's at the clamped difference (read by the pipeline at the last point only);
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay2 (sum6 V c (t.val + 1))
    | ⟨6, _⟩ => k6_pay3 (sum6 V c (t.val + 1)) (sq6 V c (t.val + 1))
  Φ t := Φ6 V c t
  q _ := fullShare
  owed _ := 0

theorem A_eq6 (c : Dev nD) (w : Fin cfg6.W) : (dat6 V c).A w = V c (Pipeline.arrRef spec6 w) := by
  dsimp only [dat6]

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = k6_pay2 (sum6 V c (t.val + 1)) := by dsimp only [dat6]
theorem after6_6 (c : Dev nD) (t : Fin cfg6.N) : (dat6 V c).after 6 t = k6_pay3 (sum6 V c (t.val + 1)) (sq6 V c (t.val + 1)) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

theorem Φ_eq6 (c : Dev nD) (t : Fin (cfg6.N + 1)) : (dat6 V c).Φ t = Φ6 V c t := by dsimp only [dat6]

/-- Entering the region: the two scratch rows are carved out of the scoped rest, at whatever they hold. -/
theorem hin6 (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [Φ_eq6, scopedRest6_split]; unfold Φ6
  simp only [owns_whole]
  iintro ⟨Hp, ⟨⟨%f0, H0⟩, ⟨%f1, H1⟩⟩, Hr⟩
  isplitl [H0]
  · iexists f0; isplitr; · ipureintro; exact fun h => absurd rfl h
    iexact H0
  isplitl [H1]
  · iexists f1; isplitr; · ipureintro; exact fun h => absurd rfl h
    iexact H1
  isplitl [Hr]; · iexact Hr
  iexact Hp

/-- Leaving it: they are put back. -/
theorem hout6 (c : Dev nD) : (dat6 V c).Φ (Fin.last cfg6.N) ⊢ (iprop(Pipeline.scopedRest (Ix := Unit) (Name := ℕ) (U := UR sig nD τ) (Lvl := ℕ) (Val := Elt F) spec6 c ∗ ∃ r, prngReg c r) : sProp 𝕄) := by
  rw [Φ_eq6, scopedRest6_split]; unfold Φ6
  simp only [owns_whole]
  iintro ⟨⟨%d0, -, H0⟩, ⟨%d1, -, H1⟩, Hr, Hp⟩
  isplitr [Hp]
  · isplitl [H0 H1]
    · isplitl [H0]
      · iexists d0; iexact H0
      · iexists d1; iexact H1
    · iexact Hr
  · iexact Hp

/-! ## The body's two conditions on the grid coordinate -/

/-- The condition under which the body zeroes the two carried rows (the first `scf.if`), from the grid coordinate. -/
abbrev cond6_1 (i : grid6.Coords) : Prop := (Scalar.cmpi .ne (Scalar.extui (Scalar.cmpi .eq (BitVec.ofNat 32 (i 0).val) 0#32)) 0#32) = 1#1

/-- It holds at the first point only — decided over the grid. -/
theorem hcond6_1 : ∀ t : Fin cfg6.N, cond6_1 (grid6.coords t) ↔ t.val = 0 :=
  (by decide +kernel : ∀ t : Fin grid6.N, cond6_1 (grid6.coords t) ↔ t.val = 0)
/-- The second condition (forming the mean and the variance) holds at the last point only. -/
theorem hcond6_2 : ∀ t : Fin cfg6.N, k6_cond2 (grid6.coords t) = 1#1 ↔ t.val = 24 :=
  (by decide +kernel : ∀ t : Fin grid6.N, k6_cond2 (grid6.coords t) = 1#1 ↔ t.val = 24)
/-- The two output windows are idle (the body stores nothing into them) except at the last point. -/
theorem hidle6_5 : ∀ t : Fin cfg6.N, cfg6.idle 5 (cfg6.grid.coords t) = true ↔ t.val ≠ 24 :=
  (by decide +kernel : ∀ t : Fin grid6.N, idle6 5 (grid6.coords t) = true ↔ t.val ≠ 24)
theorem hidle6_6 : ∀ t : Fin cfg6.N, cfg6.idle 6 (cfg6.grid.coords t) = true ↔ t.val ≠ 24 :=
  (by decide +kernel : ∀ t : Fin grid6.N, idle6 6 (grid6.coords t) = true ↔ t.val ≠ 24)

theorem hflush6_5 (t : Fin cfg6.N) (h : t.val ≠ 24) : (cfg6.win 5).flush t = false :=
  Bool.eq_false_iff.mpr fun hf => by
    have h1 := (flush6_5 t).mp hf
    have hN : t.val < 25 := lt_of_lt_of_eq t.isLt (show cfg6.N = 25 from N_6)
    omega
theorem hflush6_6 (t : Fin cfg6.N) (h : t.val ≠ 24) : (cfg6.win 6).flush t = false :=
  Bool.eq_false_iff.mpr fun hf => by
    have h1 := (flush6_6 t).mp hf
    have hN : t.val < 25 := lt_of_lt_of_eq t.isLt (show cfg6.N = 25 from N_6)
    omega

/-! ## The body's triple, one per control case -/

set_option maxHeartbeats 2000000 in
/-- A middle point (neither condition holds): the two rows, at `s` and `q`, are updated by the tile; nothing else is stored. -/
theorem sound_kernel6_mid (c : Dev nD) (E : Set ℕ) (i : grid6.Coords) (hc1 : ¬ cond6_1 i) (hc2 : ¬ k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k6_pay7 x0 x1 x2 x3 x4 s)
            ∗ owns (c : Thread nD τ) arg9 fullShare (k6_pay1 (k6_pay6 x0 x1 x2 x3 x4) q)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The first point: the two rows, at anything, are zeroed and then updated by the tile. -/
theorem sound_kernel6_first (c : Dev nD) (E : Set ℕ) (i : grid6.Coords) (hc1 : cond6_1 i) (hc2 : ¬ k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k6_pay7 x0 x1 x2 x3 x4 k6_pay4)
            ∗ owns (c : Thread nD τ) arg9 fullShare (k6_pay1 (k6_pay6 x0 x1 x2 x3 x4) k6_pay5)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0 hf1 hf2 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

set_option maxHeartbeats 2000000 in
/-- The last point: the two rows are updated by the tile, then the mean and the clamped variance are formed from them
    and stored to the two output buffers (which held anything). -/
theorem sound_kernel6_last (c : Dev nD) (E : Set ℕ) (i : grid6.Coords) (hc1 : ¬ cond6_1 i) (hc2 : k6_cond2 i = 1#1)
    (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S2000x128 .f32) (x1 : Vec F S128x128 .f32) (x2 : Vec F S1x128 .f32) (x3 : Vec F S128x128 .f32) (x4 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k6_pay2 (k6_pay7 x0 x1 x2 x3 x4 s))
            ∗ owns (c : Thread nD τ) arg7 fullShare (k6_pay3 (k6_pay7 x0 x1 x2 x3 x4 s) (k6_pay1 (k6_pay6 x0 x1 x2 x3 x4) q))
            ∗ owns (c : Thread nD τ) arg8 fullShare (k6_pay7 x0 x1 x2 x3 x4 s)
            ∗ owns (c : Thread nD τ) arg9 fullShare (k6_pay1 (k6_pay6 x0 x1 x2 x3 x4) q)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8 arg9 harg9) K := by
  simp only [cc6__stats_kernel_eq_skeleton]; unfold cc6__stats_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  subst hf0 hf1 hf2 hf3 hf4 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H7]
  · iexists _; isplitr
    swap; · iexact H7
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  isplitl [H8]
  · iexists _; isplitr
    swap; · iexact H8
    ipureintro
    refine (Cert.StatsLib.read_writes_cons_whole _ _ Cert.StatsLib.hz _ _ _).trans ?_
    sl_unfold_run_names
    simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]
  iexists _; isplitr
  swap; · iexact H9
  ipureintro
  refine (Cert.StatsLib.read_writes_cons_whole _ _ Cert.StatsLib.hz _ _ _).trans ?_
  sl_unfold_run_names
  simp only [Cert.StatsLib.readAt_whole (S := S2000x128) _ _ Cert.StatsLib.hz, Cert.StatsLib.readAt_whole (S := S128x128) _ _ Cert.StatsLib.hz, Cert.StatsLib.readAt_whole (S := S1x128) _ _ Cert.StatsLib.hz, View.readCov_cons_toLoadRect]

/-! ## The body obligation, at a generic point -/

/-- What the body is called with at point `t` (the library's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns: the two outputs' buffers as found wherever the point is idle for them. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ (dat6 V c).leavesExact 5 t
    ∗ (dat6 V c).leavesExact 6 t)

set_option maxHeartbeats 2000000 in
/-- The body at any point, by the point's control case: first, middle or last. The inputs' buffers hold their blocks;
    the two carried rows hold the sums over the tiles before (at the first point anything, and the body zeroes them);
    the body leaves them at the sums including this tile, which is the invariant at the next point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [Φ_eq6, Φ_eq6, show (dat6 V c).owesAt () t.succ = (dat6 V c).owesAt () t.castSucc from rfl,
    after6_0, after6_1, after6_2, after6_3, after6_4]
  have hN : t.val < 25 := lt_of_lt_of_eq t.isLt (show cfg6.N = 25 from N_6)
  have hsum : sum6 V c t.succ.val = k6_pay7 (iblk6 V c 0 t) (iblk6 V c 1 t) (iblk6 V c 2 t) (iblk6 V c 3 t) (iblk6 V c 4 t) (sum6 V c t.val) := by
    rw [Fin.val_succ]; exact sum6_succ V c t
  have hsq : sq6 V c t.succ.val = k6_pay1 (k6_pay6 (iblk6 V c 0 t) (iblk6 V c 1 t) (iblk6 V c 2 t) (iblk6 V c 3 t) (iblk6 V c 4 t)) (sq6 V c t.val) := by
    rw [Fin.val_succ]; exact sq6_succ V c t
  unfold Φ6
  by_cases hlast : t.val = 24
  · -- the last point: the rows are updated, then the mean and the variance are stored
    have h0 : t.val ≠ 0 := by omega
    rw [Cert.StatsLib.leavesExact_live _ 5 t (Bool.eq_false_iff.mpr fun h => (hidle6_5 t).mp h hlast),
      Cert.StatsLib.leavesExact_live _ 6 t (Bool.eq_false_iff.mpr fun h => (hidle6_6 t).mp h hlast),
      after6_5, after6_6, sum6_succ, sq6_succ]
    iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, ⟨%d5, H5⟩, ⟨%d6, H6⟩⟩
    have hs' : s = sum6 V c t.val := hs h0
    have hq' : q = sq6 V c t.val := hq h0
    subst hs' hq'
    iapply (sound_kernel6_last c Set.univ (grid6.coords t) (fun h => h0 ((hcond6_1 t).mp h)) ((hcond6_2 t).mpr hlast)
      _ _ _ _ _ _ _ _ _ _ _ _ _ _ _ _ _ _ (iblk6 V c 0 t) (iblk6 V c 1 t) (iblk6 V c 2 t) (iblk6 V c 3 t) (iblk6 V c 4 t) (sum6 V c t.val) (sq6 V c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    isplitl [Hq]; · iexact Hq
    iintro ⟨H0, H1, H2, H3, H4, H5, H6, Hs, Hq⟩
    isplitl [Hs Hq Hrest Hp]
    · isplitl [Hs]
      · iexists _; isplitr
        swap; · iexact Hs
        ipureintro; exact fun _ => hsum.symm
      isplitl [Hq]
      · iexists _; isplitr
        swap; · iexact Hq
        ipureintro; exact fun _ => hsq.symm
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [(dat6 V c).leavesExact_idle 5 t ((hidle6_5 t).mpr hlast) (hflush6_5 t hlast),
      (dat6 V c).leavesExact_idle 6 t ((hidle6_6 t).mpr hlast) (hflush6_6 t hlast)]
    by_cases h0 : t.val = 0
    · -- the first point: the rows are zeroed, then updated
      have e0 : sum6 V c t.val = k6_pay4 := by rw [h0]; rfl
      have e1 : sq6 V c t.val = k6_pay5 := by rw [h0]; rfl
      rw [e0] at hsum; rw [e1] at hsq
      iintro ⟨⟨⟨%s, -, Hs⟩, ⟨%q, -, Hq⟩, Hrest, Hp⟩, Ho, ⟨%d0, H0⟩, ⟨%d1, H1⟩, ⟨%d2, H2⟩, ⟨%d3, H3⟩, ⟨%d4, H4⟩, H5, H6⟩
      iapply (sound_kernel6_first c Set.univ (grid6.coords t) ((hcond6_1 t).mpr h0) (fun h => hlast ((hcond6_2 t).mp h))
        _ _ _ _ _ _ _ _ _ _ _ _ _ _ _ _ _ _ (iblk6 V c 0 t) (iblk6 V c 1 t) (iblk6 V c 2 t) (iblk6 V c 3 t) (iblk6 V c 4 t) _)
      isplitl [H0]; · iexact H0
      isplitl [H1]; · iexact H1
      isplitl [H2]; · iexact H2
      isplitl [H3]; · iexact H3
      isplitl [H4]; · iexact H4
      isplitl [Hs]; · iexists _; iexact Hs
      isplitl [Hq]; · iexists _; iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the rows are updated
      iintro ⟨⟨⟨%s, %hs, Hs⟩, ⟨%q, %hq, Hq⟩, Hrest, Hp⟩, Ho, ⟨%d0, H0⟩, ⟨%d1, H1⟩, ⟨%d2, H2⟩, ⟨%d3, H3⟩, ⟨%d4, H4⟩, H5, H6⟩
      have hs' : s = sum6 V c t.val := hs h0
      have hq' : q = sq6 V c t.val := hq h0
      subst hs' hq'
      iapply (sound_kernel6_mid c Set.univ (grid6.coords t) (fun h => h0 ((hcond6_1 t).mp h)) (fun h => hlast ((hcond6_2 t).mp h))
        _ _ _ _ _ _ _ _ _ _ _ _ _ _ _ _ _ _ (iblk6 V c 0 t) (iblk6 V c 1 t) (iblk6 V c 2 t) (iblk6 V c 3 t) (iblk6 V c 4 t) (sum6 V c t.val) (sq6 V c t.val) _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hrest Hp]
      · isplitl [Hs]
        · iexists _; isplitr
          swap; · iexact Hs
          ipureintro; exact fun _ => hsum.symm
        isplitl [Hq]
        · iexists _; isplitr
          swap; · iexact Hq
          ipureintro; exact fun _ => hsq.symm
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/-
  Region 7 of @main (custom_call 7): the row-wise Linear, ReLU, Linear, ReLU followed by the column normalization
  and the affine map, one block of 2000 rows per grid point. Ten windows: the aggregated features in blocks of 2000
  rows (0), the two weight matrices (1, 3), the two biases (2, 4), the column mean and variance (5, 6), the scale and
  the shift (7, 8), each whole at every point, and the output in blocks of 2000 rows (9). The body reads the nine inputs
  and stores one whole block; what it leaves in the output block is a closed function of the nine input blocks.
  Stated at the contents `V` the region is entered with.
-/
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: when the window is not fetched its block index
    has not moved, so the block kept from the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: when the window is not fetched its block index
    has not moved, so the block kept from the point before is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: when the window is not fetched its block index
    has not moved, so the block kept from the point before is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s and whose body leaves the block in place: when the window is not fetched its block index
    has not moved, so the block kept from the point before is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s and whose body leaves the block in place: when the window is not fetched its block index
    has not moved, so the block kept from the point before is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s and whose body leaves the block in place: when the window is not fetched its block index
    has not moved, so the block kept from the point before is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s and whose body leaves the block in place: when the window is not fetched its block index
    has not moved, so the block kept from the point before is this point's. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof
    data whose array is `V`'s and whose body leaves the block in place: when the window is not fetched its block index
    has not moved, so the block kept from the point before is this point's. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof
    data whose array is `V`'s and whose body leaves the block in place: when the window is not fetched its block index
    has not moved, so the block kept from the point before is this point's. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer through its whole rectangle -/

abbrev r7_0 : Rect S2000x128 := Rect.unit (s := S2000x128) ![0, 0] S2000x128.size inb_S2000x128_S2000x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0

/-! ## What the body leaves in the output window's buffer -/

/-- Window 9's staging buffer after the body, from the nine input blocks: its one store, of the whole block, whose payload
    is ((relu (relu (x0 · x1 + x2) · x3 + x4) − x5) * rsqrt (x6 + eps)) * x7 + x8, rows broadcast over the 2000 rows. -/
def out7_9 (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) : Vec F S2000x128 .f32 :=
  View.canon [⟨r7_0, k7_pay1 (k7_pay2 (View.ld x0 r7_0) (View.ld x1 r7_1) (View.ld x2 r7_2) (View.ld x3 r7_1) (View.ld x4 r7_2)) (k7_pay3 (View.ld x6 r7_2)) (k7_pay4 (View.ld x7 r7_2)) (k7_pay5 (View.ld x8 r7_2)) (k7_pay6 (View.ld x5 r7_2))⟩]

/-- The one store is of the whole block, so it covers it. -/
theorem cover7_9 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 4000000 in
/-- The kernel body on whole staging memrefs, the inputs' at read contents `xW` and the output's at anything, runs to the
    continuation holding the inputs' as they were and the output's at `out7_9` of the inputs'. -/
theorem sound_kernel7 (c : Dev nD) (E : Set ℕ) (i : grid7.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S128x128 .f32) (x2 : Vec F S1x128 .f32) (x3 : Vec F S128x128 .f32) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8)) -∗ K ⟨⟩))
      ⊢ wp frame (wpE (defs₀ (F := F)) Variants.none c none) E (cc7__mlp_bn_kernel i arg1 harg1 arg2 harg2 arg3 harg3 arg4 harg4 arg5 harg5 arg6 harg6 arg7 harg7 arg8 harg8 arg9 harg9 arg10 harg10) K := by
  simp only [cc7__mlp_bn_kernel_eq_skeleton]; unfold cc7__mlp_bn_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover7_9 _)

/-! ## The pipeline's proof data -/

/-- The proof data of pipeline 7 on core `c`: the arrays as the region finds them (`V`); after the body at point `t`
    each input's buffer at its block and the output's at `out7_9` of the input blocks; the invariant is the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

/-- The body at any point: the inputs' memrefs hold their blocks, so the body's triple applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the two ends: the generator register and the scoped rest go in, and come out -/

theorem hin7 (c : Dev nD) : (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp

theorem hout7 (c : Dev nD) : (dat7 V c).Φ (Fin.last cfg7.N) ⊢ (iprop(Pipeline.scopedRest spec7 c ∗ ∃ r, prngReg c r) : sProp 𝕄) := by
  rw [show (dat7 V c).Φ (Fin.last _) = Pipeline.ΦA spec7 c from rfl]; unfold Pipeline.ΦA
  iintro ⟨Hr, Hp⟩
  isplitl [Hr]; · iexact Hr
  iexact Hp

end Cert.Kernel.Hand

end
-- ==== Proof.K.R8.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8 of @main: the projection kernel, at the contents `V` the region is entered with

The grid has one point. Windows 0, 1, 2 are the inputs g [256,128], w [128,128], b [1,128], each its whole array;
window 3 is the output [256,128]. The body loads the three inputs whole, loads the output buffer (a value it never
uses) and stores  max (g · w + b) 0  over the whole output buffer. So after the body every input's staging buffer
holds its block unchanged and the output's holds that one store, which covers it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The same for input window 2. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S256x128 := Rect.unit (s := S256x128) ![0, 0] S256x128.size inb_S256x128_S256x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in the output window's buffer -/

/-- Window 3's staging buffer after the body, from the input windows' blocks: its one store. -/
def out8_3 (x0 : Vec F S256x128 .f32) (x1 : Vec F S128x128 .f32) (x2 : Vec F S1x128 .f32) : Vec F S256x128 .f32 :=
  View.canon [⟨r8_0, k8_pay1 (View.ld x0 r8_0) (View.ld x1 r8_1) (View.ld x2 r8_2)⟩]

/-- The store is of the whole buffer, so it covers it. -/
theorem cover8_3 (p0 : Vec F S256x128 .f32) (y : S256x128.Idx) :
    ∃ pc ∈ ([⟨r8_0, p0⟩] : List (View.Piece (Elt F) S256x128 .f32)), y ∈ pc.1.set :=
  View.cover_of_tiled [⟨r8_0, p0⟩] S256x128.size (by rfl) y

/-! ## The body's triple -/

set_option maxHeartbeats 1000000 in
/-- The kernel body on whole staging memrefs, the inputs' at contents `x0 x1 x2` and the output's at anything, runs to
    the continuation holding the inputs' as they were and the output's at `out8_3` of the inputs'. -/
theorem sound_kernel8 (c : Dev nD) (E : Set ℕ) (i : grid8.Coords) (arg1 : Memref sig .tc .vmem S256x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S256x128 .f32) (harg4 : arg4.IsWhole)
    (x0 : Vec F S256x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__proj_kernel i arg1 harg1 arg2 harg2 arg3 harg3 arg4 harg4) K := by
  simp only [cc8__proj_kernel_eq_skeleton]; unfold cc8__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body each input's
    buffer at its block and the output's at `out8_3` of the input blocks; the invariant the scoped rest and the generator
    register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the invariant and out of it -/

/-- Entering: the generator register and the scoped rest make the invariant at point 0. -/
theorem hin8 (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem hout8 (c : Dev nD) : (dat8 V c).Φ (Fin.last cfg8.N) ⊢ (iprop(Pipeline.scopedRest spec8 c ∗ ∃ r, prngReg c r) : sProp 𝕄) := by
  rw [show (dat8 V c).Φ (Fin.last _) = Pipeline.ΦA spec8 c from rfl]; unfold Pipeline.ΦA
  iintro ⟨Hr, Hp⟩
  isplitl [Hr]; · iexact Hr
  iexact Hp

end Cert.Kernel.Hand

end
-- ==== Proof.K.RunW.lean ====
import proofs.«132655_j36919538876779_2_alg».proof.Proof.Gen.Kernel.Launch
import proofs.«132655_j36919538876779_2_alg».proof.Proof.Gen.Kernel.Skeleton
import proofs.«132655_j36919538876779_2_alg».proof.Proof.Gen.Kernel.Points
import proofs.«132655_j36919538876779_2_alg».proof.Proof.Gen.Kernel.Regions
import proofs.«132655_j36919538876779_2_alg».proof.Proof.K.R0
import proofs.«132655_j36919538876779_2_alg».proof.Proof.K.R1
import proofs.«132655_j36919538876779_2_alg».proof.Proof.K.R2
import proofs.«132655_j36919538876779_2_alg».proof.Proof.K.R3
import proofs.«132655_j36919538876779_2_alg».proof.Proof.K.R4
import proofs.«132655_j36919538876779_2_alg».proof.Proof.K.R5
import proofs.«132655_j36919538876779_2_alg».proof.Proof.K.R6
import proofs.«132655_j36919538876779_2_alg».proof.Proof.K.R7
import proofs.«132655_j36919538876779_2_alg».proof.Proof.K.R8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: the buffer contents at every boundary between its eighteen segments

@main is nine host stretches, each followed by a kernel region. The contents of core `c`'s buffers are followed
from the launch memory: a host stretch applies its operations (`StableHlo.after`); a region leaves each of its
windows' arrays at what its write-backs leave (`Dat.arrAt … N`) and every other buffer as it found it. No stretch
and no region writes an argument, so each argument's buffer reads back to its launch contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
theorem W1_def (c : Dev nD) : W1 m ρ c = StableHlo.after hostOps0 (W0 m ρ c) := rfl
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves alone every buffer none of its operations writes. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- After `hostOps1` (region 1's entry). -/
abbrev W3 : Dev nD → Valuation τ sig (Elt F) := fun c => StableHlo.after hostOps1 (W2 m ρ c)
theorem W3_def (c : Dev nD) : W3 m ρ c = StableHlo.after hostOps1 (W2 m ρ c) := rfl
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves alone every buffer none of its operations writes. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- After `hostOps2` (region 2's entry). -/
abbrev W5 : Dev nD → Valuation τ sig (Elt F) := fun c => StableHlo.after hostOps2 (W4 m ρ c)
theorem W5_def (c : Dev nD) : W5 m ρ c = StableHlo.after hostOps2 (W4 m ρ c) := rfl
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves alone every buffer none of its operations writes. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-- After `hostOps3` (region 3's entry). -/
abbrev W7 : Dev nD → Valuation τ sig (Elt F) := fun c => StableHlo.after hostOps3 (W6 m ρ c)
theorem W7_def (c : Dev nD) : W7 m ρ c = StableHlo.after hostOps3 (W6 m ρ c) := rfl
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves alone every buffer none of its operations writes. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-- After `hostOps4` (region 4's entry). -/
abbrev W9 : Dev nD → Valuation τ sig (Elt F) := fun c => StableHlo.after hostOps4 (W8 m ρ c)
theorem W9_def (c : Dev nD) : W9 m ρ c = StableHlo.after hostOps4 (W8 m ρ c) := rfl
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch leaves alone every buffer none of its operations writes. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

/-- After `hostOps5` (region 5's entry). -/
abbrev W11 : Dev nD → Valuation τ sig (Elt F) := fun c => StableHlo.after hostOps5 (W10 m ρ c)
theorem W11_def (c : Dev nD) : W11 m ρ c = StableHlo.after hostOps5 (W10 m ρ c) := rfl
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch leaves alone every buffer none of its operations writes. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h

/-- After `hostOps6` (region 6's entry). -/
abbrev W13 : Dev nD → Valuation τ sig (Elt F) := fun c => StableHlo.after hostOps6 (W12 m ρ c)
theorem W13_def (c : Dev nD) : W13 m ρ c = StableHlo.after hostOps6 (W12 m ρ c) := rfl
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A host stretch leaves alone every buffer none of its operations writes. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h

/-- After `hostOps7` (region 7's entry). -/
abbrev W15 : Dev nD → Valuation τ sig (Elt F) := fun c => StableHlo.after hostOps7 (W14 m ρ c)
theorem W15_def (c : Dev nD) : W15 m ρ c = StableHlo.after hostOps7 (W14 m ρ c) := rfl
/-- The same read at the TensorCore's references (what region 7's proof data take). -/
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A host stretch leaves alone every buffer none of its operations writes. -/
theorem W15_of (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h

/-- After `hostOps8` (region 8's entry). -/
abbrev W17 : Dev nD → Valuation τ sig (Elt F) := fun c => StableHlo.after hostOps8 (W16 m ρ c)
theorem W17_def (c : Dev nD) : W17 m ρ c = StableHlo.after hostOps8 (W16 m ρ c) := rfl
/-- The same read at the TensorCore's references (what region 8's proof data take). -/
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A host stretch leaves alone every buffer none of its operations writes. -/
theorem W17_of (c : Dev nD) (r : Ref sig .tc) (h : r ∉ (hostOps8_W : List (Ref sig .tc))) :
    W17 m ρ c (Proc.devRef .tc r) = W16 m ρ c (Proc.devRef .tc r) :=
  StableHlo.after_of_writes_sub hostOps8 _ hostOps8_writes h

/-! ## The arguments end as launched

No host operation writes an argument and no region has one as an output window (region 8 reads `main_arg9` through
an input window, whose array the pipeline leaves as entered), so the fold at an argument's buffer walks back to the
launch memory. -/

theorem W18_main_arg0 (c : Dev nD) : W18 m ρ c (Proc.devRef .tc main_arg0) = m ((c : Thread nD τ).loc main_arg0) :=
  (W18_of_ne m ρ c main_arg0 (by decide)).trans <|
    (W17_of m ρ c main_arg0 (by decide)).trans <|
    (W16_of_ne m ρ c main_arg0 (by decide)).trans <|
    (W15_of m ρ c main_arg0 (by decide)).trans <|
    (W14_of_ne m ρ c main_arg0 (by decide)).trans <|
    (W13_of m ρ c main_arg0 (by decide)).trans <|
    (W12_of_ne m ρ c main_arg0 (by decide)).trans <|
    (W11_of m ρ c main_arg0 (by decide)).trans <|
    (W10_of_ne m ρ c main_arg0 (by decide)).trans <|
    (W9_of m ρ c main_arg0 (by decide)).trans <|
    (W8_of_ne m ρ c main_arg0 (by decide)).trans <|
    (W7_of m ρ c main_arg0 (by decide)).trans <|
    (W6_of_ne m ρ c main_arg0 (by decide)).trans <|
    (W5_of m ρ c main_arg0 (by decide)).trans <|
    (W4_of_ne m ρ c main_arg0 (by decide)).trans <|
    (W3_of m ρ c main_arg0 (by decide)).trans <|
    (W2_of_ne m ρ c main_arg0 (by decide)).trans <| (W1_of m ρ c main_arg0 (by decide))

theorem W18_main_arg1 (c : Dev nD) : W18 m ρ c (Proc.devRef .tc main_arg1) = m ((c : Thread nD τ).loc main_arg1) :=
  (W18_of_ne m ρ c main_arg1 (by decide)).trans <|
    (W17_of m ρ c main_arg1 (by decide)).trans <|
    (W16_of_ne m ρ c main_arg1 (by decide)).trans <|
    (W15_of m ρ c main_arg1 (by decide)).trans <|
    (W14_of_ne m ρ c main_arg1 (by decide)).trans <|
    (W13_of m ρ c main_arg1 (by decide)).trans <|
    (W12_of_ne m ρ c main_arg1 (by decide)).trans <|
    (W11_of m ρ c main_arg1 (by decide)).trans <|
    (W10_of_ne m ρ c main_arg1 (by decide)).trans <|
    (W9_of m ρ c main_arg1 (by decide)).trans <|
    (W8_of_ne m ρ c main_arg1 (by decide)).trans <|
    (W7_of m ρ c main_arg1 (by decide)).trans <|
    (W6_of_ne m ρ c main_arg1 (by decide)).trans <|
    (W5_of m ρ c main_arg1 (by decide)).trans <|
    (W4_of_ne m ρ c main_arg1 (by decide)).trans <|
    (W3_of m ρ c main_arg1 (by decide)).trans <|
    (W2_of_ne m ρ c main_arg1 (by decide)).trans <| (W1_of m ρ c main_arg1 (by decide))

theorem W18_main_arg2 (c : Dev nD) : W18 m ρ c (Proc.devRef .tc main_arg2) = m ((c : Thread nD τ).loc main_arg2) :=
  (W18_of_ne m ρ c main_arg2 (by decide)).trans <|
    (W17_of m ρ c main_arg2 (by decide)).trans <|
    (W16_of_ne m ρ c main_arg2 (by decide)).trans <|
    (W15_of m ρ c main_arg2 (by decide)).trans <|
    (W14_of_ne m ρ c main_arg2 (by decide)).trans <|
    (W13_of m ρ c main_arg2 (by decide)).trans <|
    (W12_of_ne m ρ c main_arg2 (by decide)).trans <|
    (W11_of m ρ c main_arg2 (by decide)).trans <|
    (W10_of_ne m ρ c main_arg2 (by decide)).trans <|
    (W9_of m ρ c main_arg2 (by decide)).trans <|
    (W8_of_ne m ρ c main_arg2 (by decide)).trans <|
    (W7_of m ρ c main_arg2 (by decide)).trans <|
    (W6_of_ne m ρ c main_arg2 (by decide)).trans <|
    (W5_of m ρ c main_arg2 (by decide)).trans <|
    (W4_of_ne m ρ c main_arg2 (by decide)).trans <|
    (W3_of m ρ c main_arg2 (by decide)).trans <|
    (W2_of_ne m ρ c main_arg2 (by decide)).trans <| (W1_of m ρ c main_arg2 (by decide))

theorem W18_main_arg3 (c : Dev nD) : W18 m ρ c (Proc.devRef .tc main_arg3) = m ((c : Thread nD τ).loc main_arg3) :=
  (W18_of_ne m ρ c main_arg3 (by decide)).trans <|
    (W17_of m ρ c main_arg3 (by decide)).trans <|
    (W16_of_ne m ρ c main_arg3 (by decide)).trans <|
    (W15_of m ρ c main_arg3 (by decide)).trans <|
    (W14_of_ne m ρ c main_arg3 (by decide)).trans <|
    (W13_of m ρ c main_arg3 (by decide)).trans <|
    (W12_of_ne m ρ c main_arg3 (by decide)).trans <|
    (W11_of m ρ c main_arg3 (by decide)).trans <|
    (W10_of_ne m ρ c main_arg3 (by decide)).trans <|
    (W9_of m ρ c main_arg3 (by decide)).trans <|
    (W8_of_ne m ρ c main_arg3 (by decide)).trans <|
    (W7_of m ρ c main_arg3 (by decide)).trans <|
    (W6_of_ne m ρ c main_arg3 (by decide)).trans <|
    (W5_of m ρ c main_arg3 (by decide)).trans <|
    (W4_of_ne m ρ c main_arg3 (by decide)).trans <|
    (W3_of m ρ c main_arg3 (by decide)).trans <|
    (W2_of_ne m ρ c main_arg3 (by decide)).trans <| (W1_of m ρ c main_arg3 (by decide))

theorem W18_main_arg4 (c : Dev nD) : W18 m ρ c (Proc.devRef .tc main_arg4) = m ((c : Thread nD τ).loc main_arg4) :=
  (W18_of_ne m ρ c main_arg4 (by decide)).trans <|
    (W17_of m ρ c main_arg4 (by decide)).trans <|
    (W16_of_ne m ρ c main_arg4 (by decide)).trans <|
    (W15_of m ρ c main_arg4 (by decide)).trans <|
    (W14_of_ne m ρ c main_arg4 (by decide)).trans <|
    (W13_of m ρ c main_arg4 (by decide)).trans <|
    (W12_of_ne m ρ c main_arg4 (by decide)).trans <|
    (W11_of m ρ c main_arg4 (by decide)).trans <|
    (W10_of_ne m ρ c main_arg4 (by decide)).trans <|
    (W9_of m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <| (W1_of m ρ c main_arg4 (by decide))

theorem W18_main_arg5 (c : Dev nD) : W18 m ρ c (Proc.devRef .tc main_arg5) = m ((c : Thread nD τ).loc main_arg5) :=
  (W18_of_ne m ρ c main_arg5 (by decide)).trans <|
    (W17_of m ρ c main_arg5 (by decide)).trans <|
    (W16_of_ne m ρ c main_arg5 (by decide)).trans <|
    (W15_of m ρ c main_arg5 (by decide)).trans <|
    (W14_of_ne m ρ c main_arg5 (by decide)).trans <|
    (W13_of m ρ c main_arg5 (by decide)).trans <|
    (W12_of_ne m ρ c main_arg5 (by decide)).trans <|
    (W11_of m ρ c main_arg5 (by decide)).trans <|
    (W10_of_ne m ρ c main_arg5 (by decide)).trans <|
    (W9_of m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <| (W1_of m ρ c main_arg5 (by decide))

theorem W18_main_arg6 (c : Dev nD) : W18 m ρ c (Proc.devRef .tc main_arg6) = m ((c : Thread nD τ).loc main_arg6) :=
  (W18_of_ne m ρ c main_arg6 (by decide)).trans <|
    (W17_of m ρ c main_arg6 (by decide)).trans <|
    (W16_of_ne m ρ c main_arg6 (by decide)).trans <|
    (W15_of m ρ c main_arg6 (by decide)).trans <|
    (W14_of_ne m ρ c main_arg6 (by decide)).trans <|
    (W13_of m ρ c main_arg6 (by decide)).trans <|
    (W12_of_ne m ρ c main_arg6 (by decide)).trans <|
    (W11_of m ρ c main_arg6 (by decide)).trans <|
    (W10_of_ne m ρ c main_arg6 (by decide)).trans <|
    (W9_of m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <| (W1_of m ρ c main_arg6 (by decide))

theorem W18_main_arg7 (c : Dev nD) : W18 m ρ c (Proc.devRef .tc main_arg7) = m ((c : Thread nD τ).loc main_arg7) :=
  (W18_of_ne m ρ c main_arg7 (by decide)).trans <|
    (W17_of m ρ c main_arg7 (by decide)).trans <|
    (W16_of_ne m ρ c main_arg7 (by decide)).trans <|
    (W15_of m ρ c main_arg7 (by decide)).trans <|
    (W14_of_ne m ρ c main_arg7 (by decide)).trans <|
    (W13_of m ρ c main_arg7 (by decide)).trans <|
    (W12_of_ne m ρ c main_arg7 (by decide)).trans <|
    (W11_of m ρ c main_arg7 (by decide)).trans <|
    (W10_of_ne m ρ c main_arg7 (by decide)).trans <|
    (W9_of m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <| (W1_of m ρ c main_arg7 (by decide))

theorem W18_main_arg8 (c : Dev nD) : W18 m ρ c (Proc.devRef .tc main_arg8) = m ((c : Thread nD τ).loc main_arg8) :=
  (W18_of_ne m ρ c main_arg8 (by decide)).trans <|
    (W17_of m ρ c main_arg8 (by decide)).trans <|
    (W16_of_ne m ρ c main_arg8 (by decide)).trans <|
    (W15_of m ρ c main_arg8 (by decide)).trans <|
    (W14_of_ne m ρ c main_arg8 (by decide)).trans <|
    (W13_of m ρ c main_arg8 (by decide)).trans <|
    (W12_of_ne m ρ c main_arg8 (by decide)).trans <|
    (W11_of m ρ c main_arg8 (by decide)).trans <|
    (W10_of_ne m ρ c main_arg8 (by decide)).trans <|
    (W9_of m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <| (W1_of m ρ c main_arg8 (by decide))

theorem W18_main_arg9 (c : Dev nD) : W18 m ρ c (Proc.devRef .tc main_arg9) = m ((c : Thread nD τ).loc main_arg9) :=
  ((W18_arr m ρ c 1).trans (((dat8 (V17 m ρ) c).arrAt_in 1 rfl _).trans (A_eq8 (V17 m ρ) c 1))).trans <|
    (W17_of m ρ c main_arg9 (by decide)).trans <|
    (W16_of_ne m ρ c main_arg9 (by decide)).trans <|
    (W15_of m ρ c main_arg9 (by decide)).trans <|
    (W14_of_ne m ρ c main_arg9 (by decide)).trans <|
    (W13_of m ρ c main_arg9 (by decide)).trans <|
    (W12_of_ne m ρ c main_arg9 (by decide)).trans <|
    (W11_of m ρ c main_arg9 (by decide)).trans <|
    (W10_of_ne m ρ c main_arg9 (by decide)).trans <|
    (W9_of m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <| (W1_of m ρ c main_arg9 (by decide))

theorem W18_main_arg10 (c : Dev nD) : W18 m ρ c (Proc.devRef .tc main_arg10) = m ((c : Thread nD τ).loc main_arg10) :=
  (W18_of_ne m ρ c main_arg10 (by decide)).trans <|
    (W17_of m ρ c main_arg10 (by decide)).trans <|
    (W16_of_ne m ρ c main_arg10 (by decide)).trans <|
    (W15_of m ρ c main_arg10 (by decide)).trans <|
    (W14_of_ne m ρ c main_arg10 (by decide)).trans <|
    (W13_of m ρ c main_arg10 (by decide)).trans <|
    (W12_of_ne m ρ c main_arg10 (by decide)).trans <|
    (W11_of m ρ c main_arg10 (by decide)).trans <|
    (W10_of_ne m ρ c main_arg10 (by decide)).trans <|
    (W9_of m ρ c main_arg10 (by decide)).trans <|
    (W8_of_ne m ρ c main_arg10 (by decide)).trans <|
    (W7_of m ρ c main_arg10 (by decide)).trans <|
    (W6_of_ne m ρ c main_arg10 (by decide)).trans <|
    (W5_of m ρ c main_arg10 (by decide)).trans <|
    (W4_of_ne m ρ c main_arg10 (by decide)).trans <|
    (W3_of m ρ c main_arg10 (by decide)).trans <|
    (W2_of_ne m ρ c main_arg10 (by decide)).trans <| (W1_of m ρ c main_arg10 (by decide))

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W18`, the
    generator register at some state. -/
abbrev Tₙ (c : Dev nD) : sProp 𝕄 := iprop(StableHlo.held (c : Thread nD τ) (Pipeline.ucRefs τ sig) (W18 m ρ c) ∗ ∃ r, prngReg c r)

end Cert.Kernel.Hand

end
-- ==== Proof.K.RunReg0.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 0 over the thread state: entered from every unscoped buffer at `W1`, left at `W2`. Its arrays are
    split out of the unscoped buffers and put back at the exit contents; the generator register and the scoped rest go
    into the region's invariant and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (hout0 (V1 m ρ) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg1.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 1 over the thread state: entered from every unscoped buffer at `W3`, left at `W4`. Its arrays are
    split out of the unscoped buffers and put back at the exit contents; the generator register and the scoped rest go
    into the region's invariant and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (hout1 (V3 m ρ) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg2.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 2 over the thread state: entered from every unscoped buffer at `W5`, left at `W6`. Its arrays are
    split out of the unscoped buffers and put back at the exit contents; the generator register and the scoped rest go
    into the region's invariant and come back out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    isplitl [Hp]; · iexact Hp
    iexact Hr
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg3.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 3 over the thread state: entered from every unscoped buffer at `W7`, left at `W8`. Its arrays are
    split out of the unscoped buffers and put back at the exit contents; the generator register and the scoped rest go
    into the region's invariant and come back out of it; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (hin3 (V7 m ρ) c)
    isplitl [Hp]; · iexact Hp
    iexact Hr
  hout c := by
    rw [Pipeline.ownSems0_none, show (pdats m ρ 3 c).Φ (Fin.last _) = (dat3 (V7 m ρ) c).Φ (Fin.last cfg3.N) from rfl]
    iintro H
    ihave H' := (hout3 (V7 m ρ) c) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg4.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 4 over the thread state: entered from every unscoped buffer at `W9`, left at `W10`. Its arrays are
    split out of the unscoped buffers and put back at the exit contents; the generator register and the scoped rest go
    into the region's invariant and come back out of it; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply (hin4 (V9 m ρ) c)
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H' := (hout4 (V9 m ρ) c) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg5.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 5 over the thread state: entered from every unscoped buffer at `W11`, left at `W12`. Its arrays are
    split out of the unscoped buffers and put back at the exit contents; the generator register and the scoped rest go
    into the region's invariant and come back out of it; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    iintro ⟨Hp, -, Hr⟩
    iapply (hin5 (V11 m ρ) c)
    isplitl [Hp]; · iexact Hp
    iexact Hr
  hout c := by
    rw [Pipeline.ownSems0_none, show (pdats m ρ 5 c).Φ (Fin.last _) = (dat5 (V11 m ρ) c).Φ (Fin.last cfg5.N) from rfl]
    iintro H
    ihave H' := (hout5 (V11 m ρ) c) $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg6.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 6 over the thread state: entered from every unscoped buffer at `W13`, left at `W14`. Its arrays are
    split out of the unscoped buffers and put back at the exit contents; the generator register and the scoped rest go
    into the region's invariant and come back out of it; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    iintro ⟨Hp, -, Hr⟩
    iapply (hin6 (V13 m ρ) c)
    isplitl [Hp]; · iexact Hp
    iexact Hr
  hout c := by
    rw [Pipeline.ownSems0_none, show (pdats m ρ 6 c).Φ (Fin.last _) = (dat6 (V13 m ρ) c).Φ (Fin.last cfg6.N) from rfl]
    iintro H
    ihave H' := (hout6 (V13 m ρ) c) $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg7.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 7 over the thread state: entered from every unscoped buffer at `W15`, left at `W16`. Its arrays are
    split out of the unscoped buffers and put back at the exit contents; the generator register and the scoped rest go
    into the region's invariant and come back out of it; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    iintro ⟨Hp, -, Hr⟩
    iapply (hin7 (V15 m ρ) c)
    isplitl [Hp]; · iexact Hp
    iexact Hr
  hout c := by
    rw [Pipeline.ownSems0_none, show (pdats m ρ 7 c).Φ (Fin.last _) = (dat7 (V15 m ρ) c).Φ (Fin.last cfg7.N) from rfl]
    iintro H
    ihave H' := (hout7 (V15 m ρ) c) $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg8.lean ====
import proofs.«132655_j36919538876779_2_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 of @main as a segment of the run -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over the pinned configuration, which is the printed one only once plain definitions
-- in a metavariable's type may be unfolded
set_option backward.isDefEq.respectTransparency.types false in
/-- Region 8 over the thread state: entered from every unscoped buffer at `W17`, left at `W18`. Its arrays are
    split out of the unscoped buffers and put back at the exit contents; the generator register and the scoped rest go
    into the region's invariant and come back out of it; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    iintro ⟨Hp, -, Hr⟩
    iapply (hin8 (V17 m ρ) c)
    isplitl [Hp]; · iexact Hp
    iexact Hr
  hout c := by
    rw [Pipeline.ownSems0_none, show (pdats m ρ 8 c).Φ (Fin.last _) = (dat8 (V17 m ρ) c).Φ (Fin.last cfg8.N) from rfl]
    iintro H
    ihave H' := (hout8 (V17 m ρ) c) $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«132655_j36919538876779_2_alg».proof.Proof.K.RunReg0
import proofs.«132655_j36919538876779_2_alg».proof.Proof.K.RunReg1
import proofs.«132655_j36919538876779_2_alg».proof.Proof.K.RunReg2
import proofs.«132655_j36919538876779_2_alg».proof.Proof.K.RunReg3
import proofs.«132655_j36919538876779_2_alg».proof.Proof.K.RunReg4
import proofs.«132655_j36919538876779_2_alg».proof.Proof.K.RunReg5
import proofs.«132655_j36919538876779_2_alg».proof.Proof.K.RunReg6
import proofs.«132655_j36919538876779_2_alg».proof.Proof.K.RunReg7
import proofs.«132655_j36919538876779_2_alg».proof.Proof.K.RunReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: its eighteen segments assembled, and the frame with the result in its post
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 18 segments in order: a host segment per stretch from its boundary's contents, a region per pallas_call. -/
abbrev segs : List (Pipeline.Seg (pcfgs (F := F)) adm (pdats m ρ) () defs₀ 𝒱₀ L lv) :=
  [ .host (hseg hostOps0 hostOps0_sub Gen.hostOps0_fresh (W0 m ρ)),
    .region (reg0 m ρ),
    .host (hseg hostOps1 hostOps1_sub Gen.hostOps1_fresh (W2 m ρ)),
    .region (reg1 m ρ),
    .host (hseg hostOps2 hostOps2_sub Gen.hostOps2_fresh (W4 m ρ)),
    .region (reg2 m ρ),
    .host (hseg hostOps3 hostOps3_sub Gen.hostOps3_fresh (W6 m ρ)),
    .region (reg3 m ρ),
    .host (hseg hostOps4 hostOps4_sub Gen.hostOps4_fresh (W8 m ρ)),
    .region (reg4 m ρ),
    .host (hseg hostOps5 hostOps5_sub Gen.hostOps5_fresh (W10 m ρ)),
    .region (reg5 m ρ),
    .host (hseg hostOps6 hostOps6_sub Gen.hostOps6_fresh (W12 m ρ)),
    .region (reg6 m ρ),
    .host (hseg hostOps7 hostOps7_sub Gen.hostOps7_fresh (W14 m ρ)),
    .region (reg7 m ρ),
    .host (hseg hostOps8 hostOps8_sub Gen.hostOps8_fresh (W16 m ρ)),
    .region (reg8 m ρ) ]

/-- @main is the run of the segments: it is the chain of its items, and the segments' programs are those items. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at the last boundary's contents and the
    argument arrays as launched. -/
theorem run_main : θ_run defs (onTc (τ := τ) (main (F := F))) ⟨m, fun _ => 0, ρ⟩ (fun r => ∀ c : Dev nD,
      r.2.mem ((c.tc : Thread nD τ).loc main_v176) = W18 m ρ c (Proc.devRef .tc main_v176)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v176 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.Kernel.Hand

end
-- ==== Proof.Ref.Run.W0.lean ====
/-
  Statements 1 … 60 of the reference's @main as a list of host operations: the edge rows, layer 0's aggregation, its two Linear-ReLU stages, its column statistics and the normalized features before the affine map.
  What the later statements still read when this list ends: main_v51, main_v1, main_v3; each holds its stage of the
  argument arrays, given the same of what this list itself reads from before it. The arguments are never written.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The 64 operations of statements 1 … 60, in order (a called function's three operations stand in its call's place). -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v18 ((extractStridedSlice S1x128 ![0, 0] · slices_S4x128_S1x128_0_0) : (⟨S4x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v22) (TRef.of (T := ⟨S50000x128, .f32⟩) main_call0_v0) (TRef.of (T := ⟨S50000x128, .f32⟩) main_v23) maximumf,
    unary main_arg5 main_v24 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v24 main_v25 rfl shapeCasts_S1x128x128_S128x128,
    binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v27 ((extractStridedSlice S1x128 ![0, 0] · slices_S4x128_S1x128_0_0) : (⟨S4x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v26 main_v30 main_v31 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf,
    nullary main_cst_1 (constant S_ .f32 0x00000000#32),
    binary main_v32 main_cst_1 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v32 main_v37 main_v38 (subf : (⟨S50000x128, .f32⟩ : BufTy).Contents (Elt F) → (⟨S50000x128, .f32⟩ : BufTy).Contents (Elt F) → (⟨S50000x128, .f32⟩ : BufTy).Contents (Elt F)),
    binary main_v38 main_v38 main_v39 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v39 main_cst_3 main_v40 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    unary main_v35 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v32 main_v44 main_v45 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v46 (broadcastInDim S128 ![] bcast_S_S128 : (⟨S_, .f32⟩ : BufTy).Contents (Elt F) → (⟨S128, .f32⟩ : BufTy).Contents (Elt F)),
    binary main_v42 main_v46 main_v47 (addf : (⟨S128, .f32⟩ : BufTy).Contents (Elt F) → (⟨S128, .f32⟩ : BufTy).Contents (Elt F) → (⟨S128, .f32⟩ : BufTy).Contents (Elt F)),
    unary main_v47 main_v48 (Host.rsqrt : (⟨S128, .f32⟩ : BufTy).Contents (Elt F) → (⟨S128, .f32⟩ : BufTy).Contents (Elt F)),
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v45 main_v50 main_v51 (mulf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The window is its operations run in order. -/
theorem part0_eq (c : Dev nD) : main_part0 (F := F) c = seq ops0 := rfl

set_option maxRecDepth 8192 in
/-- Every operation touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

set_option maxRecDepth 8192 in
/-- No operation allocates: each determines its results. -/
theorem ops0_fresh : ∀ op ∈ (ops0 : List (HloOp τ sig (Elt F))), op.fresh = ∅ := by
  intro _ h; (repeat (cases h with | head => rfl | tail _ h => ?_)); exact nomatch h

set_option maxRecDepth 8192 in
set_option maxHeartbeats 40000000 in
/-- From any contents `W` holding the arguments: after these operations the arguments are unchanged and
    every buffer read later holds its stage of the arguments. -/
theorem win0 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S4x128x128, .f32⟩ : BufTy).Contents (Elt F)) (x4 : (⟨S4x128, .f32⟩ : BufTy).Contents (Elt F)) (x5 : (⟨S4x128x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S128x128, .f32⟩ : BufTy).Contents (Elt F)) (x10 : (⟨S128, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) (ha8 : W (Proc.devRef .tc main_arg8) = x8) (ha9 : W (Proc.devRef .tc main_arg9) = x9) (ha10 : W (Proc.devRef .tc main_arg10) = x10) :
    after ops0 W (Proc.devRef .tc main_arg0) = x0
    ∧ after ops0 W (Proc.devRef .tc main_arg1) = x1
    ∧ after ops0 W (Proc.devRef .tc main_arg2) = x2
    ∧ after ops0 W (Proc.devRef .tc main_arg3) = x3
    ∧ after ops0 W (Proc.devRef .tc main_arg4) = x4
    ∧ after ops0 W (Proc.devRef .tc main_arg5) = x5
    ∧ after ops0 W (Proc.devRef .tc main_arg6) = x6
    ∧ after ops0 W (Proc.devRef .tc main_arg7) = x7
    ∧ after ops0 W (Proc.devRef .tc main_arg8) = x8
    ∧ after ops0 W (Proc.devRef .tc main_arg9) = x9
    ∧ after ops0 W (Proc.devRef .tc main_arg10) = x10
    ∧ after ops0 W (Proc.devRef .tc main_v51) = val_main_v51 (F := F) x0 x1 x3 x4 x5 x6
    ∧ after ops0 W (Proc.devRef .tc main_v1) = val_main_v1 (F := F) x1
    ∧ after ops0 W (Proc.devRef .tc main_v3) = val_main_v3 (F := F) x1 := by
  refine ⟨?_, ?_, ?_, ?_, ?_, ?_, ?_, ?_, ?_, ?_, ?_, ?_, ?_, ?_⟩ <;> after_results_simp <;> (try simp only [ha0, ha1, ha2, ha3, ha4, ha5, ha6, ha7, ha8, ha9, ha10]) <;> (try rfl)

end Cert.ReferenceIdeal.Hand

end
-- ==== Proof.Ref.Run.W1.lean ====
/-
  Statements 61 … 120 of the reference's @main as a list of host operations: layer 0's affine map, layer 1's aggregation, its two Linear-ReLU stages and its column statistics up to the variance.
  What the later statements still read when this list ends: main_cst_13, main_v100, main_v103, main_v1, main_v3; each holds its stage of the
  argument arrays, given the same of what this list itself reads from before it (main_v51, main_v1, main_v3). The arguments are never written.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The 64 operations of statements 61 … 120, in order (a called function's three operations stand in its call's place). -/
abbrev ops1 : List (HloOp τ sig (Elt F)) :=
  [ unary main_arg7 main_v52 ((extractStridedSlice S1x128 ![0, 0] · slices_S4x128_S1x128_0_0) : (⟨S4x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v51 main_v55 main_v56 (mulf : (⟨S50000x128, .f32⟩ : BufTy).Contents (Elt F) → (⟨S50000x128, .f32⟩ : BufTy).Contents (Elt F) → (⟨S50000x128, .f32⟩ : BufTy).Contents (Elt F)),
    unary main_arg8 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v56 main_v60 main_v61 (addf : (⟨S50000x128, .f32⟩ : BufTy).Contents (Elt F) → (⟨S50000x128, .f32⟩ : BufTy).Contents (Elt F) → (⟨S50000x128, .f32⟩ : BufTy).Contents (Elt F)),
    nullary main_c_6 (constantI S_ 32 0#32),
    unary main_c_6 main_v62 (broadcastInDim S800000 ![] bcast_S_S800000 : (⟨S_, .i32⟩ : BufTy).Contents (Elt F) → (⟨S800000, .i32⟩ : BufTy).Contents (Elt F)),
    binary main_v1 main_v62 main_v63 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v64 (broadcastInDim S800000 ![] bcast_S_S800000 : (⟨S_, .i32⟩ : BufTy).Contents (Elt F) → (⟨S800000, .i32⟩ : BufTy).Contents (Elt F)),
    binary main_v1 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    binary main_v61 main_v67 main_v68 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v69 (broadcastInDim S50000x128 ![] bcast_S_S50000x128 : (⟨S_, .f32⟩ : BufTy).Contents (Elt F) → (⟨S50000x128, .f32⟩ : BufTy).Contents (Elt F)),
    unary main_v3 main_v70 (broadcastInDim S800000x1 ![0] bcast_S800000_S800000x1_0 : (⟨S800000, .i32⟩ : BufTy).Contents (Elt F) → (⟨S800000x1, .i32⟩ : BufTy).Contents (Elt F)),
    ternary main_v69 main_v70 main_v68 main_v71 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v61 main_v71 main_v72 (addf : (⟨S50000x128, .f32⟩ : BufTy).Contents (Elt F) → (⟨S50000x128, .f32⟩ : BufTy).Contents (Elt F) → (⟨S50000x128, .f32⟩ : BufTy).Contents (Elt F)),
    unary main_arg3 main_v73 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v76 ((extractStridedSlice S1x128 ![1, 0] · slices_S4x128_S1x128_1_0) : (⟨S4x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v80) (TRef.of (T := ⟨S50000x128, .f32⟩) main_call2_v0) (TRef.of (T := ⟨S50000x128, .f32⟩) main_v81) maximumf,
    unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v82 main_v83 rfl shapeCasts_S1x128x128_S128x128,
    binary main_v81 main_v83 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v85 ((extractStridedSlice S1x128 ![1, 0] · slices_S4x128_S1x128_1_0) : (⟨S4x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v84 main_v88 main_v89 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v89) (TRef.of (T := ⟨S50000x128, .f32⟩) main_call3_v0) (TRef.of (T := ⟨S50000x128, .f32⟩) main_v90) maximumf,
    nullary main_cst_9 (constant S_ .f32 0x00000000#32),
    binary main_v90 main_cst_9 main_v91 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v90 main_v95 main_v96 (subf : (⟨S50000x128, .f32⟩ : BufTy).Contents (Elt F) → (⟨S50000x128, .f32⟩ : BufTy).Contents (Elt F) → (⟨S50000x128, .f32⟩ : BufTy).Contents (Elt F)),
    binary main_v96 main_v96 main_v97 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v97 main_cst_11 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    unary main_v93 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v90 main_v102 main_v103 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32) ]

set_option maxRecDepth 8192 in
set_option maxHeartbeats 4000000 in
/-- The window is its operations run in order. -/
theorem part1_eq (c : Dev nD) : main_part1 (F := F) c = seq ops1 := rfl

set_option maxRecDepth 8192 in
/-- Every operation touches TensorCore buffers only. -/
theorem ops1_sub : (ops1 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub ..⟩

set_option maxRecDepth 8192 in
/-- No operation allocates: each determines its results. -/
theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 40000000 in
/-- From any contents `W` holding the arguments and the stages read from before: after these operations the arguments are unchanged and
    every buffer read later holds its stage of the arguments. -/
theorem win1 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S4x128x128, .f32⟩ : BufTy).Contents (Elt F)) (x4 : (⟨S4x128, .f32⟩ : BufTy).Contents (Elt F)) (x5 : (⟨S4x128x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S128x128, .f32⟩ : BufTy).Contents (Elt F)) (x10 : (⟨S128, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) (ha8 : W (Proc.devRef .tc main_arg8) = x8) (ha9 : W (Proc.devRef .tc main_arg9) = x9) (ha10 : W (Proc.devRef .tc main_arg10) = x10)
    (h_v51 : W (Proc.devRef .tc main_v51) = val_main_v51 (F := F) x0 x1 x3 x4 x5 x6)
    (h_v1 : W (Proc.devRef .tc main_v1) = val_main_v1 (F := F) x1)
    (h_v3 : W (Proc.devRef .tc main_v3) = val_main_v3 (F := F) x1) :
    after ops1 W (Proc.devRef .tc main_arg0) = x0
    ∧ after ops1 W (Proc.devRef .tc main_arg1) = x1
    ∧ after ops1 W (Proc.devRef .tc main_arg2) = x2
    ∧ after ops1 W (Proc.devRef .tc main_arg3) = x3
    ∧ after ops1 W (Proc.devRef .tc main_arg4) = x4
    ∧ after ops1 W (Proc.devRef .tc main_arg5) = x5
    ∧ after ops1 W (Proc.devRef .tc main_arg6) = x6
    ∧ after ops1 W (Proc.devRef .tc main_arg7) = x7
    ∧ after ops1 W (Proc.devRef .tc main_arg8) = x8
    ∧ after ops1 W (Proc.devRef .tc main_arg9) = x9
    ∧ after ops1 W (Proc.devRef .tc main_arg10) = x10
    ∧ after ops1 W (Proc.devRef .tc main_cst_13) = val_main_cst_13 (F := F)
    ∧ after ops1 W (Proc.devRef .tc main_v100) = val_main_v100 (F := F) x0 x1 x3 x4 x5 x6 x7 x8
    ∧ after ops1 W (Proc.devRef .tc main_v103) = val_main_v103 (F := F) x0 x1 x3 x4 x5 x6 x7 x8
    ∧ after ops1 W (Proc.devRef .tc main_v1) = val_main_v1 (F := F) x1
    ∧ after ops1 W (Proc.devRef .tc main_v3) = val_main_v3 (F := F) x1 := by
  refine ⟨?_, ?_, ?_, ?_, ?_, ?_, ?_, ?_, ?_, ?_, ?_, ?_, ?_, ?_, ?_, ?_⟩ <;> after_results_simp <;> (try simp only [ha0, ha1, ha2, ha3, ha4, ha5, ha6, ha7, ha8, ha9, ha10, h_v51, h_v1, h_v3]) <;> (try rfl)

end Cert.ReferenceIdeal.Hand

end
-- ==== Proof.Ref.Run.W2.lean ====
/-
  Statements 121 … 180 of the reference's @main as a list of host operations: the rest of layer 1's normalization and affine map, layer 2's aggregation, its two Linear-ReLU stages and its column statistics up to the sum of squared deviations.
  What the later statements still read when this list ends: main_cst_20, main_v156, main_v151, main_v148, main_v1, main_v3; each holds its stage of the
  argument arrays, given the same of what this list itself reads from before it (main_cst_13, main_v100, main_v103, main_v1, main_v3). The arguments are never written.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The 64 operations of statements 121 … 180, in order (a called function's three operations stand in its call's place). -/
abbrev ops2 : List (HloOp τ sig (Elt F)) :=
  [ unary main_cst_13 main_v104 (broadcastInDim S128 ![] bcast_S_S128 : (⟨S_, .f32⟩ : BufTy).Contents (Elt F) → (⟨S128, .f32⟩ : BufTy).Contents (Elt F)),
    binary main_v100 main_v104 main_v105 (addf : (⟨S128, .f32⟩ : BufTy).Contents (Elt F) → (⟨S128, .f32⟩ : BufTy).Contents (Elt F) → (⟨S128, .f32⟩ : BufTy).Contents (Elt F)),
    unary main_v105 main_v106 (Host.rsqrt : (⟨S128, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v103 main_v108 main_v109 (mulf : (⟨S50000x128, .f32⟩ : BufTy).Contents (Elt F) → (⟨S50000x128, .f32⟩ : BufTy).Contents (Elt F) → (⟨S50000x128, .f32⟩ : BufTy).Contents (Elt F)),
    unary main_arg7 main_v110 ((extractStridedSlice S1x128 ![1, 0] · slices_S4x128_S1x128_1_0) : (⟨S4x128, .f32⟩ : BufTy).Contents (Elt F) → (⟨S1x128, .f32⟩ : BufTy).Contents (Elt F)),
    reshape main_v110 main_v111 rfl shapeCasts_S1x128_S128,
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v109 main_v113 main_v114 (mulf : (⟨S50000x128, .f32⟩ : BufTy).Contents (Elt F) → (⟨S50000x128, .f32⟩ : BufTy).Contents (Elt F) → (⟨S50000x128, .f32⟩ : BufTy).Contents (Elt F)),
    unary main_arg8 main_v115 ((extractStridedSlice S1x128 ![1, 0] · slices_S4x128_S1x128_1_0) : (⟨S4x128, .f32⟩ : BufTy).Contents (Elt F) → (⟨S1x128, .f32⟩ : BufTy).Contents (Elt F)),
    reshape main_v115 main_v116 rfl shapeCasts_S1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v114 main_v118 main_v119 (addf : (⟨S50000x128, .f32⟩ : BufTy).Contents (Elt F) → (⟨S50000x128, .f32⟩ : BufTy).Contents (Elt F) → (⟨S50000x128, .f32⟩ : BufTy).Contents (Elt F)),
    nullary main_c_14 (constantI S_ 32 0#32),
    unary main_c_14 main_v120 (broadcastInDim S800000 ![] bcast_S_S800000 : (⟨S_, .i32⟩ : BufTy).Contents (Elt F) → (⟨S800000, .i32⟩ : BufTy).Contents (Elt F)),
    binary main_v1 main_v120 main_v121 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v122 (broadcastInDim S800000 ![] bcast_S_S800000 : (⟨S_, .i32⟩ : BufTy).Contents (Elt F) → (⟨S800000, .i32⟩ : BufTy).Contents (Elt F)),
    binary main_v1 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_16 (constant S_ .f32 0x00000000#32),
    unary main_cst_16 main_v127 (broadcastInDim S50000x128 ![] bcast_S_S50000x128 : (⟨S_, .f32⟩ : BufTy).Contents (Elt F) → (⟨S50000x128, .f32⟩ : BufTy).Contents (Elt F)),
    unary main_v3 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v119 main_v129 main_v130 (addf : (⟨S50000x128, .f32⟩ : BufTy).Contents (Elt F) → (⟨S50000x128, .f32⟩ : BufTy).Contents (Elt F) → (⟨S50000x128, .f32⟩ : BufTy).Contents (Elt F)),
    unary main_arg3 main_v131 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v131 main_v132 rfl shapeCasts_S1x128x128_S128x128,
    binary main_v130 main_v132 main_v133 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v134 ((extractStridedSlice S1x128 ![2, 0] · slices_S4x128_S1x128_2_0) : (⟨S4x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v133 main_v137 main_v138 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v138) (TRef.of (T := ⟨S50000x128, .f32⟩) main_call4_v0) (TRef.of (T := ⟨S50000x128, .f32⟩) main_v139) maximumf,
    unary main_arg5 main_v140 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v140 main_v141 rfl shapeCasts_S1x128x128_S128x128,
    binary main_v139 main_v141 main_v142 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v143 ((extractStridedSlice S1x128 ![2, 0] · slices_S4x128_S1x128_2_0) : (⟨S4x128, .f32⟩ : BufTy).Contents (Elt F) → (⟨S1x128, .f32⟩ : BufTy).Contents (Elt F)),
    reshape main_v143 main_v144 rfl shapeCasts_S1x128_S128,
    unary main_v144 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v142 main_v146 main_v147 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v147) (TRef.of (T := ⟨S50000x128, .f32⟩) main_call5_v0) (TRef.of (T := ⟨S50000x128, .f32⟩) main_v148) maximumf,
    nullary main_cst_17 (constant S_ .f32 0x00000000#32),
    binary main_v148 main_cst_17 main_v149 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v150 (broadcastInDim S128 ![] bcast_S_S128 : (⟨S_, .f32⟩ : BufTy).Contents (Elt F) → (⟨S128, .f32⟩ : BufTy).Contents (Elt F)),
    binary main_v149 main_v150 main_v151 (Host.divf : (⟨S128, .f32⟩ : BufTy).Contents (Elt F) → (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v148 main_v153 main_v154 (subf : (⟨S50000x128, .f32⟩ : BufTy).Contents (Elt F) → (⟨S50000x128, .f32⟩ : BufTy).Contents (Elt F) → (⟨S50000x128, .f32⟩ : BufTy).Contents (Elt F)),
    binary main_v154 main_v154 main_v155 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v155 main_cst_19 main_v156 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32) ]

set_option maxRecDepth 8192 in
set_option maxHeartbeats 4000000 in
/-- The window is its operations run in order. -/
theorem part2_eq (c : Dev nD) : main_part2 (F := F) c = seq ops2 := rfl

set_option maxRecDepth 8192 in
/-- Every operation touches TensorCore buffers only. -/
theorem ops2_sub : (ops2 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub ..⟩

set_option maxRecDepth 8192 in
/-- No operation allocates: each determines its results. -/
theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 40000000 in
/-- From any contents `W` holding the arguments and the stages read from before: after these operations the arguments are unchanged and
    every buffer read later holds its stage of the arguments. -/
theorem win2 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S4x128x128, .f32⟩ : BufTy).Contents (Elt F)) (x4 : (⟨S4x128, .f32⟩ : BufTy).Contents (Elt F)) (x5 : (⟨S4x128x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S128x128, .f32⟩ : BufTy).Contents (Elt F)) (x10 : (⟨S128, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) (ha8 : W (Proc.devRef .tc main_arg8) = x8) (ha9 : W (Proc.devRef .tc main_arg9) = x9) (ha10 : W (Proc.devRef .tc main_arg10) = x10)
    (h_cst_13 : W (Proc.devRef .tc main_cst_13) = val_main_cst_13 (F := F))
    (h_v100 : W (Proc.devRef .tc main_v100) = val_main_v100 (F := F) x0 x1 x3 x4 x5 x6 x7 x8)
    (h_v103 : W (Proc.devRef .tc main_v103) = val_main_v103 (F := F) x0 x1 x3 x4 x5 x6 x7 x8)
    (h_v1 : W (Proc.devRef .tc main_v1) = val_main_v1 (F := F) x1)
    (h_v3 : W (Proc.devRef .tc main_v3) = val_main_v3 (F := F) x1) :
    after ops2 W (Proc.devRef .tc main_arg0) = x0
    ∧ after ops2 W (Proc.devRef .tc main_arg1) = x1
    ∧ after ops2 W (Proc.devRef .tc main_arg2) = x2
    ∧ after ops2 W (Proc.devRef .tc main_arg3) = x3
    ∧ after ops2 W (Proc.devRef .tc main_arg4) = x4
    ∧ after ops2 W (Proc.devRef .tc main_arg5) = x5
    ∧ after ops2 W (Proc.devRef .tc main_arg6) = x6
    ∧ after ops2 W (Proc.devRef .tc main_arg7) = x7
    ∧ after ops2 W (Proc.devRef .tc main_arg8) = x8
    ∧ after ops2 W (Proc.devRef .tc main_arg9) = x9
    ∧ after ops2 W (Proc.devRef .tc main_arg10) = x10
    ∧ after ops2 W (Proc.devRef .tc main_cst_20) = val_main_cst_20 (F := F)
    ∧ after ops2 W (Proc.devRef .tc main_v156) = val_main_v156 (F := F) x0 x1 x3 x4 x5 x6 x7 x8
    ∧ after ops2 W (Proc.devRef .tc main_v151) = val_main_v151 (F := F) x0 x1 x3 x4 x5 x6 x7 x8
    ∧ after ops2 W (Proc.devRef .tc main_v148) = val_main_v148 (F := F) x0 x1 x3 x4 x5 x6 x7 x8
    ∧ after ops2 W (Proc.devRef .tc main_v1) = val_main_v1 (F := F) x1
    ∧ after ops2 W (Proc.devRef .tc main_v3) = val_main_v3 (F := F) x1 := by
  refine ⟨?_, ?_, ?_, ?_, ?_, ?_, ?_, ?_, ?_, ?_, ?_, ?_, ?_, ?_, ?_, ?_, ?_⟩ <;> after_results_simp <;> (try simp only [ha0, ha1, ha2, ha3, ha4, ha5, ha6, ha7, ha8, ha9, ha10, h_cst_13, h_v100, h_v103, h_v1, h_v3]) <;> (try rfl)

end Cert.ReferenceIdeal.Hand

end
-- ==== Proof.Ref.Run.W3.lean ====
/-
  Statements 181 … 240 of the reference's @main as a list of host operations: the rest of layer 2's normalization and affine map, layer 3's aggregation, its two Linear-ReLU stages and its column mean.
  What the later statements still read when this list ends: main_v210, main_v206, main_v209; each holds its stage of the
  argument arrays, given the same of what this list itself reads from before it (main_cst_20, main_v156, main_v151, main_v148, main_v1, main_v3). The arguments are never written.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The 64 operations of statements 181 … 240, in order (a called function's three operations stand in its call's place). -/
abbrev ops3 : List (HloOp τ sig (Elt F)) :=
  [ unary main_cst_20 main_v157 (broadcastInDim S128 ![] bcast_S_S128 : (⟨S_, .f32⟩ : BufTy).Contents (Elt F) → (⟨S128, .f32⟩ : BufTy).Contents (Elt F)),
    binary main_v156 main_v157 main_v158 (Host.divf : (⟨S128, .f32⟩ : BufTy).Contents (Elt F) → (⟨S128, .f32⟩ : BufTy).Contents (Elt F) → (⟨S128, .f32⟩ : BufTy).Contents (Elt F)),
    unary main_v151 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v148 main_v160 main_v161 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v162 (broadcastInDim S128 ![] bcast_S_S128 : (⟨S_, .f32⟩ : BufTy).Contents (Elt F) → (⟨S128, .f32⟩ : BufTy).Contents (Elt F)),
    binary main_v158 main_v162 main_v163 (addf : (⟨S128, .f32⟩ : BufTy).Contents (Elt F) → (⟨S128, .f32⟩ : BufTy).Contents (Elt F) → (⟨S128, .f32⟩ : BufTy).Contents (Elt F)),
    unary main_v163 main_v164 (Host.rsqrt : (⟨S128, .f32⟩ : BufTy).Contents (Elt F) → (⟨S128, .f32⟩ : BufTy).Contents (Elt F)),
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v161 main_v166 main_v167 (mulf : (⟨S50000x128, .f32⟩ : BufTy).Contents (Elt F) → (⟨S50000x128, .f32⟩ : BufTy).Contents (Elt F) → (⟨S50000x128, .f32⟩ : BufTy).Contents (Elt F)),
    unary main_arg7 main_v168 ((extractStridedSlice S1x128 ![2, 0] · slices_S4x128_S1x128_2_0) : (⟨S4x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v167 main_v171 main_v172 (mulf : (⟨S50000x128, .f32⟩ : BufTy).Contents (Elt F) → (⟨S50000x128, .f32⟩ : BufTy).Contents (Elt F) → (⟨S50000x128, .f32⟩ : BufTy).Contents (Elt F)),
    unary main_arg8 main_v173 ((extractStridedSlice S1x128 ![2, 0] · slices_S4x128_S1x128_2_0) : (⟨S4x128, .f32⟩ : BufTy).Contents (Elt F) → (⟨S1x128, .f32⟩ : BufTy).Contents (Elt F)),
    reshape main_v173 main_v174 rfl shapeCasts_S1x128_S128,
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S50000x128 ![0, 1] bcast_S1x128_S50000x128_0_1 : (⟨S1x128, .f32⟩ : BufTy).Contents (Elt F) → (⟨S50000x128, .f32⟩ : BufTy).Contents (Elt F)),
    binary main_v172 main_v176 main_v177 (addf : (⟨S50000x128, .f32⟩ : BufTy).Contents (Elt F) → (⟨S50000x128, .f32⟩ : BufTy).Contents (Elt F) → (⟨S50000x128, .f32⟩ : BufTy).Contents (Elt F)),
    nullary main_c_22 (constantI S_ 32 0#32),
    unary main_c_22 main_v178 (broadcastInDim S800000 ![] bcast_S_S800000 : (⟨S_, .i32⟩ : BufTy).Contents (Elt F) → (⟨S800000, .i32⟩ : BufTy).Contents (Elt F)),
    binary main_v1 main_v178 main_v179 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v180 (broadcastInDim S800000 ![] bcast_S_S800000 : (⟨S_, .i32⟩ : BufTy).Contents (Elt F) → (⟨S800000, .i32⟩ : BufTy).Contents (Elt F)),
    binary main_v1 main_v180 main_v181 (addi : (⟨S800000, .i32⟩ : BufTy).Contents (Elt F) → (⟨S800000, .i32⟩ : BufTy).Contents (Elt F) → (⟨S800000, .i32⟩ : BufTy).Contents (Elt F)),
    ternary main_v179 main_v181 main_v1 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v182 main_v183 (broadcastInDim S800000x1 ![0] bcast_S800000_S800000x1_0 : (⟨S800000, .i32⟩ : BufTy).Contents (Elt F) → (⟨S800000x1, .i32⟩ : BufTy).Contents (Elt F)),
    binary main_v177 main_v183 main_v184 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_24 (constant S_ .f32 0x00000000#32),
    unary main_cst_24 main_v185 (broadcastInDim S50000x128 ![] bcast_S_S50000x128 : (⟨S_, .f32⟩ : BufTy).Contents (Elt F) → (⟨S50000x128, .f32⟩ : BufTy).Contents (Elt F)),
    unary main_v3 main_v186 (broadcastInDim S800000x1 ![0] bcast_S800000_S800000x1_0 : (⟨S800000, .i32⟩ : BufTy).Contents (Elt F) → (⟨S800000x1, .i32⟩ : BufTy).Contents (Elt F)),
    ternary main_v185 main_v186 main_v184 main_v187 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v177 main_v187 main_v188 (addf : (⟨S50000x128, .f32⟩ : BufTy).Contents (Elt F) → (⟨S50000x128, .f32⟩ : BufTy).Contents (Elt F) → (⟨S50000x128, .f32⟩ : BufTy).Contents (Elt F)),
    unary main_arg3 main_v189 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v189 main_v190 rfl shapeCasts_S1x128x128_S128x128,
    binary main_v188 main_v190 main_v191 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v192 ((extractStridedSlice S1x128 ![3, 0] · slices_S4x128_S1x128_3_0) : (⟨S4x128, .f32⟩ : BufTy).Contents (Elt F) → (⟨S1x128, .f32⟩ : BufTy).Contents (Elt F)),
    reshape main_v192 main_v193 rfl shapeCasts_S1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S50000x128 ![0, 1] bcast_S1x128_S50000x128_0_1 : (⟨S1x128, .f32⟩ : BufTy).Contents (Elt F) → (⟨S50000x128, .f32⟩ : BufTy).Contents (Elt F)),
    binary main_v191 main_v195 main_v196 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v196) (TRef.of (T := ⟨S50000x128, .f32⟩) main_call6_v0) (TRef.of (T := ⟨S50000x128, .f32⟩) main_v197) maximumf,
    unary main_arg5 main_v198 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v198 main_v199 rfl shapeCasts_S1x128x128_S128x128,
    binary main_v197 main_v199 main_v200 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v201 ((extractStridedSlice S1x128 ![3, 0] · slices_S4x128_S1x128_3_0) : (⟨S4x128, .f32⟩ : BufTy).Contents (Elt F) → (⟨S1x128, .f32⟩ : BufTy).Contents (Elt F)),
    reshape main_v201 main_v202 rfl shapeCasts_S1x128_S128,
    unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S50000x128 ![0, 1] bcast_S1x128_S50000x128_0_1 : (⟨S1x128, .f32⟩ : BufTy).Contents (Elt F) → (⟨S50000x128, .f32⟩ : BufTy).Contents (Elt F)),
    binary main_v200 main_v204 main_v205 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v205) (TRef.of (T := ⟨S50000x128, .f32⟩) main_call7_v0) (TRef.of (T := ⟨S50000x128, .f32⟩) main_v206) maximumf,
    nullary main_cst_25 (constant S_ .f32 0x00000000#32),
    binary main_v206 main_cst_25 main_v207 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v208 (broadcastInDim S128 ![] bcast_S_S128 : (⟨S_, .f32⟩ : BufTy).Contents (Elt F) → (⟨S128, .f32⟩ : BufTy).Contents (Elt F)),
    binary main_v207 main_v208 main_v209 (Host.divf : (⟨S128, .f32⟩ : BufTy).Contents (Elt F) → (⟨S128, .f32⟩ : BufTy).Contents (Elt F) → (⟨S128, .f32⟩ : BufTy).Contents (Elt F)),
    unary main_v209 main_v210 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is its operations run in order. -/
theorem part3_eq (c : Dev nD) : main_part3 (F := F) c = seq ops3 := rfl

set_option maxRecDepth 8192 in
/-- Every operation touches TensorCore buffers only. -/
theorem ops3_sub : (ops3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub ..⟩

set_option maxRecDepth 8192 in
/-- No operation allocates: each determines its results. -/
theorem ops3_fresh : ∀ op ∈ (ops3 : List (HloOp τ sig (Elt F))), op.fresh = ∅ := by
  intro _ h; (repeat (cases h with | head => rfl | tail _ h => ?_)); exact nomatch h

set_option maxRecDepth 8192 in
set_option maxHeartbeats 40000000 in
/-- From any contents `W` holding the arguments and the stages read from before: after these operations the arguments are unchanged and
    every buffer read later holds its stage of the arguments. -/
theorem win3 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S4x128x128, .f32⟩ : BufTy).Contents (Elt F)) (x4 : (⟨S4x128, .f32⟩ : BufTy).Contents (Elt F)) (x5 : (⟨S4x128x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S128x128, .f32⟩ : BufTy).Contents (Elt F)) (x10 : (⟨S128, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) (ha8 : W (Proc.devRef .tc main_arg8) = x8) (ha9 : W (Proc.devRef .tc main_arg9) = x9) (ha10 : W (Proc.devRef .tc main_arg10) = x10)
    (h_cst_20 : W (Proc.devRef .tc main_cst_20) = val_main_cst_20 (F := F))
    (h_v156 : W (Proc.devRef .tc main_v156) = val_main_v156 (F := F) x0 x1 x3 x4 x5 x6 x7 x8)
    (h_v151 : W (Proc.devRef .tc main_v151) = val_main_v151 (F := F) x0 x1 x3 x4 x5 x6 x7 x8)
    (h_v148 : W (Proc.devRef .tc main_v148) = val_main_v148 (F := F) x0 x1 x3 x4 x5 x6 x7 x8)
    (h_v1 : W (Proc.devRef .tc main_v1) = val_main_v1 (F := F) x1)
    (h_v3 : W (Proc.devRef .tc main_v3) = val_main_v3 (F := F) x1) :
    after ops3 W (Proc.devRef .tc main_arg0) = x0
    ∧ after ops3 W (Proc.devRef .tc main_arg1) = x1
    ∧ after ops3 W (Proc.devRef .tc main_arg2) = x2
    ∧ after ops3 W (Proc.devRef .tc main_arg3) = x3
    ∧ after ops3 W (Proc.devRef .tc main_arg4) = x4
    ∧ after ops3 W (Proc.devRef .tc main_arg5) = x5
    ∧ after ops3 W (Proc.devRef .tc main_arg6) = x6
    ∧ after ops3 W (Proc.devRef .tc main_arg7) = x7
    ∧ after ops3 W (Proc.devRef .tc main_arg8) = x8
    ∧ after ops3 W (Proc.devRef .tc main_arg9) = x9
    ∧ after ops3 W (Proc.devRef .tc main_arg10) = x10
    ∧ after ops3 W (Proc.devRef .tc main_v210) = val_main_v210 (F := F) x0 x1 x3 x4 x5 x6 x7 x8
    ∧ after ops3 W (Proc.devRef .tc main_v206) = val_main_v206 (F := F) x0 x1 x3 x4 x5 x6 x7 x8
    ∧ after ops3 W (Proc.devRef .tc main_v209) = val_main_v209 (F := F) x0 x1 x3 x4 x5 x6 x7 x8 := by
  refine ⟨?_, ?_, ?_, ?_, ?_, ?_, ?_, ?_, ?_, ?_, ?_, ?_, ?_, ?_⟩ <;> after_results_simp <;> (try simp only [ha0, ha1, ha2, ha3, ha4, ha5, ha6, ha7, ha8, ha9, ha10, h_cst_20, h_v156, h_v151, h_v148, h_v1, h_v3]) <;> (try rfl)

end Cert.ReferenceIdeal.Hand

end
-- ==== Proof.Ref.Run.W4.lean ====
/-
  Statements 241 … 278 of the reference's @main as a list of host operations: the rest of layer 3's normalization and affine map, the per-graph sums and the projection.
  What the later statements still read when this list ends: main_v243; each holds its stage of the
  argument arrays, given the same of what this list itself reads from before it (main_v210, main_v206, main_v209). The arguments are never written.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The 39 operations of statements 241 … 278, in order (a called function's three operations stand in its call's place). -/
abbrev ops4 : List (HloOp τ sig (Elt F)) :=
  [ unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v206 main_v211 main_v212 (subf : (⟨S50000x128, .f32⟩ : BufTy).Contents (Elt F) → (⟨S50000x128, .f32⟩ : BufTy).Contents (Elt F) → (⟨S50000x128, .f32⟩ : BufTy).Contents (Elt F)),
    binary main_v212 main_v212 main_v213 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v213 main_cst_27 main_v214 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v215 (broadcastInDim S128 ![] bcast_S_S128 : (⟨S_, .f32⟩ : BufTy).Contents (Elt F) → (⟨S128, .f32⟩ : BufTy).Contents (Elt F)),
    binary main_v214 main_v215 main_v216 (Host.divf : (⟨S128, .f32⟩ : BufTy).Contents (Elt F) → (⟨S128, .f32⟩ : BufTy).Contents (Elt F) → (⟨S128, .f32⟩ : BufTy).Contents (Elt F)),
    unary main_v209 main_v217 (broadcastInDim S1x128 ![1] bcast_S128_S1x128_1 : (⟨S128, .f32⟩ : BufTy).Contents (Elt F) → (⟨S1x128, .f32⟩ : BufTy).Contents (Elt F)),
    unary main_v217 main_v218 (broadcastInDim S50000x128 ![0, 1] bcast_S1x128_S50000x128_0_1 : (⟨S1x128, .f32⟩ : BufTy).Contents (Elt F) → (⟨S50000x128, .f32⟩ : BufTy).Contents (Elt F)),
    binary main_v206 main_v218 main_v219 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v220 (broadcastInDim S128 ![] bcast_S_S128 : (⟨S_, .f32⟩ : BufTy).Contents (Elt F) → (⟨S128, .f32⟩ : BufTy).Contents (Elt F)),
    binary main_v216 main_v220 main_v221 (addf : (⟨S128, .f32⟩ : BufTy).Contents (Elt F) → (⟨S128, .f32⟩ : BufTy).Contents (Elt F) → (⟨S128, .f32⟩ : BufTy).Contents (Elt F)),
    unary main_v221 main_v222 (Host.rsqrt : (⟨S128, .f32⟩ : BufTy).Contents (Elt F) → (⟨S128, .f32⟩ : BufTy).Contents (Elt F)),
    unary main_v222 main_v223 (broadcastInDim S1x128 ![1] bcast_S128_S1x128_1 : (⟨S128, .f32⟩ : BufTy).Contents (Elt F) → (⟨S1x128, .f32⟩ : BufTy).Contents (Elt F)),
    unary main_v223 main_v224 (broadcastInDim S50000x128 ![0, 1] bcast_S1x128_S50000x128_0_1 : (⟨S1x128, .f32⟩ : BufTy).Contents (Elt F) → (⟨S50000x128, .f32⟩ : BufTy).Contents (Elt F)),
    binary main_v219 main_v224 main_v225 (mulf : (⟨S50000x128, .f32⟩ : BufTy).Contents (Elt F) → (⟨S50000x128, .f32⟩ : BufTy).Contents (Elt F) → (⟨S50000x128, .f32⟩ : BufTy).Contents (Elt F)),
    unary main_arg7 main_v226 ((extractStridedSlice S1x128 ![3, 0] · slices_S4x128_S1x128_3_0) : (⟨S4x128, .f32⟩ : BufTy).Contents (Elt F) → (⟨S1x128, .f32⟩ : BufTy).Contents (Elt F)),
    reshape main_v226 main_v227 rfl shapeCasts_S1x128_S128,
    unary main_v227 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v225 main_v229 main_v230 (mulf : (⟨S50000x128, .f32⟩ : BufTy).Contents (Elt F) → (⟨S50000x128, .f32⟩ : BufTy).Contents (Elt F) → (⟨S50000x128, .f32⟩ : BufTy).Contents (Elt F)),
    unary main_arg8 main_v231 ((extractStridedSlice S1x128 ![3, 0] · slices_S4x128_S1x128_3_0) : (⟨S4x128, .f32⟩ : BufTy).Contents (Elt F) → (⟨S1x128, .f32⟩ : BufTy).Contents (Elt F)),
    reshape main_v231 main_v232 rfl shapeCasts_S1x128_S128,
    unary main_v232 main_v233 (broadcastInDim S1x128 ![1] bcast_S128_S1x128_1 : (⟨S128, .f32⟩ : BufTy).Contents (Elt F) → (⟨S1x128, .f32⟩ : BufTy).Contents (Elt F)),
    unary main_v233 main_v234 (broadcastInDim S50000x128 ![0, 1] bcast_S1x128_S50000x128_0_1 : (⟨S1x128, .f32⟩ : BufTy).Contents (Elt F) → (⟨S50000x128, .f32⟩ : BufTy).Contents (Elt F)),
    binary main_v230 main_v234 main_v235 (addf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    unary main_cst_30 main_v236 (broadcastInDim S256x128 ![] bcast_S_S256x128 : (⟨S_, .f32⟩ : BufTy).Contents (Elt F) → (⟨S256x128, .f32⟩ : BufTy).Contents (Elt F)),
    unary main_arg2 main_v237 (broadcastInDim S50000x1 ![0] bcast_S50000_S50000x1_0 : (⟨S50000, .i32⟩ : BufTy).Contents (Elt F) → (⟨S50000x1, .i32⟩ : BufTy).Contents (Elt F)),
    ternary main_v236 main_v237 main_v235 main_v238 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    binary main_v238 main_arg9 main_v239 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg10 main_v240 (broadcastInDim S1x128 ![1] bcast_S128_S1x128_1 : (⟨S128, .f32⟩ : BufTy).Contents (Elt F) → (⟨S1x128, .f32⟩ : BufTy).Contents (Elt F)),
    unary main_v240 main_v241 (broadcastInDim S256x128 ![0, 1] bcast_S1x128_S256x128_0_1 : (⟨S1x128, .f32⟩ : BufTy).Contents (Elt F) → (⟨S256x128, .f32⟩ : BufTy).Contents (Elt F)),
    binary main_v239 main_v241 main_v242 (addf : (⟨S256x128, .f32⟩ : BufTy).Contents (Elt F) → (⟨S256x128, .f32⟩ : BufTy).Contents (Elt F) → (⟨S256x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S256x128, .f32⟩) main_call8_v0) (broadcastInDim S256x128 ![] bcast_S_S256x128),
    TRef.binary (TRef.of (T := ⟨S256x128, .f32⟩) main_v242) (TRef.of (T := ⟨S256x128, .f32⟩) main_call8_v0) (TRef.of (T := ⟨S256x128, .f32⟩) main_v243) maximumf ]

set_option maxRecDepth 8192 in
set_option maxHeartbeats 4000000 in
/-- The window is its operations run in order. -/
theorem part4_eq (c : Dev nD) : main_part4 (F := F) c = seq ops4 := rfl

set_option maxRecDepth 8192 in
/-- Every operation touches TensorCore buffers only. -/
theorem ops4_sub : (ops4 : List (HloOp τ sig (Elt F))).Forall fun op => op.bufs ⊆ tcRefs τ sig :=
  ⟨unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub ..⟩

set_option maxRecDepth 8192 in
/-- No operation allocates: each determines its results. -/
theorem ops4_fresh : ∀ op ∈ (ops4 : List (HloOp τ sig (Elt F))), op.fresh = ∅ := by
  intro _ h; (repeat (cases h with | head => rfl | tail _ h => ?_)); exact nomatch h

set_option maxRecDepth 8192 in
set_option maxHeartbeats 40000000 in
/-- From any contents `W` holding the arguments and the stages read from before: after these operations the arguments are unchanged and
    every buffer read later holds its stage of the arguments. -/
theorem win4 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S4x128x128, .f32⟩ : BufTy).Contents (Elt F)) (x4 : (⟨S4x128, .f32⟩ : BufTy).Contents (Elt F)) (x5 : (⟨S4x128x128, .f32⟩ : BufTy).Contents (Elt F)) (x6 : (⟨S4x128, .f32⟩ : BufTy).Contents (Elt F)) (x7 : (⟨S4x128, .f32⟩ : BufTy).Contents (Elt F)) (x8 : (⟨S4x128, .f32⟩ : BufTy).Contents (Elt F)) (x9 : (⟨S128x128, .f32⟩ : BufTy).Contents (Elt F)) (x10 : (⟨S128, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) (ha8 : W (Proc.devRef .tc main_arg8) = x8) (ha9 : W (Proc.devRef .tc main_arg9) = x9) (ha10 : W (Proc.devRef .tc main_arg10) = x10)
    (h_v210 : W (Proc.devRef .tc main_v210) = val_main_v210 (F := F) x0 x1 x3 x4 x5 x6 x7 x8)
    (h_v206 : W (Proc.devRef .tc main_v206) = val_main_v206 (F := F) x0 x1 x3 x4 x5 x6 x7 x8)
    (h_v209 : W (Proc.devRef .tc main_v209) = val_main_v209 (F := F) x0 x1 x3 x4 x5 x6 x7 x8) :
    after ops4 W (Proc.devRef .tc main_arg0) = x0
    ∧ after ops4 W (Proc.devRef .tc main_arg1) = x1
    ∧ after ops4 W (Proc.devRef .tc main_arg2) = x2
    ∧ after ops4 W (Proc.devRef .tc main_arg3) = x3
    ∧ after ops4 W (Proc.devRef .tc main_arg4) = x4
    ∧ after ops4 W (Proc.devRef .tc main_arg5) = x5
    ∧ after ops4 W (Proc.devRef .tc main_arg6) = x6
    ∧ after ops4 W (Proc.devRef .tc main_arg7) = x7
    ∧ after ops4 W (Proc.devRef .tc main_arg8) = x8
    ∧ after ops4 W (Proc.devRef .tc main_arg9) = x9
    ∧ after ops4 W (Proc.devRef .tc main_arg10) = x10
    ∧ after ops4 W (Proc.devRef .tc main_v243) = val_main_v243 (F := F) x0 x1 x2 x3 x4 x5 x6 x7 x8 x9 x10 := by
  refine ⟨?_, ?_, ?_, ?_, ?_, ?_, ?_, ?_, ?_, ?_, ?_, ?_⟩ <;> after_results_simp <;> (try simp only [ha0, ha1, ha2, ha3, ha4, ha5, ha6, ha7, ha8, ha9, ha10, h_v210, h_v206, h_v209]) <;> (try rfl)

end Cert.ReferenceIdeal.Hand

end
-- ==== Proof.Ref.Run.lean ====
/-
  The reference's run: @main is its five windows' operations run in order, so every weakly fair execution
  terminates with each buffer at the fold of the operations' results; read window by window, the result buffer
  ends at the last stage of the argument arrays and the arguments end unchanged.
-/
import proofs.«132655_j36919538876779_2_alg».proof.Proof.Ref.Run.W0
import proofs.«132655_j36919538876779_2_alg».proof.Proof.Ref.Run.W1
import proofs.«132655_j36919538876779_2_alg».proof.Proof.Ref.Run.W2
import proofs.«132655_j36919538876779_2_alg».proof.Proof.Ref.Run.W3
import proofs.«132655_j36919538876779_2_alg».proof.Proof.Ref.Run.W4

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The contents after two lists run one after the other: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- @main is the five windows' operations, in order. -/
theorem main_eq (c : Dev nD) : main (F := F) c = seq (ops0 ++ (ops1 ++ (ops2 ++ (ops3 ++ ops4)))) := by
  rw [seq_append, seq_append, seq_append, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsAll_sub : (ops0 ++ (ops1 ++ (ops2 ++ (ops3 ++ ops4))) : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

/-- No operation allocates. -/
theorem opsAll_fresh (op : HloOp τ sig (Elt F)) (h : op ∈ (ops0 ++ (ops1 ++ (ops2 ++ (ops3 ++ ops4))) : List (HloOp τ sig (Elt F)))) :
    op.fresh = ∅ := by
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  · exact ops4_fresh op h

/-- On every device, from any memory with zero counters: every weakly fair execution of @main terminates with the
    result buffer at the projection stage of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243) = val_main_v243 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_)
    (run_seq scopedRefs_eq scopedSems_eq defs main (fun _ => ops0 ++ (ops1 ++ (ops2 ++ (ops3 ++ ops4)))) main_eq
      (fun _ => opsAll_sub) m ρ (fun _ => opsAll_fresh))
  have e : ∀ b : Ref sig .tc, r.2.mem ((c.tc : Thread nD τ).loc b)
      = after ops4 (after ops3 (after ops2 (after ops1 (after ops0 (launchContents m c))))) (Proc.devRef .tc b) := fun b => by
    rw [h c b, after_append, after_append, after_append, after_append]
  obtain ⟨a0_0, a0_1, a0_2, a0_3, a0_4, a0_5, a0_6, a0_7, a0_8, a0_9, a0_10, h_v51_1, h_v1_1, h_v3_1⟩ :=
    win0 (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      rfl rfl rfl rfl rfl rfl rfl rfl rfl rfl rfl
  obtain ⟨a1_0, a1_1, a1_2, a1_3, a1_4, a1_5, a1_6, a1_7, a1_8, a1_9, a1_10, h_cst_13_2, h_v100_2, h_v103_2, h_v1_2, h_v3_2⟩ :=
    win1 (F := F) (after ops0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      a0_0 a0_1 a0_2 a0_3 a0_4 a0_5 a0_6 a0_7 a0_8 a0_9 a0_10 h_v51_1 h_v1_1 h_v3_1
  obtain ⟨a2_0, a2_1, a2_2, a2_3, a2_4, a2_5, a2_6, a2_7, a2_8, a2_9, a2_10, h_cst_20_3, h_v156_3, h_v151_3, h_v148_3, h_v1_3, h_v3_3⟩ :=
    win2 (F := F) (after ops1 (after ops0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      a1_0 a1_1 a1_2 a1_3 a1_4 a1_5 a1_6 a1_7 a1_8 a1_9 a1_10 h_cst_13_2 h_v100_2 h_v103_2 h_v1_2 h_v3_2
  obtain ⟨a3_0, a3_1, a3_2, a3_3, a3_4, a3_5, a3_6, a3_7, a3_8, a3_9, a3_10, h_v210_4, h_v206_4, h_v209_4⟩ :=
    win3 (F := F) (after ops2 (after ops1 (after ops0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      a2_0 a2_1 a2_2 a2_3 a2_4 a2_5 a2_6 a2_7 a2_8 a2_9 a2_10 h_cst_20_3 h_v156_3 h_v151_3 h_v148_3 h_v1_3 h_v3_3
  obtain ⟨a4_0, a4_1, a4_2, a4_3, a4_4, a4_5, a4_6, a4_7, a4_8, a4_9, a4_10, r243⟩ :=
    win4 (F := F) (after ops3 (after ops2 (after ops1 (after ops0 (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      a3_0 a3_1 a3_2 a3_3 a3_4 a3_5 a3_6 a3_7 a3_8 a3_9 a3_10 h_v210_4 h_v206_4 h_v209_4
  exact ⟨(e main_v243).trans r243, (e main_arg0).trans a4_0, (e main_arg1).trans a4_1, (e main_arg2).trans a4_2, (e main_arg3).trans a4_3, (e main_arg4).trans a4_4, (e main_arg5).trans a4_5, (e main_arg6).trans a4_6, (e main_arg7).trans a4_7, (e main_arg8).trans a4_8, (e main_arg9).trans a4_9, (e main_arg10).trans a4_10⟩

end Cert.ReferenceIdeal.Hand

end
-- ==== Proof.KI.Host.lean ====
import proofs.«132655_j36919538876779_2_alg».proof.Proof.Gen.KernelIdeal.Launch
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F] [Named F]

/-!
# What the host stretches of the idealized kernel program compute

Between two kernel regions the host slices the layer's parameters out of the stacked arrays (matrix l of a stack of four,
row l of a table of four rows, the row laid out as a 1 x 128 array) and forms the neighbour sum: rows of h gathered at
the edges' sources are accumulated into h at the edges' destinations, both index vectors first passed through "if
negative add 50000". Each stretch is read here as pure functions of the buffers it finds, for any contents W of the
buffers, given the contents of the buffers the stretch reads.
-/

/-- Row 0 of the edge list: the source node of each edge. -/
abbrev srcOf (e : IVec S2x800000 32) : IVec S800000 32 :=
  shapeCast S800000 (extractStridedSlice S1x800000 ![0, 0] e slices_S2x800000_S1x800000_0_0) shapeCasts_S1x800000_S800000
/-- Row 1 of the edge list: the destination node of each edge. -/
abbrev dstOf (e : IVec S2x800000 32) : IVec S800000 32 :=
  shapeCast S800000 (extractStridedSlice S1x800000 ![1, 0] e slices_S2x800000_S1x800000_1_0) shapeCasts_S1x800000_S800000
/-- A negative index wraps: add the number of rows. -/
abbrev normIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- An index vector as a column. -/
abbrev colOf (v : IVec S800000 32) : IVec S800000x1 32 := broadcastInDim S800000x1 ![0] bcast_S800000_S800000x1_0 v
/-- The neighbour sum accumulated into h: h.at[dst].add(h[src]). -/
def aggOf (h : FVec F S50000x128 .f32) (s d : IVec S800000 32) : FVec F S50000x128 .f32 :=
  Host.scatterAdd scatter_S50000x128_S800000x1_S800000x128_1_0_0_1 h (colOf (normIdx d))
    (Host.gather gather_S50000x128_S800000x1_S800000x128_1_0_n_n_0_1_1128 h (colOf (normIdx s)))
/-- The sum of the node rows of each graph: a segment sum over the batch vector, into zeros. -/
def poolOf (h : FVec F S50000x128 .f32) (b : IVec S50000 32) : FVec F S256x128 .f32 :=
  Host.scatterAdd scatter_S256x128_S50000x1_S50000x128_1_0_0_1 (broadcastInDim S256x128 ![] bcast_S_S256x128 (constant S_ .f32 0x00000000#32))
    (broadcastInDim S50000x1 ![0] bcast_S50000_S50000x1_0 b) h
/-- A vector of 128 laid out as one row. -/
abbrev rowOfVec (v : FVec F S128 .f32) : FVec F S1x128 .f32 := shapeCast S1x128 v shapeCasts_S128_S1x128
/-- Matrix 0 of a stack of four. -/
abbrev mat0 (a : FVec F S4x128x128 .f32) : FVec F S128x128 .f32 :=
  shapeCast S128x128 (extractStridedSlice S1x128x128 ![0, 0, 0] a slices_S4x128x128_S1x128x128_0_0_0) shapeCasts_S1x128x128_S128x128
/-- Row 0 of a table of four rows, as one row. -/
abbrev row0 (a : FVec F S4x128 .f32) : FVec F S1x128 .f32 :=
  shapeCast S1x128 (shapeCast S128 (extractStridedSlice S1x128 ![0, 0] a slices_S4x128_S1x128_0_0) shapeCasts_S1x128_S128) shapeCasts_S128_S1x128
/-- Matrix 1 of a stack of four. -/
abbrev mat1 (a : FVec F S4x128x128 .f32) : FVec F S128x128 .f32 :=
  shapeCast S128x128 (extractStridedSlice S1x128x128 ![1, 0, 0] a slices_S4x128x128_S1x128x128_1_0_0) shapeCasts_S1x128x128_S128x128
/-- Row 1 of a table of four rows, as one row. -/
abbrev row1 (a : FVec F S4x128 .f32) : FVec F S1x128 .f32 :=
  shapeCast S1x128 (shapeCast S128 (extractStridedSlice S1x128 ![1, 0] a slices_S4x128_S1x128_1_0) shapeCasts_S1x128_S128) shapeCasts_S128_S1x128
/-- Matrix 2 of a stack of four. -/
abbrev mat2 (a : FVec F S4x128x128 .f32) : FVec F S128x128 .f32 :=
  shapeCast S128x128 (extractStridedSlice S1x128x128 ![2, 0, 0] a slices_S4x128x128_S1x128x128_2_0_0) shapeCasts_S1x128x128_S128x128
/-- Row 2 of a table of four rows, as one row. -/
abbrev row2 (a : FVec F S4x128 .f32) : FVec F S1x128 .f32 :=
  shapeCast S1x128 (shapeCast S128 (extractStridedSlice S1x128 ![2, 0] a slices_S4x128_S1x128_2_0) shapeCasts_S1x128_S128) shapeCasts_S128_S1x128
/-- Matrix 3 of a stack of four. -/
abbrev mat3 (a : FVec F S4x128x128 .f32) : FVec F S128x128 .f32 :=
  shapeCast S128x128 (extractStridedSlice S1x128x128 ![3, 0, 0] a slices_S4x128x128_S1x128x128_3_0_0) shapeCasts_S1x128x128_S128x128
/-- Row 3 of a table of four rows, as one row. -/
abbrev row3 (a : FVec F S4x128 .f32) : FVec F S1x128 .f32 :=
  shapeCast S1x128 (shapeCast S128 (extractStridedSlice S1x128 ![3, 0] a slices_S4x128_S1x128_3_0) shapeCasts_S1x128_S128) shapeCasts_S128_S1x128

/-- The first stretch: the edge rows, the first neighbour sum, the first layer's parameters. -/
theorem stretch0 (W : Valuation τ sig (Elt F)) (a0 : FVec F S50000x128 .f32) (a1 : IVec S2x800000 32) (a3 : FVec F S4x128x128 .f32) (a4 : FVec F S4x128 .f32) (a5 : FVec F S4x128x128 .f32) (a6 : FVec F S4x128 .f32)
    (h0 : W (Proc.devRef .tc main_arg0) = a0) (h1 : W (Proc.devRef .tc main_arg1) = a1) (h3 : W (Proc.devRef .tc main_arg3) = a3) (h4 : W (Proc.devRef .tc main_arg4) = a4) (h5 : W (Proc.devRef .tc main_arg5) = a5) (h6 : W (Proc.devRef .tc main_arg6) = a6) :
    after hostOps0 W (Proc.devRef .tc main_v1) = srcOf a1
    ∧ after hostOps0 W (Proc.devRef .tc main_v3) = dstOf a1
    ∧ after hostOps0 W (Proc.devRef .tc main_v17) = aggOf a0 (srcOf a1) (dstOf a1)
    ∧ after hostOps0 W (Proc.devRef .tc main_v19) = mat0 a3
    ∧ after hostOps0 W (Proc.devRef .tc main_v22) = row0 a4
    ∧ after hostOps0 W (Proc.devRef .tc main_v24) = mat0 a5
    ∧ after hostOps0 W (Proc.devRef .tc main_v27) = row0 a6 := by
  refine ⟨?_, ?_, ?_, ?_, ?_, ?_, ?_⟩ <;> after_results_simp <;> (try simp only [h0, h1, h3, h4, h5, h6]) <;> (try rfl)

/-- The stretch before layer 0's second kernel: the layer's parameters again, and its affine map's. -/
theorem stretch1 (W : Valuation τ sig (Elt F)) (a3 : FVec F S4x128x128 .f32) (a4 : FVec F S4x128 .f32) (a5 : FVec F S4x128x128 .f32) (a6 : FVec F S4x128 .f32) (a7 a8 : FVec F S4x128 .f32)
    (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) :
    after hostOps1 W (Proc.devRef .tc main_v30) = mat0 a3
    ∧ after hostOps1 W (Proc.devRef .tc main_v33) = row0 a4
    ∧ after hostOps1 W (Proc.devRef .tc main_v35) = mat0 a5
    ∧ after hostOps1 W (Proc.devRef .tc main_v38) = row0 a6
    ∧ after hostOps1 W (Proc.devRef .tc main_v41) = row0 a7
    ∧ after hostOps1 W (Proc.devRef .tc main_v44) = row0 a8 := by
  refine ⟨?_, ?_, ?_, ?_, ?_, ?_⟩ <;> after_results_simp <;> (try simp only [h3, h4, h5, h6, h7, h8]) <;> (try rfl)

/-- The stretch before layer 1's second kernel: the layer's parameters again, and its affine map's. -/
theorem stretch3 (W : Valuation τ sig (Elt F)) (a3 : FVec F S4x128x128 .f32) (a4 : FVec F S4x128 .f32) (a5 : FVec F S4x128x128 .f32) (a6 : FVec F S4x128 .f32) (a7 a8 : FVec F S4x128 .f32)
    (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) :
    after hostOps3 W (Proc.devRef .tc main_v72) = mat1 a3
    ∧ after hostOps3 W (Proc.devRef .tc main_v75) = row1 a4
    ∧ after hostOps3 W (Proc.devRef .tc main_v77) = mat1 a5
    ∧ after hostOps3 W (Proc.devRef .tc main_v80) = row1 a6
    ∧ after hostOps3 W (Proc.devRef .tc main_v83) = row1 a7
    ∧ after hostOps3 W (Proc.devRef .tc main_v86) = row1 a8 := by
  refine ⟨?_, ?_, ?_, ?_, ?_, ?_⟩ <;> after_results_simp <;> (try simp only [h3, h4, h5, h6, h7, h8]) <;> (try rfl)

/-- The stretch before layer 1's first kernel: the neighbour sum of the previous layer's output, the layer's parameters. -/
theorem stretch2 (W : Valuation τ sig (Elt F)) (h : FVec F S50000x128 .f32) (s d : IVec S800000 32) (a3 : FVec F S4x128x128 .f32) (a4 : FVec F S4x128 .f32) (a5 : FVec F S4x128x128 .f32) (a6 : FVec F S4x128 .f32)
    (hh : W (Proc.devRef .tc main_v45) = h) (hs : W (Proc.devRef .tc main_v1) = s) (hd : W (Proc.devRef .tc main_v3) = d) (h3 : W (Proc.devRef .tc main_arg3) = a3) (h4 : W (Proc.devRef .tc main_arg4) = a4) (h5 : W (Proc.devRef .tc main_arg5) = a5) (h6 : W (Proc.devRef .tc main_arg6) = a6) :
    after hostOps2 W (Proc.devRef .tc main_v59) = aggOf h s d
    ∧ after hostOps2 W (Proc.devRef .tc main_v61) = mat1 a3
    ∧ after hostOps2 W (Proc.devRef .tc main_v64) = row1 a4
    ∧ after hostOps2 W (Proc.devRef .tc main_v66) = mat1 a5
    ∧ after hostOps2 W (Proc.devRef .tc main_v69) = row1 a6 := by
  refine ⟨?_, ?_, ?_, ?_, ?_⟩ <;> after_results_simp <;> (try simp only [hh, hs, hd, h3, h4, h5, h6]) <;> (try rfl)

/-- The stretch before layer 2's second kernel: the layer's parameters again, and its affine map's. -/
theorem stretch5 (W : Valuation τ sig (Elt F)) (a3 : FVec F S4x128x128 .f32) (a4 : FVec F S4x128 .f32) (a5 : FVec F S4x128x128 .f32) (a6 : FVec F S4x128 .f32) (a7 a8 : FVec F S4x128 .f32)
    (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) :
    after hostOps5 W (Proc.devRef .tc main_v114) = mat2 a3
    ∧ after hostOps5 W (Proc.devRef .tc main_v117) = row2 a4
    ∧ after hostOps5 W (Proc.devRef .tc main_v119) = mat2 a5
    ∧ after hostOps5 W (Proc.devRef .tc main_v122) = row2 a6
    ∧ after hostOps5 W (Proc.devRef .tc main_v125) = row2 a7
    ∧ after hostOps5 W (Proc.devRef .tc main_v128) = row2 a8 := by
  refine ⟨?_, ?_, ?_, ?_, ?_, ?_⟩ <;> after_results_simp <;> (try simp only [h3, h4, h5, h6, h7, h8]) <;> (try rfl)

/-- The stretch before layer 2's first kernel: the neighbour sum of the previous layer's output, the layer's parameters. -/
theorem stretch4 (W : Valuation τ sig (Elt F)) (h : FVec F S50000x128 .f32) (s d : IVec S800000 32) (a3 : FVec F S4x128x128 .f32) (a4 : FVec F S4x128 .f32) (a5 : FVec F S4x128x128 .f32) (a6 : FVec F S4x128 .f32)
    (hh : W (Proc.devRef .tc main_v87) = h) (hs : W (Proc.devRef .tc main_v1) = s) (hd : W (Proc.devRef .tc main_v3) = d) (h3 : W (Proc.devRef .tc main_arg3) = a3) (h4 : W (Proc.devRef .tc main_arg4) = a4) (h5 : W (Proc.devRef .tc main_arg5) = a5) (h6 : W (Proc.devRef .tc main_arg6) = a6) :
    after hostOps4 W (Proc.devRef .tc main_v101) = aggOf h s d
    ∧ after hostOps4 W (Proc.devRef .tc main_v103) = mat2 a3
    ∧ after hostOps4 W (Proc.devRef .tc main_v106) = row2 a4
    ∧ after hostOps4 W (Proc.devRef .tc main_v108) = mat2 a5
    ∧ after hostOps4 W (Proc.devRef .tc main_v111) = row2 a6 := by
  refine ⟨?_, ?_, ?_, ?_, ?_⟩ <;> after_results_simp <;> (try simp only [hh, hs, hd, h3, h4, h5, h6]) <;> (try rfl)

/-- The stretch before layer 3's second kernel: the layer's parameters again, and its affine map's. -/
theorem stretch7 (W : Valuation τ sig (Elt F)) (a3 : FVec F S4x128x128 .f32) (a4 : FVec F S4x128 .f32) (a5 : FVec F S4x128x128 .f32) (a6 : FVec F S4x128 .f32) (a7 a8 : FVec F S4x128 .f32)
    (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) :
    after hostOps7 W (Proc.devRef .tc main_v156) = mat3 a3
    ∧ after hostOps7 W (Proc.devRef .tc main_v159) = row3 a4
    ∧ after hostOps7 W (Proc.devRef .tc main_v161) = mat3 a5
    ∧ after hostOps7 W (Proc.devRef .tc main_v164) = row3 a6
    ∧ after hostOps7 W (Proc.devRef .tc main_v167) = row3 a7
    ∧ after hostOps7 W (Proc.devRef .tc main_v170) = row3 a8 := by
  refine ⟨?_, ?_, ?_, ?_, ?_, ?_⟩ <;> after_results_simp <;> (try simp only [h3, h4, h5, h6, h7, h8]) <;> (try rfl)

/-- The stretch before layer 3's first kernel: the neighbour sum of the previous layer's output, the layer's parameters. -/
theorem stretch6 (W : Valuation τ sig (Elt F)) (h : FVec F S50000x128 .f32) (s d : IVec S800000 32) (a3 : FVec F S4x128x128 .f32) (a4 : FVec F S4x128 .f32) (a5 : FVec F S4x128x128 .f32) (a6 : FVec F S4x128 .f32)
    (hh : W (Proc.devRef .tc main_v129) = h) (hs : W (Proc.devRef .tc main_v1) = s) (hd : W (Proc.devRef .tc main_v3) = d) (h3 : W (Proc.devRef .tc main_arg3) = a3) (h4 : W (Proc.devRef .tc main_arg4) = a4) (h5 : W (Proc.devRef .tc main_arg5) = a5) (h6 : W (Proc.devRef .tc main_arg6) = a6) :
    after hostOps6 W (Proc.devRef .tc main_v143) = aggOf h s d
    ∧ after hostOps6 W (Proc.devRef .tc main_v145) = mat3 a3
    ∧ after hostOps6 W (Proc.devRef .tc main_v148) = row3 a4
    ∧ after hostOps6 W (Proc.devRef .tc main_v150) = mat3 a5
    ∧ after hostOps6 W (Proc.devRef .tc main_v153) = row3 a6 := by
  refine ⟨?_, ?_, ?_, ?_, ?_⟩ <;> after_results_simp <;> (try simp only [hh, hs, hd, h3, h4, h5, h6]) <;> (try rfl)

/-- The last stretch: the per-graph sums of the last layer's output, and the projection's bias as one row. -/
theorem stretch8 (W : Valuation τ sig (Elt F)) (h : FVec F S50000x128 .f32) (a2 : IVec S50000 32) (a10 : FVec F S128 .f32)
    (hh : W (Proc.devRef .tc main_v171) = h) (h2 : W (Proc.devRef .tc main_arg2) = a2) (h10 : W (Proc.devRef .tc main_arg10) = a10) :
    after hostOps8 W (Proc.devRef .tc main_v174) = poolOf h a2
    ∧ after hostOps8 W (Proc.devRef .tc main_v175) = rowOfVec a10 := by
  refine ⟨?_, ?_⟩ <;> after_results_simp <;> (try simp only [hh, h2, h10]) <;> (try rfl)

end Cert.KernelIdeal.Hand

end
-- ==== Proof.KI.Carry.lean ====
import proofs.«132655_j36919538876779_2_alg».proof.Proof.KI.RunW
import proofs.«132655_j36919538876779_2_alg».proof.Proof.KI.Host
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# Buffers no segment writes, read through the run

No host stretch and no kernel region writes an argument of @main, and the two rows of the edge list, once sliced out by
the first stretch, are never written again. So at every boundary between two segments each of these buffers still holds
what it held before: the argument its launch contents, the edge rows what the first stretch computed.
-/

variable {F : FTy → Type} [FloatOps F] [Named F]
variable (m : (ℓ : Loc nD τ sig) → Buf (Elt F) ℓ) (ρ : Dev nD → PrngReg)

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (W1_of m ρ c main_arg0 (by decide)).trans (W0_arg0 m ρ c)
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_of m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_of m ρ c main_arg0 (by decide)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (W9_of m ρ c main_arg0 (by decide)).trans (W8_arg0 m ρ c)
theorem W10_arg0 (c : Dev nD) : W10 m ρ c (Proc.devRef .tc main_arg0) = m ((c : Thread nD τ).loc main_arg0) :=
  (W10_of_ne m ρ c main_arg0 (by decide)).trans (W9_arg0 m ρ c)
theorem W11_arg0 (c : Dev nD) : W11 m ρ c (Proc.devRef .tc main_arg0) = m ((c : Thread nD τ).loc main_arg0) :=
  (W11_of m ρ c main_arg0 (by decide)).trans (W10_arg0 m ρ c)
theorem W12_arg0 (c : Dev nD) : W12 m ρ c (Proc.devRef .tc main_arg0) = m ((c : Thread nD τ).loc main_arg0) :=
  (W12_of_ne m ρ c main_arg0 (by decide)).trans (W11_arg0 m ρ c)
theorem W13_arg0 (c : Dev nD) : W13 m ρ c (Proc.devRef .tc main_arg0) = m ((c : Thread nD τ).loc main_arg0) :=
  (W13_of m ρ c main_arg0 (by decide)).trans (W12_arg0 m ρ c)
theorem W14_arg0 (c : Dev nD) : W14 m ρ c (Proc.devRef .tc main_arg0) = m ((c : Thread nD τ).loc main_arg0) :=
  (W14_of_ne m ρ c main_arg0 (by decide)).trans (W13_arg0 m ρ c)
theorem W15_arg0 (c : Dev nD) : W15 m ρ c (Proc.devRef .tc main_arg0) = m ((c : Thread nD τ).loc main_arg0) :=
  (W15_of m ρ c main_arg0 (by decide)).trans (W14_arg0 m ρ c)
theorem W16_arg0 (c : Dev nD) : W16 m ρ c (Proc.devRef .tc main_arg0) = m ((c : Thread nD τ).loc main_arg0) :=
  (W16_of_ne m ρ c main_arg0 (by decide)).trans (W15_arg0 m ρ c)
theorem W17_arg0 (c : Dev nD) : W17 m ρ c (Proc.devRef .tc main_arg0) = m ((c : Thread nD τ).loc main_arg0) :=
  (W17_of m ρ c main_arg0 (by decide)).trans (W16_arg0 m ρ c)

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (W1_of m ρ c main_arg1 (by decide)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (W5_of m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of m ρ c main_arg1 (by decide)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (W9_of m ρ c main_arg1 (by decide)).trans (W8_arg1 m ρ c)
theorem W10_arg1 (c : Dev nD) : W10 m ρ c (Proc.devRef .tc main_arg1) = m ((c : Thread nD τ).loc main_arg1) :=
  (W10_of_ne m ρ c main_arg1 (by decide)).trans (W9_arg1 m ρ c)
theorem W11_arg1 (c : Dev nD) : W11 m ρ c (Proc.devRef .tc main_arg1) = m ((c : Thread nD τ).loc main_arg1) :=
  (W11_of m ρ c main_arg1 (by decide)).trans (W10_arg1 m ρ c)
theorem W12_arg1 (c : Dev nD) : W12 m ρ c (Proc.devRef .tc main_arg1) = m ((c : Thread nD τ).loc main_arg1) :=
  (W12_of_ne m ρ c main_arg1 (by decide)).trans (W11_arg1 m ρ c)
theorem W13_arg1 (c : Dev nD) : W13 m ρ c (Proc.devRef .tc main_arg1) = m ((c : Thread nD τ).loc main_arg1) :=
  (W13_of m ρ c main_arg1 (by decide)).trans (W12_arg1 m ρ c)
theorem W14_arg1 (c : Dev nD) : W14 m ρ c (Proc.devRef .tc main_arg1) = m ((c : Thread nD τ).loc main_arg1) :=
  (W14_of_ne m ρ c main_arg1 (by decide)).trans (W13_arg1 m ρ c)
theorem W15_arg1 (c : Dev nD) : W15 m ρ c (Proc.devRef .tc main_arg1) = m ((c : Thread nD τ).loc main_arg1) :=
  (W15_of m ρ c main_arg1 (by decide)).trans (W14_arg1 m ρ c)
theorem W16_arg1 (c : Dev nD) : W16 m ρ c (Proc.devRef .tc main_arg1) = m ((c : Thread nD τ).loc main_arg1) :=
  (W16_of_ne m ρ c main_arg1 (by decide)).trans (W15_arg1 m ρ c)
theorem W17_arg1 (c : Dev nD) : W17 m ρ c (Proc.devRef .tc main_arg1) = m ((c : Thread nD τ).loc main_arg1) :=
  (W17_of m ρ c main_arg1 (by decide)).trans (W16_arg1 m ρ c)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (W1_of m ρ c main_arg2 (by decide)).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_of m ρ c main_arg2 (by decide)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of m ρ c main_arg2 (by decide)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (W9_of m ρ c main_arg2 (by decide)).trans (W8_arg2 m ρ c)
theorem W10_arg2 (c : Dev nD) : W10 m ρ c (Proc.devRef .tc main_arg2) = m ((c : Thread nD τ).loc main_arg2) :=
  (W10_of_ne m ρ c main_arg2 (by decide)).trans (W9_arg2 m ρ c)
theorem W11_arg2 (c : Dev nD) : W11 m ρ c (Proc.devRef .tc main_arg2) = m ((c : Thread nD τ).loc main_arg2) :=
  (W11_of m ρ c main_arg2 (by decide)).trans (W10_arg2 m ρ c)
theorem W12_arg2 (c : Dev nD) : W12 m ρ c (Proc.devRef .tc main_arg2) = m ((c : Thread nD τ).loc main_arg2) :=
  (W12_of_ne m ρ c main_arg2 (by decide)).trans (W11_arg2 m ρ c)
theorem W13_arg2 (c : Dev nD) : W13 m ρ c (Proc.devRef .tc main_arg2) = m ((c : Thread nD τ).loc main_arg2) :=
  (W13_of m ρ c main_arg2 (by decide)).trans (W12_arg2 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W15_arg2 (c : Dev nD) : W15 m ρ c (Proc.devRef .tc main_arg2) = m ((c : Thread nD τ).loc main_arg2) :=
  (W15_of m ρ c main_arg2 (by decide)).trans (W14_arg2 m ρ c)
theorem W16_arg2 (c : Dev nD) : W16 m ρ c (Proc.devRef .tc main_arg2) = m ((c : Thread nD τ).loc main_arg2) :=
  (W16_of_ne m ρ c main_arg2 (by decide)).trans (W15_arg2 m ρ c)
theorem W17_arg2 (c : Dev nD) : W17 m ρ c (Proc.devRef .tc main_arg2) = m ((c : Thread nD τ).loc main_arg2) :=
  (W17_of m ρ c main_arg2 (by decide)).trans (W16_arg2 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (W1_of m ρ c main_arg3 (by decide)).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (W5_of m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of m ρ c main_arg3 (by decide)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (W9_of m ρ c main_arg3 (by decide)).trans (W8_arg3 m ρ c)
theorem W10_arg3 (c : Dev nD) : W10 m ρ c (Proc.devRef .tc main_arg3) = m ((c : Thread nD τ).loc main_arg3) :=
  (W10_of_ne m ρ c main_arg3 (by decide)).trans (W9_arg3 m ρ c)
theorem W11_arg3 (c : Dev nD) : W11 m ρ c (Proc.devRef .tc main_arg3) = m ((c : Thread nD τ).loc main_arg3) :=
  (W11_of m ρ c main_arg3 (by decide)).trans (W10_arg3 m ρ c)
theorem W12_arg3 (c : Dev nD) : W12 m ρ c (Proc.devRef .tc main_arg3) = m ((c : Thread nD τ).loc main_arg3) :=
  (W12_of_ne m ρ c main_arg3 (by decide)).trans (W11_arg3 m ρ c)
theorem W13_arg3 (c : Dev nD) : W13 m ρ c (Proc.devRef .tc main_arg3) = m ((c : Thread nD τ).loc main_arg3) :=
  (W13_of m ρ c main_arg3 (by decide)).trans (W12_arg3 m ρ c)
theorem W14_arg3 (c : Dev nD) : W14 m ρ c (Proc.devRef .tc main_arg3) = m ((c : Thread nD τ).loc main_arg3) :=
  (W14_of_ne m ρ c main_arg3 (by decide)).trans (W13_arg3 m ρ c)
theorem W15_arg3 (c : Dev nD) : W15 m ρ c (Proc.devRef .tc main_arg3) = m ((c : Thread nD τ).loc main_arg3) :=
  (W15_of m ρ c main_arg3 (by decide)).trans (W14_arg3 m ρ c)
theorem W16_arg3 (c : Dev nD) : W16 m ρ c (Proc.devRef .tc main_arg3) = m ((c : Thread nD τ).loc main_arg3) :=
  (W16_of_ne m ρ c main_arg3 (by decide)).trans (W15_arg3 m ρ c)
theorem W17_arg3 (c : Dev nD) : W17 m ρ c (Proc.devRef .tc main_arg3) = m ((c : Thread nD τ).loc main_arg3) :=
  (W17_of m ρ c main_arg3 (by decide)).trans (W16_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (W1_of m ρ c main_arg4 (by decide)).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_of m ρ c main_arg4 (by decide)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (W7_of m ρ c main_arg4 (by decide)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (W9_of m ρ c main_arg4 (by decide)).trans (W8_arg4 m ρ c)
theorem W10_arg4 (c : Dev nD) : W10 m ρ c (Proc.devRef .tc main_arg4) = m ((c : Thread nD τ).loc main_arg4) :=
  (W10_of_ne m ρ c main_arg4 (by decide)).trans (W9_arg4 m ρ c)
theorem W11_arg4 (c : Dev nD) : W11 m ρ c (Proc.devRef .tc main_arg4) = m ((c : Thread nD τ).loc main_arg4) :=
  (W11_of m ρ c main_arg4 (by decide)).trans (W10_arg4 m ρ c)
theorem W12_arg4 (c : Dev nD) : W12 m ρ c (Proc.devRef .tc main_arg4) = m ((c : Thread nD τ).loc main_arg4) :=
  (W12_of_ne m ρ c main_arg4 (by decide)).trans (W11_arg4 m ρ c)
theorem W13_arg4 (c : Dev nD) : W13 m ρ c (Proc.devRef .tc main_arg4) = m ((c : Thread nD τ).loc main_arg4) :=
  (W13_of m ρ c main_arg4 (by decide)).trans (W12_arg4 m ρ c)
theorem W14_arg4 (c : Dev nD) : W14 m ρ c (Proc.devRef .tc main_arg4) = m ((c : Thread nD τ).loc main_arg4) :=
  (W14_of_ne m ρ c main_arg4 (by decide)).trans (W13_arg4 m ρ c)
theorem W15_arg4 (c : Dev nD) : W15 m ρ c (Proc.devRef .tc main_arg4) = m ((c : Thread nD τ).loc main_arg4) :=
  (W15_of m ρ c main_arg4 (by decide)).trans (W14_arg4 m ρ c)
theorem W16_arg4 (c : Dev nD) : W16 m ρ c (Proc.devRef .tc main_arg4) = m ((c : Thread nD τ).loc main_arg4) :=
  (W16_of_ne m ρ c main_arg4 (by decide)).trans (W15_arg4 m ρ c)
theorem W17_arg4 (c : Dev nD) : W17 m ρ c (Proc.devRef .tc main_arg4) = m ((c : Thread nD τ).loc main_arg4) :=
  (W17_of m ρ c main_arg4 (by decide)).trans (W16_arg4 m ρ c)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (W1_of m ρ c main_arg5 (by decide)).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_of m ρ c main_arg5 (by decide)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (W5_of m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_of m ρ c main_arg5 (by decide)).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (W9_of m ρ c main_arg5 (by decide)).trans (W8_arg5 m ρ c)
theorem W10_arg5 (c : Dev nD) : W10 m ρ c (Proc.devRef .tc main_arg5) = m ((c : Thread nD τ).loc main_arg5) :=
  (W10_of_ne m ρ c main_arg5 (by decide)).trans (W9_arg5 m ρ c)
theorem W11_arg5 (c : Dev nD) : W11 m ρ c (Proc.devRef .tc main_arg5) = m ((c : Thread nD τ).loc main_arg5) :=
  (W11_of m ρ c main_arg5 (by decide)).trans (W10_arg5 m ρ c)
theorem W12_arg5 (c : Dev nD) : W12 m ρ c (Proc.devRef .tc main_arg5) = m ((c : Thread nD τ).loc main_arg5) :=
  (W12_of_ne m ρ c main_arg5 (by decide)).trans (W11_arg5 m ρ c)
theorem W13_arg5 (c : Dev nD) : W13 m ρ c (Proc.devRef .tc main_arg5) = m ((c : Thread nD τ).loc main_arg5) :=
  (W13_of m ρ c main_arg5 (by decide)).trans (W12_arg5 m ρ c)
theorem W14_arg5 (c : Dev nD) : W14 m ρ c (Proc.devRef .tc main_arg5) = m ((c : Thread nD τ).loc main_arg5) :=
  (W14_of_ne m ρ c main_arg5 (by decide)).trans (W13_arg5 m ρ c)
theorem W15_arg5 (c : Dev nD) : W15 m ρ c (Proc.devRef .tc main_arg5) = m ((c : Thread nD τ).loc main_arg5) :=
  (W15_of m ρ c main_arg5 (by decide)).trans (W14_arg5 m ρ c)
theorem W16_arg5 (c : Dev nD) : W16 m ρ c (Proc.devRef .tc main_arg5) = m ((c : Thread nD τ).loc main_arg5) :=
  (W16_of_ne m ρ c main_arg5 (by decide)).trans (W15_arg5 m ρ c)
theorem W17_arg5 (c : Dev nD) : W17 m ρ c (Proc.devRef .tc main_arg5) = m ((c : Thread nD τ).loc main_arg5) :=
  (W17_of m ρ c main_arg5 (by decide)).trans (W16_arg5 m ρ c)

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (W1_of m ρ c main_arg6 (by decide)).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (W3_of m ρ c main_arg6 (by decide)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (W5_of m ρ c main_arg6 (by decide)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (W7_of m ρ c main_arg6 (by decide)).trans (W6_arg6 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) :=
  (W9_of m ρ c main_arg6 (by decide)).trans (W8_arg6 m ρ c)
theorem W10_arg6 (c : Dev nD) : W10 m ρ c (Proc.devRef .tc main_arg6) = m ((c : Thread nD τ).loc main_arg6) :=
  (W10_of_ne m ρ c main_arg6 (by decide)).trans (W9_arg6 m ρ c)
theorem W11_arg6 (c : Dev nD) : W11 m ρ c (Proc.devRef .tc main_arg6) = m ((c : Thread nD τ).loc main_arg6) :=
  (W11_of m ρ c main_arg6 (by decide)).trans (W10_arg6 m ρ c)
theorem W12_arg6 (c : Dev nD) : W12 m ρ c (Proc.devRef .tc main_arg6) = m ((c : Thread nD τ).loc main_arg6) :=
  (W12_of_ne m ρ c main_arg6 (by decide)).trans (W11_arg6 m ρ c)
theorem W13_arg6 (c : Dev nD) : W13 m ρ c (Proc.devRef .tc main_arg6) = m ((c : Thread nD τ).loc main_arg6) :=
  (W13_of m ρ c main_arg6 (by decide)).trans (W12_arg6 m ρ c)
theorem W14_arg6 (c : Dev nD) : W14 m ρ c (Proc.devRef .tc main_arg6) = m ((c : Thread nD τ).loc main_arg6) :=
  (W14_of_ne m ρ c main_arg6 (by decide)).trans (W13_arg6 m ρ c)
theorem W15_arg6 (c : Dev nD) : W15 m ρ c (Proc.devRef .tc main_arg6) = m ((c : Thread nD τ).loc main_arg6) :=
  (W15_of m ρ c main_arg6 (by decide)).trans (W14_arg6 m ρ c)
theorem W16_arg6 (c : Dev nD) : W16 m ρ c (Proc.devRef .tc main_arg6) = m ((c : Thread nD τ).loc main_arg6) :=
  (W16_of_ne m ρ c main_arg6 (by decide)).trans (W15_arg6 m ρ c)
theorem W17_arg6 (c : Dev nD) : W17 m ρ c (Proc.devRef .tc main_arg6) = m ((c : Thread nD τ).loc main_arg6) :=
  (W17_of m ρ c main_arg6 (by decide)).trans (W16_arg6 m ρ c)

theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (W1_of m ρ c main_arg7 (by decide)).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (W3_of m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (W5_of m ρ c main_arg7 (by decide)).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) :=
  (W7_of m ρ c main_arg7 (by decide)).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (W9_of m ρ c main_arg7 (by decide)).trans (W8_arg7 m ρ c)
theorem W10_arg7 (c : Dev nD) : W10 m ρ c (Proc.devRef .tc main_arg7) = m ((c : Thread nD τ).loc main_arg7) :=
  (W10_of_ne m ρ c main_arg7 (by decide)).trans (W9_arg7 m ρ c)
theorem W11_arg7 (c : Dev nD) : W11 m ρ c (Proc.devRef .tc main_arg7) = m ((c : Thread nD τ).loc main_arg7) :=
  (W11_of m ρ c main_arg7 (by decide)).trans (W10_arg7 m ρ c)
theorem W12_arg7 (c : Dev nD) : W12 m ρ c (Proc.devRef .tc main_arg7) = m ((c : Thread nD τ).loc main_arg7) :=
  (W12_of_ne m ρ c main_arg7 (by decide)).trans (W11_arg7 m ρ c)
theorem W13_arg7 (c : Dev nD) : W13 m ρ c (Proc.devRef .tc main_arg7) = m ((c : Thread nD τ).loc main_arg7) :=
  (W13_of m ρ c main_arg7 (by decide)).trans (W12_arg7 m ρ c)
theorem W14_arg7 (c : Dev nD) : W14 m ρ c (Proc.devRef .tc main_arg7) = m ((c : Thread nD τ).loc main_arg7) :=
  (W14_of_ne m ρ c main_arg7 (by decide)).trans (W13_arg7 m ρ c)
theorem W15_arg7 (c : Dev nD) : W15 m ρ c (Proc.devRef .tc main_arg7) = m ((c : Thread nD τ).loc main_arg7) :=
  (W15_of m ρ c main_arg7 (by decide)).trans (W14_arg7 m ρ c)
theorem W16_arg7 (c : Dev nD) : W16 m ρ c (Proc.devRef .tc main_arg7) = m ((c : Thread nD τ).loc main_arg7) :=
  (W16_of_ne m ρ c main_arg7 (by decide)).trans (W15_arg7 m ρ c)
theorem W17_arg7 (c : Dev nD) : W17 m ρ c (Proc.devRef .tc main_arg7) = m ((c : Thread nD τ).loc main_arg7) :=
  (W17_of m ρ c main_arg7 (by decide)).trans (W16_arg7 m ρ c)

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (W1_of m ρ c main_arg8 (by decide)).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (W3_of m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (W5_of m ρ c main_arg8 (by decide)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (W7_of m ρ c main_arg8 (by decide)).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (W9_of m ρ c main_arg8 (by decide)).trans (W8_arg8 m ρ c)
theorem W10_arg8 (c : Dev nD) : W10 m ρ c (Proc.devRef .tc main_arg8) = m ((c : Thread nD τ).loc main_arg8) :=
  (W10_of_ne m ρ c main_arg8 (by decide)).trans (W9_arg8 m ρ c)
theorem W11_arg8 (c : Dev nD) : W11 m ρ c (Proc.devRef .tc main_arg8) = m ((c : Thread nD τ).loc main_arg8) :=
  (W11_of m ρ c main_arg8 (by decide)).trans (W10_arg8 m ρ c)
theorem W12_arg8 (c : Dev nD) : W12 m ρ c (Proc.devRef .tc main_arg8) = m ((c : Thread nD τ).loc main_arg8) :=
  (W12_of_ne m ρ c main_arg8 (by decide)).trans (W11_arg8 m ρ c)
theorem W13_arg8 (c : Dev nD) : W13 m ρ c (Proc.devRef .tc main_arg8) = m ((c : Thread nD τ).loc main_arg8) :=
  (W13_of m ρ c main_arg8 (by decide)).trans (W12_arg8 m ρ c)
theorem W14_arg8 (c : Dev nD) : W14 m ρ c (Proc.devRef .tc main_arg8) = m ((c : Thread nD τ).loc main_arg8) :=
  (W14_of_ne m ρ c main_arg8 (by decide)).trans (W13_arg8 m ρ c)
theorem W15_arg8 (c : Dev nD) : W15 m ρ c (Proc.devRef .tc main_arg8) = m ((c : Thread nD τ).loc main_arg8) :=
  (W15_of m ρ c main_arg8 (by decide)).trans (W14_arg8 m ρ c)
theorem W16_arg8 (c : Dev nD) : W16 m ρ c (Proc.devRef .tc main_arg8) = m ((c : Thread nD τ).loc main_arg8) :=
  (W16_of_ne m ρ c main_arg8 (by decide)).trans (W15_arg8 m ρ c)
theorem W17_arg8 (c : Dev nD) : W17 m ρ c (Proc.devRef .tc main_arg8) = m ((c : Thread nD τ).loc main_arg8) :=
  (W17_of m ρ c main_arg8 (by decide)).trans (W16_arg8 m ρ c)

theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) :=
  (W1_of m ρ c main_arg9 (by decide)).trans (W0_arg9 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (W3_of m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (W5_of m ρ c main_arg9 (by decide)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_of m ρ c main_arg9 (by decide)).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (W9_of m ρ c main_arg9 (by decide)).trans (W8_arg9 m ρ c)
theorem W10_arg9 (c : Dev nD) : W10 m ρ c (Proc.devRef .tc main_arg9) = m ((c : Thread nD τ).loc main_arg9) :=
  (W10_of_ne m ρ c main_arg9 (by decide)).trans (W9_arg9 m ρ c)
theorem W11_arg9 (c : Dev nD) : W11 m ρ c (Proc.devRef .tc main_arg9) = m ((c : Thread nD τ).loc main_arg9) :=
  (W11_of m ρ c main_arg9 (by decide)).trans (W10_arg9 m ρ c)
theorem W12_arg9 (c : Dev nD) : W12 m ρ c (Proc.devRef .tc main_arg9) = m ((c : Thread nD τ).loc main_arg9) :=
  (W12_of_ne m ρ c main_arg9 (by decide)).trans (W11_arg9 m ρ c)
theorem W13_arg9 (c : Dev nD) : W13 m ρ c (Proc.devRef .tc main_arg9) = m ((c : Thread nD τ).loc main_arg9) :=
  (W13_of m ρ c main_arg9 (by decide)).trans (W12_arg9 m ρ c)
theorem W14_arg9 (c : Dev nD) : W14 m ρ c (Proc.devRef .tc main_arg9) = m ((c : Thread nD τ).loc main_arg9) :=
  (W14_of_ne m ρ c main_arg9 (by decide)).trans (W13_arg9 m ρ c)
theorem W15_arg9 (c : Dev nD) : W15 m ρ c (Proc.devRef .tc main_arg9) = m ((c : Thread nD τ).loc main_arg9) :=
  (W15_of m ρ c main_arg9 (by decide)).trans (W14_arg9 m ρ c)
theorem W16_arg9 (c : Dev nD) : W16 m ρ c (Proc.devRef .tc main_arg9) = m ((c : Thread nD τ).loc main_arg9) :=
  (W16_of_ne m ρ c main_arg9 (by decide)).trans (W15_arg9 m ρ c)
theorem W17_arg9 (c : Dev nD) : W17 m ρ c (Proc.devRef .tc main_arg9) = m ((c : Thread nD τ).loc main_arg9) :=
  (W17_of m ρ c main_arg9 (by decide)).trans (W16_arg9 m ρ c)

theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) :=
  (W1_of m ρ c main_arg10 (by decide)).trans (W0_arg10 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (W3_of m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (W5_of m ρ c main_arg10 (by decide)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_of m ρ c main_arg10 (by decide)).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (W9_of m ρ c main_arg10 (by decide)).trans (W8_arg10 m ρ c)
theorem W10_arg10 (c : Dev nD) : W10 m ρ c (Proc.devRef .tc main_arg10) = m ((c : Thread nD τ).loc main_arg10) :=
  (W10_of_ne m ρ c main_arg10 (by decide)).trans (W9_arg10 m ρ c)
theorem W11_arg10 (c : Dev nD) : W11 m ρ c (Proc.devRef .tc main_arg10) = m ((c : Thread nD τ).loc main_arg10) :=
  (W11_of m ρ c main_arg10 (by decide)).trans (W10_arg10 m ρ c)
theorem W12_arg10 (c : Dev nD) : W12 m ρ c (Proc.devRef .tc main_arg10) = m ((c : Thread nD τ).loc main_arg10) :=
  (W12_of_ne m ρ c main_arg10 (by decide)).trans (W11_arg10 m ρ c)
theorem W13_arg10 (c : Dev nD) : W13 m ρ c (Proc.devRef .tc main_arg10) = m ((c : Thread nD τ).loc main_arg10) :=
  (W13_of m ρ c main_arg10 (by decide)).trans (W12_arg10 m ρ c)
theorem W14_arg10 (c : Dev nD) : W14 m ρ c (Proc.devRef .tc main_arg10) = m ((c : Thread nD τ).loc main_arg10) :=
  (W14_of_ne m ρ c main_arg10 (by decide)).trans (W13_arg10 m ρ c)
theorem W15_arg10 (c : Dev nD) : W15 m ρ c (Proc.devRef .tc main_arg10) = m ((c : Thread nD τ).loc main_arg10) :=
  (W15_of m ρ c main_arg10 (by decide)).trans (W14_arg10 m ρ c)
theorem W16_arg10 (c : Dev nD) : W16 m ρ c (Proc.devRef .tc main_arg10) = m ((c : Thread nD τ).loc main_arg10) :=
  (W16_of_ne m ρ c main_arg10 (by decide)).trans (W15_arg10 m ρ c)
theorem W17_arg10 (c : Dev nD) : W17 m ρ c (Proc.devRef .tc main_arg10) = m ((c : Thread nD τ).loc main_arg10) :=
  (W17_of m ρ c main_arg10 (by decide)).trans (W16_arg10 m ρ c)

/-- After the first stretch the two edge rows are the slices of the edge list. -/
theorem W1_v1 (c : Dev nD) : W1 m ρ c (Proc.devRef .tc main_v1) = srcOf (m ((c : Thread nD τ).loc main_arg1)) :=
  (stretch0 (W0 m ρ c) _ _ _ _ _ _ rfl rfl rfl rfl rfl rfl).1
theorem W1_v3 (c : Dev nD) : W1 m ρ c (Proc.devRef .tc main_v3) = dstOf (m ((c : Thread nD τ).loc main_arg1)) :=
  (stretch0 (W0 m ρ c) _ _ _ _ _ _ rfl rfl rfl rfl rfl rfl).2.1
theorem W2_v1 (c : Dev nD) : W2 m ρ c (Proc.devRef .tc main_v1) = srcOf (m ((c : Thread nD τ).loc main_arg1)) :=
  (W2_of_ne m ρ c main_v1 (by decide)).trans (W1_v1 m ρ c)
theorem W3_v1 (c : Dev nD) : W3 m ρ c (Proc.devRef .tc main_v1) = srcOf (m ((c : Thread nD τ).loc main_arg1)) :=
  (W3_of m ρ c main_v1 (by decide)).trans (W2_v1 m ρ c)
theorem W4_v1 (c : Dev nD) : W4 m ρ c (Proc.devRef .tc main_v1) = srcOf (m ((c : Thread nD τ).loc main_arg1)) :=
  (W4_of_ne m ρ c main_v1 (by decide)).trans (W3_v1 m ρ c)
theorem W5_v1 (c : Dev nD) : W5 m ρ c (Proc.devRef .tc main_v1) = srcOf (m ((c : Thread nD τ).loc main_arg1)) :=
  (W5_of m ρ c main_v1 (by decide)).trans (W4_v1 m ρ c)
theorem W6_v1 (c : Dev nD) : W6 m ρ c (Proc.devRef .tc main_v1) = srcOf (m ((c : Thread nD τ).loc main_arg1)) :=
  (W6_of_ne m ρ c main_v1 (by decide)).trans (W5_v1 m ρ c)
theorem W7_v1 (c : Dev nD) : W7 m ρ c (Proc.devRef .tc main_v1) = srcOf (m ((c : Thread nD τ).loc main_arg1)) :=
  (W7_of m ρ c main_v1 (by decide)).trans (W6_v1 m ρ c)
theorem W8_v1 (c : Dev nD) : W8 m ρ c (Proc.devRef .tc main_v1) = srcOf (m ((c : Thread nD τ).loc main_arg1)) :=
  (W8_of_ne m ρ c main_v1 (by decide)).trans (W7_v1 m ρ c)
theorem W9_v1 (c : Dev nD) : W9 m ρ c (Proc.devRef .tc main_v1) = srcOf (m ((c : Thread nD τ).loc main_arg1)) :=
  (W9_of m ρ c main_v1 (by decide)).trans (W8_v1 m ρ c)
theorem W10_v1 (c : Dev nD) : W10 m ρ c (Proc.devRef .tc main_v1) = srcOf (m ((c : Thread nD τ).loc main_arg1)) :=
  (W10_of_ne m ρ c main_v1 (by decide)).trans (W9_v1 m ρ c)
theorem W11_v1 (c : Dev nD) : W11 m ρ c (Proc.devRef .tc main_v1) = srcOf (m ((c : Thread nD τ).loc main_arg1)) :=
  (W11_of m ρ c main_v1 (by decide)).trans (W10_v1 m ρ c)
theorem W12_v1 (c : Dev nD) : W12 m ρ c (Proc.devRef .tc main_v1) = srcOf (m ((c : Thread nD τ).loc main_arg1)) :=
  (W12_of_ne m ρ c main_v1 (by decide)).trans (W11_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W3_v3 (c : Dev nD) : W3 m ρ c (Proc.devRef .tc main_v3) = dstOf (m ((c : Thread nD τ).loc main_arg1)) :=
  (W3_of m ρ c main_v3 (by decide)).trans (W2_v3 m ρ c)
theorem W4_v3 (c : Dev nD) : W4 m ρ c (Proc.devRef .tc main_v3) = dstOf (m ((c : Thread nD τ).loc main_arg1)) :=
  (W4_of_ne m ρ c main_v3 (by decide)).trans (W3_v3 m ρ c)
theorem W5_v3 (c : Dev nD) : W5 m ρ c (Proc.devRef .tc main_v3) = dstOf (m ((c : Thread nD τ).loc main_arg1)) :=
  (W5_of m ρ c main_v3 (by decide)).trans (W4_v3 m ρ c)
theorem W6_v3 (c : Dev nD) : W6 m ρ c (Proc.devRef .tc main_v3) = dstOf (m ((c : Thread nD τ).loc main_arg1)) :=
  (W6_of_ne m ρ c main_v3 (by decide)).trans (W5_v3 m ρ c)
theorem W7_v3 (c : Dev nD) : W7 m ρ c (Proc.devRef .tc main_v3) = dstOf (m ((c : Thread nD τ).loc main_arg1)) :=
  (W7_of m ρ c main_v3 (by decide)).trans (W6_v3 m ρ c)
theorem W8_v3 (c : Dev nD) : W8 m ρ c (Proc.devRef .tc main_v3) = dstOf (m ((c : Thread nD τ).loc main_arg1)) :=
  (W8_of_ne m ρ c main_v3 (by decide)).trans (W7_v3 m ρ c)
theorem W9_v3 (c : Dev nD) : W9 m ρ c (Proc.devRef .tc main_v3) = dstOf (m ((c : Thread nD τ).loc main_arg1)) :=
  (W9_of m ρ c main_v3 (by decide)).trans (W8_v3 m ρ c)
theorem W10_v3 (c : Dev nD) : W10 m ρ c (Proc.devRef .tc main_v3) = dstOf (m ((c : Thread nD τ).loc main_arg1)) :=
  (W10_of_ne m ρ c main_v3 (by decide)).trans (W9_v3 m ρ c)
theorem W11_v3 (c : Dev nD) : W11 m ρ c (Proc.devRef .tc main_v3) = dstOf (m ((c : Thread nD τ).loc main_arg1)) :=
  (W11_of m ρ c main_v3 (by decide)).trans (W10_v3 m ρ c)
theorem W12_v3 (c : Dev nD) : W12 m ρ c (Proc.devRef .tc main_v3) = dstOf (m ((c : Thread nD τ).loc main_arg1)) :=
  (W12_of_ne m ρ c main_v3 (by decide)).trans (W11_v3 m ρ c)

end Cert.KernelIdeal.Hand

end
-- ==== Proof.Spec.lean ====
/-
  The mathematics both programs compute, over the extended reals, with every array read through its coordinates
  (row p, column q), so that no statement here depends on how an operand is laid out ([128], [1,128], a slice of a
  stack of four).

  One graph-convolution layer takes node features h (50000 rows of 128), forms agg (each row plus the rows of its
  in-neighbours), applies Linear, ReLU, Linear, ReLU row by row (`mlp`), then normalizes every COLUMN by its mean and
  biased variance over the 50000 rows and applies an affine map (`bn`).

  The two programs differ in how the column statistics are obtained. One accumulates the column sum and the column
  sum of squares and forms  mean = sum * (1/50000),  var = max (sumsq * (1/50000) - mean * mean) 0  (`meanK`, `varK`).
  The other divides:  mean = sum / 50000,  var = (sum of (x - mean)^2) / 50000  (`meanR`, `varR`).
  On real (finite) entries these agree: E[x^2] - (E x)^2 = E[(x - E x)^2] >= 0.
-/
import Idealize.ShloMosaic.PureOps.Ideal

noncomputable section

namespace Cert.Spec

open Idealize.ShloMosaic

/-- The variance floor both programs add before the reciprocal square root: the f32 nearest 1e-5, as both print it. -/
abbrev eps : EReal := Ideal.ofBits .f32 0x3727C5AC#32

/-- The exact reciprocal of the number of rows. -/
abbrev invN : EReal := ((1 / 50000 : ℝ) : EReal)

/-- Linear then ReLU: row p of x times column q of w, plus the bias, clamped below at 0. -/
def lin {n : ℕ} (x : Fin n → Fin 128 → EReal) (w : Fin 128 → Fin 128 → EReal) (b : Fin 128 → EReal)
    (p : Fin n) (q : Fin 128) : EReal :=
  max ((∑ k : Fin 128, x p k * w k q) + b q) 0

/-- Linear, ReLU, Linear, ReLU. -/
def mlp {n : ℕ} (x : Fin n → Fin 128 → EReal) (w1 : Fin 128 → Fin 128 → EReal) (b1 : Fin 128 → EReal)
    (w2 : Fin 128 → Fin 128 → EReal) (b2 : Fin 128 → EReal) : Fin n → Fin 128 → EReal :=
  lin (lin x w1 b1) w2 b2

/-- Column mean from the accumulated column sum: sum times 1/50000. -/
def meanK (x : Fin 50000 → Fin 128 → EReal) (q : Fin 128) : EReal :=
  (∑ p : Fin 50000, x p q) * invN

/-- Column variance from the accumulated sums: E[x^2] - mean^2, clamped below at 0. -/
def varK (x : Fin 50000 → Fin 128 → EReal) (q : Fin 128) : EReal :=
  max ((∑ p : Fin 50000, x p q * x p q) * invN - meanK x q * meanK x q) 0

/-- Column mean as a quotient: sum divided by 50000. -/
def meanR (x : Fin 50000 → Fin 128 → EReal) (q : Fin 128) : EReal :=
  Ideal.div (∑ p : Fin 50000, x p q) ((50000 : ℝ) : EReal)

/-- Biased column variance as a quotient: the sum of squared deviations from the mean, divided by 50000. -/
def varR (x : Fin 50000 → Fin 128 → EReal) (q : Fin 128) : EReal :=
  Ideal.div (∑ p : Fin 50000, (x p q - meanR x q) * (x p q - meanR x q)) ((50000 : ℝ) : EReal)

/-- Normalize column q by a given mean and variance, then the affine map. -/
def bn (x : Fin 50000 → Fin 128 → EReal) (mean var gamma beta : Fin 128 → EReal)
    (p : Fin 50000) (q : Fin 128) : EReal :=
  (x p q - mean q) * Ideal.rsqrt (var q + eps) * gamma q + beta q

end Cert.Spec

end
-- ==== Proof.KI.StatsSum.lean ====
/-
  Summing an array of a * b rows tile by tile: the sum over a tiles of the sums over each tile's b rows is the sum
  over all rows, row p = b * t + r being row r of tile t. Stated over a function of the row NUMBER, so that no bound
  proof travels with the index.
-/
import Mathlib.Algebra.BigOperators.Fin
import Mathlib.Algebra.BigOperators.Group.Finset.Basic

namespace Cert.StatsLib

open Finset

theorem sum_tiles {M : Type*} [AddCommMonoid M] (f : ℕ → M) (b : ℕ) : ∀ a : ℕ,
    ∑ t ∈ range a, ∑ r : Fin b, f (b * t + r.val) = ∑ p ∈ range (a * b), f p
  | 0 => by simp
  | a + 1 => by
    rw [sum_range_succ, sum_tiles f b a, Nat.succ_mul, sum_range_add]
    congr 1
    rw [Finset.sum_range]
    exact sum_congr rfl fun r _ => by rw [Nat.mul_comm]

/-- A sum over row numbers below n of a function that agrees with f on the rows. -/
theorem sum_range_eq_univ {M : Type*} [AddCommMonoid M] {n : ℕ} (g : ℕ → M) (f : Fin n → M) (h : ∀ p : Fin n, g p.val = f p) :
    ∑ p ∈ range n, g p = ∑ p : Fin n, f p := by
  rw [Finset.sum_range]; exact sum_congr rfl fun p _ => h p

end Cert.StatsLib
-- ==== Proof.KI.Val0.lean ====
/-
  What region 0 leaves in its arrays, over the extended reals.

  The region's operands are the aggregated node features (50000 rows of 128) and the two Linear layers' weights and
  biases. Its body forms, tile by tile (2000 rows each), the hidden features H = ReLU(ReLU(x W1 + b1) W2 + b2) and adds
  each tile's column sums, and the column sums of squares, into two carried rows. After the 25 tiles the rows hold the
  sums over all 50000 rows (row 2000 t + r is row r of tile t), and the last point stores
      mean q = (sum over p of H p q) * (1/50000),   var q = max ((sum over p of H p q ^ 2) * (1/50000) - mean q ^ 2) 0
  to the two result arrays, each of which is one block written back once. The input arrays are never written.
-/
import proofs.«132655_j36919538876779_2_alg».proof.Proof.Gen.KernelIdeal.Skeleton
import proofs.«132655_j36919538876779_2_alg».proof.Proof.Spec
import proofs.«132655_j36919538876779_2_alg».proof.Proof.KI.R0
import proofs.«132655_j36919538876779_2_alg».proof.Proof.KI.StatsSum
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic read at an index, over the extended reals -/

/-- A column sum over the tile's 2000 rows. -/
theorem colsum0_apply (src : FVec Ideal S2000x128 .f32) (q : Fin 128) :
    multiReduction .add [0] S128 src 0x00000000#32 reduces_S2000x128_S128 (.inl rfl) rfl (ix1 q) = ∑ r : Fin 2000, src (ix2 r q) := by
  refine (Ideal.multiReduction_add_single src 0x00000000#32 reduces_S2000x128_S128 (.inl rfl) rfl (ix1 q)).trans ?_
  refine Finset.sum_congr rfl fun k _ => congrArg src (funext fun a => Fin.ext ?_)
  rw [Shape.Reduces.lift_val]; unfold Shape.Reduces.liftVal
  match a with
  | ⟨0, _⟩ => rfl
  | ⟨1, _⟩ => rfl

theorem mm0_lhs_0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm0_rhs_1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times a weight matrix: row r of the tile against column q of the weights. -/
theorem mm0_apply (lhs : FVec Ideal S2000x128 .bf16) (rhs : FVec Ideal S128x128 .bf16) (r : Fin 2000) (q : Fin 128) :
    matmul dot_S2000x128_S128x128_S2000x128_1_0_0_1_n_n none lhs rhs (constant (F := Ideal) S2000x128 .f32 0x00000000#32) (ix2 r q)
      = ∑ k : Fin 128, lhs (ix2 r k) * rhs (ix2 k q) := by
  refine (Ideal.matmul_constant_zero_apply dot_S2000x128_S128x128_S2000x128_1_0_0_1_n_n none lhs rhs (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact mm0_lhs_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm0_rhs_1 _ _)
  rw [el, er]

/-- Linear, ReLU, Linear, ReLU on the tile, entry (r, q). -/
theorem pay6_0_apply (x0 : Vec Ideal S2000x128 .f32) (x1 : Vec Ideal S128x128 .f32) (x2 : Vec Ideal S1x128 .f32)
    (x3 : Vec Ideal S128x128 .f32) (x4 : Vec Ideal S1x128 .f32) (r : Fin 2000) (q : Fin 128) :
    k0_pay6 (F := Ideal) x0 x1 x2 x3 x4 (ix2 r q)
      = Cert.Spec.mlp (fun p k => x0 (ix2 p k)) (fun k j => x1 (ix2 k j)) (fun j => x2 (ix2 (0 : Fin 1) j))
          (fun k j => x3 (ix2 k j)) (fun j => x4 (ix2 (0 : Fin 1) j)) r q := by
  unfold k0_pay6 Cert.Spec.mlp Cert.Spec.lin
  simp only [shapeCast_self, maximumf_apply, addf_apply, mm0_apply, truncf_apply, broadcastTo_1b_ab_apply, broadcast_apply,
    Ideal.ofBits_def, Ideal.ofBits_zero_f32]

/-- The sums row after one more tile: the row before plus the tile's column sums. -/
theorem pay7_0_apply (x0 : Vec Ideal S2000x128 .f32) (x1 : Vec Ideal S128x128 .f32) (x2 : Vec Ideal S1x128 .f32)
    (x3 : Vec Ideal S128x128 .f32) (x4 : Vec Ideal S1x128 .f32) (s : Vec Ideal S1x128 .f32) (q : Fin 128) :
    k0_pay7 (F := Ideal) x0 x1 x2 x3 x4 s (ix2 (0 : Fin 1) q)
      = s (ix2 (0 : Fin 1) q) + ∑ r : Fin 2000, k0_pay6 (F := Ideal) x0 x1 x2 x3 x4 (ix2 r q) := by
  unfold k0_pay7
  simp only [shapeCast_self, addf_apply, shapeCast_a_1a_apply]
  exact congrArg (s (ix2 (0 : Fin 1) q) + ·) (colsum0_apply _ q)

/-- The squares row after one more tile. -/
theorem pay1_0_apply (h : FVec Ideal S2000x128 .f32) (s : Vec Ideal S1x128 .f32) (q : Fin 128) :
    k0_pay1 (F := Ideal) h s (ix2 (0 : Fin 1) q)
      = s (ix2 (0 : Fin 1) q) + ∑ r : Fin 2000, h (ix2 r q) * h (ix2 r q) := by
  unfold k0_pay1
  simp only [shapeCast_self, addf_apply, shapeCast_a_1a_apply]
  exact congrArg (s (ix2 (0 : Fin 1) q) + ·) (colsum0_apply _ q)

/-- The exact reciprocal of the number of rows, as the program names it. -/
theorem inv0 : Named.named (F := Ideal) Cert.KernelIdeal.κ "inv_50000" (φ := .f32) 0x37A7C5AC#32 = Cert.Spec.invN :=
  IdealRules.named_const.ideal_named_scalar _ _ _ _ rfl

/-- The mean row from the sums row. -/
theorem pay2_0_apply (s : Vec Ideal S1x128 .f32) (q : Fin 128) :
    k0_pay2 (F := Ideal) s (ix2 (0 : Fin 1) q) = s (ix2 (0 : Fin 1) q) * Cert.Spec.invN := by
  unfold k0_pay2
  simp only [mulf_apply, broadcast_apply, inv0]

/-- The variance row from the two rows. -/
theorem pay3_0_apply (s qq : Vec Ideal S1x128 .f32) (q : Fin 128) :
    k0_pay3 (F := Ideal) s qq (ix2 (0 : Fin 1) q)
      = max (qq (ix2 (0 : Fin 1) q) * Cert.Spec.invN - (s (ix2 (0 : Fin 1) q) * Cert.Spec.invN) * (s (ix2 (0 : Fin 1) q) * Cert.Spec.invN)) 0 := by
  unfold k0_pay3
  simp only [maximumf_apply, subf_apply, mulf_apply, broadcast_apply, inv0, pay2_0_apply, Ideal.ofBits_def, Ideal.ofBits_zero_f32]

/-- The zero row. -/
theorem pay4_0_apply (q : Fin 128) : k0_pay4 (F := Ideal) (ix2 (0 : Fin 1) q) = 0 := by
  unfold k0_pay4
  simp only [shapeCast_self, broadcast_apply]
  exact Ideal.ofBits_zero_f32
theorem pay5_0_apply (q : Fin 128) : k0_pay5 (F := Ideal) (ix2 (0 : Fin 1) q) = 0 := by
  unfold k0_pay5
  simp only [shapeCast_self, broadcast_apply]
  exact Ideal.ofBits_zero_f32

variable (V : (c : Dev nD) → (b : Ref sig .tc) → Buf (Elt Ideal) ((c : Thread nD τ).loc b))

/-! ## The windows' blocks read at an index -/

/-- The features' block at point t is rows 2000 t … 2000 t + 1999 of the array. -/
theorem iblk0_0_apply (c : Dev nD) (t : Fin cfg0.N) (r : Fin 2000) (k : Fin 128) (h : 2000 * t.val + r.val < 50000) :
    (iblk0 V c 0 t : Vec Ideal S2000x128 .f32) (ix2 r k) = V c (Pipeline.arrRef spec0 0) (ix2 (⟨2000 * t.val + r.val, h⟩ : Fin 50000) k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  refine congrArg (V c (Pipeline.arrRef spec0 0)) (funext fun a => Fin.ext ?_)
  match a with
  | ⟨0, _⟩ => show win0_0.index t 0 * 2000 + 1 * r.val = 2000 * t.val + r.val; rw [hi.1]; omega
  | ⟨1, _⟩ => show win0_0.index t 1 * 128 + 1 * k.val = k.val; rw [hi.2]; omega

theorem iblk0_1_apply (c : Dev nD) (t : Fin cfg0.N) (k : Fin 128) (j : Fin 128) :
    (iblk0 V c 1 t : Vec Ideal S128x128 .f32) (ix2 k j) = V c (Pipeline.arrRef spec0 1) (ix2 k j) := by
  have hi : win0_1.index t 0 = 0 ∧ win0_1.index t 1 = 0 :=
    (by decide +kernel : ∀ t : Fin grid0.N, win0_1.index t 0 = 0 ∧ win0_1.index t 1 = 0) t
  unfold iblk0
  rw [View.read_apply]
  refine congrArg (V c (Pipeline.arrRef spec0 1)) (funext fun a => Fin.ext ?_)
  match a with
  | ⟨0, _⟩ => show win0_1.index t 0 * 128 + 1 * k.val = k.val; rw [hi.1]; omega
  | ⟨1, _⟩ => show win0_1.index t 1 * 128 + 1 * j.val = j.val; rw [hi.2]; omega

theorem iblk0_2_apply (c : Dev nD) (t : Fin cfg0.N) (k : Fin 1) (j : Fin 128) :
    (iblk0 V c 2 t : Vec Ideal S1x128 .f32) (ix2 k j) = V c (Pipeline.arrRef spec0 2) (ix2 k j) := by
  have hi : win0_2.index t 0 = 0 ∧ win0_2.index t 1 = 0 :=
    (by decide +kernel : ∀ t : Fin grid0.N, win0_2.index t 0 = 0 ∧ win0_2.index t 1 = 0) t
  unfold iblk0
  rw [View.read_apply]
  refine congrArg (V c (Pipeline.arrRef spec0 2)) (funext fun a => Fin.ext ?_)
  match a with
  | ⟨0, _⟩ => show win0_2.index t 0 * 1 + 1 * k.val = k.val; rw [hi.1]; omega
  | ⟨1, _⟩ => show win0_2.index t 1 * 128 + 1 * j.val = j.val; rw [hi.2]; omega

theorem iblk0_3_apply (c : Dev nD) (t : Fin cfg0.N) (k : Fin 128) (j : Fin 128) :
    (iblk0 V c 3 t : Vec Ideal S128x128 .f32) (ix2 k j) = V c (Pipeline.arrRef spec0 3) (ix2 k j) := by
  have hi : win0_3.index t 0 = 0 ∧ win0_3.index t 1 = 0 :=
    (by decide +kernel : ∀ t : Fin grid0.N, win0_3.index t 0 = 0 ∧ win0_3.index t 1 = 0) t
  unfold iblk0
  rw [View.read_apply]
  refine congrArg (V c (Pipeline.arrRef spec0 3)) (funext fun a => Fin.ext ?_)
  match a with
  | ⟨0, _⟩ => show win0_3.index t 0 * 128 + 1 * k.val = k.val; rw [hi.1]; omega
  | ⟨1, _⟩ => show win0_3.index t 1 * 128 + 1 * j.val = j.val; rw [hi.2]; omega

theorem iblk0_4_apply (c : Dev nD) (t : Fin cfg0.N) (k : Fin 1) (j : Fin 128) :
    (iblk0 V c 4 t : Vec Ideal S1x128 .f32) (ix2 k j) = V c (Pipeline.arrRef spec0 4) (ix2 k j) := by
  have hi : win0_4.index t 0 = 0 ∧ win0_4.index t 1 = 0 :=
    (by decide +kernel : ∀ t : Fin grid0.N, win0_4.index t 0 = 0 ∧ win0_4.index t 1 = 0) t
  unfold iblk0
  rw [View.read_apply]
  refine congrArg (V c (Pipeline.arrRef spec0 4)) (funext fun a => Fin.ext ?_)
  match a with
  | ⟨0, _⟩ => show win0_4.index t 0 * 1 + 1 * k.val = k.val; rw [hi.1]; omega
  | ⟨1, _⟩ => show win0_4.index t 1 * 128 + 1 * j.val = j.val; rw [hi.2]; omega

/-! ## The carried rows are the running column sums -/

/-- The hidden features (Linear, ReLU, Linear, ReLU of the region's operands), row p, column q. -/
abbrev Hs0 (c : Dev nD) : Fin 50000 → Fin 128 → EReal :=
  Cert.Spec.mlp (fun p q => V c (Pipeline.arrRef spec0 0) (ix2 p q)) (fun p q => V c (Pipeline.arrRef spec0 1) (ix2 p q)) (fun q => V c (Pipeline.arrRef spec0 2) (ix2 (0 : Fin 1) q)) (fun p q => V c (Pipeline.arrRef spec0 3) (ix2 p q)) (fun q => V c (Pipeline.arrRef spec0 4) (ix2 (0 : Fin 1) q))

/-- The same by the row's number (zero past the last row: never read). -/
def Hn0 (c : Dev nD) (p : ℕ) (q : Fin 128) : EReal := if h : p < 50000 then Hs0 V c ⟨p, h⟩ q else 0

/-- Entry (r, q) of the body's hidden tile at point t is the hidden features' row 2000 t + r. -/
theorem tile0_apply (c : Dev nD) (t : Fin cfg0.N) (r : Fin 2000) (q : Fin 128) :
    k0_pay6 (F := Ideal) (iblk0 V c 0 t) (iblk0 V c 1 t) (iblk0 V c 2 t) (iblk0 V c 3 t) (iblk0 V c 4 t) (ix2 r q) = Hn0 V c (2000 * t.val + r.val) q := by
  have hN : t.val < 25 := lt_of_lt_of_eq t.isLt (show cfg0.N = 25 from N_0)
  have h : 2000 * t.val + r.val < 50000 := by have := r.isLt; omega
  refine (pay6_0_apply (iblk0 V c 0 t) (iblk0 V c 1 t) (iblk0 V c 2 t) (iblk0 V c 3 t) (iblk0 V c 4 t) r q).trans ?_
  rw [Hn0, dif_pos h]
  unfold Hs0 Cert.Spec.mlp Cert.Spec.lin
  simp only [fun k => iblk0_0_apply V c t r k h, iblk0_1_apply V c t, iblk0_2_apply V c t, iblk0_3_apply V c t, iblk0_4_apply V c t]

theorem sum0_step (c : Dev nD) (t : Fin cfg0.N) (q : Fin 128) :
    sum0 V c (t.val + 1) (ix2 (0 : Fin 1) q) = sum0 V c t.val (ix2 (0 : Fin 1) q) + ∑ r : Fin 2000, Hn0 V c (2000 * t.val + r.val) q := by
  rw [sum0_succ V c t]
  refine (pay7_0_apply (iblk0 V c 0 t) (iblk0 V c 1 t) (iblk0 V c 2 t) (iblk0 V c 3 t) (iblk0 V c 4 t) (sum0 V c t.val) q).trans ?_
  exact congrArg (sum0 V c t.val (ix2 (0 : Fin 1) q) + ·) (Finset.sum_congr rfl fun r _ => tile0_apply V c t r q)

theorem sq0_step (c : Dev nD) (t : Fin cfg0.N) (q : Fin 128) :
    sq0 V c (t.val + 1) (ix2 (0 : Fin 1) q)
      = sq0 V c t.val (ix2 (0 : Fin 1) q) + ∑ r : Fin 2000, Hn0 V c (2000 * t.val + r.val) q * Hn0 V c (2000 * t.val + r.val) q := by
  rw [sq0_succ V c t]
  refine (pay1_0_apply (k0_pay6 (F := Ideal) (iblk0 V c 0 t) (iblk0 V c 1 t) (iblk0 V c 2 t) (iblk0 V c 3 t) (iblk0 V c 4 t)) (sq0 V c t.val) q).trans ?_
  exact congrArg (sq0 V c t.val (ix2 (0 : Fin 1) q) + ·) (Finset.sum_congr rfl fun r _ => by rw [tile0_apply V c t r q])

/-- After n tiles the sums row holds the column sums of the first 2000 n rows. -/
theorem sum0_eq (c : Dev nD) (q : Fin 128) : ∀ n : ℕ, n ≤ 25 →
    sum0 V c n (ix2 (0 : Fin 1) q) = ∑ t ∈ Finset.range n, ∑ r : Fin 2000, Hn0 V c (2000 * t + r.val) q
  | 0, _ => by rw [Finset.range_zero, Finset.sum_empty]; exact pay4_0_apply q
  | n + 1, hn => by
    have ht : n < cfg0.N := by rw [show cfg0.N = 25 from N_0]; omega
    rw [Finset.sum_range_succ, ← sum0_eq c q n (by omega)]
    exact sum0_step V c ⟨n, ht⟩ q

theorem sq0_eq (c : Dev nD) (q : Fin 128) : ∀ n : ℕ, n ≤ 25 →
    sq0 V c n (ix2 (0 : Fin 1) q) = ∑ t ∈ Finset.range n, ∑ r : Fin 2000, Hn0 V c (2000 * t + r.val) q * Hn0 V c (2000 * t + r.val) q
  | 0, _ => by rw [Finset.range_zero, Finset.sum_empty]; exact pay5_0_apply q
  | n + 1, hn => by
    have ht : n < cfg0.N := by rw [show cfg0.N = 25 from N_0]; omega
    rw [Finset.sum_range_succ, ← sq0_eq c q n (by omega)]
    exact sq0_step V c ⟨n, ht⟩ q

/-- After all 25 tiles: the column sums over the 50000 rows. -/
theorem sum0_all (c : Dev nD) (q : Fin 128) : sum0 V c 25 (ix2 (0 : Fin 1) q) = ∑ p : Fin 50000, Hs0 V c p q := by
  rw [sum0_eq V c q 25 (le_refl _), Cert.StatsLib.sum_tiles (fun p => Hn0 V c p q) 2000 25]
  exact Cert.StatsLib.sum_range_eq_univ _ _ fun p => by rw [Hn0, dif_pos p.isLt]

theorem sq0_all (c : Dev nD) (q : Fin 128) : sq0 V c 25 (ix2 (0 : Fin 1) q) = ∑ p : Fin 50000, Hs0 V c p q * Hs0 V c p q := by
  rw [sq0_eq V c q 25 (le_refl _), Cert.StatsLib.sum_tiles (fun p => Hn0 V c p q * Hn0 V c p q) 2000 25]
  exact Cert.StatsLib.sum_range_eq_univ _ _ fun p => by rw [Hn0, dif_pos p.isLt]

/-! ## What the region leaves in its arrays -/

/-- The last grid point. -/
abbrev tlast0 : Fin cfg0.N := ⟨24, by rw [show cfg0.N = 25 from N_0]; decide⟩

/-- The mean row and the variance row the last point stores, as contents of the two result arrays. -/
abbrev mean0 (c : Dev nD) : Buf (Elt Ideal) ((cfg0.win 5).arr.view.loc (c.tc : Thread nD τ)) :=
  k0_pay2 (F := Ideal) (sum0 V c (tlast0.val + 1))
abbrev var0 (c : Dev nD) : Buf (Elt Ideal) ((cfg0.win 6).arr.view.loc (c.tc : Thread nD τ)) :=
  k0_pay3 (F := Ideal) (sum0 V c (tlast0.val + 1)) (sq0 V c (tlast0.val + 1))

/-- The one write-back of window 5, at the last point, writes the whole row: block (0, 0) of a [1,128] array read
    through zero offsets is the array. -/
theorem flushed0_5 (c : Dev nD) (t : Fin cfg0.N) (hf : (cfg0.win 5).flush t = true) :
    (dat0 V c).flushed 5 t = ((cfg0.win 5).blk t).view.read (Elt Ideal) (mean0 V c) := by
  have hN : cfg0.N = 25 := N_0
  have h24 : t.val = 24 := by have := (flush0_5 t).mp hf; have := t.isLt; omega
  obtain rfl : t = tlast0 := Fin.ext h24
  show (cfg0.win 5).cut (grid0.coords tlast0) ((dat0 V c).after 5 tlast0) = _
  rw [after0_5]
  have hz' : (fun a => win0_5.index tlast0 a * (Pipeline.arrRef spec0 5).ty.shape.size a) = fun _ => 0 :=
    funext fun a => by fin_cases a <;> decide +kernel
  exact (Memref.read_access_unit_zero (Elt Ideal) (Pipeline.arrRef spec0 5) hz' (fun a => by rw [congrFun hz' a]; simp) (mean0 V c)).symm

/-- So the array ends holding that row. -/
theorem arr0_5 (c : Dev nD) : (dat0 V c).arrAt 5 cfg0.N = mean0 V c :=
  (dat0 V c).arrAt_eq_of_cover 5 (mean0 V c) (flushed0_5 V c) fun i =>
    ⟨tlast0, (flush0_5 tlast0).mpr rfl, by
      show i ∈ ((View.whole (Pipeline.arrRef spec0 5)).slice (win0_5.rect tlast0)).set
      rw [View.set_slice_whole, Rect.mem_set_unit]
      intro a
      have h0 : (i 0 : Nat) < 1 := (i 0).isLt
      have h1 : (i 1 : Nat) < 128 := (i 1).isLt
      match a with
      | ⟨0, _⟩ =>
        show win0_5.index tlast0 0 * win0_5.size 0 ≤ (i 0 : Nat) ∧ (i 0 : Nat) < win0_5.index tlast0 0 * win0_5.size 0 + win0_5.xsize (grid0.coords tlast0) 0
        rw [show win0_5.index tlast0 0 * win0_5.size 0 = 0 from by decide +kernel, show win0_5.xsize (grid0.coords tlast0) 0 = 1 from by decide +kernel]; omega
      | ⟨1, _⟩ =>
        show win0_5.index tlast0 1 * win0_5.size 1 ≤ (i 1 : Nat) ∧ (i 1 : Nat) < win0_5.index tlast0 1 * win0_5.size 1 + win0_5.xsize (grid0.coords tlast0) 1
        rw [show win0_5.index tlast0 1 * win0_5.size 1 = 0 from by decide +kernel, show win0_5.xsize (grid0.coords tlast0) 1 = 128 from by decide +kernel]; omega⟩

/-- The one write-back of window 6, at the last point, writes the whole row: block (0, 0) of a [1,128] array read
    through zero offsets is the array. -/
theorem flushed0_6 (c : Dev nD) (t : Fin cfg0.N) (hf : (cfg0.win 6).flush t = true) :
    (dat0 V c).flushed 6 t = ((cfg0.win 6).blk t).view.read (Elt Ideal) (var0 V c) := by
  have hN : cfg0.N = 25 := N_0
  have h24 : t.val = 24 := by have := (flush0_6 t).mp hf; have := t.isLt; omega
  obtain rfl : t = tlast0 := Fin.ext h24
  show (cfg0.win 6).cut (grid0.coords tlast0) ((dat0 V c).after 6 tlast0) = _
  rw [after0_6]
  have hz' : (fun a => win0_6.index tlast0 a * (Pipeline.arrRef spec0 6).ty.shape.size a) = fun _ => 0 :=
    funext fun a => by fin_cases a <;> decide +kernel
  exact (Memref.read_access_unit_zero (Elt Ideal) (Pipeline.arrRef spec0 6) hz' (fun a => by rw [congrFun hz' a]; simp) (var0 V c)).symm

/-- So the array ends holding that row. -/
theorem arr0_6 (c : Dev nD) : (dat0 V c).arrAt 6 cfg0.N = var0 V c :=
  (dat0 V c).arrAt_eq_of_cover 6 (var0 V c) (flushed0_6 V c) fun i =>
    ⟨tlast0, (flush0_6 tlast0).mpr rfl, by
      show i ∈ ((View.whole (Pipeline.arrRef spec0 6)).slice (win0_6.rect tlast0)).set
      rw [View.set_slice_whole, Rect.mem_set_unit]
      intro a
      have h0 : (i 0 : Nat) < 1 := (i 0).isLt
      have h1 : (i 1 : Nat) < 128 := (i 1).isLt
      match a with
      | ⟨0, _⟩ =>
        show win0_6.index tlast0 0 * win0_6.size 0 ≤ (i 0 : Nat) ∧ (i 0 : Nat) < win0_6.index tlast0 0 * win0_6.size 0 + win0_6.xsize (grid0.coords tlast0) 0
        rw [show win0_6.index tlast0 0 * win0_6.size 0 = 0 from by decide +kernel, show win0_6.xsize (grid0.coords tlast0) 0 = 1 from by decide +kernel]; omega
      | ⟨1, _⟩ =>
        show win0_6.index tlast0 1 * win0_6.size 1 ≤ (i 1 : Nat) ∧ (i 1 : Nat) < win0_6.index tlast0 1 * win0_6.size 1 + win0_6.xsize (grid0.coords tlast0) 1
        rw [show win0_6.index tlast0 1 * win0_6.size 1 = 0 from by decide +kernel, show win0_6.xsize (grid0.coords tlast0) 1 = 128 from by decide +kernel]; omega⟩

/-- The mean's array ends at the column means of the hidden features. -/
theorem final0_5 (c : Dev nD) (q : Fin 128) :
    (dat0 (F := Ideal) V c).arrAt 5 cfg0.N (ix2 (0 : Fin 1) q) = Cert.Spec.meanK (Cert.Spec.mlp (fun p q => V c (Pipeline.arrRef spec0 0) (ix2 p q)) (fun p q => V c (Pipeline.arrRef spec0 1) (ix2 p q)) (fun q => V c (Pipeline.arrRef spec0 2) (ix2 (0 : Fin 1) q)) (fun p q => V c (Pipeline.arrRef spec0 3) (ix2 p q)) (fun q => V c (Pipeline.arrRef spec0 4) (ix2 (0 : Fin 1) q))) q := by
  rw [arr0_5 V c]
  refine (pay2_0_apply (sum0 V c 25) q).trans ?_
  rw [sum0_all V c q]
  rfl

/-- The variance's array ends at the clamped column variances of the hidden features. -/
theorem final0_6 (c : Dev nD) (q : Fin 128) :
    (dat0 (F := Ideal) V c).arrAt 6 cfg0.N (ix2 (0 : Fin 1) q) = Cert.Spec.varK (Cert.Spec.mlp (fun p q => V c (Pipeline.arrRef spec0 0) (ix2 p q)) (fun p q => V c (Pipeline.arrRef spec0 1) (ix2 p q)) (fun q => V c (Pipeline.arrRef spec0 2) (ix2 (0 : Fin 1) q)) (fun p q => V c (Pipeline.arrRef spec0 3) (ix2 p q)) (fun q => V c (Pipeline.arrRef spec0 4) (ix2 (0 : Fin 1) q))) q := by
  rw [arr0_6 V c]
  refine (pay3_0_apply (sum0 V c 25) (sq0 V c 25) q).trans ?_
  rw [sum0_all V c q, sq0_all V c q]
  rfl

/-- The five input arrays end as entered: the pipeline never writes an input window's array. -/
theorem kept0 (c : Dev nD) (w : Fin cfg0.W) (hw : w.val < 5) :
    (dat0 (F := Ideal) V c).arrAt w cfg0.N = V c (Pipeline.arrRef spec0 w) := by
  have hin : (cfg0.win w).isOut = false := by
    obtain ⟨n, hn⟩ := w
    dsimp only at hw
    interval_cases n <;> rfl
  exact ((dat0 V c).arrAt_in w hin _).trans (A_eq0 V c w)

end Cert.KernelIdeal.Hand

end
-- ==== Proof.KI.MlpPay.lean ====
/-
  The arithmetic of one block of an MLP-and-normalize region, read at a row and a column, over the extended reals.
  A product of a block of 2000 rows with a 128 by 128 matrix into the zero accumulator is the plain sum over the 128
  contracted coordinates; a change of float format is the identity; a row of 128 broadcast over the 2000 rows reads the
  row. So the block the body stores is, at row r and column q,
    ((relu (relu (x0 · x1 + x2) · x3 + x4)) r q − x5 q) * rsqrt (x6 q + eps) * x7 q + x8 q,
  which depends on x0 only through its row r.
-/
import proofs.«132655_j36919538876779_2_alg».proof.Proof.Gen.KernelIdeal.Skeleton
import proofs.«132655_j36919538876779_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The zero offsets of a whole-buffer rectangle, as a constant function. -/
theorem mlpbn_hz : (![0, 0] : Fin 2 → Nat) = fun _ => 0 := funext fun a => by fin_cases a <;> rfl

/-! ## The contraction's operand indices: the row and the contracted coordinate, the contracted coordinate and the column -/

theorem mlpbn_mm_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mlpbn_mm_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mlpbn_mm_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mlpbn_mm_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 by 128 matrix, into the zero accumulator, at row r and column q: the plain sum over
    the 128 contracted coordinates. -/
theorem mlpbn_mm_apply {φ₁ φ₂ : FTy} (a : FVec Ideal S2000x128 φ₁) (b : FVec Ideal S128x128 φ₂) (r : Fin 2000) (q : Fin 128) :
    matmul dot_S2000x128_S128x128_S2000x128_1_0_0_1_n_n none a b (constant (F := Ideal) S2000x128 .f32 0x00000000#32) (ix2 r q)
      = ∑ k : Fin 128, a (ix2 r k) * b (ix2 k q) := by
  refine (Ideal.matmul_constant_zero_apply dot_S2000x128_S128x128_S2000x128_1_0_0_1_n_n none a b (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact mlpbn_mm_lhs0 _ _
    | ⟨1, _⟩ => exact (mlpbn_mm_lhs1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (mlpbn_mm_rhs0 _ _).trans hk
    | ⟨1, _⟩ => exact mlpbn_mm_rhs1 _ _)
  rw [el, er]

/-- Linear then ReLU on a block of 2000 rows, read at row r and column q. -/
theorem mlpbn_lin_block (a : FVec Ideal S2000x128 .f32) (w : FVec Ideal S128x128 .f32) (b : FVec Ideal S1x128 .f32) (r : Fin 2000) (q : Fin 128) :
    maximumf (addf (matmul dot_S2000x128_S128x128_S2000x128_1_0_0_1_n_n none (truncf .bf16 a bitsLt_bf16_f32) (truncf .bf16 w bitsLt_bf16_f32)
        (constant (F := Ideal) S2000x128 .f32 0x00000000#32)) (broadcastTo S2000x128 b broadcasts_S1x128_S2000x128))
      (broadcast S2000x128 (Scalar.ofBits (F := Ideal) .f32 0x00000000#32)) (ix2 r q)
      = Cert.Spec.lin (fun r k => a (ix2 r k)) (fun k q => w (ix2 k q)) (fun q => b (ix2 (0 : Fin 1) q)) r q := by
  show max (matmul dot_S2000x128_S128x128_S2000x128_1_0_0_1_n_n none (truncf .bf16 a bitsLt_bf16_f32) (truncf .bf16 w bitsLt_bf16_f32)
        (constant (F := Ideal) S2000x128 .f32 0x00000000#32) (ix2 r q) + broadcastTo S2000x128 b broadcasts_S1x128_S2000x128 (ix2 r q)) (Ideal.ofBits .f32 0x00000000#32) = _
  rw [mlpbn_mm_apply, broadcastTo_1b_ab_apply, Ideal.ofBits_zero_f32]
  rfl

/-! ## A row of the MLP's result depends on the same row of its input only -/

theorem mlpbn_lin_row {n n' : ℕ} (x : Fin n → Fin 128 → EReal) (x' : Fin n' → Fin 128 → EReal) (w : Fin 128 → Fin 128 → EReal) (b : Fin 128 → EReal)
    (r : Fin n) (p : Fin n') (h : ∀ k, x r k = x' p k) (q : Fin 128) : Cert.Spec.lin x w b r q = Cert.Spec.lin x' w b p q := by
  unfold Cert.Spec.lin
  simp only [h]

theorem mlpbn_mlp_row {n n' : ℕ} (x : Fin n → Fin 128 → EReal) (x' : Fin n' → Fin 128 → EReal) (w1 : Fin 128 → Fin 128 → EReal) (b1 : Fin 128 → EReal)
    (w2 : Fin 128 → Fin 128 → EReal) (b2 : Fin 128 → EReal) (r : Fin n) (p : Fin n') (h : ∀ k, x r k = x' p k) (q : Fin 128) :
    Cert.Spec.mlp x w1 b1 w2 b2 r q = Cert.Spec.mlp x' w1 b1 w2 b2 p q := by
  unfold Cert.Spec.mlp
  exact mlpbn_lin_row _ _ w2 b2 r p (fun k => mlpbn_lin_row x x' w1 b1 r p h k) q

/-! ## The region's output array as one function of its nine input arrays -/

/-- Row p, column q of the output: the MLP of row p of the first array, normalized in column q. -/
def mlpBnArr (a0 : S50000x128.Idx → EReal) (a1 : S128x128.Idx → EReal) (a2 : S1x128.Idx → EReal) (a3 : S128x128.Idx → EReal)
    (a4 a5 a6 a7 a8 : S1x128.Idx → EReal) : S50000x128.Idx → EReal := fun i =>
  Cert.Spec.bn (Cert.Spec.mlp (fun p k => a0 (ix2 p k)) (fun k q => a1 (ix2 k q)) (fun q => a2 (ix2 (0 : Fin 1) q)) (fun k q => a3 (ix2 k q)) (fun q => a4 (ix2 (0 : Fin 1) q)))
    (fun q => a5 (ix2 (0 : Fin 1) q)) (fun q => a6 (ix2 (0 : Fin 1) q)) (fun q => a7 (ix2 (0 : Fin 1) q)) (fun q => a8 (ix2 (0 : Fin 1) q))
    ⟨(i 0).val, idx2_lt0 i⟩ ⟨(i 1).val, idx2_lt1 i⟩

theorem mlpBnArr_ix2 (a0 : S50000x128.Idx → EReal) (a1 : S128x128.Idx → EReal) (a2 : S1x128.Idx → EReal) (a3 : S128x128.Idx → EReal)
    (a4 a5 a6 a7 a8 : S1x128.Idx → EReal) (p : Fin 50000) (q : Fin 128) :
    mlpBnArr a0 a1 a2 a3 a4 a5 a6 a7 a8 (ix2 p q)
      = Cert.Spec.bn (Cert.Spec.mlp (fun p k => a0 (ix2 p k)) (fun k q => a1 (ix2 k q)) (fun q => a2 (ix2 (0 : Fin 1) q)) (fun k q => a3 (ix2 k q)) (fun q => a4 (ix2 (0 : Fin 1) q)))
          (fun q => a5 (ix2 (0 : Fin 1) q)) (fun q => a6 (ix2 (0 : Fin 1) q)) (fun q => a7 (ix2 (0 : Fin 1) q)) (fun q => a8 (ix2 (0 : Fin 1) q)) p q := rfl

/-! ## The stored block at a row and a column, region by region (the four regions' payloads are the same text) -/

/-- Region 1: the MLP's payload at row r and column q of the block. -/
theorem mlpbn_pay1_2_apply (x0 : Vec Ideal S2000x128 .f32) (x1 : Vec Ideal S128x128 .f32) (x2 : Vec Ideal S1x128 .f32) (x3 : Vec Ideal S128x128 .f32) (x4 : Vec Ideal S1x128 .f32)
    (r : Fin 2000) (q : Fin 128) :
    k1_pay2 x0 x1 x2 x3 x4 (ix2 r q)
      = Cert.Spec.mlp (fun r k => x0 (ix2 r k)) (fun k q => x1 (ix2 k q)) (fun q => x2 (ix2 (0 : Fin 1) q)) (fun k q => x3 (ix2 k q)) (fun q => x4 (ix2 (0 : Fin 1) q)) r q := by
  unfold k1_pay2 Cert.Spec.mlp
  try dsimp only
  simp only [shapeCast_self]
  refine (mlpbn_lin_block _ x3 x4 r q).trans ?_
  congr 1
  funext r' k
  exact mlpbn_lin_block x0 x1 x2 r' k

/-- Region 1: the stored block at row r and column q. -/
theorem mlpbn_pay1_apply (x0 : Vec Ideal S2000x128 .f32) (x1 : Vec Ideal S128x128 .f32) (x2 : Vec Ideal S1x128 .f32) (x3 : Vec Ideal S128x128 .f32) (x4 x5 x6 x7 x8 : Vec Ideal S1x128 .f32)
    (r : Fin 2000) (q : Fin 128) :
    k1_pay1 (k1_pay2 x0 x1 x2 x3 x4) (k1_pay3 x6) (k1_pay4 x7) (k1_pay5 x8) (k1_pay6 x5) (ix2 r q)
      = (Cert.Spec.mlp (fun r k => x0 (ix2 r k)) (fun k q => x1 (ix2 k q)) (fun q => x2 (ix2 (0 : Fin 1) q)) (fun k q => x3 (ix2 k q)) (fun q => x4 (ix2 (0 : Fin 1) q)) r q
          - x5 (ix2 (0 : Fin 1) q)) * Ideal.rsqrt (x6 (ix2 (0 : Fin 1) q) + Cert.Spec.eps) * x7 (ix2 (0 : Fin 1) q) + x8 (ix2 (0 : Fin 1) q) := by
  unfold k1_pay1 k1_pay3 k1_pay4 k1_pay5 k1_pay6
  try dsimp only
  simp only [shapeCast_self]
  show (k1_pay2 x0 x1 x2 x3 x4 (ix2 r q) - broadcastTo S2000x128 x5 broadcasts_S1x128_S2000x128 (ix2 r q))
        * broadcastTo S2000x128 (rsqrt (addf x6 (broadcast S1x128 (Scalar.ofBits (F := Ideal) .f32 0x3727C5AC#32)))) broadcasts_S1x128_S2000x128 (ix2 r q)
        * broadcastTo S2000x128 x7 broadcasts_S1x128_S2000x128 (ix2 r q)
        + broadcastTo S2000x128 x8 broadcasts_S1x128_S2000x128 (ix2 r q) = _
  rw [mlpbn_pay1_2_apply, broadcastTo_1b_ab_apply, broadcastTo_1b_ab_apply, broadcastTo_1b_ab_apply, broadcastTo_1b_ab_apply]
  rfl

/-- Region 3: the MLP's payload at row r and column q of the block. -/
theorem mlpbn_pay3_2_apply (x0 : Vec Ideal S2000x128 .f32) (x1 : Vec Ideal S128x128 .f32) (x2 : Vec Ideal S1x128 .f32) (x3 : Vec Ideal S128x128 .f32) (x4 : Vec Ideal S1x128 .f32)
    (r : Fin 2000) (q : Fin 128) :
    k3_pay2 x0 x1 x2 x3 x4 (ix2 r q)
      = Cert.Spec.mlp (fun r k => x0 (ix2 r k)) (fun k q => x1 (ix2 k q)) (fun q => x2 (ix2 (0 : Fin 1) q)) (fun k q => x3 (ix2 k q)) (fun q => x4 (ix2 (0 : Fin 1) q)) r q := by
  unfold k3_pay2 Cert.Spec.mlp
  try dsimp only
  simp only [shapeCast_self]
  refine (mlpbn_lin_block _ x3 x4 r q).trans ?_
  congr 1
  funext r' k
  exact mlpbn_lin_block x0 x1 x2 r' k

/-- Region 3: the stored block at row r and column q. -/
theorem mlpbn_pay3_apply (x0 : Vec Ideal S2000x128 .f32) (x1 : Vec Ideal S128x128 .f32) (x2 : Vec Ideal S1x128 .f32) (x3 : Vec Ideal S128x128 .f32) (x4 x5 x6 x7 x8 : Vec Ideal S1x128 .f32)
    (r : Fin 2000) (q : Fin 128) :
    k3_pay1 (k3_pay2 x0 x1 x2 x3 x4) (k3_pay3 x6) (k3_pay4 x7) (k3_pay5 x8) (k3_pay6 x5) (ix2 r q)
      = (Cert.Spec.mlp (fun r k => x0 (ix2 r k)) (fun k q => x1 (ix2 k q)) (fun q => x2 (ix2 (0 : Fin 1) q)) (fun k q => x3 (ix2 k q)) (fun q => x4 (ix2 (0 : Fin 1) q)) r q
          - x5 (ix2 (0 : Fin 1) q)) * Ideal.rsqrt (x6 (ix2 (0 : Fin 1) q) + Cert.Spec.eps) * x7 (ix2 (0 : Fin 1) q) + x8 (ix2 (0 : Fin 1) q) := by
  unfold k3_pay1 k3_pay3 k3_pay4 k3_pay5 k3_pay6
  try dsimp only
  simp only [shapeCast_self]
  show (k3_pay2 x0 x1 x2 x3 x4 (ix2 r q) - broadcastTo S2000x128 x5 broadcasts_S1x128_S2000x128 (ix2 r q))
        * broadcastTo S2000x128 (rsqrt (addf x6 (broadcast S1x128 (Scalar.ofBits (F := Ideal) .f32 0x3727C5AC#32)))) broadcasts_S1x128_S2000x128 (ix2 r q)
        * broadcastTo S2000x128 x7 broadcasts_S1x128_S2000x128 (ix2 r q)
        + broadcastTo S2000x128 x8 broadcasts_S1x128_S2000x128 (ix2 r q) = _
  rw [mlpbn_pay3_2_apply, broadcastTo_1b_ab_apply, broadcastTo_1b_ab_apply, broadcastTo_1b_ab_apply, broadcastTo_1b_ab_apply]
  rfl

/-- Region 5: the MLP's payload at row r and column q of the block. -/
theorem mlpbn_pay5_2_apply (x0 : Vec Ideal S2000x128 .f32) (x1 : Vec Ideal S128x128 .f32) (x2 : Vec Ideal S1x128 .f32) (x3 : Vec Ideal S128x128 .f32) (x4 : Vec Ideal S1x128 .f32)
    (r : Fin 2000) (q : Fin 128) :
    k5_pay2 x0 x1 x2 x3 x4 (ix2 r q)
      = Cert.Spec.mlp (fun r k => x0 (ix2 r k)) (fun k q => x1 (ix2 k q)) (fun q => x2 (ix2 (0 : Fin 1) q)) (fun k q => x3 (ix2 k q)) (fun q => x4 (ix2 (0 : Fin 1) q)) r q := by
  unfold k5_pay2 Cert.Spec.mlp
  try dsimp only
  simp only [shapeCast_self]
  refine (mlpbn_lin_block _ x3 x4 r q).trans ?_
  congr 1
  funext r' k
  exact mlpbn_lin_block x0 x1 x2 r' k

/-- Region 5: the stored block at row r and column q. -/
theorem mlpbn_pay5_apply (x0 : Vec Ideal S2000x128 .f32) (x1 : Vec Ideal S128x128 .f32) (x2 : Vec Ideal S1x128 .f32) (x3 : Vec Ideal S128x128 .f32) (x4 x5 x6 x7 x8 : Vec Ideal S1x128 .f32)
    (r : Fin 2000) (q : Fin 128) :
    k5_pay1 (k5_pay2 x0 x1 x2 x3 x4) (k5_pay3 x6) (k5_pay4 x7) (k5_pay5 x8) (k5_pay6 x5) (ix2 r q)
      = (Cert.Spec.mlp (fun r k => x0 (ix2 r k)) (fun k q => x1 (ix2 k q)) (fun q => x2 (ix2 (0 : Fin 1) q)) (fun k q => x3 (ix2 k q)) (fun q => x4 (ix2 (0 : Fin 1) q)) r q
          - x5 (ix2 (0 : Fin 1) q)) * Ideal.rsqrt (x6 (ix2 (0 : Fin 1) q) + Cert.Spec.eps) * x7 (ix2 (0 : Fin 1) q) + x8 (ix2 (0 : Fin 1) q) := by
  unfold k5_pay1 k5_pay3 k5_pay4 k5_pay5 k5_pay6
  try dsimp only
  simp only [shapeCast_self]
  show (k5_pay2 x0 x1 x2 x3 x4 (ix2 r q) - broadcastTo S2000x128 x5 broadcasts_S1x128_S2000x128 (ix2 r q))
        * broadcastTo S2000x128 (rsqrt (addf x6 (broadcast S1x128 (Scalar.ofBits (F := Ideal) .f32 0x3727C5AC#32)))) broadcasts_S1x128_S2000x128 (ix2 r q)
        * broadcastTo S2000x128 x7 broadcasts_S1x128_S2000x128 (ix2 r q)
        + broadcastTo S2000x128 x8 broadcasts_S1x128_S2000x128 (ix2 r q) = _
  rw [mlpbn_pay5_2_apply, broadcastTo_1b_ab_apply, broadcastTo_1b_ab_apply, broadcastTo_1b_ab_apply, broadcastTo_1b_ab_apply]
  rfl

/-- Region 7: the MLP's payload at row r and column q of the block. -/
theorem mlpbn_pay7_2_apply (x0 : Vec Ideal S2000x128 .f32) (x1 : Vec Ideal S128x128 .f32) (x2 : Vec Ideal S1x128 .f32) (x3 : Vec Ideal S128x128 .f32) (x4 : Vec Ideal S1x128 .f32)
    (r : Fin 2000) (q : Fin 128) :
    k7_pay2 x0 x1 x2 x3 x4 (ix2 r q)
      = Cert.Spec.mlp (fun r k => x0 (ix2 r k)) (fun k q => x1 (ix2 k q)) (fun q => x2 (ix2 (0 : Fin 1) q)) (fun k q => x3 (ix2 k q)) (fun q => x4 (ix2 (0 : Fin 1) q)) r q := by
  unfold k7_pay2 Cert.Spec.mlp
  try dsimp only
  simp only [shapeCast_self]
  refine (mlpbn_lin_block _ x3 x4 r q).trans ?_
  congr 1
  funext r' k
  exact mlpbn_lin_block x0 x1 x2 r' k

/-- Region 7: the stored block at row r and column q. -/
theorem mlpbn_pay7_apply (x0 : Vec Ideal S2000x128 .f32) (x1 : Vec Ideal S128x128 .f32) (x2 : Vec Ideal S1x128 .f32) (x3 : Vec Ideal S128x128 .f32) (x4 x5 x6 x7 x8 : Vec Ideal S1x128 .f32)
    (r : Fin 2000) (q : Fin 128) :
    k7_pay1 (k7_pay2 x0 x1 x2 x3 x4) (k7_pay3 x6) (k7_pay4 x7) (k7_pay5 x8) (k7_pay6 x5) (ix2 r q)
      = (Cert.Spec.mlp (fun r k => x0 (ix2 r k)) (fun k q => x1 (ix2 k q)) (fun q => x2 (ix2 (0 : Fin 1) q)) (fun k q => x3 (ix2 k q)) (fun q => x4 (ix2 (0 : Fin 1) q)) r q
          - x5 (ix2 (0 : Fin 1) q)) * Ideal.rsqrt (x6 (ix2 (0 : Fin 1) q) + Cert.Spec.eps) * x7 (ix2 (0 : Fin 1) q) + x8 (ix2 (0 : Fin 1) q) := by
  unfold k7_pay1 k7_pay3 k7_pay4 k7_pay5 k7_pay6
  try dsimp only
  simp only [shapeCast_self]
  show (k7_pay2 x0 x1 x2 x3 x4 (ix2 r q) - broadcastTo S2000x128 x5 broadcasts_S1x128_S2000x128 (ix2 r q))
        * broadcastTo S2000x128 (rsqrt (addf x6 (broadcast S1x128 (Scalar.ofBits (F := Ideal) .f32 0x3727C5AC#32)))) broadcasts_S1x128_S2000x128 (ix2 r q)
        * broadcastTo S2000x128 x7 broadcasts_S1x128_S2000x128 (ix2 r q)
        + broadcastTo S2000x128 x8 broadcasts_S1x128_S2000x128 (ix2 r q) = _
  rw [mlpbn_pay7_2_apply, broadcastTo_1b_ab_apply, broadcastTo_1b_ab_apply, broadcastTo_1b_ab_apply, broadcastTo_1b_ab_apply]
  rfl

end Cert.KernelIdeal.Hand

end
-- ==== Proof.KI.Val1.lean ====
/-
  The value of region 1 at the ideal instance: after the region its output array holds, at row p and column q,
  the MLP of row p of the aggregated features, normalized in column q by the mean and variance the region is handed,
  scaled and shifted; its nine input arrays are as it found them. Point t of the grid writes back rows 2000 t to
  2000 t + 1999, and the 25 blocks cover the 50000 rows.
-/
import proofs.«132655_j36919538876779_2_alg».proof.Proof.KI.R1
import proofs.«132655_j36919538876779_2_alg».proof.Proof.KI.MlpPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

-- the TensorCore's buffer contents when the region is entered, at the ideal instance
variable (V : (c : Dev nD) → (b : Ref sig .tc) → Buf (Elt Ideal) ((c : Thread nD τ).loc b))

/-! # The value of region 1: what it leaves in its output array, as a function of its nine input arrays -/

/-! ## The printed index maps, decided over the 25 grid points -/

/-- The aggregated features' block moves with the output's, along the rows only. -/
theorem idx1_0 : ∀ t : Fin cfg1.N, win1_0.index t (0 : Fin 2) = win1_9.index t (0 : Fin 2) ∧ win1_0.index t (1 : Fin 2) = 0 :=
  (by decide +kernel : ∀ t : Fin grid1.N, _)
/-- The output's block index is at most 24 along the rows and 0 along the columns. -/
theorem idx1_9 : ∀ t : Fin cfg1.N, win1_9.index t (0 : Fin 2) ≤ 24 ∧ win1_9.index t (1 : Fin 2) = 0 :=
  (by decide +kernel : ∀ t : Fin grid1.N, _)
/-- Window 1 is one block, at index 0. -/
theorem idx1_1 : ∀ t : Fin cfg1.N, win1_1.index t (0 : Fin 2) = 0 ∧ win1_1.index t (1 : Fin 2) = 0 :=
  (by decide +kernel : ∀ t : Fin grid1.N, _)
/-- Window 2 is one block, at index 0. -/
theorem idx1_2 : ∀ t : Fin cfg1.N, win1_2.index t (0 : Fin 2) = 0 ∧ win1_2.index t (1 : Fin 2) = 0 :=
  (by decide +kernel : ∀ t : Fin grid1.N, _)
/-- Window 3 is one block, at index 0. -/
theorem idx1_3 : ∀ t : Fin cfg1.N, win1_3.index t (0 : Fin 2) = 0 ∧ win1_3.index t (1 : Fin 2) = 0 :=
  (by decide +kernel : ∀ t : Fin grid1.N, _)
/-- Window 4 is one block, at index 0. -/
theorem idx1_4 : ∀ t : Fin cfg1.N, win1_4.index t (0 : Fin 2) = 0 ∧ win1_4.index t (1 : Fin 2) = 0 :=
  (by decide +kernel : ∀ t : Fin grid1.N, _)
/-- Window 5 is one block, at index 0. -/
theorem idx1_5 : ∀ t : Fin cfg1.N, win1_5.index t (0 : Fin 2) = 0 ∧ win1_5.index t (1 : Fin 2) = 0 :=
  (by decide +kernel : ∀ t : Fin grid1.N, _)
/-- Window 6 is one block, at index 0. -/
theorem idx1_6 : ∀ t : Fin cfg1.N, win1_6.index t (0 : Fin 2) = 0 ∧ win1_6.index t (1 : Fin 2) = 0 :=
  (by decide +kernel : ∀ t : Fin grid1.N, _)
/-- Window 7 is one block, at index 0. -/
theorem idx1_7 : ∀ t : Fin cfg1.N, win1_7.index t (0 : Fin 2) = 0 ∧ win1_7.index t (1 : Fin 2) = 0 :=
  (by decide +kernel : ∀ t : Fin grid1.N, _)
/-- Window 8 is one block, at index 0. -/
theorem idx1_8 : ∀ t : Fin cfg1.N, win1_8.index t (0 : Fin 2) = 0 ∧ win1_8.index t (1 : Fin 2) = 0 :=
  (by decide +kernel : ∀ t : Fin grid1.N, _)
/-- Every block of 2000 rows is some point's. -/
theorem idx_onto1 : ∀ q0 : Fin 25, ∃ t : Fin cfg1.N, win1_9.index t (0 : Fin 2) = q0.val :=
  (by decide +kernel : ∀ q0 : Fin 25, ∃ t : Fin grid1.N, win1_9.index t (0 : Fin 2) = q0.val)

/-! ## The input blocks at a point, read off the arrays -/

/-- Window 1 (a 128 by 128 matrix) is one block: its block's element (k, q) is the array's. -/
theorem blk1_1 (c : Dev nD) (t : Fin cfg1.N) (k q' : Fin 128) :
    iblk1 V c 1 t (ix2 k q') = V c (Pipeline.arrRef spec1 1) (ix2 k q') := by
  obtain ⟨e0, e1⟩ := idx1_1 t
  show V c (Pipeline.arrRef spec1 1) (((cfg1.win 1).blk t).view.emb (ix2 k q')) = _
  have h : ((cfg1.win 1).blk t).view.emb (ix2 k q') = ix2 k q' := by
    funext a; apply Fin.ext
    match a with
    | ⟨0, _⟩ => show win1_1.index t (0 : Fin 2) * 128 + 1 * k.val = k.val; omega
    | ⟨1, _⟩ => show win1_1.index t (1 : Fin 2) * 128 + 1 * q'.val = q'.val; omega
  rw [h]

/-- Window 3 (a 128 by 128 matrix) is one block: its block's element (k, q) is the array's. -/
theorem blk1_3 (c : Dev nD) (t : Fin cfg1.N) (k q' : Fin 128) :
    iblk1 V c 3 t (ix2 k q') = V c (Pipeline.arrRef spec1 3) (ix2 k q') := by
  obtain ⟨e0, e1⟩ := idx1_3 t
  show V c (Pipeline.arrRef spec1 3) (((cfg1.win 3).blk t).view.emb (ix2 k q')) = _
  have h : ((cfg1.win 3).blk t).view.emb (ix2 k q') = ix2 k q' := by
    funext a; apply Fin.ext
    match a with
    | ⟨0, _⟩ => show win1_3.index t (0 : Fin 2) * 128 + 1 * k.val = k.val; omega
    | ⟨1, _⟩ => show win1_3.index t (1 : Fin 2) * 128 + 1 * q'.val = q'.val; omega
  rw [h]

/-- Window 2 (one row of 128) is one block: its block's element q is the array's. -/
theorem blk1_2 (c : Dev nD) (t : Fin cfg1.N) (q' : Fin 128) :
    iblk1 V c 2 t (ix2 (0 : Fin 1) q') = V c (Pipeline.arrRef spec1 2) (ix2 (0 : Fin 1) q') := by
  obtain ⟨e0, e1⟩ := idx1_2 t
  show V c (Pipeline.arrRef spec1 2) (((cfg1.win 2).blk t).view.emb (ix2 (0 : Fin 1) q')) = _
  have h : ((cfg1.win 2).blk t).view.emb (ix2 (0 : Fin 1) q') = ix2 (0 : Fin 1) q' := by
    funext a; apply Fin.ext
    match a with
    | ⟨0, _⟩ => show win1_2.index t (0 : Fin 2) * 1 + 1 * 0 = 0; omega
    | ⟨1, _⟩ => show win1_2.index t (1 : Fin 2) * 128 + 1 * q'.val = q'.val; omega
  rw [h]

/-- Window 4 (one row of 128) is one block: its block's element q is the array's. -/
theorem blk1_4 (c : Dev nD) (t : Fin cfg1.N) (q' : Fin 128) :
    iblk1 V c 4 t (ix2 (0 : Fin 1) q') = V c (Pipeline.arrRef spec1 4) (ix2 (0 : Fin 1) q') := by
  obtain ⟨e0, e1⟩ := idx1_4 t
  show V c (Pipeline.arrRef spec1 4) (((cfg1.win 4).blk t).view.emb (ix2 (0 : Fin 1) q')) = _
  have h : ((cfg1.win 4).blk t).view.emb (ix2 (0 : Fin 1) q') = ix2 (0 : Fin 1) q' := by
    funext a; apply Fin.ext
    match a with
    | ⟨0, _⟩ => show win1_4.index t (0 : Fin 2) * 1 + 1 * 0 = 0; omega
    | ⟨1, _⟩ => show win1_4.index t (1 : Fin 2) * 128 + 1 * q'.val = q'.val; omega
  rw [h]

/-- Window 5 (one row of 128) is one block: its block's element q is the array's. -/
theorem blk1_5 (c : Dev nD) (t : Fin cfg1.N) (q' : Fin 128) :
    iblk1 V c 5 t (ix2 (0 : Fin 1) q') = V c (Pipeline.arrRef spec1 5) (ix2 (0 : Fin 1) q') := by
  obtain ⟨e0, e1⟩ := idx1_5 t
  show V c (Pipeline.arrRef spec1 5) (((cfg1.win 5).blk t).view.emb (ix2 (0 : Fin 1) q')) = _
  have h : ((cfg1.win 5).blk t).view.emb (ix2 (0 : Fin 1) q') = ix2 (0 : Fin 1) q' := by
    funext a; apply Fin.ext
    match a with
    | ⟨0, _⟩ => show win1_5.index t (0 : Fin 2) * 1 + 1 * 0 = 0; omega
    | ⟨1, _⟩ => show win1_5.index t (1 : Fin 2) * 128 + 1 * q'.val = q'.val; omega
  rw [h]

/-- Window 6 (one row of 128) is one block: its block's element q is the array's. -/
theorem blk1_6 (c : Dev nD) (t : Fin cfg1.N) (q' : Fin 128) :
    iblk1 V c 6 t (ix2 (0 : Fin 1) q') = V c (Pipeline.arrRef spec1 6) (ix2 (0 : Fin 1) q') := by
  obtain ⟨e0, e1⟩ := idx1_6 t
  show V c (Pipeline.arrRef spec1 6) (((cfg1.win 6).blk t).view.emb (ix2 (0 : Fin 1) q')) = _
  have h : ((cfg1.win 6).blk t).view.emb (ix2 (0 : Fin 1) q') = ix2 (0 : Fin 1) q' := by
    funext a; apply Fin.ext
    match a with
    | ⟨0, _⟩ => show win1_6.index t (0 : Fin 2) * 1 + 1 * 0 = 0; omega
    | ⟨1, _⟩ => show win1_6.index t (1 : Fin 2) * 128 + 1 * q'.val = q'.val; omega
  rw [h]

/-- Window 7 (one row of 128) is one block: its block's element q is the array's. -/
theorem blk1_7 (c : Dev nD) (t : Fin cfg1.N) (q' : Fin 128) :
    iblk1 V c 7 t (ix2 (0 : Fin 1) q') = V c (Pipeline.arrRef spec1 7) (ix2 (0 : Fin 1) q') := by
  obtain ⟨e0, e1⟩ := idx1_7 t
  show V c (Pipeline.arrRef spec1 7) (((cfg1.win 7).blk t).view.emb (ix2 (0 : Fin 1) q')) = _
  have h : ((cfg1.win 7).blk t).view.emb (ix2 (0 : Fin 1) q') = ix2 (0 : Fin 1) q' := by
    funext a; apply Fin.ext
    match a with
    | ⟨0, _⟩ => show win1_7.index t (0 : Fin 2) * 1 + 1 * 0 = 0; omega
    | ⟨1, _⟩ => show win1_7.index t (1 : Fin 2) * 128 + 1 * q'.val = q'.val; omega
  rw [h]

/-- Window 8 (one row of 128) is one block: its block's element q is the array's. -/
theorem blk1_8 (c : Dev nD) (t : Fin cfg1.N) (q' : Fin 128) :
    iblk1 V c 8 t (ix2 (0 : Fin 1) q') = V c (Pipeline.arrRef spec1 8) (ix2 (0 : Fin 1) q') := by
  obtain ⟨e0, e1⟩ := idx1_8 t
  show V c (Pipeline.arrRef spec1 8) (((cfg1.win 8).blk t).view.emb (ix2 (0 : Fin 1) q')) = _
  have h : ((cfg1.win 8).blk t).view.emb (ix2 (0 : Fin 1) q') = ix2 (0 : Fin 1) q' := by
    funext a; apply Fin.ext
    match a with
    | ⟨0, _⟩ => show win1_8.index t (0 : Fin 2) * 1 + 1 * 0 = 0; omega
    | ⟨1, _⟩ => show win1_8.index t (1 : Fin 2) * 128 + 1 * q'.val = q'.val; omega
  rw [h]

/-- Row r of the aggregated features' block at point `t` is row (block index × 2000 + r) of the array. -/
theorem blk1_0 (c : Dev nD) (t : Fin cfg1.N) (r : Fin 2000) (hP : win1_9.index t (0 : Fin 2) * 2000 + r.val < 50000) (k : Fin 128) :
    iblk1 V c 0 t (ix2 r k) = V c (Pipeline.arrRef spec1 0) (ix2 (⟨win1_9.index t (0 : Fin 2) * 2000 + r.val, hP⟩ : Fin 50000) k) := by
  obtain ⟨e0, e1⟩ := idx1_0 t
  show V c (Pipeline.arrRef spec1 0) (((cfg1.win 0).blk t).view.emb (ix2 r k)) = _
  have h : ((cfg1.win 0).blk t).view.emb (ix2 r k) = ix2 (⟨win1_9.index t (0 : Fin 2) * 2000 + r.val, hP⟩ : Fin 50000) k := by
    funext a; apply Fin.ext
    match a with
    | ⟨0, _⟩ => show win1_0.index t (0 : Fin 2) * 2000 + 1 * r.val = win1_9.index t (0 : Fin 2) * 2000 + r.val; omega
    | ⟨1, _⟩ => show win1_0.index t (1 : Fin 2) * 128 + 1 * k.val = k.val; omega
  rw [h]

/-- Element (r, q) of the output's block at point `t` sits at row (block index × 2000 + r), column q of the array. -/
theorem emb1_9 (t : Fin cfg1.N) (r : Fin 2000) (hP : win1_9.index t (0 : Fin 2) * 2000 + r.val < 50000) (q : Fin 128) :
    ((cfg1.win 9).blk t).view.emb (ix2 r q) = ix2 (⟨win1_9.index t (0 : Fin 2) * 2000 + r.val, hP⟩ : Fin 50000) q := by
  obtain ⟨e0, e1⟩ := idx1_9 t
  funext a; apply Fin.ext
  match a with
  | ⟨0, _⟩ => show win1_9.index t (0 : Fin 2) * 2000 + 1 * r.val = win1_9.index t (0 : Fin 2) * 2000 + r.val; omega
  | ⟨1, _⟩ => show win1_9.index t (1 : Fin 2) * 128 + 1 * q.val = q.val; omega

/-! ## What a point writes back, and the array after the region -/

set_option maxHeartbeats 1000000 in
/-- WHAT POINT `t` WRITES BACK is block `t` of the output function of the arrays as the region finds them: row r of the
    block is row (block index × 2000 + r) of the array, and the MLP of a row reads that row of the features only; the
    other eight inputs are one block each, so a block's element is the array's at the same place. -/
theorem flushed1_eq (c : Dev nD) (t : Fin cfg1.N) :
    (dat1 (F := Ideal) V c).flushed 9 t = ((cfg1.win 9).blk t).view.read (Elt Ideal)
      (mlpBnArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) := by
  show (cfg1.win 9).cut (grid1.coords t) ((dat1 V c).after 9 t) = _
  rw [after1_9]
  unfold out1_9
  rw [View.canon_unit_zero mlpbn_hz]
  simp only [View.ld_unit_zero (S := S2000x128) mlpbn_hz, View.ld_unit_zero (S := S128x128) mlpbn_hz, View.ld_unit_zero (S := S1x128) mlpbn_hz]
  funext j
  obtain ⟨r, q, rfl⟩ : ∃ (r : Fin 2000) (q : Fin 128), j = ix2 r q := ⟨j 0, j 1, eq_ix2 j⟩
  refine (mlpbn_pay1_apply (iblk1 V c 0 t) (iblk1 V c 1 t) (iblk1 V c 2 t) (iblk1 V c 3 t) (iblk1 V c 4 t) (iblk1 V c 5 t) (iblk1 V c 6 t) (iblk1 V c 7 t) (iblk1 V c 8 t) r q).trans ?_
  have hr : r.val < 2000 := r.isLt
  have hP : win1_9.index t (0 : Fin 2) * 2000 + r.val < 50000 := by have := (idx1_9 t).1; omega
  show _ = mlpBnArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (((cfg1.win 9).blk t).view.emb (ix2 r q))
  rw [emb1_9 t r hP q, mlpBnArr_ix2]
  unfold Cert.Spec.bn
  rw [mlpbn_mlp_row (fun r k => iblk1 V c 0 t (ix2 r k)) (fun p k => V c (Pipeline.arrRef spec1 0) (ix2 p k)) _ _ _ _ r (⟨win1_9.index t (0 : Fin 2) * 2000 + r.val, hP⟩ : Fin 50000) (blk1_0 V c t r hP) q]
  simp only [blk1_1 V c t, blk1_3 V c t, blk1_2 V c t, blk1_4 V c t, blk1_5 V c t, blk1_6 V c t, blk1_7 V c t, blk1_8 V c t]

/-- An index of the array is in point `t`'s block iff each coordinate is in the block's range on its axis. -/
theorem mem_blk1 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v45).slice (win1_9.rect t)).set ↔ _
  rw [View.set_slice_whole, Rect.mem_set_unit]
  exact Iff.rfl

/-- Every row is in some point's block: row p is in the block of index p / 2000. -/
theorem cover1 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto1 ⟨(i 0).val / 2000, by omega⟩
  have ht' : win1_9.index t (0 : Fin 2) = (i 0).val / 2000 := ht
  have e91 : win1_9.index t (1 : Fin 2) = 0 := (idx1_9 t).2
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- THE OUTPUT ARRAY after the region: the output function of the nine input arrays as the region finds them. -/
theorem final1_arr (c : Dev nD) : (dat1 (F := Ideal) V c).arrAt 9 cfg1.N = mlpBnArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 V c).arrAt_eq_of_cover 9 (mlpBnArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) (fun t _ => flushed1_eq V c t) cover1

/-- Row p, column q of the output array after the region: the MLP of row p of the aggregated features, normalized in
    column q by the mean and variance the region is given, scaled and shifted. -/
theorem final1_9 (c : Dev nD) (p : Fin 50000) (q : Fin 128) :
    (dat1 (F := Ideal) V c).arrAt 9 cfg1.N (ix2 p q)
      = Cert.Spec.bn (Cert.Spec.mlp (fun p k => (V c (Pipeline.arrRef spec1 0)) (ix2 p k)) (fun k q => (V c (Pipeline.arrRef spec1 1)) (ix2 k q)) (fun q => (V c (Pipeline.arrRef spec1 2)) (ix2 (0 : Fin 1) q))
            (fun k q => (V c (Pipeline.arrRef spec1 3)) (ix2 k q)) (fun q => (V c (Pipeline.arrRef spec1 4)) (ix2 (0 : Fin 1) q)))
          (fun q => (V c (Pipeline.arrRef spec1 5)) (ix2 (0 : Fin 1) q)) (fun q => (V c (Pipeline.arrRef spec1 6)) (ix2 (0 : Fin 1) q))
          (fun q => (V c (Pipeline.arrRef spec1 7)) (ix2 (0 : Fin 1) q)) (fun q => (V c (Pipeline.arrRef spec1 8)) (ix2 (0 : Fin 1) q)) p q := by
  rw [final1_arr V c]
  rfl

/-- The nine input arrays are as the region found them: an input window is never written back. -/
theorem kept1 (c : Dev nD) (w : Fin cfg1.W) (hw : w.val < 9) : (dat1 (F := Ideal) V c).arrAt w cfg1.N = V c (Pipeline.arrRef spec1 w) := by
  have hin : (cfg1.win w).isOut = false := by
    revert hw
    match w with
    | ⟨0, _⟩ => intro _; rfl
    | ⟨1, _⟩ => intro _; rfl
    | ⟨2, _⟩ => intro _; rfl
    | ⟨3, _⟩ => intro _; rfl
    | ⟨4, _⟩ => intro _; rfl
    | ⟨5, _⟩ => intro _; rfl
    | ⟨6, _⟩ => intro _; rfl
    | ⟨7, _⟩ => intro _; rfl
    | ⟨8, _⟩ => intro _; rfl
    | ⟨9, _⟩ => intro h; exact absurd h (Nat.lt_irrefl 9)
  exact ((dat1 V c).arrAt_in w hin _).trans (A_eq1 V c w)

end Cert.KernelIdeal.Hand

end
-- ==== Proof.KI.Chain0.lean ====
import proofs.«132655_j36919538876779_2_alg».proof.Proof.KI.Carry
import proofs.«132655_j36919538876779_2_alg».proof.Proof.KI.Val0
import proofs.«132655_j36919538876779_2_alg».proof.Proof.KI.Val1
import proofs.«132655_j36919538876779_2_alg».proof.Proof.Spec
import Idealize.ShloMosaic.Lib.ValueIdx

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# Layer 0 of the idealized kernel program, read at an entry

The layer's first kernel leaves the column means and variances of the activations H = Linear-ReLU-Linear-ReLU of the
neighbour sum; its second kernel recomputes H tile by tile and normalizes it with those statistics. Both read the same
neighbour sum and the same parameter slices, so the layer's output at (p, q) is the normalization of H by H's own
statistics, in the accumulated-sums form.
-/

/-- The activations of layer 0 before normalization. -/
def HK0 (m : (ℓ : Loc nD τ sig) → Buf (Elt Ideal) ℓ) (ρ : Dev nD → PrngReg) (c : Dev nD) : Fin 50000 → Fin 128 → EReal :=
  Cert.Spec.mlp (fun p j => aggOf (F := Ideal) (m ((c : Thread nD τ).loc main_arg0)) (srcOf (m ((c : Thread nD τ).loc main_arg1))) (dstOf (m ((c : Thread nD τ).loc main_arg1))) (ix2 p j))
    (fun j k => mat0 (F := Ideal) (m ((c : Thread nD τ).loc main_arg3)) (ix2 j k)) (fun k => row0 (F := Ideal) (m ((c : Thread nD τ).loc main_arg4)) (ix2 (0 : Fin 1) k))
    (fun j k => mat0 (F := Ideal) (m ((c : Thread nD τ).loc main_arg5)) (ix2 j k)) (fun k => row0 (F := Ideal) (m ((c : Thread nD τ).loc main_arg6)) (ix2 (0 : Fin 1) k))

/-- What the first kernel of layer 0 finds: the neighbour sum and the layer's four parameter slices. -/
theorem entry0 (m : (ℓ : Loc nD τ sig) → Buf (Elt Ideal) ℓ) (ρ : Dev nD → PrngReg) (c : Dev nD) :
    V1 m ρ c (Pipeline.arrRef spec0 0) = aggOf (F := Ideal) (m ((c : Thread nD τ).loc main_arg0)) (srcOf (m ((c : Thread nD τ).loc main_arg1))) (dstOf (m ((c : Thread nD τ).loc main_arg1)))
    ∧ V1 m ρ c (Pipeline.arrRef spec0 1) = mat0 (F := Ideal) (m ((c : Thread nD τ).loc main_arg3))
    ∧ V1 m ρ c (Pipeline.arrRef spec0 2) = row0 (F := Ideal) (m ((c : Thread nD τ).loc main_arg4))
    ∧ V1 m ρ c (Pipeline.arrRef spec0 3) = mat0 (F := Ideal) (m ((c : Thread nD τ).loc main_arg5))
    ∧ V1 m ρ c (Pipeline.arrRef spec0 4) = row0 (F := Ideal) (m ((c : Thread nD τ).loc main_arg6)) := by
  have S := stretch0 (W0 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) rfl rfl rfl rfl rfl rfl
  exact ⟨S.2.2.1, S.2.2.2.1, S.2.2.2.2.1, S.2.2.2.2.2.1, S.2.2.2.2.2.2⟩

/-- The first kernel's two results: the column means and variances of the activations. -/
theorem stats0 (m : (ℓ : Loc nD τ sig) → Buf (Elt Ideal) ℓ) (ρ : Dev nD → PrngReg) (c : Dev nD) (q : Fin 128) :
    (dat0 (F := Ideal) (V1 m ρ) c).arrAt 5 cfg0.N (ix2 (0 : Fin 1) q) = Cert.Spec.meanK (HK0 m ρ c) q
    ∧ (dat0 (F := Ideal) (V1 m ρ) c).arrAt 6 cfg0.N (ix2 (0 : Fin 1) q) = Cert.Spec.varK (HK0 m ρ c) q := by
  obtain ⟨e0, e1, e2, e3, e4⟩ := entry0 m ρ c
  have h5 := final0_5 (V1 m ρ) c q
  have h6 := final0_6 (V1 m ρ) c q
  simp only [e0, e1, e2, e3, e4] at h5 h6
  exact ⟨h5, h6⟩

/-- What the second kernel of layer 0 finds. -/
theorem entry1 (m : (ℓ : Loc nD τ sig) → Buf (Elt Ideal) ℓ) (ρ : Dev nD → PrngReg) (c : Dev nD) :
    V3 m ρ c (Pipeline.arrRef spec1 0) = aggOf (F := Ideal) (m ((c : Thread nD τ).loc main_arg0)) (srcOf (m ((c : Thread nD τ).loc main_arg1))) (dstOf (m ((c : Thread nD τ).loc main_arg1)))
    ∧ V3 m ρ c (Pipeline.arrRef spec1 1) = mat0 (F := Ideal) (m ((c : Thread nD τ).loc main_arg3))
    ∧ V3 m ρ c (Pipeline.arrRef spec1 2) = row0 (F := Ideal) (m ((c : Thread nD τ).loc main_arg4))
    ∧ V3 m ρ c (Pipeline.arrRef spec1 3) = mat0 (F := Ideal) (m ((c : Thread nD τ).loc main_arg5))
    ∧ V3 m ρ c (Pipeline.arrRef spec1 4) = row0 (F := Ideal) (m ((c : Thread nD τ).loc main_arg6))
    ∧ V3 m ρ c (Pipeline.arrRef spec1 5) = (dat0 (F := Ideal) (V1 m ρ) c).arrAt 5 cfg0.N
    ∧ V3 m ρ c (Pipeline.arrRef spec1 6) = (dat0 (F := Ideal) (V1 m ρ) c).arrAt 6 cfg0.N
    ∧ V3 m ρ c (Pipeline.arrRef spec1 7) = row0 (F := Ideal) (m ((c : Thread nD τ).loc main_arg7))
    ∧ V3 m ρ c (Pipeline.arrRef spec1 8) = row0 (F := Ideal) (m ((c : Thread nD τ).loc main_arg8)) := by
  have T := stretch1 (W2 m ρ c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (W2_arg3 m ρ c) (W2_arg4 m ρ c) (W2_arg5 m ρ c) (W2_arg6 m ρ c) (W2_arg7 m ρ c) (W2_arg8 m ρ c)
  refine ⟨?_, T.1, T.2.1, T.2.2.1, T.2.2.2.1, ?_, ?_, T.2.2.2.2.1, T.2.2.2.2.2⟩
  · exact (W3_of m ρ c main_v17 (by decide)).trans ((W2_arr m ρ c 0).trans
      ((kept0 (V1 m ρ) c 0 (by decide)).trans (entry0 m ρ c).1))
  · exact (W3_of m ρ c main_v28_0 (by decide)).trans (W2_arr m ρ c 5)
  · exact (W3_of m ρ c main_v28_1 (by decide)).trans (W2_arr m ρ c 6)

/-- Layer 0's output at (p, q). -/
theorem chain0 (m : (ℓ : Loc nD τ sig) → Buf (Elt Ideal) ℓ) (ρ : Dev nD → PrngReg) (c : Dev nD) (p : Fin 50000) (q : Fin 128) :
    W4 m ρ c (Proc.devRef .tc main_v45) (ix2 p q)
      = Cert.Spec.bn (HK0 m ρ c) (Cert.Spec.meanK (HK0 m ρ c)) (Cert.Spec.varK (HK0 m ρ c))
          (fun k => row0 (F := Ideal) (m ((c : Thread nD τ).loc main_arg7)) (ix2 (0 : Fin 1) k)) (fun k => row0 (F := Ideal) (m ((c : Thread nD τ).loc main_arg8)) (ix2 (0 : Fin 1) k)) p q := by
  obtain ⟨f0, f1, f2, f3, f4, f5, f6, f7, f8⟩ := entry1 m ρ c
  refine (congrFun (W4_arr m ρ c 9) (ix2 p q)).trans ?_
  rw [final1_9 (V3 m ρ) c p q]
  simp only [f0, f1, f2, f3, f4, f5, f6, f7, f8]
  unfold Cert.Spec.bn
  dsimp only
  rw [(stats0 m ρ c q).1, (stats0 m ρ c q).2]
  rfl

end Cert.KernelIdeal.Hand

end
-- ==== Proof.KI.Val2.lean ====
/-
  What region 2 leaves in its arrays, over the extended reals.

  The region's operands are the aggregated node features (50000 rows of 128) and the two Linear layers' weights and
  biases. Its body forms, tile by tile (2000 rows each), the hidden features H = ReLU(ReLU(x W1 + b1) W2 + b2) and adds
  each tile's column sums, and the column sums of squares, into two carried rows. After the 25 tiles the rows hold the
  sums over all 50000 rows (row 2000 t + r is row r of tile t), and the last point stores
      mean q = (sum over p of H p q) * (1/50000),   var q = max ((sum over p of H p q ^ 2) * (1/50000) - mean q ^ 2) 0
  to the two result arrays, each of which is one block written back once. The input arrays are never written.
-/
import proofs.«132655_j36919538876779_2_alg».proof.Proof.Gen.KernelIdeal.Skeleton
import proofs.«132655_j36919538876779_2_alg».proof.Proof.Spec
import proofs.«132655_j36919538876779_2_alg».proof.Proof.KI.R2
import proofs.«132655_j36919538876779_2_alg».proof.Proof.KI.StatsSum
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic read at an index, over the extended reals -/

/-- A column sum over the tile's 2000 rows. -/
theorem colsum2_apply (src : FVec Ideal S2000x128 .f32) (q : Fin 128) :
    multiReduction .add [0] S128 src 0x00000000#32 reduces_S2000x128_S128 (.inl rfl) rfl (ix1 q) = ∑ r : Fin 2000, src (ix2 r q) := by
  refine (Ideal.multiReduction_add_single src 0x00000000#32 reduces_S2000x128_S128 (.inl rfl) rfl (ix1 q)).trans ?_
  refine Finset.sum_congr rfl fun k _ => congrArg src (funext fun a => Fin.ext ?_)
  rw [Shape.Reduces.lift_val]; unfold Shape.Reduces.liftVal
  match a with
  | ⟨0, _⟩ => rfl
  | ⟨1, _⟩ => rfl

theorem mm2_lhs_0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm2_rhs_1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times a weight matrix: row r of the tile against column q of the weights. -/
theorem mm2_apply (lhs : FVec Ideal S2000x128 .bf16) (rhs : FVec Ideal S128x128 .bf16) (r : Fin 2000) (q : Fin 128) :
    matmul dot_S2000x128_S128x128_S2000x128_1_0_0_1_n_n none lhs rhs (constant (F := Ideal) S2000x128 .f32 0x00000000#32) (ix2 r q)
      = ∑ k : Fin 128, lhs (ix2 r k) * rhs (ix2 k q) := by
  refine (Ideal.matmul_constant_zero_apply dot_S2000x128_S128x128_S2000x128_1_0_0_1_n_n none lhs rhs (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact mm2_lhs_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm2_rhs_1 _ _)
  rw [el, er]

/-- Linear, ReLU, Linear, ReLU on the tile, entry (r, q). -/
theorem pay6_2_apply (x0 : Vec Ideal S2000x128 .f32) (x1 : Vec Ideal S128x128 .f32) (x2 : Vec Ideal S1x128 .f32)
    (x3 : Vec Ideal S128x128 .f32) (x4 : Vec Ideal S1x128 .f32) (r : Fin 2000) (q : Fin 128) :
    k2_pay6 (F := Ideal) x0 x1 x2 x3 x4 (ix2 r q)
      = Cert.Spec.mlp (fun p k => x0 (ix2 p k)) (fun k j => x1 (ix2 k j)) (fun j => x2 (ix2 (0 : Fin 1) j))
          (fun k j => x3 (ix2 k j)) (fun j => x4 (ix2 (0 : Fin 1) j)) r q := by
  unfold k2_pay6 Cert.Spec.mlp Cert.Spec.lin
  simp only [shapeCast_self, maximumf_apply, addf_apply, mm2_apply, truncf_apply, broadcastTo_1b_ab_apply, broadcast_apply,
    Ideal.ofBits_def, Ideal.ofBits_zero_f32]

/-- The sums row after one more tile: the row before plus the tile's column sums. -/
theorem pay7_2_apply (x0 : Vec Ideal S2000x128 .f32) (x1 : Vec Ideal S128x128 .f32) (x2 : Vec Ideal S1x128 .f32)
    (x3 : Vec Ideal S128x128 .f32) (x4 : Vec Ideal S1x128 .f32) (s : Vec Ideal S1x128 .f32) (q : Fin 128) :
    k2_pay7 (F := Ideal) x0 x1 x2 x3 x4 s (ix2 (0 : Fin 1) q)
      = s (ix2 (0 : Fin 1) q) + ∑ r : Fin 2000, k2_pay6 (F := Ideal) x0 x1 x2 x3 x4 (ix2 r q) := by
  unfold k2_pay7
  simp only [shapeCast_self, addf_apply, shapeCast_a_1a_apply]
  exact congrArg (s (ix2 (0 : Fin 1) q) + ·) (colsum2_apply _ q)

/-- The squares row after one more tile. -/
theorem pay1_2_apply (h : FVec Ideal S2000x128 .f32) (s : Vec Ideal S1x128 .f32) (q : Fin 128) :
    k2_pay1 (F := Ideal) h s (ix2 (0 : Fin 1) q)
      = s (ix2 (0 : Fin 1) q) + ∑ r : Fin 2000, h (ix2 r q) * h (ix2 r q) := by
  unfold k2_pay1
  simp only [shapeCast_self, addf_apply, shapeCast_a_1a_apply]
  exact congrArg (s (ix2 (0 : Fin 1) q) + ·) (colsum2_apply _ q)

/-- The exact reciprocal of the number of rows, as the program names it. -/
theorem inv2 : Named.named (F := Ideal) Cert.KernelIdeal.κ "inv_50000" (φ := .f32) 0x37A7C5AC#32 = Cert.Spec.invN :=
  IdealRules.named_const.ideal_named_scalar _ _ _ _ rfl

/-- The mean row from the sums row. -/
theorem pay2_2_apply (s : Vec Ideal S1x128 .f32) (q : Fin 128) :
    k2_pay2 (F := Ideal) s (ix2 (0 : Fin 1) q) = s (ix2 (0 : Fin 1) q) * Cert.Spec.invN := by
  unfold k2_pay2
  simp only [mulf_apply, broadcast_apply, inv2]

/-- The variance row from the two rows. -/
theorem pay3_2_apply (s qq : Vec Ideal S1x128 .f32) (q : Fin 128) :
    k2_pay3 (F := Ideal) s qq (ix2 (0 : Fin 1) q)
      = max (qq (ix2 (0 : Fin 1) q) * Cert.Spec.invN - (s (ix2 (0 : Fin 1) q) * Cert.Spec.invN) * (s (ix2 (0 : Fin 1) q) * Cert.Spec.invN)) 0 := by
  unfold k2_pay3
  simp only [maximumf_apply, subf_apply, mulf_apply, broadcast_apply, inv2, pay2_2_apply, Ideal.ofBits_def, Ideal.ofBits_zero_f32]

/-- The zero row. -/
theorem pay4_2_apply (q : Fin 128) : k2_pay4 (F := Ideal) (ix2 (0 : Fin 1) q) = 0 := by
  unfold k2_pay4
  simp only [shapeCast_self, broadcast_apply]
  exact Ideal.ofBits_zero_f32
theorem pay5_2_apply (q : Fin 128) : k2_pay5 (F := Ideal) (ix2 (0 : Fin 1) q) = 0 := by
  unfold k2_pay5
  simp only [shapeCast_self, broadcast_apply]
  exact Ideal.ofBits_zero_f32

variable (V : (c : Dev nD) → (b : Ref sig .tc) → Buf (Elt Ideal) ((c : Thread nD τ).loc b))

/-! ## The windows' blocks read at an index -/

/-- The features' block at point t is rows 2000 t … 2000 t + 1999 of the array. -/
theorem iblk2_0_apply (c : Dev nD) (t : Fin cfg2.N) (r : Fin 2000) (k : Fin 128) (h : 2000 * t.val + r.val < 50000) :
    (iblk2 V c 0 t : Vec Ideal S2000x128 .f32) (ix2 r k) = V c (Pipeline.arrRef spec2 0) (ix2 (⟨2000 * t.val + r.val, h⟩ : Fin 50000) k) := by
  have hi : win2_0.index t 0 = t.val ∧ win2_0.index t 1 = 0 :=
    (by decide +kernel : ∀ t : Fin grid2.N, win2_0.index t 0 = t.val ∧ win2_0.index t 1 = 0) t
  unfold iblk2
  rw [View.read_apply]
  refine congrArg (V c (Pipeline.arrRef spec2 0)) (funext fun a => Fin.ext ?_)
  match a with
  | ⟨0, _⟩ => show win2_0.index t 0 * 2000 + 1 * r.val = 2000 * t.val + r.val; rw [hi.1]; omega
  | ⟨1, _⟩ => show win2_0.index t 1 * 128 + 1 * k.val = k.val; rw [hi.2]; omega

theorem iblk2_1_apply (c : Dev nD) (t : Fin cfg2.N) (k : Fin 128) (j : Fin 128) :
    (iblk2 V c 1 t : Vec Ideal S128x128 .f32) (ix2 k j) = V c (Pipeline.arrRef spec2 1) (ix2 k j) := by
  have hi : win2_1.index t 0 = 0 ∧ win2_1.index t 1 = 0 :=
    (by decide +kernel : ∀ t : Fin grid2.N, win2_1.index t 0 = 0 ∧ win2_1.index t 1 = 0) t
  unfold iblk2
  rw [View.read_apply]
  refine congrArg (V c (Pipeline.arrRef spec2 1)) (funext fun a => Fin.ext ?_)
  match a with
  | ⟨0, _⟩ => show win2_1.index t 0 * 128 + 1 * k.val = k.val; rw [hi.1]; omega
  | ⟨1, _⟩ => show win2_1.index t 1 * 128 + 1 * j.val = j.val; rw [hi.2]; omega

theorem iblk2_2_apply (c : Dev nD) (t : Fin cfg2.N) (k : Fin 1) (j : Fin 128) :
    (iblk2 V c 2 t : Vec Ideal S1x128 .f32) (ix2 k j) = V c (Pipeline.arrRef spec2 2) (ix2 k j) := by
  have hi : win2_2.index t 0 = 0 ∧ win2_2.index t 1 = 0 :=
    (by decide +kernel : ∀ t : Fin grid2.N, win2_2.index t 0 = 0 ∧ win2_2.index t 1 = 0) t
  unfold iblk2
  rw [View.read_apply]
  refine congrArg (V c (Pipeline.arrRef spec2 2)) (funext fun a => Fin.ext ?_)
  match a with
  | ⟨0, _⟩ => show win2_2.index t 0 * 1 + 1 * k.val = k.val; rw [hi.1]; omega
  | ⟨1, _⟩ => show win2_2.index t 1 * 128 + 1 * j.val = j.val; rw [hi.2]; omega

theorem iblk2_3_apply (c : Dev nD) (t : Fin cfg2.N) (k : Fin 128) (j : Fin 128) :
    (iblk2 V c 3 t : Vec Ideal S128x128 .f32) (ix2 k j) = V c (Pipeline.arrRef spec2 3) (ix2 k j) := by
  have hi : win2_3.index t 0 = 0 ∧ win2_3.index t 1 = 0 :=
    (by decide +kernel : ∀ t : Fin grid2.N, win2_3.index t 0 = 0 ∧ win2_3.index t 1 = 0) t
  unfold iblk2
  rw [View.read_apply]
  refine congrArg (V c (Pipeline.arrRef spec2 3)) (funext fun a => Fin.ext ?_)
  match a with
  | ⟨0, _⟩ => show win2_3.index t 0 * 128 + 1 * k.val = k.val; rw [hi.1]; omega
  | ⟨1, _⟩ => show win2_3.index t 1 * 128 + 1 * j.val = j.val; rw [hi.2]; omega

theorem iblk2_4_apply (c : Dev nD) (t : Fin cfg2.N) (k : Fin 1) (j : Fin 128) :
    (iblk2 V c 4 t : Vec Ideal S1x128 .f32) (ix2 k j) = V c (Pipeline.arrRef spec2 4) (ix2 k j) := by
  have hi : win2_4.index t 0 = 0 ∧ win2_4.index t 1 = 0 :=
    (by decide +kernel : ∀ t : Fin grid2.N, win2_4.index t 0 = 0 ∧ win2_4.index t 1 = 0) t
  unfold iblk2
  rw [View.read_apply]
  refine congrArg (V c (Pipeline.arrRef spec2 4)) (funext fun a => Fin.ext ?_)
  match a with
  | ⟨0, _⟩ => show win2_4.index t 0 * 1 + 1 * k.val = k.val; rw [hi.1]; omega
  | ⟨1, _⟩ => show win2_4.index t 1 * 128 + 1 * j.val = j.val; rw [hi.2]; omega

/-! ## The carried rows are the running column sums -/

/-- The hidden features (Linear, ReLU, Linear, ReLU of the region's operands), row p, column q. -/
abbrev Hs2 (c : Dev nD) : Fin 50000 → Fin 128 → EReal :=
  Cert.Spec.mlp (fun p q => V c (Pipeline.arrRef spec2 0) (ix2 p q)) (fun p q => V c (Pipeline.arrRef spec2 1) (ix2 p q)) (fun q => V c (Pipeline.arrRef spec2 2) (ix2 (0 : Fin 1) q)) (fun p q => V c (Pipeline.arrRef spec2 3) (ix2 p q)) (fun q => V c (Pipeline.arrRef spec2 4) (ix2 (0 : Fin 1) q))

/-- The same by the row's number (zero past the last row: never read). -/
def Hn2 (c : Dev nD) (p : ℕ) (q : Fin 128) : EReal := if h : p < 50000 then Hs2 V c ⟨p, h⟩ q else 0

/-- Entry (r, q) of the body's hidden tile at point t is the hidden features' row 2000 t + r. -/
theorem tile2_apply (c : Dev nD) (t : Fin cfg2.N) (r : Fin 2000) (q : Fin 128) :
    k2_pay6 (F := Ideal) (iblk2 V c 0 t) (iblk2 V c 1 t) (iblk2 V c 2 t) (iblk2 V c 3 t) (iblk2 V c 4 t) (ix2 r q) = Hn2 V c (2000 * t.val + r.val) q := by
  have hN : t.val < 25 := lt_of_lt_of_eq t.isLt (show cfg2.N = 25 from N_2)
  have h : 2000 * t.val + r.val < 50000 := by have := r.isLt; omega
  refine (pay6_2_apply (iblk2 V c 0 t) (iblk2 V c 1 t) (iblk2 V c 2 t) (iblk2 V c 3 t) (iblk2 V c 4 t) r q).trans ?_
  rw [Hn2, dif_pos h]
  unfold Hs2 Cert.Spec.mlp Cert.Spec.lin
  simp only [fun k => iblk2_0_apply V c t r k h, iblk2_1_apply V c t, iblk2_2_apply V c t, iblk2_3_apply V c t, iblk2_4_apply V c t]

theorem sum2_step (c : Dev nD) (t : Fin cfg2.N) (q : Fin 128) :
    sum2 V c (t.val + 1) (ix2 (0 : Fin 1) q) = sum2 V c t.val (ix2 (0 : Fin 1) q) + ∑ r : Fin 2000, Hn2 V c (2000 * t.val + r.val) q := by
  rw [sum2_succ V c t]
  refine (pay7_2_apply (iblk2 V c 0 t) (iblk2 V c 1 t) (iblk2 V c 2 t) (iblk2 V c 3 t) (iblk2 V c 4 t) (sum2 V c t.val) q).trans ?_
  exact congrArg (sum2 V c t.val (ix2 (0 : Fin 1) q) + ·) (Finset.sum_congr rfl fun r _ => tile2_apply V c t r q)

theorem sq2_step (c : Dev nD) (t : Fin cfg2.N) (q : Fin 128) :
    sq2 V c (t.val + 1) (ix2 (0 : Fin 1) q)
      = sq2 V c t.val (ix2 (0 : Fin 1) q) + ∑ r : Fin 2000, Hn2 V c (2000 * t.val + r.val) q * Hn2 V c (2000 * t.val + r.val) q := by
  rw [sq2_succ V c t]
  refine (pay1_2_apply (k2_pay6 (F := Ideal) (iblk2 V c 0 t) (iblk2 V c 1 t) (iblk2 V c 2 t) (iblk2 V c 3 t) (iblk2 V c 4 t)) (sq2 V c t.val) q).trans ?_
  exact congrArg (sq2 V c t.val (ix2 (0 : Fin 1) q) + ·) (Finset.sum_congr rfl fun r _ => by rw [tile2_apply V c t r q])

/-- After n tiles the sums row holds the column sums of the first 2000 n rows. -/
theorem sum2_eq (c : Dev nD) (q : Fin 128) : ∀ n : ℕ, n ≤ 25 →
    sum2 V c n (ix2 (0 : Fin 1) q) = ∑ t ∈ Finset.range n, ∑ r : Fin 2000, Hn2 V c (2000 * t + r.val) q
  | 0, _ => by rw [Finset.range_zero, Finset.sum_empty]; exact pay4_2_apply q
  | n + 1, hn => by
    have ht : n < cfg2.N := by rw [show cfg2.N = 25 from N_2]; omega
    rw [Finset.sum_range_succ, ← sum2_eq c q n (by omega)]
    exact sum2_step V c ⟨n, ht⟩ q

theorem sq2_eq (c : Dev nD) (q : Fin 128) : ∀ n : ℕ, n ≤ 25 →
    sq2 V c n (ix2 (0 : Fin 1) q) = ∑ t ∈ Finset.range n, ∑ r : Fin 2000, Hn2 V c (2000 * t + r.val) q * Hn2 V c (2000 * t + r.val) q
  | 0, _ => by rw [Finset.range_zero, Finset.sum_empty]; exact pay5_2_apply q
  | n + 1, hn => by
    have ht : n < cfg2.N := by rw [show cfg2.N = 25 from N_2]; omega
    rw [Finset.sum_range_succ, ← sq2_eq c q n (by omega)]
    exact sq2_step V c ⟨n, ht⟩ q

/-- After all 25 tiles: the column sums over the 50000 rows. -/
theorem sum2_all (c : Dev nD) (q : Fin 128) : sum2 V c 25 (ix2 (0 : Fin 1) q) = ∑ p : Fin 50000, Hs2 V c p q := by
  rw [sum2_eq V c q 25 (le_refl _), Cert.StatsLib.sum_tiles (fun p => Hn2 V c p q) 2000 25]
  exact Cert.StatsLib.sum_range_eq_univ _ _ fun p => by rw [Hn2, dif_pos p.isLt]

theorem sq2_all (c : Dev nD) (q : Fin 128) : sq2 V c 25 (ix2 (0 : Fin 1) q) = ∑ p : Fin 50000, Hs2 V c p q * Hs2 V c p q := by
  rw [sq2_eq V c q 25 (le_refl _), Cert.StatsLib.sum_tiles (fun p => Hn2 V c p q * Hn2 V c p q) 2000 25]
  exact Cert.StatsLib.sum_range_eq_univ _ _ fun p => by rw [Hn2, dif_pos p.isLt]

/-! ## What the region leaves in its arrays -/

/-- The last grid point. -/
abbrev tlast2 : Fin cfg2.N := ⟨24, by rw [show cfg2.N = 25 from N_2]; decide⟩

/-- The mean row and the variance row the last point stores, as contents of the two result arrays. -/
abbrev mean2 (c : Dev nD) : Buf (Elt Ideal) ((cfg2.win 5).arr.view.loc (c.tc : Thread nD τ)) :=
  k2_pay2 (F := Ideal) (sum2 V c (tlast2.val + 1))
abbrev var2 (c : Dev nD) : Buf (Elt Ideal) ((cfg2.win 6).arr.view.loc (c.tc : Thread nD τ)) :=
  k2_pay3 (F := Ideal) (sum2 V c (tlast2.val + 1)) (sq2 V c (tlast2.val + 1))

/-- The one write-back of window 5, at the last point, writes the whole row: block (0, 0) of a [1,128] array read
    through zero offsets is the array. -/
theorem flushed2_5 (c : Dev nD) (t : Fin cfg2.N) (hf : (cfg2.win 5).flush t = true) :
    (dat2 V c).flushed 5 t = ((cfg2.win 5).blk t).view.read (Elt Ideal) (mean2 V c) := by
  have hN : cfg2.N = 25 := N_2
  have h24 : t.val = 24 := by have := (flush2_5 t).mp hf; have := t.isLt; omega
  obtain rfl : t = tlast2 := Fin.ext h24
  show (cfg2.win 5).cut (grid2.coords tlast2) ((dat2 V c).after 5 tlast2) = _
  rw [after2_5]
  have hz' : (fun a => win2_5.index tlast2 a * (Pipeline.arrRef spec2 5).ty.shape.size a) = fun _ => 0 :=
    funext fun a => by fin_cases a <;> decide +kernel
  exact (Memref.read_access_unit_zero (Elt Ideal) (Pipeline.arrRef spec2 5) hz' (fun a => by rw [congrFun hz' a]; simp) (mean2 V c)).symm

/-- So the array ends holding that row. -/
theorem arr2_5 (c : Dev nD) : (dat2 V c).arrAt 5 cfg2.N = mean2 V c :=
  (dat2 V c).arrAt_eq_of_cover 5 (mean2 V c) (flushed2_5 V c) fun i =>
    ⟨tlast2, (flush2_5 tlast2).mpr rfl, by
      show i ∈ ((View.whole (Pipeline.arrRef spec2 5)).slice (win2_5.rect tlast2)).set
      rw [View.set_slice_whole, Rect.mem_set_unit]
      intro a
      have h0 : (i 0 : Nat) < 1 := (i 0).isLt
      have h1 : (i 1 : Nat) < 128 := (i 1).isLt
      match a with
      | ⟨0, _⟩ =>
        show win2_5.index tlast2 0 * win2_5.size 0 ≤ (i 0 : Nat) ∧ (i 0 : Nat) < win2_5.index tlast2 0 * win2_5.size 0 + win2_5.xsize (grid2.coords tlast2) 0
        rw [show win2_5.index tlast2 0 * win2_5.size 0 = 0 from by decide +kernel, show win2_5.xsize (grid2.coords tlast2) 0 = 1 from by decide +kernel]; omega
      | ⟨1, _⟩ =>
        show win2_5.index tlast2 1 * win2_5.size 1 ≤ (i 1 : Nat) ∧ (i 1 : Nat) < win2_5.index tlast2 1 * win2_5.size 1 + win2_5.xsize (grid2.coords tlast2) 1
        rw [show win2_5.index tlast2 1 * win2_5.size 1 = 0 from by decide +kernel, show win2_5.xsize (grid2.coords tlast2) 1 = 128 from by decide +kernel]; omega⟩

/-- The one write-back of window 6, at the last point, writes the whole row: block (0, 0) of a [1,128] array read
    through zero offsets is the array. -/
theorem flushed2_6 (c : Dev nD) (t : Fin cfg2.N) (hf : (cfg2.win 6).flush t = true) :
    (dat2 V c).flushed 6 t = ((cfg2.win 6).blk t).view.read (Elt Ideal) (var2 V c) := by
  have hN : cfg2.N = 25 := N_2
  have h24 : t.val = 24 := by have := (flush2_6 t).mp hf; have := t.isLt; omega
  obtain rfl : t = tlast2 := Fin.ext h24
  show (cfg2.win 6).cut (grid2.coords tlast2) ((dat2 V c).after 6 tlast2) = _
  rw [after2_6]
  have hz' : (fun a => win2_6.index tlast2 a * (Pipeline.arrRef spec2 6).ty.shape.size a) = fun _ => 0 :=
    funext fun a => by fin_cases a <;> decide +kernel
  exact (Memref.read_access_unit_zero (Elt Ideal) (Pipeline.arrRef spec2 6) hz' (fun a => by rw [congrFun hz' a]; simp) (var2 V c)).symm

/-- So the array ends holding that row. -/
theorem arr2_6 (c : Dev nD) : (dat2 V c).arrAt 6 cfg2.N = var2 V c :=
  (dat2 V c).arrAt_eq_of_cover 6 (var2 V c) (flushed2_6 V c) fun i =>
    ⟨tlast2, (flush2_6 tlast2).mpr rfl, by
      show i ∈ ((View.whole (Pipeline.arrRef spec2 6)).slice (win2_6.rect tlast2)).set
      rw [View.set_slice_whole, Rect.mem_set_unit]
      intro a
      have h0 : (i 0 : Nat) < 1 := (i 0).isLt
      have h1 : (i 1 : Nat) < 128 := (i 1).isLt
      match a with
      | ⟨0, _⟩ =>
        show win2_6.index tlast2 0 * win2_6.size 0 ≤ (i 0 : Nat) ∧ (i 0 : Nat) < win2_6.index tlast2 0 * win2_6.size 0 + win2_6.xsize (grid2.coords tlast2) 0
        rw [show win2_6.index tlast2 0 * win2_6.size 0 = 0 from by decide +kernel, show win2_6.xsize (grid2.coords tlast2) 0 = 1 from by decide +kernel]; omega
      | ⟨1, _⟩ =>
        show win2_6.index tlast2 1 * win2_6.size 1 ≤ (i 1 : Nat) ∧ (i 1 : Nat) < win2_6.index tlast2 1 * win2_6.size 1 + win2_6.xsize (grid2.coords tlast2) 1
        rw [show win2_6.index tlast2 1 * win2_6.size 1 = 0 from by decide +kernel, show win2_6.xsize (grid2.coords tlast2) 1 = 128 from by decide +kernel]; omega⟩

/-- The mean's array ends at the column means of the hidden features. -/
theorem final2_5 (c : Dev nD) (q : Fin 128) :
    (dat2 (F := Ideal) V c).arrAt 5 cfg2.N (ix2 (0 : Fin 1) q) = Cert.Spec.meanK (Cert.Spec.mlp (fun p q => V c (Pipeline.arrRef spec2 0) (ix2 p q)) (fun p q => V c (Pipeline.arrRef spec2 1) (ix2 p q)) (fun q => V c (Pipeline.arrRef spec2 2) (ix2 (0 : Fin 1) q)) (fun p q => V c (Pipeline.arrRef spec2 3) (ix2 p q)) (fun q => V c (Pipeline.arrRef spec2 4) (ix2 (0 : Fin 1) q))) q := by
  rw [arr2_5 V c]
  refine (pay2_2_apply (sum2 V c 25) q).trans ?_
  rw [sum2_all V c q]
  rfl

/-- The variance's array ends at the clamped column variances of the hidden features. -/
theorem final2_6 (c : Dev nD) (q : Fin 128) :
    (dat2 (F := Ideal) V c).arrAt 6 cfg2.N (ix2 (0 : Fin 1) q) = Cert.Spec.varK (Cert.Spec.mlp (fun p q => V c (Pipeline.arrRef spec2 0) (ix2 p q)) (fun p q => V c (Pipeline.arrRef spec2 1) (ix2 p q)) (fun q => V c (Pipeline.arrRef spec2 2) (ix2 (0 : Fin 1) q)) (fun p q => V c (Pipeline.arrRef spec2 3) (ix2 p q)) (fun q => V c (Pipeline.arrRef spec2 4) (ix2 (0 : Fin 1) q))) q := by
  rw [arr2_6 V c]
  refine (pay3_2_apply (sum2 V c 25) (sq2 V c 25) q).trans ?_
  rw [sum2_all V c q, sq2_all V c q]
  rfl

/-- The five input arrays end as entered: the pipeline never writes an input window's array. -/
theorem kept2 (c : Dev nD) (w : Fin cfg2.W) (hw : w.val < 5) :
    (dat2 (F := Ideal) V c).arrAt w cfg2.N = V c (Pipeline.arrRef spec2 w) := by
  have hin : (cfg2.win w).isOut = false := by
    obtain ⟨n, hn⟩ := w
    dsimp only at hw
    interval_cases n <;> rfl
  exact ((dat2 V c).arrAt_in w hin _).trans (A_eq2 V c w)

end Cert.KernelIdeal.Hand

end
-- ==== Proof.KI.Val3.lean ====
/-
  The value of region 3 at the ideal instance: after the region its output array holds, at row p and column q,
  the MLP of row p of the aggregated features, normalized in column q by the mean and variance the region is handed,
  scaled and shifted; its nine input arrays are as it found them. Point t of the grid writes back rows 2000 t to
  2000 t + 1999, and the 25 blocks cover the 50000 rows.
-/
import proofs.«132655_j36919538876779_2_alg».proof.Proof.KI.R3
import proofs.«132655_j36919538876779_2_alg».proof.Proof.KI.MlpPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

-- the TensorCore's buffer contents when the region is entered, at the ideal instance
variable (V : (c : Dev nD) → (b : Ref sig .tc) → Buf (Elt Ideal) ((c : Thread nD τ).loc b))

/-! # The value of region 3: what it leaves in its output array, as a function of its nine input arrays -/

/-! ## The printed index maps, decided over the 25 grid points -/

/-- The aggregated features' block moves with the output's, along the rows only. -/
theorem idx3_0 : ∀ t : Fin cfg3.N, win3_0.index t (0 : Fin 2) = win3_9.index t (0 : Fin 2) ∧ win3_0.index t (1 : Fin 2) = 0 :=
  (by decide +kernel : ∀ t : Fin grid3.N, _)
/-- The output's block index is at most 24 along the rows and 0 along the columns. -/
theorem idx3_9 : ∀ t : Fin cfg3.N, win3_9.index t (0 : Fin 2) ≤ 24 ∧ win3_9.index t (1 : Fin 2) = 0 :=
  (by decide +kernel : ∀ t : Fin grid3.N, _)
/-- Window 1 is one block, at index 0. -/
theorem idx3_1 : ∀ t : Fin cfg3.N, win3_1.index t (0 : Fin 2) = 0 ∧ win3_1.index t (1 : Fin 2) = 0 :=
  (by decide +kernel : ∀ t : Fin grid3.N, _)
/-- Window 2 is one block, at index 0. -/
theorem idx3_2 : ∀ t : Fin cfg3.N, win3_2.index t (0 : Fin 2) = 0 ∧ win3_2.index t (1 : Fin 2) = 0 :=
  (by decide +kernel : ∀ t : Fin grid3.N, _)
/-- Window 3 is one block, at index 0. -/
theorem idx3_3 : ∀ t : Fin cfg3.N, win3_3.index t (0 : Fin 2) = 0 ∧ win3_3.index t (1 : Fin 2) = 0 :=
  (by decide +kernel : ∀ t : Fin grid3.N, _)
/-- Window 4 is one block, at index 0. -/
theorem idx3_4 : ∀ t : Fin cfg3.N, win3_4.index t (0 : Fin 2) = 0 ∧ win3_4.index t (1 : Fin 2) = 0 :=
  (by decide +kernel : ∀ t : Fin grid3.N, _)
/-- Window 5 is one block, at index 0. -/
theorem idx3_5 : ∀ t : Fin cfg3.N, win3_5.index t (0 : Fin 2) = 0 ∧ win3_5.index t (1 : Fin 2) = 0 :=
  (by decide +kernel : ∀ t : Fin grid3.N, _)
/-- Window 6 is one block, at index 0. -/
theorem idx3_6 : ∀ t : Fin cfg3.N, win3_6.index t (0 : Fin 2) = 0 ∧ win3_6.index t (1 : Fin 2) = 0 :=
  (by decide +kernel : ∀ t : Fin grid3.N, _)
/-- Window 7 is one block, at index 0. -/
theorem idx3_7 : ∀ t : Fin cfg3.N, win3_7.index t (0 : Fin 2) = 0 ∧ win3_7.index t (1 : Fin 2) = 0 :=
  (by decide +kernel : ∀ t : Fin grid3.N, _)
/-- Window 8 is one block, at index 0. -/
theorem idx3_8 : ∀ t : Fin cfg3.N, win3_8.index t (0 : Fin 2) = 0 ∧ win3_8.index t (1 : Fin 2) = 0 :=
  (by decide +kernel : ∀ t : Fin grid3.N, _)
/-- Every block of 2000 rows is some point's. -/
theorem idx_onto3 : ∀ q0 : Fin 25, ∃ t : Fin cfg3.N, win3_9.index t (0 : Fin 2) = q0.val :=
  (by decide +kernel : ∀ q0 : Fin 25, ∃ t : Fin grid3.N, win3_9.index t (0 : Fin 2) = q0.val)

/-! ## The input blocks at a point, read off the arrays -/

/-- Window 1 (a 128 by 128 matrix) is one block: its block's element (k, q) is the array's. -/
theorem blk3_1 (c : Dev nD) (t : Fin cfg3.N) (k q' : Fin 128) :
    iblk3 V c 1 t (ix2 k q') = V c (Pipeline.arrRef spec3 1) (ix2 k q') := by
  obtain ⟨e0, e1⟩ := idx3_1 t
  show V c (Pipeline.arrRef spec3 1) (((cfg3.win 1).blk t).view.emb (ix2 k q')) = _
  have h : ((cfg3.win 1).blk t).view.emb (ix2 k q') = ix2 k q' := by
    funext a; apply Fin.ext
    match a with
    | ⟨0, _⟩ => show win3_1.index t (0 : Fin 2) * 128 + 1 * k.val = k.val; omega
    | ⟨1, _⟩ => show win3_1.index t (1 : Fin 2) * 128 + 1 * q'.val = q'.val; omega
  rw [h]

/-- Window 3 (a 128 by 128 matrix) is one block: its block's element (k, q) is the array's. -/
theorem blk3_3 (c : Dev nD) (t : Fin cfg3.N) (k q' : Fin 128) :
    iblk3 V c 3 t (ix2 k q') = V c (Pipeline.arrRef spec3 3) (ix2 k q') := by
  obtain ⟨e0, e1⟩ := idx3_3 t
  show V c (Pipeline.arrRef spec3 3) (((cfg3.win 3).blk t).view.emb (ix2 k q')) = _
  have h : ((cfg3.win 3).blk t).view.emb (ix2 k q') = ix2 k q' := by
    funext a; apply Fin.ext
    match a with
    | ⟨0, _⟩ => show win3_3.index t (0 : Fin 2) * 128 + 1 * k.val = k.val; omega
    | ⟨1, _⟩ => show win3_3.index t (1 : Fin 2) * 128 + 1 * q'.val = q'.val; omega
  rw [h]

/-- Window 2 (one row of 128) is one block: its block's element q is the array's. -/
theorem blk3_2 (c : Dev nD) (t : Fin cfg3.N) (q' : Fin 128) :
    iblk3 V c 2 t (ix2 (0 : Fin 1) q') = V c (Pipeline.arrRef spec3 2) (ix2 (0 : Fin 1) q') := by
  obtain ⟨e0, e1⟩ := idx3_2 t
  show V c (Pipeline.arrRef spec3 2) (((cfg3.win 2).blk t).view.emb (ix2 (0 : Fin 1) q')) = _
  have h : ((cfg3.win 2).blk t).view.emb (ix2 (0 : Fin 1) q') = ix2 (0 : Fin 1) q' := by
    funext a; apply Fin.ext
    match a with
    | ⟨0, _⟩ => show win3_2.index t (0 : Fin 2) * 1 + 1 * 0 = 0; omega
    | ⟨1, _⟩ => show win3_2.index t (1 : Fin 2) * 128 + 1 * q'.val = q'.val; omega
  rw [h]

/-- Window 4 (one row of 128) is one block: its block's element q is the array's. -/
theorem blk3_4 (c : Dev nD) (t : Fin cfg3.N) (q' : Fin 128) :
    iblk3 V c 4 t (ix2 (0 : Fin 1) q') = V c (Pipeline.arrRef spec3 4) (ix2 (0 : Fin 1) q') := by
  obtain ⟨e0, e1⟩ := idx3_4 t
  show V c (Pipeline.arrRef spec3 4) (((cfg3.win 4).blk t).view.emb (ix2 (0 : Fin 1) q')) = _
  have h : ((cfg3.win 4).blk t).view.emb (ix2 (0 : Fin 1) q') = ix2 (0 : Fin 1) q' := by
    funext a; apply Fin.ext
    match a with
    | ⟨0, _⟩ => show win3_4.index t (0 : Fin 2) * 1 + 1 * 0 = 0; omega
    | ⟨1, _⟩ => show win3_4.index t (1 : Fin 2) * 128 + 1 * q'.val = q'.val; omega
  rw [h]

/-- Window 5 (one row of 128) is one block: its block's element q is the array's. -/
theorem blk3_5 (c : Dev nD) (t : Fin cfg3.N) (q' : Fin 128) :
    iblk3 V c 5 t (ix2 (0 : Fin 1) q') = V c (Pipeline.arrRef spec3 5) (ix2 (0 : Fin 1) q') := by
  obtain ⟨e0, e1⟩ := idx3_5 t
  show V c (Pipeline.arrRef spec3 5) (((cfg3.win 5).blk t).view.emb (ix2 (0 : Fin 1) q')) = _
  have h : ((cfg3.win 5).blk t).view.emb (ix2 (0 : Fin 1) q') = ix2 (0 : Fin 1) q' := by
    funext a; apply Fin.ext
    match a with
    | ⟨0, _⟩ => show win3_5.index t (0 : Fin 2) * 1 + 1 * 0 = 0; omega
    | ⟨1, _⟩ => show win3_5.index t (1 : Fin 2) * 128 + 1 * q'.val = q'.val; omega
  rw [h]

/-- Window 6 (one row of 128) is one block: its block's element q is the array's. -/
theorem blk3_6 (c : Dev nD) (t : Fin cfg3.N) (q' : Fin 128) :
    iblk3 V c 6 t (ix2 (0 : Fin 1) q') = V c (Pipeline.arrRef spec3 6) (ix2 (0 : Fin 1) q') := by
  obtain ⟨e0, e1⟩ := idx3_6 t
  show V c (Pipeline.arrRef spec3 6) (((cfg3.win 6).blk t).view.emb (ix2 (0 : Fin 1) q')) = _
  have h : ((cfg3.win 6).blk t).view.emb (ix2 (0 : Fin 1) q') = ix2 (0 : Fin 1) q' := by
    funext a; apply Fin.ext
    match a with
    | ⟨0, _⟩ => show win3_6.index t (0 : Fin 2) * 1 + 1 * 0 = 0; omega
    | ⟨1, _⟩ => show win3_6.index t (1 : Fin 2) * 128 + 1 * q'.val = q'.val; omega
  rw [h]

/-- Window 7 (one row of 128) is one block: its block's element q is the array's. -/
theorem blk3_7 (c : Dev nD) (t : Fin cfg3.N) (q' : Fin 128) :
    iblk3 V c 7 t (ix2 (0 : Fin 1) q') = V c (Pipeline.arrRef spec3 7) (ix2 (0 : Fin 1) q') := by
  obtain ⟨e0, e1⟩ := idx3_7 t
  show V c (Pipeline.arrRef spec3 7) (((cfg3.win 7).blk t).view.emb (ix2 (0 : Fin 1) q')) = _
  have h : ((cfg3.win 7).blk t).view.emb (ix2 (0 : Fin 1) q') = ix2 (0 : Fin 1) q' := by
    funext a; apply Fin.ext
    match a with
    | ⟨0, _⟩ => show win3_7.index t (0 : Fin 2) * 1 + 1 * 0 = 0; omega
    | ⟨1, _⟩ => show win3_7.index t (1 : Fin 2) * 128 + 1 * q'.val = q'.val; omega
  rw [h]

/-- Window 8 (one row of 128) is one block: its block's element q is the array's. -/
theorem blk3_8 (c : Dev nD) (t : Fin cfg3.N) (q' : Fin 128) :
    iblk3 V c 8 t (ix2 (0 : Fin 1) q') = V c (Pipeline.arrRef spec3 8) (ix2 (0 : Fin 1) q') := by
  obtain ⟨e0, e1⟩ := idx3_8 t
  show V c (Pipeline.arrRef spec3 8) (((cfg3.win 8).blk t).view.emb (ix2 (0 : Fin 1) q')) = _
  have h : ((cfg3.win 8).blk t).view.emb (ix2 (0 : Fin 1) q') = ix2 (0 : Fin 1) q' := by
    funext a; apply Fin.ext
    match a with
    | ⟨0, _⟩ => show win3_8.index t (0 : Fin 2) * 1 + 1 * 0 = 0; omega
    | ⟨1, _⟩ => show win3_8.index t (1 : Fin 2) * 128 + 1 * q'.val = q'.val; omega
  rw [h]

/-- Row r of the aggregated features' block at point `t` is row (block index × 2000 + r) of the array. -/
theorem blk3_0 (c : Dev nD) (t : Fin cfg3.N) (r : Fin 2000) (hP : win3_9.index t (0 : Fin 2) * 2000 + r.val < 50000) (k : Fin 128) :
    iblk3 V c 0 t (ix2 r k) = V c (Pipeline.arrRef spec3 0) (ix2 (⟨win3_9.index t (0 : Fin 2) * 2000 + r.val, hP⟩ : Fin 50000) k) := by
  obtain ⟨e0, e1⟩ := idx3_0 t
  show V c (Pipeline.arrRef spec3 0) (((cfg3.win 0).blk t).view.emb (ix2 r k)) = _
  have h : ((cfg3.win 0).blk t).view.emb (ix2 r k) = ix2 (⟨win3_9.index t (0 : Fin 2) * 2000 + r.val, hP⟩ : Fin 50000) k := by
    funext a; apply Fin.ext
    match a with
    | ⟨0, _⟩ => show win3_0.index t (0 : Fin 2) * 2000 + 1 * r.val = win3_9.index t (0 : Fin 2) * 2000 + r.val; omega
    | ⟨1, _⟩ => show win3_0.index t (1 : Fin 2) * 128 + 1 * k.val = k.val; omega
  rw [h]

/-- Element (r, q) of the output's block at point `t` sits at row (block index × 2000 + r), column q of the array. -/
theorem emb3_9 (t : Fin cfg3.N) (r : Fin 2000) (hP : win3_9.index t (0 : Fin 2) * 2000 + r.val < 50000) (q : Fin 128) :
    ((cfg3.win 9).blk t).view.emb (ix2 r q) = ix2 (⟨win3_9.index t (0 : Fin 2) * 2000 + r.val, hP⟩ : Fin 50000) q := by
  obtain ⟨e0, e1⟩ := idx3_9 t
  funext a; apply Fin.ext
  match a with
  | ⟨0, _⟩ => show win3_9.index t (0 : Fin 2) * 2000 + 1 * r.val = win3_9.index t (0 : Fin 2) * 2000 + r.val; omega
  | ⟨1, _⟩ => show win3_9.index t (1 : Fin 2) * 128 + 1 * q.val = q.val; omega

/-! ## What a point writes back, and the array after the region -/

set_option maxHeartbeats 1000000 in
/-- WHAT POINT `t` WRITES BACK is block `t` of the output function of the arrays as the region finds them: row r of the
    block is row (block index × 2000 + r) of the array, and the MLP of a row reads that row of the features only; the
    other eight inputs are one block each, so a block's element is the array's at the same place. -/
theorem flushed3_eq (c : Dev nD) (t : Fin cfg3.N) :
    (dat3 (F := Ideal) V c).flushed 9 t = ((cfg3.win 9).blk t).view.read (Elt Ideal)
      (mlpBnArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero mlpbn_hz]
  simp only [View.ld_unit_zero (S := S2000x128) mlpbn_hz, View.ld_unit_zero (S := S128x128) mlpbn_hz, View.ld_unit_zero (S := S1x128) mlpbn_hz]
  funext j
  obtain ⟨r, q, rfl⟩ : ∃ (r : Fin 2000) (q : Fin 128), j = ix2 r q := ⟨j 0, j 1, eq_ix2 j⟩
  refine (mlpbn_pay3_apply (iblk3 V c 0 t) (iblk3 V c 1 t) (iblk3 V c 2 t) (iblk3 V c 3 t) (iblk3 V c 4 t) (iblk3 V c 5 t) (iblk3 V c 6 t) (iblk3 V c 7 t) (iblk3 V c 8 t) r q).trans ?_
  have hr : r.val < 2000 := r.isLt
  have hP : win3_9.index t (0 : Fin 2) * 2000 + r.val < 50000 := by have := (idx3_9 t).1; omega
  show _ = mlpBnArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 9).blk t).view.emb (ix2 r q))
  rw [emb3_9 t r hP q, mlpBnArr_ix2]
  unfold Cert.Spec.bn
  rw [mlpbn_mlp_row (fun r k => iblk3 V c 0 t (ix2 r k)) (fun p k => V c (Pipeline.arrRef spec3 0) (ix2 p k)) _ _ _ _ r (⟨win3_9.index t (0 : Fin 2) * 2000 + r.val, hP⟩ : Fin 50000) (blk3_0 V c t r hP) q]
  simp only [blk3_1 V c t, blk3_3 V c t, blk3_2 V c t, blk3_4 V c t, blk3_5 V c t, blk3_6 V c t, blk3_7 V c t, blk3_8 V c t]

/-- An index of the array is in point `t`'s block iff each coordinate is in the block's range on its axis. -/
theorem mem_blk3 (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v87).slice (win3_9.rect t)).set ↔ _
  rw [View.set_slice_whole, Rect.mem_set_unit]
  exact Iff.rfl

/-- Every row is in some point's block: row p is in the block of index p / 2000. -/
theorem cover3 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ := idx_onto3 ⟨(i 0).val / 2000, by omega⟩
  have ht' : win3_9.index t (0 : Fin 2) = (i 0).val / 2000 := ht
  have e91 : win3_9.index t (1 : Fin 2) = 0 := (idx3_9 t).2
  refine ⟨t, flush3_9 t, ?_⟩
  rw [mem_blk3]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

/-- THE OUTPUT ARRAY after the region: the output function of the nine input arrays as the region finds them. -/
theorem final3_arr (c : Dev nD) : (dat3 (F := Ideal) V c).arrAt 9 cfg3.N = mlpBnArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 (mlpBnArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) (fun t _ => flushed3_eq V c t) cover3

/-- Row p, column q of the output array after the region: the MLP of row p of the aggregated features, normalized in
    column q by the mean and variance the region is given, scaled and shifted. -/
theorem final3_9 (c : Dev nD) (p : Fin 50000) (q : Fin 128) :
    (dat3 (F := Ideal) V c).arrAt 9 cfg3.N (ix2 p q)
      = Cert.Spec.bn (Cert.Spec.mlp (fun p k => (V c (Pipeline.arrRef spec3 0)) (ix2 p k)) (fun k q => (V c (Pipeline.arrRef spec3 1)) (ix2 k q)) (fun q => (V c (Pipeline.arrRef spec3 2)) (ix2 (0 : Fin 1) q))
            (fun k q => (V c (Pipeline.arrRef spec3 3)) (ix2 k q)) (fun q => (V c (Pipeline.arrRef spec3 4)) (ix2 (0 : Fin 1) q)))
          (fun q => (V c (Pipeline.arrRef spec3 5)) (ix2 (0 : Fin 1) q)) (fun q => (V c (Pipeline.arrRef spec3 6)) (ix2 (0 : Fin 1) q))
          (fun q => (V c (Pipeline.arrRef spec3 7)) (ix2 (0 : Fin 1) q)) (fun q => (V c (Pipeline.arrRef spec3 8)) (ix2 (0 : Fin 1) q)) p q := by
  rw [final3_arr V c]
  rfl

/-- The nine input arrays are as the region found them: an input window is never written back. -/
theorem kept3 (c : Dev nD) (w : Fin cfg3.W) (hw : w.val < 9) : (dat3 (F := Ideal) V c).arrAt w cfg3.N = V c (Pipeline.arrRef spec3 w) := by
  have hin : (cfg3.win w).isOut = false := by
    revert hw
    match w with
    | ⟨0, _⟩ => intro _; rfl
    | ⟨1, _⟩ => intro _; rfl
    | ⟨2, _⟩ => intro _; rfl
    | ⟨3, _⟩ => intro _; rfl
    | ⟨4, _⟩ => intro _; rfl
    | ⟨5, _⟩ => intro _; rfl
    | ⟨6, _⟩ => intro _; rfl
    | ⟨7, _⟩ => intro _; rfl
    | ⟨8, _⟩ => intro _; rfl
    | ⟨9, _⟩ => intro h; exact absurd h (Nat.lt_irrefl 9)
  exact ((dat3 V c).arrAt_in w hin _).trans (A_eq3 V c w)

end Cert.KernelIdeal.Hand

end
-- ==== Proof.KI.Chain1.lean ====
import proofs.«132655_j36919538876779_2_alg».proof.Proof.KI.Carry
import proofs.«132655_j36919538876779_2_alg».proof.Proof.KI.Val2
import proofs.«132655_j36919538876779_2_alg».proof.Proof.KI.Val3
import proofs.«132655_j36919538876779_2_alg».proof.Proof.Spec
import Idealize.ShloMosaic.Lib.ValueIdx

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# Layer 1 of the idealized kernel program, read at an entry

The layer's first kernel leaves the column means and variances of the activations H = Linear-ReLU-Linear-ReLU of the
neighbour sum; its second kernel recomputes H tile by tile and normalizes it with those statistics. Both read the same
neighbour sum and the same parameter slices, so the layer's output at (p, q) is the normalization of H by H's own
statistics, in the accumulated-sums form.
-/

/-- The activations of layer 1 before normalization. -/
def HK1 (m : (ℓ : Loc nD τ sig) → Buf (Elt Ideal) ℓ) (ρ : Dev nD → PrngReg) (c : Dev nD) : Fin 50000 → Fin 128 → EReal :=
  Cert.Spec.mlp (fun p j => aggOf (F := Ideal) (W4 m ρ c (Proc.devRef .tc main_v45)) (srcOf (m ((c : Thread nD τ).loc main_arg1))) (dstOf (m ((c : Thread nD τ).loc main_arg1))) (ix2 p j))
    (fun j k => mat1 (F := Ideal) (m ((c : Thread nD τ).loc main_arg3)) (ix2 j k)) (fun k => row1 (F := Ideal) (m ((c : Thread nD τ).loc main_arg4)) (ix2 (0 : Fin 1) k))
    (fun j k => mat1 (F := Ideal) (m ((c : Thread nD τ).loc main_arg5)) (ix2 j k)) (fun k => row1 (F := Ideal) (m ((c : Thread nD τ).loc main_arg6)) (ix2 (0 : Fin 1) k))

/-- What the first kernel of layer 1 finds: the neighbour sum and the layer's four parameter slices. -/
theorem entry2 (m : (ℓ : Loc nD τ sig) → Buf (Elt Ideal) ℓ) (ρ : Dev nD → PrngReg) (c : Dev nD) :
    V5 m ρ c (Pipeline.arrRef spec2 0) = aggOf (F := Ideal) (W4 m ρ c (Proc.devRef .tc main_v45)) (srcOf (m ((c : Thread nD τ).loc main_arg1))) (dstOf (m ((c : Thread nD τ).loc main_arg1)))
    ∧ V5 m ρ c (Pipeline.arrRef spec2 1) = mat1 (F := Ideal) (m ((c : Thread nD τ).loc main_arg3))
    ∧ V5 m ρ c (Pipeline.arrRef spec2 2) = row1 (F := Ideal) (m ((c : Thread nD τ).loc main_arg4))
    ∧ V5 m ρ c (Pipeline.arrRef spec2 3) = mat1 (F := Ideal) (m ((c : Thread nD τ).loc main_arg5))
    ∧ V5 m ρ c (Pipeline.arrRef spec2 4) = row1 (F := Ideal) (m ((c : Thread nD τ).loc main_arg6)) := by
  have S := stretch2 (W4 m ρ c) (W4 m ρ c (Proc.devRef .tc main_v45)) (srcOf (m ((c : Thread nD τ).loc main_arg1))) (dstOf (m ((c : Thread nD τ).loc main_arg1))) (m ((c : Thread nD τ).loc main_arg3)) (m ((c : Thread nD τ).loc main_arg4)) (m ((c : Thread nD τ).loc main_arg5)) (m ((c : Thread nD τ).loc main_arg6)) rfl (W4_v1 m ρ c) (W4_v3 m ρ c) (W4_arg3 m ρ c) (W4_arg4 m ρ c) (W4_arg5 m ρ c) (W4_arg6 m ρ c)
  exact ⟨S.1, S.2.1, S.2.2.1, S.2.2.2.1, S.2.2.2.2⟩

/-- The first kernel's two results: the column means and variances of the activations. -/
theorem stats1 (m : (ℓ : Loc nD τ sig) → Buf (Elt Ideal) ℓ) (ρ : Dev nD → PrngReg) (c : Dev nD) (q : Fin 128) :
    (dat2 (F := Ideal) (V5 m ρ) c).arrAt 5 cfg2.N (ix2 (0 : Fin 1) q) = Cert.Spec.meanK (HK1 m ρ c) q
    ∧ (dat2 (F := Ideal) (V5 m ρ) c).arrAt 6 cfg2.N (ix2 (0 : Fin 1) q) = Cert.Spec.varK (HK1 m ρ c) q := by
  obtain ⟨e0, e1, e2, e3, e4⟩ := entry2 m ρ c
  have h5 := final2_5 (V5 m ρ) c q
  have h6 := final2_6 (V5 m ρ) c q
  simp only [e0, e1, e2, e3, e4] at h5 h6
  exact ⟨h5, h6⟩

/-- What the second kernel of layer 1 finds. -/
theorem entry3 (m : (ℓ : Loc nD τ sig) → Buf (Elt Ideal) ℓ) (ρ : Dev nD → PrngReg) (c : Dev nD) :
    V7 m ρ c (Pipeline.arrRef spec3 0) = aggOf (F := Ideal) (W4 m ρ c (Proc.devRef .tc main_v45)) (srcOf (m ((c : Thread nD τ).loc main_arg1))) (dstOf (m ((c : Thread nD τ).loc main_arg1)))
    ∧ V7 m ρ c (Pipeline.arrRef spec3 1) = mat1 (F := Ideal) (m ((c : Thread nD τ).loc main_arg3))
    ∧ V7 m ρ c (Pipeline.arrRef spec3 2) = row1 (F := Ideal) (m ((c : Thread nD τ).loc main_arg4))
    ∧ V7 m ρ c (Pipeline.arrRef spec3 3) = mat1 (F := Ideal) (m ((c : Thread nD τ).loc main_arg5))
    ∧ V7 m ρ c (Pipeline.arrRef spec3 4) = row1 (F := Ideal) (m ((c : Thread nD τ).loc main_arg6))
    ∧ V7 m ρ c (Pipeline.arrRef spec3 5) = (dat2 (F := Ideal) (V5 m ρ) c).arrAt 5 cfg2.N
    ∧ V7 m ρ c (Pipeline.arrRef spec3 6) = (dat2 (F := Ideal) (V5 m ρ) c).arrAt 6 cfg2.N
    ∧ V7 m ρ c (Pipeline.arrRef spec3 7) = row1 (F := Ideal) (m ((c : Thread nD τ).loc main_arg7))
    ∧ V7 m ρ c (Pipeline.arrRef spec3 8) = row1 (F := Ideal) (m ((c : Thread nD τ).loc main_arg8)) := by
  have T := stretch3 (W6 m ρ c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (W6_arg3 m ρ c) (W6_arg4 m ρ c) (W6_arg5 m ρ c) (W6_arg6 m ρ c) (W6_arg7 m ρ c) (W6_arg8 m ρ c)
  refine ⟨?_, T.1, T.2.1, T.2.2.1, T.2.2.2.1, ?_, ?_, T.2.2.2.2.1, T.2.2.2.2.2⟩
  · exact (W7_of m ρ c main_v59 (by decide)).trans ((W6_arr m ρ c 0).trans
      ((kept2 (V5 m ρ) c 0 (by decide)).trans (entry2 m ρ c).1))
  · exact (W7_of m ρ c main_v70_0 (by decide)).trans (W6_arr m ρ c 5)
  · exact (W7_of m ρ c main_v70_1 (by decide)).trans (W6_arr m ρ c 6)

/-- Layer 1's output at (p, q). -/
theorem chain1 (m : (ℓ : Loc nD τ sig) → Buf (Elt Ideal) ℓ) (ρ : Dev nD → PrngReg) (c : Dev nD) (p : Fin 50000) (q : Fin 128) :
    W8 m ρ c (Proc.devRef .tc main_v87) (ix2 p q)
      = Cert.Spec.bn (HK1 m ρ c) (Cert.Spec.meanK (HK1 m ρ c)) (Cert.Spec.varK (HK1 m ρ c))
          (fun k => row1 (F := Ideal) (m ((c : Thread nD τ).loc main_arg7)) (ix2 (0 : Fin 1) k)) (fun k => row1 (F := Ideal) (m ((c : Thread nD τ).loc main_arg8)) (ix2 (0 : Fin 1) k)) p q := by
  obtain ⟨f0, f1, f2, f3, f4, f5, f6, f7, f8⟩ := entry3 m ρ c
  refine (congrFun (W8_arr m ρ c 9) (ix2 p q)).trans ?_
  rw [final3_9 (V7 m ρ) c p q]
  simp only [f0, f1, f2, f3, f4, f5, f6, f7, f8]
  unfold Cert.Spec.bn
  dsimp only
  rw [(stats1 m ρ c q).1, (stats1 m ρ c q).2]
  rfl

end Cert.KernelIdeal.Hand

end
-- ==== Proof.KI.Val4.lean ====
/-
  What region 4 leaves in its arrays, over the extended reals.

  The region's operands are the aggregated node features (50000 rows of 128) and the two Linear layers' weights and
  biases. Its body forms, tile by tile (2000 rows each), the hidden features H = ReLU(ReLU(x W1 + b1) W2 + b2) and adds
  each tile's column sums, and the column sums of squares, into two carried rows. After the 25 tiles the rows hold the
  sums over all 50000 rows (row 2000 t + r is row r of tile t), and the last point stores
      mean q = (sum over p of H p q) * (1/50000),   var q = max ((sum over p of H p q ^ 2) * (1/50000) - mean q ^ 2) 0
  to the two result arrays, each of which is one block written back once. The input arrays are never written.
-/
import proofs.«132655_j36919538876779_2_alg».proof.Proof.Gen.KernelIdeal.Skeleton
import proofs.«132655_j36919538876779_2_alg».proof.Proof.Spec
import proofs.«132655_j36919538876779_2_alg».proof.Proof.KI.R4
import proofs.«132655_j36919538876779_2_alg».proof.Proof.KI.StatsSum
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic read at an index, over the extended reals -/

/-- A column sum over the tile's 2000 rows. -/
theorem colsum4_apply (src : FVec Ideal S2000x128 .f32) (q : Fin 128) :
    multiReduction .add [0] S128 src 0x00000000#32 reduces_S2000x128_S128 (.inl rfl) rfl (ix1 q) = ∑ r : Fin 2000, src (ix2 r q) := by
  refine (Ideal.multiReduction_add_single src 0x00000000#32 reduces_S2000x128_S128 (.inl rfl) rfl (ix1 q)).trans ?_
  refine Finset.sum_congr rfl fun k _ => congrArg src (funext fun a => Fin.ext ?_)
  rw [Shape.Reduces.lift_val]; unfold Shape.Reduces.liftVal
  match a with
  | ⟨0, _⟩ => rfl
  | ⟨1, _⟩ => rfl

theorem mm4_lhs_0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm4_rhs_1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times a weight matrix: row r of the tile against column q of the weights. -/
theorem mm4_apply (lhs : FVec Ideal S2000x128 .bf16) (rhs : FVec Ideal S128x128 .bf16) (r : Fin 2000) (q : Fin 128) :
    matmul dot_S2000x128_S128x128_S2000x128_1_0_0_1_n_n none lhs rhs (constant (F := Ideal) S2000x128 .f32 0x00000000#32) (ix2 r q)
      = ∑ k : Fin 128, lhs (ix2 r k) * rhs (ix2 k q) := by
  refine (Ideal.matmul_constant_zero_apply dot_S2000x128_S128x128_S2000x128_1_0_0_1_n_n none lhs rhs (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact mm4_lhs_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm4_rhs_1 _ _)
  rw [el, er]

/-- Linear, ReLU, Linear, ReLU on the tile, entry (r, q). -/
theorem pay6_4_apply (x0 : Vec Ideal S2000x128 .f32) (x1 : Vec Ideal S128x128 .f32) (x2 : Vec Ideal S1x128 .f32)
    (x3 : Vec Ideal S128x128 .f32) (x4 : Vec Ideal S1x128 .f32) (r : Fin 2000) (q : Fin 128) :
    k4_pay6 (F := Ideal) x0 x1 x2 x3 x4 (ix2 r q)
      = Cert.Spec.mlp (fun p k => x0 (ix2 p k)) (fun k j => x1 (ix2 k j)) (fun j => x2 (ix2 (0 : Fin 1) j))
          (fun k j => x3 (ix2 k j)) (fun j => x4 (ix2 (0 : Fin 1) j)) r q := by
  unfold k4_pay6 Cert.Spec.mlp Cert.Spec.lin
  simp only [shapeCast_self, maximumf_apply, addf_apply, mm4_apply, truncf_apply, broadcastTo_1b_ab_apply, broadcast_apply,
    Ideal.ofBits_def, Ideal.ofBits_zero_f32]

/-- The sums row after one more tile: the row before plus the tile's column sums. -/
theorem pay7_4_apply (x0 : Vec Ideal S2000x128 .f32) (x1 : Vec Ideal S128x128 .f32) (x2 : Vec Ideal S1x128 .f32)
    (x3 : Vec Ideal S128x128 .f32) (x4 : Vec Ideal S1x128 .f32) (s : Vec Ideal S1x128 .f32) (q : Fin 128) :
    k4_pay7 (F := Ideal) x0 x1 x2 x3 x4 s (ix2 (0 : Fin 1) q)
      = s (ix2 (0 : Fin 1) q) + ∑ r : Fin 2000, k4_pay6 (F := Ideal) x0 x1 x2 x3 x4 (ix2 r q) := by
  unfold k4_pay7
  simp only [shapeCast_self, addf_apply, shapeCast_a_1a_apply]
  exact congrArg (s (ix2 (0 : Fin 1) q) + ·) (colsum4_apply _ q)

/-- The squares row after one more tile. -/
theorem pay1_4_apply (h : FVec Ideal S2000x128 .f32) (s : Vec Ideal S1x128 .f32) (q : Fin 128) :
    k4_pay1 (F := Ideal) h s (ix2 (0 : Fin 1) q)
      = s (ix2 (0 : Fin 1) q) + ∑ r : Fin 2000, h (ix2 r q) * h (ix2 r q) := by
  unfold k4_pay1
  simp only [shapeCast_self, addf_apply, shapeCast_a_1a_apply]
  exact congrArg (s (ix2 (0 : Fin 1) q) + ·) (colsum4_apply _ q)

/-- The exact reciprocal of the number of rows, as the program names it. -/
theorem inv4 : Named.named (F := Ideal) Cert.KernelIdeal.κ "inv_50000" (φ := .f32) 0x37A7C5AC#32 = Cert.Spec.invN :=
  IdealRules.named_const.ideal_named_scalar _ _ _ _ rfl

/-- The mean row from the sums row. -/
theorem pay2_4_apply (s : Vec Ideal S1x128 .f32) (q : Fin 128) :
    k4_pay2 (F := Ideal) s (ix2 (0 : Fin 1) q) = s (ix2 (0 : Fin 1) q) * Cert.Spec.invN := by
  unfold k4_pay2
  simp only [mulf_apply, broadcast_apply, inv4]

/-- The variance row from the two rows. -/
theorem pay3_4_apply (s qq : Vec Ideal S1x128 .f32) (q : Fin 128) :
    k4_pay3 (F := Ideal) s qq (ix2 (0 : Fin 1) q)
      = max (qq (ix2 (0 : Fin 1) q) * Cert.Spec.invN - (s (ix2 (0 : Fin 1) q) * Cert.Spec.invN) * (s (ix2 (0 : Fin 1) q) * Cert.Spec.invN)) 0 := by
  unfold k4_pay3
  simp only [maximumf_apply, subf_apply, mulf_apply, broadcast_apply, inv4, pay2_4_apply, Ideal.ofBits_def, Ideal.ofBits_zero_f32]

/-- The zero row. -/
theorem pay4_4_apply (q : Fin 128) : k4_pay4 (F := Ideal) (ix2 (0 : Fin 1) q) = 0 := by
  unfold k4_pay4
  simp only [shapeCast_self, broadcast_apply]
  exact Ideal.ofBits_zero_f32
theorem pay5_4_apply (q : Fin 128) : k4_pay5 (F := Ideal) (ix2 (0 : Fin 1) q) = 0 := by
  unfold k4_pay5
  simp only [shapeCast_self, broadcast_apply]
  exact Ideal.ofBits_zero_f32

variable (V : (c : Dev nD) → (b : Ref sig .tc) → Buf (Elt Ideal) ((c : Thread nD τ).loc b))

/-! ## The windows' blocks read at an index -/

/-- The features' block at point t is rows 2000 t … 2000 t + 1999 of the array. -/
theorem iblk4_0_apply (c : Dev nD) (t : Fin cfg4.N) (r : Fin 2000) (k : Fin 128) (h : 2000 * t.val + r.val < 50000) :
    (iblk4 V c 0 t : Vec Ideal S2000x128 .f32) (ix2 r k) = V c (Pipeline.arrRef spec4 0) (ix2 (⟨2000 * t.val + r.val, h⟩ : Fin 50000) k) := by
  have hi : win4_0.index t 0 = t.val ∧ win4_0.index t 1 = 0 :=
    (by decide +kernel : ∀ t : Fin grid4.N, win4_0.index t 0 = t.val ∧ win4_0.index t 1 = 0) t
  unfold iblk4
  rw [View.read_apply]
  refine congrArg (V c (Pipeline.arrRef spec4 0)) (funext fun a => Fin.ext ?_)
  match a with
  | ⟨0, _⟩ => show win4_0.index t 0 * 2000 + 1 * r.val = 2000 * t.val + r.val; rw [hi.1]; omega
  | ⟨1, _⟩ => show win4_0.index t 1 * 128 + 1 * k.val = k.val; rw [hi.2]; omega

theorem iblk4_1_apply (c : Dev nD) (t : Fin cfg4.N) (k : Fin 128) (j : Fin 128) :
    (iblk4 V c 1 t : Vec Ideal S128x128 .f32) (ix2 k j) = V c (Pipeline.arrRef spec4 1) (ix2 k j) := by
  have hi : win4_1.index t 0 = 0 ∧ win4_1.index t 1 = 0 :=
    (by decide +kernel : ∀ t : Fin grid4.N, win4_1.index t 0 = 0 ∧ win4_1.index t 1 = 0) t
  unfold iblk4
  rw [View.read_apply]
  refine congrArg (V c (Pipeline.arrRef spec4 1)) (funext fun a => Fin.ext ?_)
  match a with
  | ⟨0, _⟩ => show win4_1.index t 0 * 128 + 1 * k.val = k.val; rw [hi.1]; omega
  | ⟨1, _⟩ => show win4_1.index t 1 * 128 + 1 * j.val = j.val; rw [hi.2]; omega

theorem iblk4_2_apply (c : Dev nD) (t : Fin cfg4.N) (k : Fin 1) (j : Fin 128) :
    (iblk4 V c 2 t : Vec Ideal S1x128 .f32) (ix2 k j) = V c (Pipeline.arrRef spec4 2) (ix2 k j) := by
  have hi : win4_2.index t 0 = 0 ∧ win4_2.index t 1 = 0 :=
    (by decide +kernel : ∀ t : Fin grid4.N, win4_2.index t 0 = 0 ∧ win4_2.index t 1 = 0) t
  unfold iblk4
  rw [View.read_apply]
  refine congrArg (V c (Pipeline.arrRef spec4 2)) (funext fun a => Fin.ext ?_)
  match a with
  | ⟨0, _⟩ => show win4_2.index t 0 * 1 + 1 * k.val = k.val; rw [hi.1]; omega
  | ⟨1, _⟩ => show win4_2.index t 1 * 128 + 1 * j.val = j.val; rw [hi.2]; omega

theorem iblk4_3_apply (c : Dev nD) (t : Fin cfg4.N) (k : Fin 128) (j : Fin 128) :
    (iblk4 V c 3 t : Vec Ideal S128x128 .f32) (ix2 k j) = V c (Pipeline.arrRef spec4 3) (ix2 k j) := by
  have hi : win4_3.index t 0 = 0 ∧ win4_3.index t 1 = 0 :=
    (by decide +kernel : ∀ t : Fin grid4.N, win4_3.index t 0 = 0 ∧ win4_3.index t 1 = 0) t
  unfold iblk4
  rw [View.read_apply]
  refine congrArg (V c (Pipeline.arrRef spec4 3)) (funext fun a => Fin.ext ?_)
  match a with
  | ⟨0, _⟩ => show win4_3.index t 0 * 128 + 1 * k.val = k.val; rw [hi.1]; omega
  | ⟨1, _⟩ => show win4_3.index t 1 * 128 + 1 * j.val = j.val; rw [hi.2]; omega

theorem iblk4_4_apply (c : Dev nD) (t : Fin cfg4.N) (k : Fin 1) (j : Fin 128) :
    (iblk4 V c 4 t : Vec Ideal S1x128 .f32) (ix2 k j) = V c (Pipeline.arrRef spec4 4) (ix2 k j) := by
  have hi : win4_4.index t 0 = 0 ∧ win4_4.index t 1 = 0 :=
    (by decide +kernel : ∀ t : Fin grid4.N, win4_4.index t 0 = 0 ∧ win4_4.index t 1 = 0) t
  unfold iblk4
  rw [View.read_apply]
  refine congrArg (V c (Pipeline.arrRef spec4 4)) (funext fun a => Fin.ext ?_)
  match a with
  | ⟨0, _⟩ => show win4_4.index t 0 * 1 + 1 * k.val = k.val; rw [hi.1]; omega
  | ⟨1, _⟩ => show win4_4.index t 1 * 128 + 1 * j.val = j.val; rw [hi.2]; omega

/-! ## The carried rows are the running column sums -/

/-- The hidden features (Linear, ReLU, Linear, ReLU of the region's operands), row p, column q. -/
abbrev Hs4 (c : Dev nD) : Fin 50000 → Fin 128 → EReal :=
  Cert.Spec.mlp (fun p q => V c (Pipeline.arrRef spec4 0) (ix2 p q)) (fun p q => V c (Pipeline.arrRef spec4 1) (ix2 p q)) (fun q => V c (Pipeline.arrRef spec4 2) (ix2 (0 : Fin 1) q)) (fun p q => V c (Pipeline.arrRef spec4 3) (ix2 p q)) (fun q => V c (Pipeline.arrRef spec4 4) (ix2 (0 : Fin 1) q))

/-- The same by the row's number (zero past the last row: never read). -/
def Hn4 (c : Dev nD) (p : ℕ) (q : Fin 128) : EReal := if h : p < 50000 then Hs4 V c ⟨p, h⟩ q else 0

/-- Entry (r, q) of the body's hidden tile at point t is the hidden features' row 2000 t + r. -/
theorem tile4_apply (c : Dev nD) (t : Fin cfg4.N) (r : Fin 2000) (q : Fin 128) :
    k4_pay6 (F := Ideal) (iblk4 V c 0 t) (iblk4 V c 1 t) (iblk4 V c 2 t) (iblk4 V c 3 t) (iblk4 V c 4 t) (ix2 r q) = Hn4 V c (2000 * t.val + r.val) q := by
  have hN : t.val < 25 := lt_of_lt_of_eq t.isLt (show cfg4.N = 25 from N_4)
  have h : 2000 * t.val + r.val < 50000 := by have := r.isLt; omega
  refine (pay6_4_apply (iblk4 V c 0 t) (iblk4 V c 1 t) (iblk4 V c 2 t) (iblk4 V c 3 t) (iblk4 V c 4 t) r q).trans ?_
  rw [Hn4, dif_pos h]
  unfold Hs4 Cert.Spec.mlp Cert.Spec.lin
  simp only [fun k => iblk4_0_apply V c t r k h, iblk4_1_apply V c t, iblk4_2_apply V c t, iblk4_3_apply V c t, iblk4_4_apply V c t]

theorem sum4_step (c : Dev nD) (t : Fin cfg4.N) (q : Fin 128) :
    sum4 V c (t.val + 1) (ix2 (0 : Fin 1) q) = sum4 V c t.val (ix2 (0 : Fin 1) q) + ∑ r : Fin 2000, Hn4 V c (2000 * t.val + r.val) q := by
  rw [sum4_succ V c t]
  refine (pay7_4_apply (iblk4 V c 0 t) (iblk4 V c 1 t) (iblk4 V c 2 t) (iblk4 V c 3 t) (iblk4 V c 4 t) (sum4 V c t.val) q).trans ?_
  exact congrArg (sum4 V c t.val (ix2 (0 : Fin 1) q) + ·) (Finset.sum_congr rfl fun r _ => tile4_apply V c t r q)

theorem sq4_step (c : Dev nD) (t : Fin cfg4.N) (q : Fin 128) :
    sq4 V c (t.val + 1) (ix2 (0 : Fin 1) q)
      = sq4 V c t.val (ix2 (0 : Fin 1) q) + ∑ r : Fin 2000, Hn4 V c (2000 * t.val + r.val) q * Hn4 V c (2000 * t.val + r.val) q := by
  rw [sq4_succ V c t]
  refine (pay1_4_apply (k4_pay6 (F := Ideal) (iblk4 V c 0 t) (iblk4 V c 1 t) (iblk4 V c 2 t) (iblk4 V c 3 t) (iblk4 V c 4 t)) (sq4 V c t.val) q).trans ?_
  exact congrArg (sq4 V c t.val (ix2 (0 : Fin 1) q) + ·) (Finset.sum_congr rfl fun r _ => by rw [tile4_apply V c t r q])

/-- After n tiles the sums row holds the column sums of the first 2000 n rows. -/
theorem sum4_eq (c : Dev nD) (q : Fin 128) : ∀ n : ℕ, n ≤ 25 →
    sum4 V c n (ix2 (0 : Fin 1) q) = ∑ t ∈ Finset.range n, ∑ r : Fin 2000, Hn4 V c (2000 * t + r.val) q
  | 0, _ => by rw [Finset.range_zero, Finset.sum_empty]; exact pay4_4_apply q
  | n + 1, hn => by
    have ht : n < cfg4.N := by rw [show cfg4.N = 25 from N_4]; omega
    rw [Finset.sum_range_succ, ← sum4_eq c q n (by omega)]
    exact sum4_step V c ⟨n, ht⟩ q

theorem sq4_eq (c : Dev nD) (q : Fin 128) : ∀ n : ℕ, n ≤ 25 →
    sq4 V c n (ix2 (0 : Fin 1) q) = ∑ t ∈ Finset.range n, ∑ r : Fin 2000, Hn4 V c (2000 * t + r.val) q * Hn4 V c (2000 * t + r.val) q
  | 0, _ => by rw [Finset.range_zero, Finset.sum_empty]; exact pay5_4_apply q
  | n + 1, hn => by
    have ht : n < cfg4.N := by rw [show cfg4.N = 25 from N_4]; omega
    rw [Finset.sum_range_succ, ← sq4_eq c q n (by omega)]
    exact sq4_step V c ⟨n, ht⟩ q

/-- After all 25 tiles: the column sums over the 50000 rows. -/
theorem sum4_all (c : Dev nD) (q : Fin 128) : sum4 V c 25 (ix2 (0 : Fin 1) q) = ∑ p : Fin 50000, Hs4 V c p q := by
  rw [sum4_eq V c q 25 (le_refl _), Cert.StatsLib.sum_tiles (fun p => Hn4 V c p q) 2000 25]
  exact Cert.StatsLib.sum_range_eq_univ _ _ fun p => by rw [Hn4, dif_pos p.isLt]

theorem sq4_all (c : Dev nD) (q : Fin 128) : sq4 V c 25 (ix2 (0 : Fin 1) q) = ∑ p : Fin 50000, Hs4 V c p q * Hs4 V c p q := by
  rw [sq4_eq V c q 25 (le_refl _), Cert.StatsLib.sum_tiles (fun p => Hn4 V c p q * Hn4 V c p q) 2000 25]
  exact Cert.StatsLib.sum_range_eq_univ _ _ fun p => by rw [Hn4, dif_pos p.isLt]

/-! ## What the region leaves in its arrays -/

/-- The last grid point. -/
abbrev tlast4 : Fin cfg4.N := ⟨24, by rw [show cfg4.N = 25 from N_4]; decide⟩

/-- The mean row and the variance row the last point stores, as contents of the two result arrays. -/
abbrev mean4 (c : Dev nD) : Buf (Elt Ideal) ((cfg4.win 5).arr.view.loc (c.tc : Thread nD τ)) :=
  k4_pay2 (F := Ideal) (sum4 V c (tlast4.val + 1))
abbrev var4 (c : Dev nD) : Buf (Elt Ideal) ((cfg4.win 6).arr.view.loc (c.tc : Thread nD τ)) :=
  k4_pay3 (F := Ideal) (sum4 V c (tlast4.val + 1)) (sq4 V c (tlast4.val + 1))

/-- The one write-back of window 5, at the last point, writes the whole row: block (0, 0) of a [1,128] array read
    through zero offsets is the array. -/
theorem flushed4_5 (c : Dev nD) (t : Fin cfg4.N) (hf : (cfg4.win 5).flush t = true) :
    (dat4 V c).flushed 5 t = ((cfg4.win 5).blk t).view.read (Elt Ideal) (mean4 V c) := by
  have hN : cfg4.N = 25 := N_4
  have h24 : t.val = 24 := by have := (flush4_5 t).mp hf; have := t.isLt; omega
  obtain rfl : t = tlast4 := Fin.ext h24
  show (cfg4.win 5).cut (grid4.coords tlast4) ((dat4 V c).after 5 tlast4) = _
  rw [after4_5]
  have hz' : (fun a => win4_5.index tlast4 a * (Pipeline.arrRef spec4 5).ty.shape.size a) = fun _ => 0 :=
    funext fun a => by fin_cases a <;> decide +kernel
  exact (Memref.read_access_unit_zero (Elt Ideal) (Pipeline.arrRef spec4 5) hz' (fun a => by rw [congrFun hz' a]; simp) (mean4 V c)).symm

/-- So the array ends holding that row. -/
theorem arr4_5 (c : Dev nD) : (dat4 V c).arrAt 5 cfg4.N = mean4 V c :=
  (dat4 V c).arrAt_eq_of_cover 5 (mean4 V c) (flushed4_5 V c) fun i =>
    ⟨tlast4, (flush4_5 tlast4).mpr rfl, by
      show i ∈ ((View.whole (Pipeline.arrRef spec4 5)).slice (win4_5.rect tlast4)).set
      rw [View.set_slice_whole, Rect.mem_set_unit]
      intro a
      have h0 : (i 0 : Nat) < 1 := (i 0).isLt
      have h1 : (i 1 : Nat) < 128 := (i 1).isLt
      match a with
      | ⟨0, _⟩ =>
        show win4_5.index tlast4 0 * win4_5.size 0 ≤ (i 0 : Nat) ∧ (i 0 : Nat) < win4_5.index tlast4 0 * win4_5.size 0 + win4_5.xsize (grid4.coords tlast4) 0
        rw [show win4_5.index tlast4 0 * win4_5.size 0 = 0 from by decide +kernel, show win4_5.xsize (grid4.coords tlast4) 0 = 1 from by decide +kernel]; omega
      | ⟨1, _⟩ =>
        show win4_5.index tlast4 1 * win4_5.size 1 ≤ (i 1 : Nat) ∧ (i 1 : Nat) < win4_5.index tlast4 1 * win4_5.size 1 + win4_5.xsize (grid4.coords tlast4) 1
        rw [show win4_5.index tlast4 1 * win4_5.size 1 = 0 from by decide +kernel, show win4_5.xsize (grid4.coords tlast4) 1 = 128 from by decide +kernel]; omega⟩

/-- The one write-back of window 6, at the last point, writes the whole row: block (0, 0) of a [1,128] array read
    through zero offsets is the array. -/
theorem flushed4_6 (c : Dev nD) (t : Fin cfg4.N) (hf : (cfg4.win 6).flush t = true) :
    (dat4 V c).flushed 6 t = ((cfg4.win 6).blk t).view.read (Elt Ideal) (var4 V c) := by
  have hN : cfg4.N = 25 := N_4
  have h24 : t.val = 24 := by have := (flush4_6 t).mp hf; have := t.isLt; omega
  obtain rfl : t = tlast4 := Fin.ext h24
  show (cfg4.win 6).cut (grid4.coords tlast4) ((dat4 V c).after 6 tlast4) = _
  rw [after4_6]
  have hz' : (fun a => win4_6.index tlast4 a * (Pipeline.arrRef spec4 6).ty.shape.size a) = fun _ => 0 :=
    funext fun a => by fin_cases a <;> decide +kernel
  exact (Memref.read_access_unit_zero (Elt Ideal) (Pipeline.arrRef spec4 6) hz' (fun a => by rw [congrFun hz' a]; simp) (var4 V c)).symm

/-- So the array ends holding that row. -/
theorem arr4_6 (c : Dev nD) : (dat4 V c).arrAt 6 cfg4.N = var4 V c :=
  (dat4 V c).arrAt_eq_of_cover 6 (var4 V c) (flushed4_6 V c) fun i =>
    ⟨tlast4, (flush4_6 tlast4).mpr rfl, by
      show i ∈ ((View.whole (Pipeline.arrRef spec4 6)).slice (win4_6.rect tlast4)).set
      rw [View.set_slice_whole, Rect.mem_set_unit]
      intro a
      have h0 : (i 0 : Nat) < 1 := (i 0).isLt
      have h1 : (i 1 : Nat) < 128 := (i 1).isLt
      match a with
      | ⟨0, _⟩ =>
        show win4_6.index tlast4 0 * win4_6.size 0 ≤ (i 0 : Nat) ∧ (i 0 : Nat) < win4_6.index tlast4 0 * win4_6.size 0 + win4_6.xsize (grid4.coords tlast4) 0
        rw [show win4_6.index tlast4 0 * win4_6.size 0 = 0 from by decide +kernel, show win4_6.xsize (grid4.coords tlast4) 0 = 1 from by decide +kernel]; omega
      | ⟨1, _⟩ =>
        show win4_6.index tlast4 1 * win4_6.size 1 ≤ (i 1 : Nat) ∧ (i 1 : Nat) < win4_6.index tlast4 1 * win4_6.size 1 + win4_6.xsize (grid4.coords tlast4) 1
        rw [show win4_6.index tlast4 1 * win4_6.size 1 = 0 from by decide +kernel, show win4_6.xsize (grid4.coords tlast4) 1 = 128 from by decide +kernel]; omega⟩

/-- The mean's array ends at the column means of the hidden features. -/
theorem final4_5 (c : Dev nD) (q : Fin 128) :
    (dat4 (F := Ideal) V c).arrAt 5 cfg4.N (ix2 (0 : Fin 1) q) = Cert.Spec.meanK (Cert.Spec.mlp (fun p q => V c (Pipeline.arrRef spec4 0) (ix2 p q)) (fun p q => V c (Pipeline.arrRef spec4 1) (ix2 p q)) (fun q => V c (Pipeline.arrRef spec4 2) (ix2 (0 : Fin 1) q)) (fun p q => V c (Pipeline.arrRef spec4 3) (ix2 p q)) (fun q => V c (Pipeline.arrRef spec4 4) (ix2 (0 : Fin 1) q))) q := by
  rw [arr4_5 V c]
  refine (pay2_4_apply (sum4 V c 25) q).trans ?_
  rw [sum4_all V c q]
  rfl

/-- The variance's array ends at the clamped column variances of the hidden features. -/
theorem final4_6 (c : Dev nD) (q : Fin 128) :
    (dat4 (F := Ideal) V c).arrAt 6 cfg4.N (ix2 (0 : Fin 1) q) = Cert.Spec.varK (Cert.Spec.mlp (fun p q => V c (Pipeline.arrRef spec4 0) (ix2 p q)) (fun p q => V c (Pipeline.arrRef spec4 1) (ix2 p q)) (fun q => V c (Pipeline.arrRef spec4 2) (ix2 (0 : Fin 1) q)) (fun p q => V c (Pipeline.arrRef spec4 3) (ix2 p q)) (fun q => V c (Pipeline.arrRef spec4 4) (ix2 (0 : Fin 1) q))) q := by
  rw [arr4_6 V c]
  refine (pay3_4_apply (sum4 V c 25) (sq4 V c 25) q).trans ?_
  rw [sum4_all V c q, sq4_all V c q]
  rfl

/-- The five input arrays end as entered: the pipeline never writes an input window's array. -/
theorem kept4 (c : Dev nD) (w : Fin cfg4.W) (hw : w.val < 5) :
    (dat4 (F := Ideal) V c).arrAt w cfg4.N = V c (Pipeline.arrRef spec4 w) := by
  have hin : (cfg4.win w).isOut = false := by
    obtain ⟨n, hn⟩ := w
    dsimp only at hw
    interval_cases n <;> rfl
  exact ((dat4 V c).arrAt_in w hin _).trans (A_eq4 V c w)

end Cert.KernelIdeal.Hand

end
-- ==== Proof.KI.Val5.lean ====
/-
  The value of region 5 at the ideal instance: after the region its output array holds, at row p and column q,
  the MLP of row p of the aggregated features, normalized in column q by the mean and variance the region is handed,
  scaled and shifted; its nine input arrays are as it found them. Point t of the grid writes back rows 2000 t to
  2000 t + 1999, and the 25 blocks cover the 50000 rows.
-/
import proofs.«132655_j36919538876779_2_alg».proof.Proof.KI.R5
import proofs.«132655_j36919538876779_2_alg».proof.Proof.KI.MlpPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

-- the TensorCore's buffer contents when the region is entered, at the ideal instance
variable (V : (c : Dev nD) → (b : Ref sig .tc) → Buf (Elt Ideal) ((c : Thread nD τ).loc b))

/-! # The value of region 5: what it leaves in its output array, as a function of its nine input arrays -/

/-! ## The printed index maps, decided over the 25 grid points -/

/-- The aggregated features' block moves with the output's, along the rows only. -/
theorem idx5_0 : ∀ t : Fin cfg5.N, win5_0.index t (0 : Fin 2) = win5_9.index t (0 : Fin 2) ∧ win5_0.index t (1 : Fin 2) = 0 :=
  (by decide +kernel : ∀ t : Fin grid5.N, _)
/-- The output's block index is at most 24 along the rows and 0 along the columns. -/
theorem idx5_9 : ∀ t : Fin cfg5.N, win5_9.index t (0 : Fin 2) ≤ 24 ∧ win5_9.index t (1 : Fin 2) = 0 :=
  (by decide +kernel : ∀ t : Fin grid5.N, _)
/-- Window 1 is one block, at index 0. -/
theorem idx5_1 : ∀ t : Fin cfg5.N, win5_1.index t (0 : Fin 2) = 0 ∧ win5_1.index t (1 : Fin 2) = 0 :=
  (by decide +kernel : ∀ t : Fin grid5.N, _)
/-- Window 2 is one block, at index 0. -/
theorem idx5_2 : ∀ t : Fin cfg5.N, win5_2.index t (0 : Fin 2) = 0 ∧ win5_2.index t (1 : Fin 2) = 0 :=
  (by decide +kernel : ∀ t : Fin grid5.N, _)
/-- Window 3 is one block, at index 0. -/
theorem idx5_3 : ∀ t : Fin cfg5.N, win5_3.index t (0 : Fin 2) = 0 ∧ win5_3.index t (1 : Fin 2) = 0 :=
  (by decide +kernel : ∀ t : Fin grid5.N, _)
/-- Window 4 is one block, at index 0. -/
theorem idx5_4 : ∀ t : Fin cfg5.N, win5_4.index t (0 : Fin 2) = 0 ∧ win5_4.index t (1 : Fin 2) = 0 :=
  (by decide +kernel : ∀ t : Fin grid5.N, _)
/-- Window 5 is one block, at index 0. -/
theorem idx5_5 : ∀ t : Fin cfg5.N, win5_5.index t (0 : Fin 2) = 0 ∧ win5_5.index t (1 : Fin 2) = 0 :=
  (by decide +kernel : ∀ t : Fin grid5.N, _)
/-- Window 6 is one block, at index 0. -/
theorem idx5_6 : ∀ t : Fin cfg5.N, win5_6.index t (0 : Fin 2) = 0 ∧ win5_6.index t (1 : Fin 2) = 0 :=
  (by decide +kernel : ∀ t : Fin grid5.N, _)
/-- Window 7 is one block, at index 0. -/
theorem idx5_7 : ∀ t : Fin cfg5.N, win5_7.index t (0 : Fin 2) = 0 ∧ win5_7.index t (1 : Fin 2) = 0 :=
  (by decide +kernel : ∀ t : Fin grid5.N, _)
/-- Window 8 is one block, at index 0. -/
theorem idx5_8 : ∀ t : Fin cfg5.N, win5_8.index t (0 : Fin 2) = 0 ∧ win5_8.index t (1 : Fin 2) = 0 :=
  (by decide +kernel : ∀ t : Fin grid5.N, _)
/-- Every block of 2000 rows is some point's. -/
theorem idx_onto5 : ∀ q0 : Fin 25, ∃ t : Fin cfg5.N, win5_9.index t (0 : Fin 2) = q0.val :=
  (by decide +kernel : ∀ q0 : Fin 25, ∃ t : Fin grid5.N, win5_9.index t (0 : Fin 2) = q0.val)

/-! ## The input blocks at a point, read off the arrays -/

/-- Window 1 (a 128 by 128 matrix) is one block: its block's element (k, q) is the array's. -/
theorem blk5_1 (c : Dev nD) (t : Fin cfg5.N) (k q' : Fin 128) :
    iblk5 V c 1 t (ix2 k q') = V c (Pipeline.arrRef spec5 1) (ix2 k q') := by
  obtain ⟨e0, e1⟩ := idx5_1 t
  show V c (Pipeline.arrRef spec5 1) (((cfg5.win 1).blk t).view.emb (ix2 k q')) = _
  have h : ((cfg5.win 1).blk t).view.emb (ix2 k q') = ix2 k q' := by
    funext a; apply Fin.ext
    match a with
    | ⟨0, _⟩ => show win5_1.index t (0 : Fin 2) * 128 + 1 * k.val = k.val; omega
    | ⟨1, _⟩ => show win5_1.index t (1 : Fin 2) * 128 + 1 * q'.val = q'.val; omega
  rw [h]

/-- Window 3 (a 128 by 128 matrix) is one block: its block's element (k, q) is the array's. -/
theorem blk5_3 (c : Dev nD) (t : Fin cfg5.N) (k q' : Fin 128) :
    iblk5 V c 3 t (ix2 k q') = V c (Pipeline.arrRef spec5 3) (ix2 k q') := by
  obtain ⟨e0, e1⟩ := idx5_3 t
  show V c (Pipeline.arrRef spec5 3) (((cfg5.win 3).blk t).view.emb (ix2 k q')) = _
  have h : ((cfg5.win 3).blk t).view.emb (ix2 k q') = ix2 k q' := by
    funext a; apply Fin.ext
    match a with
    | ⟨0, _⟩ => show win5_3.index t (0 : Fin 2) * 128 + 1 * k.val = k.val; omega
    | ⟨1, _⟩ => show win5_3.index t (1 : Fin 2) * 128 + 1 * q'.val = q'.val; omega
  rw [h]

/-- Window 2 (one row of 128) is one block: its block's element q is the array's. -/
theorem blk5_2 (c : Dev nD) (t : Fin cfg5.N) (q' : Fin 128) :
    iblk5 V c 2 t (ix2 (0 : Fin 1) q') = V c (Pipeline.arrRef spec5 2) (ix2 (0 : Fin 1) q') := by
  obtain ⟨e0, e1⟩ := idx5_2 t
  show V c (Pipeline.arrRef spec5 2) (((cfg5.win 2).blk t).view.emb (ix2 (0 : Fin 1) q')) = _
  have h : ((cfg5.win 2).blk t).view.emb (ix2 (0 : Fin 1) q') = ix2 (0 : Fin 1) q' := by
    funext a; apply Fin.ext
    match a with
    | ⟨0, _⟩ => show win5_2.index t (0 : Fin 2) * 1 + 1 * 0 = 0; omega
    | ⟨1, _⟩ => show win5_2.index t (1 : Fin 2) * 128 + 1 * q'.val = q'.val; omega
  rw [h]

/-- Window 4 (one row of 128) is one block: its block's element q is the array's. -/
theorem blk5_4 (c : Dev nD) (t : Fin cfg5.N) (q' : Fin 128) :
    iblk5 V c 4 t (ix2 (0 : Fin 1) q') = V c (Pipeline.arrRef spec5 4) (ix2 (0 : Fin 1) q') := by
  obtain ⟨e0, e1⟩ := idx5_4 t
  show V c (Pipeline.arrRef spec5 4) (((cfg5.win 4).blk t).view.emb (ix2 (0 : Fin 1) q')) = _
  have h : ((cfg5.win 4).blk t).view.emb (ix2 (0 : Fin 1) q') = ix2 (0 : Fin 1) q' := by
    funext a; apply Fin.ext
    match a with
    | ⟨0, _⟩ => show win5_4.index t (0 : Fin 2) * 1 + 1 * 0 = 0; omega
    | ⟨1, _⟩ => show win5_4.index t (1 : Fin 2) * 128 + 1 * q'.val = q'.val; omega
  rw [h]

/-- Window 5 (one row of 128) is one block: its block's element q is the array's. -/
theorem blk5_5 (c : Dev nD) (t : Fin cfg5.N) (q' : Fin 128) :
    iblk5 V c 5 t (ix2 (0 : Fin 1) q') = V c (Pipeline.arrRef spec5 5) (ix2 (0 : Fin 1) q') := by
  obtain ⟨e0, e1⟩ := idx5_5 t
  show V c (Pipeline.arrRef spec5 5) (((cfg5.win 5).blk t).view.emb (ix2 (0 : Fin 1) q')) = _
  have h : ((cfg5.win 5).blk t).view.emb (ix2 (0 : Fin 1) q') = ix2 (0 : Fin 1) q' := by
    funext a; apply Fin.ext
    match a with
    | ⟨0, _⟩ => show win5_5.index t (0 : Fin 2) * 1 + 1 * 0 = 0; omega
    | ⟨1, _⟩ => show win5_5.index t (1 : Fin 2) * 128 + 1 * q'.val = q'.val; omega
  rw [h]

/-- Window 6 (one row of 128) is one block: its block's element q is the array's. -/
theorem blk5_6 (c : Dev nD) (t : Fin cfg5.N) (q' : Fin 128) :
    iblk5 V c 6 t (ix2 (0 : Fin 1) q') = V c (Pipeline.arrRef spec5 6) (ix2 (0 : Fin 1) q') := by
  obtain ⟨e0, e1⟩ := idx5_6 t
  show V c (Pipeline.arrRef spec5 6) (((cfg5.win 6).blk t).view.emb (ix2 (0 : Fin 1) q')) = _
  have h : ((cfg5.win 6).blk t).view.emb (ix2 (0 : Fin 1) q') = ix2 (0 : Fin 1) q' := by
    funext a; apply Fin.ext
    match a with
    | ⟨0, _⟩ => show win5_6.index t (0 : Fin 2) * 1 + 1 * 0 = 0; omega
    | ⟨1, _⟩ => show win5_6.index t (1 : Fin 2) * 128 + 1 * q'.val = q'.val; omega
  rw [h]

/-- Window 7 (one row of 128) is one block: its block's element q is the array's. -/
theorem blk5_7 (c : Dev nD) (t : Fin cfg5.N) (q' : Fin 128) :
    iblk5 V c 7 t (ix2 (0 : Fin 1) q') = V c (Pipeline.arrRef spec5 7) (ix2 (0 : Fin 1) q') := by
  obtain ⟨e0, e1⟩ := idx5_7 t
  show V c (Pipeline.arrRef spec5 7) (((cfg5.win 7).blk t).view.emb (ix2 (0 : Fin 1) q')) = _
  have h : ((cfg5.win 7).blk t).view.emb (ix2 (0 : Fin 1) q') = ix2 (0 : Fin 1) q' := by
    funext a; apply Fin.ext
    match a with
    | ⟨0, _⟩ => show win5_7.index t (0 : Fin 2) * 1 + 1 * 0 = 0; omega
    | ⟨1, _⟩ => show win5_7.index t (1 : Fin 2) * 128 + 1 * q'.val = q'.val; omega
  rw [h]

/-- Window 8 (one row of 128) is one block: its block's element q is the array's. -/
theorem blk5_8 (c : Dev nD) (t : Fin cfg5.N) (q' : Fin 128) :
    iblk5 V c 8 t (ix2 (0 : Fin 1) q') = V c (Pipeline.arrRef spec5 8) (ix2 (0 : Fin 1) q') := by
  obtain ⟨e0, e1⟩ := idx5_8 t
  show V c (Pipeline.arrRef spec5 8) (((cfg5.win 8).blk t).view.emb (ix2 (0 : Fin 1) q')) = _
  have h : ((cfg5.win 8).blk t).view.emb (ix2 (0 : Fin 1) q') = ix2 (0 : Fin 1) q' := by
    funext a; apply Fin.ext
    match a with
    | ⟨0, _⟩ => show win5_8.index t (0 : Fin 2) * 1 + 1 * 0 = 0; omega
    | ⟨1, _⟩ => show win5_8.index t (1 : Fin 2) * 128 + 1 * q'.val = q'.val; omega
  rw [h]

/-- Row r of the aggregated features' block at point `t` is row (block index × 2000 + r) of the array. -/
theorem blk5_0 (c : Dev nD) (t : Fin cfg5.N) (r : Fin 2000) (hP : win5_9.index t (0 : Fin 2) * 2000 + r.val < 50000) (k : Fin 128) :
    iblk5 V c 0 t (ix2 r k) = V c (Pipeline.arrRef spec5 0) (ix2 (⟨win5_9.index t (0 : Fin 2) * 2000 + r.val, hP⟩ : Fin 50000) k) := by
  obtain ⟨e0, e1⟩ := idx5_0 t
  show V c (Pipeline.arrRef spec5 0) (((cfg5.win 0).blk t).view.emb (ix2 r k)) = _
  have h : ((cfg5.win 0).blk t).view.emb (ix2 r k) = ix2 (⟨win5_9.index t (0 : Fin 2) * 2000 + r.val, hP⟩ : Fin 50000) k := by
    funext a; apply Fin.ext
    match a with
    | ⟨0, _⟩ => show win5_0.index t (0 : Fin 2) * 2000 + 1 * r.val = win5_9.index t (0 : Fin 2) * 2000 + r.val; omega
    | ⟨1, _⟩ => show win5_0.index t (1 : Fin 2) * 128 + 1 * k.val = k.val; omega
  rw [h]

/-- Element (r, q) of the output's block at point `t` sits at row (block index × 2000 + r), column q of the array. -/
theorem emb5_9 (t : Fin cfg5.N) (r : Fin 2000) (hP : win5_9.index t (0 : Fin 2) * 2000 + r.val < 50000) (q : Fin 128) :
    ((cfg5.win 9).blk t).view.emb (ix2 r q) = ix2 (⟨win5_9.index t (0 : Fin 2) * 2000 + r.val, hP⟩ : Fin 50000) q := by
  obtain ⟨e0, e1⟩ := idx5_9 t
  funext a; apply Fin.ext
  match a with
  | ⟨0, _⟩ => show win5_9.index t (0 : Fin 2) * 2000 + 1 * r.val = win5_9.index t (0 : Fin 2) * 2000 + r.val; omega
  | ⟨1, _⟩ => show win5_9.index t (1 : Fin 2) * 128 + 1 * q.val = q.val; omega

/-! ## What a point writes back, and the array after the region -/

set_option maxHeartbeats 1000000 in
/-- WHAT POINT `t` WRITES BACK is block `t` of the output function of the arrays as the region finds them: row r of the
    block is row (block index × 2000 + r) of the array, and the MLP of a row reads that row of the features only; the
    other eight inputs are one block each, so a block's element is the array's at the same place. -/
theorem flushed5_eq (c : Dev nD) (t : Fin cfg5.N) :
    (dat5 (F := Ideal) V c).flushed 9 t = ((cfg5.win 9).blk t).view.read (Elt Ideal)
      (mlpBnArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))) := by
  show (cfg5.win 9).cut (grid5.coords t) ((dat5 V c).after 9 t) = _
  rw [after5_9]
  unfold out5_9
  rw [View.canon_unit_zero mlpbn_hz]
  simp only [View.ld_unit_zero (S := S2000x128) mlpbn_hz, View.ld_unit_zero (S := S128x128) mlpbn_hz, View.ld_unit_zero (S := S1x128) mlpbn_hz]
  funext j
  obtain ⟨r, q, rfl⟩ : ∃ (r : Fin 2000) (q : Fin 128), j = ix2 r q := ⟨j 0, j 1, eq_ix2 j⟩
  refine (mlpbn_pay5_apply (iblk5 V c 0 t) (iblk5 V c 1 t) (iblk5 V c 2 t) (iblk5 V c 3 t) (iblk5 V c 4 t) (iblk5 V c 5 t) (iblk5 V c 6 t) (iblk5 V c 7 t) (iblk5 V c 8 t) r q).trans ?_
  have hr : r.val < 2000 := r.isLt
  have hP : win5_9.index t (0 : Fin 2) * 2000 + r.val < 50000 := by have := (idx5_9 t).1; omega
  show _ = mlpBnArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (((cfg5.win 9).blk t).view.emb (ix2 r q))
  rw [emb5_9 t r hP q, mlpBnArr_ix2]
  unfold Cert.Spec.bn
  rw [mlpbn_mlp_row (fun r k => iblk5 V c 0 t (ix2 r k)) (fun p k => V c (Pipeline.arrRef spec5 0) (ix2 p k)) _ _ _ _ r (⟨win5_9.index t (0 : Fin 2) * 2000 + r.val, hP⟩ : Fin 50000) (blk5_0 V c t r hP) q]
  simp only [blk5_1 V c t, blk5_3 V c t, blk5_2 V c t, blk5_4 V c t, blk5_5 V c t, blk5_6 V c t, blk5_7 V c t, blk5_8 V c t]

/-- An index of the array is in point `t`'s block iff each coordinate is in the block's range on its axis. -/
theorem mem_blk5 (t : Fin cfg5.N) (i : S50000x128.Idx) :
    i ∈ ((cfg5.win 9).blk t).view.set ↔ ∀ a : Fin 2, win5_9.index t a * S2000x128.size a ≤ (i a).val ∧ (i a).val < win5_9.index t a * S2000x128.size a + S2000x128.size a := by
  show i ∈ ((View.whole main_v129).slice (win5_9.rect t)).set ↔ _
  rw [View.set_slice_whole, Rect.mem_set_unit]
  exact Iff.rfl

/-- Every row is in some point's block: row p is in the block of index p / 2000. -/
theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  obtain ⟨t, ht⟩ := idx_onto5 ⟨(i 0).val / 2000, by omega⟩
  have ht' : win5_9.index t (0 : Fin 2) = (i 0).val / 2000 := ht
  have e91 : win5_9.index t (1 : Fin 2) = 0 := (idx5_9 t).2
  refine ⟨t, flush5_9 t, ?_⟩
  rw [mem_blk5]
  intro a
  match a with
  | ⟨0, _⟩ => show win5_9.index t (0 : Fin 2) * 2000 ≤ (i 0).val ∧ (i 0).val < win5_9.index t (0 : Fin 2) * 2000 + 2000; omega
  | ⟨1, _⟩ => show win5_9.index t (1 : Fin 2) * 128 ≤ (i 1).val ∧ (i 1).val < win5_9.index t (1 : Fin 2) * 128 + 128; omega

/-- THE OUTPUT ARRAY after the region: the output function of the nine input arrays as the region finds them. -/
theorem final5_arr (c : Dev nD) : (dat5 (F := Ideal) V c).arrAt 9 cfg5.N = mlpBnArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 V c).arrAt_eq_of_cover 9 (mlpBnArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))) (fun t _ => flushed5_eq V c t) cover5

/-- Row p, column q of the output array after the region: the MLP of row p of the aggregated features, normalized in
    column q by the mean and variance the region is given, scaled and shifted. -/
theorem final5_9 (c : Dev nD) (p : Fin 50000) (q : Fin 128) :
    (dat5 (F := Ideal) V c).arrAt 9 cfg5.N (ix2 p q)
      = Cert.Spec.bn (Cert.Spec.mlp (fun p k => (V c (Pipeline.arrRef spec5 0)) (ix2 p k)) (fun k q => (V c (Pipeline.arrRef spec5 1)) (ix2 k q)) (fun q => (V c (Pipeline.arrRef spec5 2)) (ix2 (0 : Fin 1) q))
            (fun k q => (V c (Pipeline.arrRef spec5 3)) (ix2 k q)) (fun q => (V c (Pipeline.arrRef spec5 4)) (ix2 (0 : Fin 1) q)))
          (fun q => (V c (Pipeline.arrRef spec5 5)) (ix2 (0 : Fin 1) q)) (fun q => (V c (Pipeline.arrRef spec5 6)) (ix2 (0 : Fin 1) q))
          (fun q => (V c (Pipeline.arrRef spec5 7)) (ix2 (0 : Fin 1) q)) (fun q => (V c (Pipeline.arrRef spec5 8)) (ix2 (0 : Fin 1) q)) p q := by
  rw [final5_arr V c]
  rfl

/-- The nine input arrays are as the region found them: an input window is never written back. -/
theorem kept5 (c : Dev nD) (w : Fin cfg5.W) (hw : w.val < 9) : (dat5 (F := Ideal) V c).arrAt w cfg5.N = V c (Pipeline.arrRef spec5 w) := by
  have hin : (cfg5.win w).isOut = false := by
    revert hw
    match w with
    | ⟨0, _⟩ => intro _; rfl
    | ⟨1, _⟩ => intro _; rfl
    | ⟨2, _⟩ => intro _; rfl
    | ⟨3, _⟩ => intro _; rfl
    | ⟨4, _⟩ => intro _; rfl
    | ⟨5, _⟩ => intro _; rfl
    | ⟨6, _⟩ => intro _; rfl
    | ⟨7, _⟩ => intro _; rfl
    | ⟨8, _⟩ => intro _; rfl
    | ⟨9, _⟩ => intro h; exact absurd h (Nat.lt_irrefl 9)
  exact ((dat5 V c).arrAt_in w hin _).trans (A_eq5 V c w)

end Cert.KernelIdeal.Hand

end
-- ==== Proof.KI.Chain2.lean ====
import proofs.«132655_j36919538876779_2_alg».proof.Proof.KI.Carry
import proofs.«132655_j36919538876779_2_alg».proof.Proof.KI.Val4
import proofs.«132655_j36919538876779_2_alg».proof.Proof.KI.Val5
import proofs.«132655_j36919538876779_2_alg».proof.Proof.Spec
import Idealize.ShloMosaic.Lib.ValueIdx

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# Layer 2 of the idealized kernel program, read at an entry

The layer's first kernel leaves the column means and variances of the activations H = Linear-ReLU-Linear-ReLU of the
neighbour sum; its second kernel recomputes H tile by tile and normalizes it with those statistics. Both read the same
neighbour sum and the same parameter slices, so the layer's output at (p, q) is the normalization of H by H's own
statistics, in the accumulated-sums form.
-/

/-- The activations of layer 2 before normalization. -/
def HK2 (m : (ℓ : Loc nD τ sig) → Buf (Elt Ideal) ℓ) (ρ : Dev nD → PrngReg) (c : Dev nD) : Fin 50000 → Fin 128 → EReal :=
  Cert.Spec.mlp (fun p j => aggOf (F := Ideal) (W8 m ρ c (Proc.devRef .tc main_v87)) (srcOf (m ((c : Thread nD τ).loc main_arg1))) (dstOf (m ((c : Thread nD τ).loc main_arg1))) (ix2 p j))
    (fun j k => mat2 (F := Ideal) (m ((c : Thread nD τ).loc main_arg3)) (ix2 j k)) (fun k => row2 (F := Ideal) (m ((c : Thread nD τ).loc main_arg4)) (ix2 (0 : Fin 1) k))
    (fun j k => mat2 (F := Ideal) (m ((c : Thread nD τ).loc main_arg5)) (ix2 j k)) (fun k => row2 (F := Ideal) (m ((c : Thread nD τ).loc main_arg6)) (ix2 (0 : Fin 1) k))

/-- What the first kernel of layer 2 finds: the neighbour sum and the layer's four parameter slices. -/
theorem entry4 (m : (ℓ : Loc nD τ sig) → Buf (Elt Ideal) ℓ) (ρ : Dev nD → PrngReg) (c : Dev nD) :
    V9 m ρ c (Pipeline.arrRef spec4 0) = aggOf (F := Ideal) (W8 m ρ c (Proc.devRef .tc main_v87)) (srcOf (m ((c : Thread nD τ).loc main_arg1))) (dstOf (m ((c : Thread nD τ).loc main_arg1)))
    ∧ V9 m ρ c (Pipeline.arrRef spec4 1) = mat2 (F := Ideal) (m ((c : Thread nD τ).loc main_arg3))
    ∧ V9 m ρ c (Pipeline.arrRef spec4 2) = row2 (F := Ideal) (m ((c : Thread nD τ).loc main_arg4))
    ∧ V9 m ρ c (Pipeline.arrRef spec4 3) = mat2 (F := Ideal) (m ((c : Thread nD τ).loc main_arg5))
    ∧ V9 m ρ c (Pipeline.arrRef spec4 4) = row2 (F := Ideal) (m ((c : Thread nD τ).loc main_arg6)) := by
  have S := stretch4 (W8 m ρ c) (W8 m ρ c (Proc.devRef .tc main_v87)) (srcOf (m ((c : Thread nD τ).loc main_arg1))) (dstOf (m ((c : Thread nD τ).loc main_arg1))) (m ((c : Thread nD τ).loc main_arg3)) (m ((c : Thread nD τ).loc main_arg4)) (m ((c : Thread nD τ).loc main_arg5)) (m ((c : Thread nD τ).loc main_arg6)) rfl (W8_v1 m ρ c) (W8_v3 m ρ c) (W8_arg3 m ρ c) (W8_arg4 m ρ c) (W8_arg5 m ρ c) (W8_arg6 m ρ c)
  exact ⟨S.1, S.2.1, S.2.2.1, S.2.2.2.1, S.2.2.2.2⟩

/-- The first kernel's two results: the column means and variances of the activations. -/
theorem stats2 (m : (ℓ : Loc nD τ sig) → Buf (Elt Ideal) ℓ) (ρ : Dev nD → PrngReg) (c : Dev nD) (q : Fin 128) :
    (dat4 (F := Ideal) (V9 m ρ) c).arrAt 5 cfg4.N (ix2 (0 : Fin 1) q) = Cert.Spec.meanK (HK2 m ρ c) q
    ∧ (dat4 (F := Ideal) (V9 m ρ) c).arrAt 6 cfg4.N (ix2 (0 : Fin 1) q) = Cert.Spec.varK (HK2 m ρ c) q := by
  obtain ⟨e0, e1, e2, e3, e4⟩ := entry4 m ρ c
  have h5 := final4_5 (V9 m ρ) c q
  have h6 := final4_6 (V9 m ρ) c q
  simp only [e0, e1, e2, e3, e4] at h5 h6
  exact ⟨h5, h6⟩

/-- What the second kernel of layer 2 finds. -/
theorem entry5 (m : (ℓ : Loc nD τ sig) → Buf (Elt Ideal) ℓ) (ρ : Dev nD → PrngReg) (c : Dev nD) :
    V11 m ρ c (Pipeline.arrRef spec5 0) = aggOf (F := Ideal) (W8 m ρ c (Proc.devRef .tc main_v87)) (srcOf (m ((c : Thread nD τ).loc main_arg1))) (dstOf (m ((c : Thread nD τ).loc main_arg1)))
    ∧ V11 m ρ c (Pipeline.arrRef spec5 1) = mat2 (F := Ideal) (m ((c : Thread nD τ).loc main_arg3))
    ∧ V11 m ρ c (Pipeline.arrRef spec5 2) = row2 (F := Ideal) (m ((c : Thread nD τ).loc main_arg4))
    ∧ V11 m ρ c (Pipeline.arrRef spec5 3) = mat2 (F := Ideal) (m ((c : Thread nD τ).loc main_arg5))
    ∧ V11 m ρ c (Pipeline.arrRef spec5 4) = row2 (F := Ideal) (m ((c : Thread nD τ).loc main_arg6))
    ∧ V11 m ρ c (Pipeline.arrRef spec5 5) = (dat4 (F := Ideal) (V9 m ρ) c).arrAt 5 cfg4.N
    ∧ V11 m ρ c (Pipeline.arrRef spec5 6) = (dat4 (F := Ideal) (V9 m ρ) c).arrAt 6 cfg4.N
    ∧ V11 m ρ c (Pipeline.arrRef spec5 7) = row2 (F := Ideal) (m ((c : Thread nD τ).loc main_arg7))
    ∧ V11 m ρ c (Pipeline.arrRef spec5 8) = row2 (F := Ideal) (m ((c : Thread nD τ).loc main_arg8)) := by
  have T := stretch5 (W10 m ρ c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (W10_arg3 m ρ c) (W10_arg4 m ρ c) (W10_arg5 m ρ c) (W10_arg6 m ρ c) (W10_arg7 m ρ c) (W10_arg8 m ρ c)
  refine ⟨?_, T.1, T.2.1, T.2.2.1, T.2.2.2.1, ?_, ?_, T.2.2.2.2.1, T.2.2.2.2.2⟩
  · exact (W11_of m ρ c main_v101 (by decide)).trans ((W10_arr m ρ c 0).trans
      ((kept4 (V9 m ρ) c 0 (by decide)).trans (entry4 m ρ c).1))
  · exact (W11_of m ρ c main_v112_0 (by decide)).trans (W10_arr m ρ c 5)
  · exact (W11_of m ρ c main_v112_1 (by decide)).trans (W10_arr m ρ c 6)

/-- Layer 2's output at (p, q). -/
theorem chain2 (m : (ℓ : Loc nD τ sig) → Buf (Elt Ideal) ℓ) (ρ : Dev nD → PrngReg) (c : Dev nD) (p : Fin 50000) (q : Fin 128) :
    W12 m ρ c (Proc.devRef .tc main_v129) (ix2 p q)
      = Cert.Spec.bn (HK2 m ρ c) (Cert.Spec.meanK (HK2 m ρ c)) (Cert.Spec.varK (HK2 m ρ c))
          (fun k => row2 (F := Ideal) (m ((c : Thread nD τ).loc main_arg7)) (ix2 (0 : Fin 1) k)) (fun k => row2 (F := Ideal) (m ((c : Thread nD τ).loc main_arg8)) (ix2 (0 : Fin 1) k)) p q := by
  obtain ⟨f0, f1, f2, f3, f4, f5, f6, f7, f8⟩ := entry5 m ρ c
  refine (congrFun (W12_arr m ρ c 9) (ix2 p q)).trans ?_
  rw [final5_9 (V11 m ρ) c p q]
  simp only [f0, f1, f2, f3, f4, f5, f6, f7, f8]
  unfold Cert.Spec.bn
  dsimp only
  rw [(stats2 m ρ c q).1, (stats2 m ρ c q).2]
  rfl

end Cert.KernelIdeal.Hand

end
-- ==== Proof.KI.Val6.lean ====
/-
  What region 6 leaves in its arrays, over the extended reals.

  The region's operands are the aggregated node features (50000 rows of 128) and the two Linear layers' weights and
  biases. Its body forms, tile by tile (2000 rows each), the hidden features H = ReLU(ReLU(x W1 + b1) W2 + b2) and adds
  each tile's column sums, and the column sums of squares, into two carried rows. After the 25 tiles the rows hold the
  sums over all 50000 rows (row 2000 t + r is row r of tile t), and the last point stores
      mean q = (sum over p of H p q) * (1/50000),   var q = max ((sum over p of H p q ^ 2) * (1/50000) - mean q ^ 2) 0
  to the two result arrays, each of which is one block written back once. The input arrays are never written.
-/
import proofs.«132655_j36919538876779_2_alg».proof.Proof.Gen.KernelIdeal.Skeleton
import proofs.«132655_j36919538876779_2_alg».proof.Proof.Spec
import proofs.«132655_j36919538876779_2_alg».proof.Proof.KI.R6
import proofs.«132655_j36919538876779_2_alg».proof.Proof.KI.StatsSum
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic read at an index, over the extended reals -/

/-- A column sum over the tile's 2000 rows. -/
theorem colsum6_apply (src : FVec Ideal S2000x128 .f32) (q : Fin 128) :
    multiReduction .add [0] S128 src 0x00000000#32 reduces_S2000x128_S128 (.inl rfl) rfl (ix1 q) = ∑ r : Fin 2000, src (ix2 r q) := by
  refine (Ideal.multiReduction_add_single src 0x00000000#32 reduces_S2000x128_S128 (.inl rfl) rfl (ix1 q)).trans ?_
  refine Finset.sum_congr rfl fun k _ => congrArg src (funext fun a => Fin.ext ?_)
  rw [Shape.Reduces.lift_val]; unfold Shape.Reduces.liftVal
  match a with
  | ⟨0, _⟩ => rfl
  | ⟨1, _⟩ => rfl

theorem mm6_lhs_0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm6_rhs_1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile times a weight matrix: row r of the tile against column q of the weights. -/
theorem mm6_apply (lhs : FVec Ideal S2000x128 .bf16) (rhs : FVec Ideal S128x128 .bf16) (r : Fin 2000) (q : Fin 128) :
    matmul dot_S2000x128_S128x128_S2000x128_1_0_0_1_n_n none lhs rhs (constant (F := Ideal) S2000x128 .f32 0x00000000#32) (ix2 r q)
      = ∑ k : Fin 128, lhs (ix2 r k) * rhs (ix2 k q) := by
  refine (Ideal.matmul_constant_zero_apply dot_S2000x128_S128x128_S2000x128_1_0_0_1_n_n none lhs rhs (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact mm6_lhs_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact mm6_rhs_1 _ _)
  rw [el, er]

/-- Linear, ReLU, Linear, ReLU on the tile, entry (r, q). -/
theorem pay6_6_apply (x0 : Vec Ideal S2000x128 .f32) (x1 : Vec Ideal S128x128 .f32) (x2 : Vec Ideal S1x128 .f32)
    (x3 : Vec Ideal S128x128 .f32) (x4 : Vec Ideal S1x128 .f32) (r : Fin 2000) (q : Fin 128) :
    k6_pay6 (F := Ideal) x0 x1 x2 x3 x4 (ix2 r q)
      = Cert.Spec.mlp (fun p k => x0 (ix2 p k)) (fun k j => x1 (ix2 k j)) (fun j => x2 (ix2 (0 : Fin 1) j))
          (fun k j => x3 (ix2 k j)) (fun j => x4 (ix2 (0 : Fin 1) j)) r q := by
  unfold k6_pay6 Cert.Spec.mlp Cert.Spec.lin
  simp only [shapeCast_self, maximumf_apply, addf_apply, mm6_apply, truncf_apply, broadcastTo_1b_ab_apply, broadcast_apply,
    Ideal.ofBits_def, Ideal.ofBits_zero_f32]

/-- The sums row after one more tile: the row before plus the tile's column sums. -/
theorem pay7_6_apply (x0 : Vec Ideal S2000x128 .f32) (x1 : Vec Ideal S128x128 .f32) (x2 : Vec Ideal S1x128 .f32)
    (x3 : Vec Ideal S128x128 .f32) (x4 : Vec Ideal S1x128 .f32) (s : Vec Ideal S1x128 .f32) (q : Fin 128) :
    k6_pay7 (F := Ideal) x0 x1 x2 x3 x4 s (ix2 (0 : Fin 1) q)
      = s (ix2 (0 : Fin 1) q) + ∑ r : Fin 2000, k6_pay6 (F := Ideal) x0 x1 x2 x3 x4 (ix2 r q) := by
  unfold k6_pay7
  simp only [shapeCast_self, addf_apply, shapeCast_a_1a_apply]
  exact congrArg (s (ix2 (0 : Fin 1) q) + ·) (colsum6_apply _ q)

/-- The squares row after one more tile. -/
theorem pay1_6_apply (h : FVec Ideal S2000x128 .f32) (s : Vec Ideal S1x128 .f32) (q : Fin 128) :
    k6_pay1 (F := Ideal) h s (ix2 (0 : Fin 1) q)
      = s (ix2 (0 : Fin 1) q) + ∑ r : Fin 2000, h (ix2 r q) * h (ix2 r q) := by
  unfold k6_pay1
  simp only [shapeCast_self, addf_apply, shapeCast_a_1a_apply]
  exact congrArg (s (ix2 (0 : Fin 1) q) + ·) (colsum6_apply _ q)

/-- The exact reciprocal of the number of rows, as the program names it. -/
theorem inv6 : Named.named (F := Ideal) Cert.KernelIdeal.κ "inv_50000" (φ := .f32) 0x37A7C5AC#32 = Cert.Spec.invN :=
  IdealRules.named_const.ideal_named_scalar _ _ _ _ rfl

/-- The mean row from the sums row. -/
theorem pay2_6_apply (s : Vec Ideal S1x128 .f32) (q : Fin 128) :
    k6_pay2 (F := Ideal) s (ix2 (0 : Fin 1) q) = s (ix2 (0 : Fin 1) q) * Cert.Spec.invN := by
  unfold k6_pay2
  simp only [mulf_apply, broadcast_apply, inv6]

/-- The variance row from the two rows. -/
theorem pay3_6_apply (s qq : Vec Ideal S1x128 .f32) (q : Fin 128) :
    k6_pay3 (F := Ideal) s qq (ix2 (0 : Fin 1) q)
      = max (qq (ix2 (0 : Fin 1) q) * Cert.Spec.invN - (s (ix2 (0 : Fin 1) q) * Cert.Spec.invN) * (s (ix2 (0 : Fin 1) q) * Cert.Spec.invN)) 0 := by
  unfold k6_pay3
  simp only [maximumf_apply, subf_apply, mulf_apply, broadcast_apply, inv6, pay2_6_apply, Ideal.ofBits_def, Ideal.ofBits_zero_f32]

/-- The zero row. -/
theorem pay4_6_apply (q : Fin 128) : k6_pay4 (F := Ideal) (ix2 (0 : Fin 1) q) = 0 := by
  unfold k6_pay4
  simp only [shapeCast_self, broadcast_apply]
  exact Ideal.ofBits_zero_f32
theorem pay5_6_apply (q : Fin 128) : k6_pay5 (F := Ideal) (ix2 (0 : Fin 1) q) = 0 := by
  unfold k6_pay5
  simp only [shapeCast_self, broadcast_apply]
  exact Ideal.ofBits_zero_f32

variable (V : (c : Dev nD) → (b : Ref sig .tc) → Buf (Elt Ideal) ((c : Thread nD τ).loc b))

/-! ## The windows' blocks read at an index -/

/-- The features' block at point t is rows 2000 t … 2000 t + 1999 of the array. -/
theorem iblk6_0_apply (c : Dev nD) (t : Fin cfg6.N) (r : Fin 2000) (k : Fin 128) (h : 2000 * t.val + r.val < 50000) :
    (iblk6 V c 0 t : Vec Ideal S2000x128 .f32) (ix2 r k) = V c (Pipeline.arrRef spec6 0) (ix2 (⟨2000 * t.val + r.val, h⟩ : Fin 50000) k) := by
  have hi : win6_0.index t 0 = t.val ∧ win6_0.index t 1 = 0 :=
    (by decide +kernel : ∀ t : Fin grid6.N, win6_0.index t 0 = t.val ∧ win6_0.index t 1 = 0) t
  unfold iblk6
  rw [View.read_apply]
  refine congrArg (V c (Pipeline.arrRef spec6 0)) (funext fun a => Fin.ext ?_)
  match a with
  | ⟨0, _⟩ => show win6_0.index t 0 * 2000 + 1 * r.val = 2000 * t.val + r.val; rw [hi.1]; omega
  | ⟨1, _⟩ => show win6_0.index t 1 * 128 + 1 * k.val = k.val; rw [hi.2]; omega

theorem iblk6_1_apply (c : Dev nD) (t : Fin cfg6.N) (k : Fin 128) (j : Fin 128) :
    (iblk6 V c 1 t : Vec Ideal S128x128 .f32) (ix2 k j) = V c (Pipeline.arrRef spec6 1) (ix2 k j) := by
  have hi : win6_1.index t 0 = 0 ∧ win6_1.index t 1 = 0 :=
    (by decide +kernel : ∀ t : Fin grid6.N, win6_1.index t 0 = 0 ∧ win6_1.index t 1 = 0) t
  unfold iblk6
  rw [View.read_apply]
  refine congrArg (V c (Pipeline.arrRef spec6 1)) (funext fun a => Fin.ext ?_)
  match a with
  | ⟨0, _⟩ => show win6_1.index t 0 * 128 + 1 * k.val = k.val; rw [hi.1]; omega
  | ⟨1, _⟩ => show win6_1.index t 1 * 128 + 1 * j.val = j.val; rw [hi.2]; omega

theorem iblk6_2_apply (c : Dev nD) (t : Fin cfg6.N) (k : Fin 1) (j : Fin 128) :
    (iblk6 V c 2 t : Vec Ideal S1x128 .f32) (ix2 k j) = V c (Pipeline.arrRef spec6 2) (ix2 k j) := by
  have hi : win6_2.index t 0 = 0 ∧ win6_2.index t 1 = 0 :=
    (by decide +kernel : ∀ t : Fin grid6.N, win6_2.index t 0 = 0 ∧ win6_2.index t 1 = 0) t
  unfold iblk6
  rw [View.read_apply]
  refine congrArg (V c (Pipeline.arrRef spec6 2)) (funext fun a => Fin.ext ?_)
  match a with
  | ⟨0, _⟩ => show win6_2.index t 0 * 1 + 1 * k.val = k.val; rw [hi.1]; omega
  | ⟨1, _⟩ => show win6_2.index t 1 * 128 + 1 * j.val = j.val; rw [hi.2]; omega

theorem iblk6_3_apply (c : Dev nD) (t : Fin cfg6.N) (k : Fin 128) (j : Fin 128) :
    (iblk6 V c 3 t : Vec Ideal S128x128 .f32) (ix2 k j) = V c (Pipeline.arrRef spec6 3) (ix2 k j) := by
  have hi : win6_3.index t 0 = 0 ∧ win6_3.index t 1 = 0 :=
    (by decide +kernel : ∀ t : Fin grid6.N, win6_3.index t 0 = 0 ∧ win6_3.index t 1 = 0) t
  unfold iblk6
  rw [View.read_apply]
  refine congrArg (V c (Pipeline.arrRef spec6 3)) (funext fun a => Fin.ext ?_)
  match a with
  | ⟨0, _⟩ => show win6_3.index t 0 * 128 + 1 * k.val = k.val; rw [hi.1]; omega
  | ⟨1, _⟩ => show win6_3.index t 1 * 128 + 1 * j.val = j.val; rw [hi.2]; omega

theorem iblk6_4_apply (c : Dev nD) (t : Fin cfg6.N) (k : Fin 1) (j : Fin 128) :
    (iblk6 V c 4 t : Vec Ideal S1x128 .f32) (ix2 k j) = V c (Pipeline.arrRef spec6 4) (ix2 k j) := by
  have hi : win6_4.index t 0 = 0 ∧ win6_4.index t 1 = 0 :=
    (by decide +kernel : ∀ t : Fin grid6.N, win6_4.index t 0 = 0 ∧ win6_4.index t 1 = 0) t
  unfold iblk6
  rw [View.read_apply]
  refine congrArg (V c (Pipeline.arrRef spec6 4)) (funext fun a => Fin.ext ?_)
  match a with
  | ⟨0, _⟩ => show win6_4.index t 0 * 1 + 1 * k.val = k.val; rw [hi.1]; omega
  | ⟨1, _⟩ => show win6_4.index t 1 * 128 + 1 * j.val = j.val; rw [hi.2]; omega

/-! ## The carried rows are the running column sums -/

/-- The hidden features (Linear, ReLU, Linear, ReLU of the region's operands), row p, column q. -/
abbrev Hs6 (c : Dev nD) : Fin 50000 → Fin 128 → EReal :=
  Cert.Spec.mlp (fun p q => V c (Pipeline.arrRef spec6 0) (ix2 p q)) (fun p q => V c (Pipeline.arrRef spec6 1) (ix2 p q)) (fun q => V c (Pipeline.arrRef spec6 2) (ix2 (0 : Fin 1) q)) (fun p q => V c (Pipeline.arrRef spec6 3) (ix2 p q)) (fun q => V c (Pipeline.arrRef spec6 4) (ix2 (0 : Fin 1) q))

/-- The same by the row's number (zero past the last row: never read). -/
def Hn6 (c : Dev nD) (p : ℕ) (q : Fin 128) : EReal := if h : p < 50000 then Hs6 V c ⟨p, h⟩ q else 0

/-- Entry (r, q) of the body's hidden tile at point t is the hidden features' row 2000 t + r. -/
theorem tile6_apply (c : Dev nD) (t : Fin cfg6.N) (r : Fin 2000) (q : Fin 128) :
    k6_pay6 (F := Ideal) (iblk6 V c 0 t) (iblk6 V c 1 t) (iblk6 V c 2 t) (iblk6 V c 3 t) (iblk6 V c 4 t) (ix2 r q) = Hn6 V c (2000 * t.val + r.val) q := by
  have hN : t.val < 25 := lt_of_lt_of_eq t.isLt (show cfg6.N = 25 from N_6)
  have h : 2000 * t.val + r.val < 50000 := by have := r.isLt; omega
  refine (pay6_6_apply (iblk6 V c 0 t) (iblk6 V c 1 t) (iblk6 V c 2 t) (iblk6 V c 3 t) (iblk6 V c 4 t) r q).trans ?_
  rw [Hn6, dif_pos h]
  unfold Hs6 Cert.Spec.mlp Cert.Spec.lin
  simp only [fun k => iblk6_0_apply V c t r k h, iblk6_1_apply V c t, iblk6_2_apply V c t, iblk6_3_apply V c t, iblk6_4_apply V c t]

theorem sum6_step (c : Dev nD) (t : Fin cfg6.N) (q : Fin 128) :
    sum6 V c (t.val + 1) (ix2 (0 : Fin 1) q) = sum6 V c t.val (ix2 (0 : Fin 1) q) + ∑ r : Fin 2000, Hn6 V c (2000 * t.val + r.val) q := by
  rw [sum6_succ V c t]
  refine (pay7_6_apply (iblk6 V c 0 t) (iblk6 V c 1 t) (iblk6 V c 2 t) (iblk6 V c 3 t) (iblk6 V c 4 t) (sum6 V c t.val) q).trans ?_
  exact congrArg (sum6 V c t.val (ix2 (0 : Fin 1) q) + ·) (Finset.sum_congr rfl fun r _ => tile6_apply V c t r q)

theorem sq6_step (c : Dev nD) (t : Fin cfg6.N) (q : Fin 128) :
    sq6 V c (t.val + 1) (ix2 (0 : Fin 1) q)
      = sq6 V c t.val (ix2 (0 : Fin 1) q) + ∑ r : Fin 2000, Hn6 V c (2000 * t.val + r.val) q * Hn6 V c (2000 * t.val + r.val) q := by
  rw [sq6_succ V c t]
  refine (pay1_6_apply (k6_pay6 (F := Ideal) (iblk6 V c 0 t) (iblk6 V c 1 t) (iblk6 V c 2 t) (iblk6 V c 3 t) (iblk6 V c 4 t)) (sq6 V c t.val) q).trans ?_
  exact congrArg (sq6 V c t.val (ix2 (0 : Fin 1) q) + ·) (Finset.sum_congr rfl fun r _ => by rw [tile6_apply V c t r q])

/-- After n tiles the sums row holds the column sums of the first 2000 n rows. -/
theorem sum6_eq (c : Dev nD) (q : Fin 128) : ∀ n : ℕ, n ≤ 25 →
    sum6 V c n (ix2 (0 : Fin 1) q) = ∑ t ∈ Finset.range n, ∑ r : Fin 2000, Hn6 V c (2000 * t + r.val) q
  | 0, _ => by rw [Finset.range_zero, Finset.sum_empty]; exact pay4_6_apply q
  | n + 1, hn => by
    have ht : n < cfg6.N := by rw [show cfg6.N = 25 from N_6]; omega
    rw [Finset.sum_range_succ, ← sum6_eq c q n (by omega)]
    exact sum6_step V c ⟨n, ht⟩ q

theorem sq6_eq (c : Dev nD) (q : Fin 128) : ∀ n : ℕ, n ≤ 25 →
    sq6 V c n (ix2 (0 : Fin 1) q) = ∑ t ∈ Finset.range n, ∑ r : Fin 2000, Hn6 V c (2000 * t + r.val) q * Hn6 V c (2000 * t + r.val) q
  | 0, _ => by rw [Finset.range_zero, Finset.sum_empty]; exact pay5_6_apply q
  | n + 1, hn => by
    have ht : n < cfg6.N := by rw [show cfg6.N = 25 from N_6]; omega
    rw [Finset.sum_range_succ, ← sq6_eq c q n (by omega)]
    exact sq6_step V c ⟨n, ht⟩ q

/-- After all 25 tiles: the column sums over the 50000 rows. -/
theorem sum6_all (c : Dev nD) (q : Fin 128) : sum6 V c 25 (ix2 (0 : Fin 1) q) = ∑ p : Fin 50000, Hs6 V c p q := by
  rw [sum6_eq V c q 25 (le_refl _), Cert.StatsLib.sum_tiles (fun p => Hn6 V c p q) 2000 25]
  exact Cert.StatsLib.sum_range_eq_univ _ _ fun p => by rw [Hn6, dif_pos p.isLt]

theorem sq6_all (c : Dev nD) (q : Fin 128) : sq6 V c 25 (ix2 (0 : Fin 1) q) = ∑ p : Fin 50000, Hs6 V c p q * Hs6 V c p q := by
  rw [sq6_eq V c q 25 (le_refl _), Cert.StatsLib.sum_tiles (fun p => Hn6 V c p q * Hn6 V c p q) 2000 25]
  exact Cert.StatsLib.sum_range_eq_univ _ _ fun p => by rw [Hn6, dif_pos p.isLt]

/-! ## What the region leaves in its arrays -/

/-- The last grid point. -/
abbrev tlast6 : Fin cfg6.N := ⟨24, by rw [show cfg6.N = 25 from N_6]; decide⟩

/-- The mean row and the variance row the last point stores, as contents of the two result arrays. -/
abbrev mean6 (c : Dev nD) : Buf (Elt Ideal) ((cfg6.win 5).arr.view.loc (c.tc : Thread nD τ)) :=
  k6_pay2 (F := Ideal) (sum6 V c (tlast6.val + 1))
abbrev var6 (c : Dev nD) : Buf (Elt Ideal) ((cfg6.win 6).arr.view.loc (c.tc : Thread nD τ)) :=
  k6_pay3 (F := Ideal) (sum6 V c (tlast6.val + 1)) (sq6 V c (tlast6.val + 1))

/-- The one write-back of window 5, at the last point, writes the whole row: block (0, 0) of a [1,128] array read
    through zero offsets is the array. -/
theorem flushed6_5 (c : Dev nD) (t : Fin cfg6.N) (hf : (cfg6.win 5).flush t = true) :
    (dat6 V c).flushed 5 t = ((cfg6.win 5).blk t).view.read (Elt Ideal) (mean6 V c) := by
  have hN : cfg6.N = 25 := N_6
  have h24 : t.val = 24 := by have := (flush6_5 t).mp hf; have := t.isLt; omega
  obtain rfl : t = tlast6 := Fin.ext h24
  show (cfg6.win 5).cut (grid6.coords tlast6) ((dat6 V c).after 5 tlast6) = _
  rw [after6_5]
  have hz' : (fun a => win6_5.index tlast6 a * (Pipeline.arrRef spec6 5).ty.shape.size a) = fun _ => 0 :=
    funext fun a => by fin_cases a <;> decide +kernel
  exact (Memref.read_access_unit_zero (Elt Ideal) (Pipeline.arrRef spec6 5) hz' (fun a => by rw [congrFun hz' a]; simp) (mean6 V c)).symm

/-- So the array ends holding that row. -/
theorem arr6_5 (c : Dev nD) : (dat6 V c).arrAt 5 cfg6.N = mean6 V c :=
  (dat6 V c).arrAt_eq_of_cover 5 (mean6 V c) (flushed6_5 V c) fun i =>
    ⟨tlast6, (flush6_5 tlast6).mpr rfl, by
      show i ∈ ((View.whole (Pipeline.arrRef spec6 5)).slice (win6_5.rect tlast6)).set
      rw [View.set_slice_whole, Rect.mem_set_unit]
      intro a
      have h0 : (i 0 : Nat) < 1 := (i 0).isLt
      have h1 : (i 1 : Nat) < 128 := (i 1).isLt
      match a with
      | ⟨0, _⟩ =>
        show win6_5.index tlast6 0 * win6_5.size 0 ≤ (i 0 : Nat) ∧ (i 0 : Nat) < win6_5.index tlast6 0 * win6_5.size 0 + win6_5.xsize (grid6.coords tlast6) 0
        rw [show win6_5.index tlast6 0 * win6_5.size 0 = 0 from by decide +kernel, show win6_5.xsize (grid6.coords tlast6) 0 = 1 from by decide +kernel]; omega
      | ⟨1, _⟩ =>
        show win6_5.index tlast6 1 * win6_5.size 1 ≤ (i 1 : Nat) ∧ (i 1 : Nat) < win6_5.index tlast6 1 * win6_5.size 1 + win6_5.xsize (grid6.coords tlast6) 1
        rw [show win6_5.index tlast6 1 * win6_5.size 1 = 0 from by decide +kernel, show win6_5.xsize (grid6.coords tlast6) 1 = 128 from by decide +kernel]; omega⟩

/-- The one write-back of window 6, at the last point, writes the whole row: block (0, 0) of a [1,128] array read
    through zero offsets is the array. -/
theorem flushed6_6 (c : Dev nD) (t : Fin cfg6.N) (hf : (cfg6.win 6).flush t = true) :
    (dat6 V c).flushed 6 t = ((cfg6.win 6).blk t).view.read (Elt Ideal) (var6 V c) := by
  have hN : cfg6.N = 25 := N_6
  have h24 : t.val = 24 := by have := (flush6_6 t).mp hf; have := t.isLt; omega
  obtain rfl : t = tlast6 := Fin.ext h24
  show (cfg6.win 6).cut (grid6.coords tlast6) ((dat6 V c).after 6 tlast6) = _
  rw [after6_6]
  have hz' : (fun a => win6_6.index tlast6 a * (Pipeline.arrRef spec6 6).ty.shape.size a) = fun _ => 0 :=
    funext fun a => by fin_cases a <;> decide +kernel
  exact (Memref.read_access_unit_zero (Elt Ideal) (Pipeline.arrRef spec6 6) hz' (fun a => by rw [congrFun hz' a]; simp) (var6 V c)).symm

/-- So the array ends holding that row. -/
theorem arr6_6 (c : Dev nD) : (dat6 V c).arrAt 6 cfg6.N = var6 V c :=
  (dat6 V c).arrAt_eq_of_cover 6 (var6 V c) (flushed6_6 V c) fun i =>
    ⟨tlast6, (flush6_6 tlast6).mpr rfl, by
      show i ∈ ((View.whole (Pipeline.arrRef spec6 6)).slice (win6_6.rect tlast6)).set
      rw [View.set_slice_whole, Rect.mem_set_unit]
      intro a
      have h0 : (i 0 : Nat) < 1 := (i 0).isLt
      have h1 : (i 1 : Nat) < 128 := (i 1).isLt
      match a with
      | ⟨0, _⟩ =>
        show win6_6.index tlast6 0 * win6_6.size 0 ≤ (i 0 : Nat) ∧ (i 0 : Nat) < win6_6.index tlast6 0 * win6_6.size 0 + win6_6.xsize (grid6.coords tlast6) 0
        rw [show win6_6.index tlast6 0 * win6_6.size 0 = 0 from by decide +kernel, show win6_6.xsize (grid6.coords tlast6) 0 = 1 from by decide +kernel]; omega
      | ⟨1, _⟩ =>
        show win6_6.index tlast6 1 * win6_6.size 1 ≤ (i 1 : Nat) ∧ (i 1 : Nat) < win6_6.index tlast6 1 * win6_6.size 1 + win6_6.xsize (grid6.coords tlast6) 1
        rw [show win6_6.index tlast6 1 * win6_6.size 1 = 0 from by decide +kernel, show win6_6.xsize (grid6.coords tlast6) 1 = 128 from by decide +kernel]; omega⟩

/-- The mean's array ends at the column means of the hidden features. -/
theorem final6_5 (c : Dev nD) (q : Fin 128) :
    (dat6 (F := Ideal) V c).arrAt 5 cfg6.N (ix2 (0 : Fin 1) q) = Cert.Spec.meanK (Cert.Spec.mlp (fun p q => V c (Pipeline.arrRef spec6 0) (ix2 p q)) (fun p q => V c (Pipeline.arrRef spec6 1) (ix2 p q)) (fun q => V c (Pipeline.arrRef spec6 2) (ix2 (0 : Fin 1) q)) (fun p q => V c (Pipeline.arrRef spec6 3) (ix2 p q)) (fun q => V c (Pipeline.arrRef spec6 4) (ix2 (0 : Fin 1) q))) q := by
  rw [arr6_5 V c]
  refine (pay2_6_apply (sum6 V c 25) q).trans ?_
  rw [sum6_all V c q]
  rfl

/-- The variance's array ends at the clamped column variances of the hidden features. -/
theorem final6_6 (c : Dev nD) (q : Fin 128) :
    (dat6 (F := Ideal) V c).arrAt 6 cfg6.N (ix2 (0 : Fin 1) q) = Cert.Spec.varK (Cert.Spec.mlp (fun p q => V c (Pipeline.arrRef spec6 0) (ix2 p q)) (fun p q => V c (Pipeline.arrRef spec6 1) (ix2 p q)) (fun q => V c (Pipeline.arrRef spec6 2) (ix2 (0 : Fin 1) q)) (fun p q => V c (Pipeline.arrRef spec6 3) (ix2 p q)) (fun q => V c (Pipeline.arrRef spec6 4) (ix2 (0 : Fin 1) q))) q := by
  rw [arr6_6 V c]
  refine (pay3_6_apply (sum6 V c 25) (sq6 V c 25) q).trans ?_
  rw [sum6_all V c q, sq6_all V c q]
  rfl

/-- The five input arrays end as entered: the pipeline never writes an input window's array. -/
theorem kept6 (c : Dev nD) (w : Fin cfg6.W) (hw : w.val < 5) :
    (dat6 (F := Ideal) V c).arrAt w cfg6.N = V c (Pipeline.arrRef spec6 w) := by
  have hin : (cfg6.win w).isOut = false := by
    obtain ⟨n, hn⟩ := w
    dsimp only at hw
    interval_cases n <;> rfl
  exact ((dat6 V c).arrAt_in w hin _).trans (A_eq6 V c w)

end Cert.KernelIdeal.Hand

end
-- ==== Proof.KI.Val7.lean ====
/-
  The value of region 7 at the ideal instance: after the region its output array holds, at row p and column q,
  the MLP of row p of the aggregated features, normalized in column q by the mean and variance the region is handed,
  scaled and shifted; its nine input arrays are as it found them. Point t of the grid writes back rows 2000 t to
  2000 t + 1999, and the 25 blocks cover the 50000 rows.
-/
import proofs.«132655_j36919538876779_2_alg».proof.Proof.KI.R7
import proofs.«132655_j36919538876779_2_alg».proof.Proof.KI.MlpPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

-- the TensorCore's buffer contents when the region is entered, at the ideal instance
variable (V : (c : Dev nD) → (b : Ref sig .tc) → Buf (Elt Ideal) ((c : Thread nD τ).loc b))

/-! # The value of region 7: what it leaves in its output array, as a function of its nine input arrays -/

/-! ## The printed index maps, decided over the 25 grid points -/

/-- The aggregated features' block moves with the output's, along the rows only. -/
theorem idx7_0 : ∀ t : Fin cfg7.N, win7_0.index t (0 : Fin 2) = win7_9.index t (0 : Fin 2) ∧ win7_0.index t (1 : Fin 2) = 0 :=
  (by decide +kernel : ∀ t : Fin grid7.N, _)
/-- The output's block index is at most 24 along the rows and 0 along the columns. -/
theorem idx7_9 : ∀ t : Fin cfg7.N, win7_9.index t (0 : Fin 2) ≤ 24 ∧ win7_9.index t (1 : Fin 2) = 0 :=
  (by decide +kernel : ∀ t : Fin grid7.N, _)
/-- Window 1 is one block, at index 0. -/
theorem idx7_1 : ∀ t : Fin cfg7.N, win7_1.index t (0 : Fin 2) = 0 ∧ win7_1.index t (1 : Fin 2) = 0 :=
  (by decide +kernel : ∀ t : Fin grid7.N, _)
/-- Window 2 is one block, at index 0. -/
theorem idx7_2 : ∀ t : Fin cfg7.N, win7_2.index t (0 : Fin 2) = 0 ∧ win7_2.index t (1 : Fin 2) = 0 :=
  (by decide +kernel : ∀ t : Fin grid7.N, _)
/-- Window 3 is one block, at index 0. -/
theorem idx7_3 : ∀ t : Fin cfg7.N, win7_3.index t (0 : Fin 2) = 0 ∧ win7_3.index t (1 : Fin 2) = 0 :=
  (by decide +kernel : ∀ t : Fin grid7.N, _)
/-- Window 4 is one block, at index 0. -/
theorem idx7_4 : ∀ t : Fin cfg7.N, win7_4.index t (0 : Fin 2) = 0 ∧ win7_4.index t (1 : Fin 2) = 0 :=
  (by decide +kernel : ∀ t : Fin grid7.N, _)
/-- Window 5 is one block, at index 0. -/
theorem idx7_5 : ∀ t : Fin cfg7.N, win7_5.index t (0 : Fin 2) = 0 ∧ win7_5.index t (1 : Fin 2) = 0 :=
  (by decide +kernel : ∀ t : Fin grid7.N, _)
/-- Window 6 is one block, at index 0. -/
theorem idx7_6 : ∀ t : Fin cfg7.N, win7_6.index t (0 : Fin 2) = 0 ∧ win7_6.index t (1 : Fin 2) = 0 :=
  (by decide +kernel : ∀ t : Fin grid7.N, _)
/-- Window 7 is one block, at index 0. -/
theorem idx7_7 : ∀ t : Fin cfg7.N, win7_7.index t (0 : Fin 2) = 0 ∧ win7_7.index t (1 : Fin 2) = 0 :=
  (by decide +kernel : ∀ t : Fin grid7.N, _)
/-- Window 8 is one block, at index 0. -/
theorem idx7_8 : ∀ t : Fin cfg7.N, win7_8.index t (0 : Fin 2) = 0 ∧ win7_8.index t (1 : Fin 2) = 0 :=
  (by decide +kernel : ∀ t : Fin grid7.N, _)
/-- Every block of 2000 rows is some point's. -/
theorem idx_onto7 : ∀ q0 : Fin 25, ∃ t : Fin cfg7.N, win7_9.index t (0 : Fin 2) = q0.val :=
  (by decide +kernel : ∀ q0 : Fin 25, ∃ t : Fin grid7.N, win7_9.index t (0 : Fin 2) = q0.val)

/-! ## The input blocks at a point, read off the arrays -/

/-- Window 1 (a 128 by 128 matrix) is one block: its block's element (k, q) is the array's. -/
theorem blk7_1 (c : Dev nD) (t : Fin cfg7.N) (k q' : Fin 128) :
    iblk7 V c 1 t (ix2 k q') = V c (Pipeline.arrRef spec7 1) (ix2 k q') := by
  obtain ⟨e0, e1⟩ := idx7_1 t
  show V c (Pipeline.arrRef spec7 1) (((cfg7.win 1).blk t).view.emb (ix2 k q')) = _
  have h : ((cfg7.win 1).blk t).view.emb (ix2 k q') = ix2 k q' := by
    funext a; apply Fin.ext
    match a with
    | ⟨0, _⟩ => show win7_1.index t (0 : Fin 2) * 128 + 1 * k.val = k.val; omega
    | ⟨1, _⟩ => show win7_1.index t (1 : Fin 2) * 128 + 1 * q'.val = q'.val; omega
  rw [h]

/-- Window 3 (a 128 by 128 matrix) is one block: its block's element (k, q) is the array's. -/
theorem blk7_3 (c : Dev nD) (t : Fin cfg7.N) (k q' : Fin 128) :
    iblk7 V c 3 t (ix2 k q') = V c (Pipeline.arrRef spec7 3) (ix2 k q') := by
  obtain ⟨e0, e1⟩ := idx7_3 t
  show V c (Pipeline.arrRef spec7 3) (((cfg7.win 3).blk t).view.emb (ix2 k q')) = _
  have h : ((cfg7.win 3).blk t).view.emb (ix2 k q') = ix2 k q' := by
    funext a; apply Fin.ext
    match a with
    | ⟨0, _⟩ => show win7_3.index t (0 : Fin 2) * 128 + 1 * k.val = k.val; omega
    | ⟨1, _⟩ => show win7_3.index t (1 : Fin 2) * 128 + 1 * q'.val = q'.val; omega
  rw [h]

/-- Window 2 (one row of 128) is one block: its block's element q is the array's. -/
theorem blk7_2 (c : Dev nD) (t : Fin cfg7.N) (q' : Fin 128) :
    iblk7 V c 2 t (ix2 (0 : Fin 1) q') = V c (Pipeline.arrRef spec7 2) (ix2 (0 : Fin 1) q') := by
  obtain ⟨e0, e1⟩ := idx7_2 t
  show V c (Pipeline.arrRef spec7 2) (((cfg7.win 2).blk t).view.emb (ix2 (0 : Fin 1) q')) = _
  have h : ((cfg7.win 2).blk t).view.emb (ix2 (0 : Fin 1) q') = ix2 (0 : Fin 1) q' := by
    funext a; apply Fin.ext
    match a with
    | ⟨0, _⟩ => show win7_2.index t (0 : Fin 2) * 1 + 1 * 0 = 0; omega
    | ⟨1, _⟩ => show win7_2.index t (1 : Fin 2) * 128 + 1 * q'.val = q'.val; omega
  rw [h]

/-- Window 4 (one row of 128) is one block: its block's element q is the array's. -/
theorem blk7_4 (c : Dev nD) (t : Fin cfg7.N) (q' : Fin 128) :
    iblk7 V c 4 t (ix2 (0 : Fin 1) q') = V c (Pipeline.arrRef spec7 4) (ix2 (0 : Fin 1) q') := by
  obtain ⟨e0, e1⟩ := idx7_4 t
  show V c (Pipeline.arrRef spec7 4) (((cfg7.win 4).blk t).view.emb (ix2 (0 : Fin 1) q')) = _
  have h : ((cfg7.win 4).blk t).view.emb (ix2 (0 : Fin 1) q') = ix2 (0 : Fin 1) q' := by
    funext a; apply Fin.ext
    match a with
    | ⟨0, _⟩ => show win7_4.index t (0 : Fin 2) * 1 + 1 * 0 = 0; omega
    | ⟨1, _⟩ => show win7_4.index t (1 : Fin 2) * 128 + 1 * q'.val = q'.val; omega
  rw [h]

/-- Window 5 (one row of 128) is one block: its block's element q is the array's. -/
theorem blk7_5 (c : Dev nD) (t : Fin cfg7.N) (q' : Fin 128) :
    iblk7 V c 5 t (ix2 (0 : Fin 1) q') = V c (Pipeline.arrRef spec7 5) (ix2 (0 : Fin 1) q') := by
  obtain ⟨e0, e1⟩ := idx7_5 t
  show V c (Pipeline.arrRef spec7 5) (((cfg7.win 5).blk t).view.emb (ix2 (0 : Fin 1) q')) = _
  have h : ((cfg7.win 5).blk t).view.emb (ix2 (0 : Fin 1) q') = ix2 (0 : Fin 1) q' := by
    funext a; apply Fin.ext
    match a with
    | ⟨0, _⟩ => show win7_5.index t (0 : Fin 2) * 1 + 1 * 0 = 0; omega
    | ⟨1, _⟩ => show win7_5.index t (1 : Fin 2) * 128 + 1 * q'.val = q'.val; omega
  rw [h]

/-- Window 6 (one row of 128) is one block: its block's element q is the array's. -/
theorem blk7_6 (c : Dev nD) (t : Fin cfg7.N) (q' : Fin 128) :
    iblk7 V c 6 t (ix2 (0 : Fin 1) q') = V c (Pipeline.arrRef spec7 6) (ix2 (0 : Fin 1) q') := by
  obtain ⟨e0, e1⟩ := idx7_6 t
  show V c (Pipeline.arrRef spec7 6) (((cfg7.win 6).blk t).view.emb (ix2 (0 : Fin 1) q')) = _
  have h : ((cfg7.win 6).blk t).view.emb (ix2 (0 : Fin 1) q') = ix2 (0 : Fin 1) q' := by
    funext a; apply Fin.ext
    match a with
    | ⟨0, _⟩ => show win7_6.index t (0 : Fin 2) * 1 + 1 * 0 = 0; omega
    | ⟨1, _⟩ => show win7_6.index t (1 : Fin 2) * 128 + 1 * q'.val = q'.val; omega
  rw [h]

/-- Window 7 (one row of 128) is one block: its block's element q is the array's. -/
theorem blk7_7 (c : Dev nD) (t : Fin cfg7.N) (q' : Fin 128) :
    iblk7 V c 7 t (ix2 (0 : Fin 1) q') = V c (Pipeline.arrRef spec7 7) (ix2 (0 : Fin 1) q') := by
  obtain ⟨e0, e1⟩ := idx7_7 t
  show V c (Pipeline.arrRef spec7 7) (((cfg7.win 7).blk t).view.emb (ix2 (0 : Fin 1) q')) = _
  have h : ((cfg7.win 7).blk t).view.emb (ix2 (0 : Fin 1) q') = ix2 (0 : Fin 1) q' := by
    funext a; apply Fin.ext
    match a with
    | ⟨0, _⟩ => show win7_7.index t (0 : Fin 2) * 1 + 1 * 0 = 0; omega
    | ⟨1, _⟩ => show win7_7.index t (1 : Fin 2) * 128 + 1 * q'.val = q'.val; omega
  rw [h]

/-- Window 8 (one row of 128) is one block: its block's element q is the array's. -/
theorem blk7_8 (c : Dev nD) (t : Fin cfg7.N) (q' : Fin 128) :
    iblk7 V c 8 t (ix2 (0 : Fin 1) q') = V c (Pipeline.arrRef spec7 8) (ix2 (0 : Fin 1) q') := by
  obtain ⟨e0, e1⟩ := idx7_8 t
  show V c (Pipeline.arrRef spec7 8) (((cfg7.win 8).blk t).view.emb (ix2 (0 : Fin 1) q')) = _
  have h : ((cfg7.win 8).blk t).view.emb (ix2 (0 : Fin 1) q') = ix2 (0 : Fin 1) q' := by
    funext a; apply Fin.ext
    match a with
    | ⟨0, _⟩ => show win7_8.index t (0 : Fin 2) * 1 + 1 * 0 = 0; omega
    | ⟨1, _⟩ => show win7_8.index t (1 : Fin 2) * 128 + 1 * q'.val = q'.val; omega
  rw [h]

/-- Row r of the aggregated features' block at point `t` is row (block index × 2000 + r) of the array. -/
theorem blk7_0 (c : Dev nD) (t : Fin cfg7.N) (r : Fin 2000) (hP : win7_9.index t (0 : Fin 2) * 2000 + r.val < 50000) (k : Fin 128) :
    iblk7 V c 0 t (ix2 r k) = V c (Pipeline.arrRef spec7 0) (ix2 (⟨win7_9.index t (0 : Fin 2) * 2000 + r.val, hP⟩ : Fin 50000) k) := by
  obtain ⟨e0, e1⟩ := idx7_0 t
  show V c (Pipeline.arrRef spec7 0) (((cfg7.win 0).blk t).view.emb (ix2 r k)) = _
  have h : ((cfg7.win 0).blk t).view.emb (ix2 r k) = ix2 (⟨win7_9.index t (0 : Fin 2) * 2000 + r.val, hP⟩ : Fin 50000) k := by
    funext a; apply Fin.ext
    match a with
    | ⟨0, _⟩ => show win7_0.index t (0 : Fin 2) * 2000 + 1 * r.val = win7_9.index t (0 : Fin 2) * 2000 + r.val; omega
    | ⟨1, _⟩ => show win7_0.index t (1 : Fin 2) * 128 + 1 * k.val = k.val; omega
  rw [h]

/-- Element (r, q) of the output's block at point `t` sits at row (block index × 2000 + r), column q of the array. -/
theorem emb7_9 (t : Fin cfg7.N) (r : Fin 2000) (hP : win7_9.index t (0 : Fin 2) * 2000 + r.val < 50000) (q : Fin 128) :
    ((cfg7.win 9).blk t).view.emb (ix2 r q) = ix2 (⟨win7_9.index t (0 : Fin 2) * 2000 + r.val, hP⟩ : Fin 50000) q := by
  obtain ⟨e0, e1⟩ := idx7_9 t
  funext a; apply Fin.ext
  match a with
  | ⟨0, _⟩ => show win7_9.index t (0 : Fin 2) * 2000 + 1 * r.val = win7_9.index t (0 : Fin 2) * 2000 + r.val; omega
  | ⟨1, _⟩ => show win7_9.index t (1 : Fin 2) * 128 + 1 * q.val = q.val; omega

/-! ## What a point writes back, and the array after the region -/

set_option maxHeartbeats 1000000 in
/-- WHAT POINT `t` WRITES BACK is block `t` of the output function of the arrays as the region finds them: row r of the
    block is row (block index × 2000 + r) of the array, and the MLP of a row reads that row of the features only; the
    other eight inputs are one block each, so a block's element is the array's at the same place. -/
theorem flushed7_eq (c : Dev nD) (t : Fin cfg7.N) :
    (dat7 (F := Ideal) V c).flushed 9 t = ((cfg7.win 9).blk t).view.read (Elt Ideal)
      (mlpBnArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))) := by
  show (cfg7.win 9).cut (grid7.coords t) ((dat7 V c).after 9 t) = _
  rw [after7_9]
  unfold out7_9
  rw [View.canon_unit_zero mlpbn_hz]
  simp only [View.ld_unit_zero (S := S2000x128) mlpbn_hz, View.ld_unit_zero (S := S128x128) mlpbn_hz, View.ld_unit_zero (S := S1x128) mlpbn_hz]
  funext j
  obtain ⟨r, q, rfl⟩ : ∃ (r : Fin 2000) (q : Fin 128), j = ix2 r q := ⟨j 0, j 1, eq_ix2 j⟩
  refine (mlpbn_pay7_apply (iblk7 V c 0 t) (iblk7 V c 1 t) (iblk7 V c 2 t) (iblk7 V c 3 t) (iblk7 V c 4 t) (iblk7 V c 5 t) (iblk7 V c 6 t) (iblk7 V c 7 t) (iblk7 V c 8 t) r q).trans ?_
  have hr : r.val < 2000 := r.isLt
  have hP : win7_9.index t (0 : Fin 2) * 2000 + r.val < 50000 := by have := (idx7_9 t).1; omega
  show _ = mlpBnArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (((cfg7.win 9).blk t).view.emb (ix2 r q))
  rw [emb7_9 t r hP q, mlpBnArr_ix2]
  unfold Cert.Spec.bn
  rw [mlpbn_mlp_row (fun r k => iblk7 V c 0 t (ix2 r k)) (fun p k => V c (Pipeline.arrRef spec7 0) (ix2 p k)) _ _ _ _ r (⟨win7_9.index t (0 : Fin 2) * 2000 + r.val, hP⟩ : Fin 50000) (blk7_0 V c t r hP) q]
  simp only [blk7_1 V c t, blk7_3 V c t, blk7_2 V c t, blk7_4 V c t, blk7_5 V c t, blk7_6 V c t, blk7_7 V c t, blk7_8 V c t]

/-- An index of the array is in point `t`'s block iff each coordinate is in the block's range on its axis. -/
theorem mem_blk7 (t : Fin cfg7.N) (i : S50000x128.Idx) :
    i ∈ ((cfg7.win 9).blk t).view.set ↔ ∀ a : Fin 2, win7_9.index t a * S2000x128.size a ≤ (i a).val ∧ (i a).val < win7_9.index t a * S2000x128.size a + S2000x128.size a := by
  show i ∈ ((View.whole main_v171).slice (win7_9.rect t)).set ↔ _
  rw [View.set_slice_whole, Rect.mem_set_unit]
  exact Iff.rfl

/-- Every row is in some point's block: row p is in the block of index p / 2000. -/
theorem cover7 (i : S50000x128.Idx) : ∃ t : Fin cfg7.N, (cfg7.win 9).flush t = true ∧ i ∈ ((cfg7.win 9).blk t).view.set := by
  have hi0 : (i 0).val < 50000 := (i 0).isLt
  have hi1 : (i 1).val < 128 := (i 1).isLt
  obtain ⟨t, ht⟩ := idx_onto7 ⟨(i 0).val / 2000, by omega⟩
  have ht' : win7_9.index t (0 : Fin 2) = (i 0).val / 2000 := ht
  have e91 : win7_9.index t (1 : Fin 2) = 0 := (idx7_9 t).2
  refine ⟨t, flush7_9 t, ?_⟩
  rw [mem_blk7]
  intro a
  match a with
  | ⟨0, _⟩ => show win7_9.index t (0 : Fin 2) * 2000 ≤ (i 0).val ∧ (i 0).val < win7_9.index t (0 : Fin 2) * 2000 + 2000; omega
  | ⟨1, _⟩ => show win7_9.index t (1 : Fin 2) * 128 ≤ (i 1).val ∧ (i 1).val < win7_9.index t (1 : Fin 2) * 128 + 128; omega

/-- THE OUTPUT ARRAY after the region: the output function of the nine input arrays as the region finds them. -/
theorem final7_arr (c : Dev nD) : (dat7 (F := Ideal) V c).arrAt 9 cfg7.N = mlpBnArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) :=
  (dat7 V c).arrAt_eq_of_cover 9 (mlpBnArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))) (fun t _ => flushed7_eq V c t) cover7

/-- Row p, column q of the output array after the region: the MLP of row p of the aggregated features, normalized in
    column q by the mean and variance the region is given, scaled and shifted. -/
theorem final7_9 (c : Dev nD) (p : Fin 50000) (q : Fin 128) :
    (dat7 (F := Ideal) V c).arrAt 9 cfg7.N (ix2 p q)
      = Cert.Spec.bn (Cert.Spec.mlp (fun p k => (V c (Pipeline.arrRef spec7 0)) (ix2 p k)) (fun k q => (V c (Pipeline.arrRef spec7 1)) (ix2 k q)) (fun q => (V c (Pipeline.arrRef spec7 2)) (ix2 (0 : Fin 1) q))
            (fun k q => (V c (Pipeline.arrRef spec7 3)) (ix2 k q)) (fun q => (V c (Pipeline.arrRef spec7 4)) (ix2 (0 : Fin 1) q)))
          (fun q => (V c (Pipeline.arrRef spec7 5)) (ix2 (0 : Fin 1) q)) (fun q => (V c (Pipeline.arrRef spec7 6)) (ix2 (0 : Fin 1) q))
          (fun q => (V c (Pipeline.arrRef spec7 7)) (ix2 (0 : Fin 1) q)) (fun q => (V c (Pipeline.arrRef spec7 8)) (ix2 (0 : Fin 1) q)) p q := by
  rw [final7_arr V c]
  rfl

/-- The nine input arrays are as the region found them: an input window is never written back. -/
theorem kept7 (c : Dev nD) (w : Fin cfg7.W) (hw : w.val < 9) : (dat7 (F := Ideal) V c).arrAt w cfg7.N = V c (Pipeline.arrRef spec7 w) := by
  have hin : (cfg7.win w).isOut = false := by
    revert hw
    match w with
    | ⟨0, _⟩ => intro _; rfl
    | ⟨1, _⟩ => intro _; rfl
    | ⟨2, _⟩ => intro _; rfl
    | ⟨3, _⟩ => intro _; rfl
    | ⟨4, _⟩ => intro _; rfl
    | ⟨5, _⟩ => intro _; rfl
    | ⟨6, _⟩ => intro _; rfl
    | ⟨7, _⟩ => intro _; rfl
    | ⟨8, _⟩ => intro _; rfl
    | ⟨9, _⟩ => intro h; exact absurd h (Nat.lt_irrefl 9)
  exact ((dat7 V c).arrAt_in w hin _).trans (A_eq7 V c w)

end Cert.KernelIdeal.Hand

end
-- ==== Proof.KI.Chain3.lean ====
import proofs.«132655_j36919538876779_2_alg».proof.Proof.KI.Carry
import proofs.«132655_j36919538876779_2_alg».proof.Proof.KI.Val6
import proofs.«132655_j36919538876779_2_alg».proof.Proof.KI.Val7
import proofs.«132655_j36919538876779_2_alg».proof.Proof.Spec
import Idealize.ShloMosaic.Lib.ValueIdx

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# Layer 3 of the idealized kernel program, read at an entry

The layer's first kernel leaves the column means and variances of the activations H = Linear-ReLU-Linear-ReLU of the
neighbour sum; its second kernel recomputes H tile by tile and normalizes it with those statistics. Both read the same
neighbour sum and the same parameter slices, so the layer's output at (p, q) is the normalization of H by H's own
statistics, in the accumulated-sums form.
-/

/-- The activations of layer 3 before normalization. -/
def HK3 (m : (ℓ : Loc nD τ sig) → Buf (Elt Ideal) ℓ) (ρ : Dev nD → PrngReg) (c : Dev nD) : Fin 50000 → Fin 128 → EReal :=
  Cert.Spec.mlp (fun p j => aggOf (F := Ideal) (W12 m ρ c (Proc.devRef .tc main_v129)) (srcOf (m ((c : Thread nD τ).loc main_arg1))) (dstOf (m ((c : Thread nD τ).loc main_arg1))) (ix2 p j))
    (fun j k => mat3 (F := Ideal) (m ((c : Thread nD τ).loc main_arg3)) (ix2 j k)) (fun k => row3 (F := Ideal) (m ((c : Thread nD τ).loc main_arg4)) (ix2 (0 : Fin 1) k))
    (fun j k => mat3 (F := Ideal) (m ((c : Thread nD τ).loc main_arg5)) (ix2 j k)) (fun k => row3 (F := Ideal) (m ((c : Thread nD τ).loc main_arg6)) (ix2 (0 : Fin 1) k))

/-- What the first kernel of layer 3 finds: the neighbour sum and the layer's four parameter slices. -/
theorem entry6 (m : (ℓ : Loc nD τ sig) → Buf (Elt Ideal) ℓ) (ρ : Dev nD → PrngReg) (c : Dev nD) :
    V13 m ρ c (Pipeline.arrRef spec6 0) = aggOf (F := Ideal) (W12 m ρ c (Proc.devRef .tc main_v129)) (srcOf (m ((c : Thread nD τ).loc main_arg1))) (dstOf (m ((c : Thread nD τ).loc main_arg1)))
    ∧ V13 m ρ c (Pipeline.arrRef spec6 1) = mat3 (F := Ideal) (m ((c : Thread nD τ).loc main_arg3))
    ∧ V13 m ρ c (Pipeline.arrRef spec6 2) = row3 (F := Ideal) (m ((c : Thread nD τ).loc main_arg4))
    ∧ V13 m ρ c (Pipeline.arrRef spec6 3) = mat3 (F := Ideal) (m ((c : Thread nD τ).loc main_arg5))
    ∧ V13 m ρ c (Pipeline.arrRef spec6 4) = row3 (F := Ideal) (m ((c : Thread nD τ).loc main_arg6)) := by
  have S := stretch6 (W12 m ρ c) (W12 m ρ c (Proc.devRef .tc main_v129)) (srcOf (m ((c : Thread nD τ).loc main_arg1))) (dstOf (m ((c : Thread nD τ).loc main_arg1))) (m ((c : Thread nD τ).loc main_arg3)) (m ((c : Thread nD τ).loc main_arg4)) (m ((c : Thread nD τ).loc main_arg5)) (m ((c : Thread nD τ).loc main_arg6)) rfl (W12_v1 m ρ c) (W12_v3 m ρ c) (W12_arg3 m ρ c) (W12_arg4 m ρ c) (W12_arg5 m ρ c) (W12_arg6 m ρ c)
  exact ⟨S.1, S.2.1, S.2.2.1, S.2.2.2.1, S.2.2.2.2⟩

/-- The first kernel's two results: the column means and variances of the activations. -/
theorem stats3 (m : (ℓ : Loc nD τ sig) → Buf (Elt Ideal) ℓ) (ρ : Dev nD → PrngReg) (c : Dev nD) (q : Fin 128) :
    (dat6 (F := Ideal) (V13 m ρ) c).arrAt 5 cfg6.N (ix2 (0 : Fin 1) q) = Cert.Spec.meanK (HK3 m ρ c) q
    ∧ (dat6 (F := Ideal) (V13 m ρ) c).arrAt 6 cfg6.N (ix2 (0 : Fin 1) q) = Cert.Spec.varK (HK3 m ρ c) q := by
  obtain ⟨e0, e1, e2, e3, e4⟩ := entry6 m ρ c
  have h5 := final6_5 (V13 m ρ) c q
  have h6 := final6_6 (V13 m ρ) c q
  simp only [e0, e1, e2, e3, e4] at h5 h6
  exact ⟨h5, h6⟩

/-- What the second kernel of layer 3 finds. -/
theorem entry7 (m : (ℓ : Loc nD τ sig) → Buf (Elt Ideal) ℓ) (ρ : Dev nD → PrngReg) (c : Dev nD) :
    V15 m ρ c (Pipeline.arrRef spec7 0) = aggOf (F := Ideal) (W12 m ρ c (Proc.devRef .tc main_v129)) (srcOf (m ((c : Thread nD τ).loc main_arg1))) (dstOf (m ((c : Thread nD τ).loc main_arg1)))
    ∧ V15 m ρ c (Pipeline.arrRef spec7 1) = mat3 (F := Ideal) (m ((c : Thread nD τ).loc main_arg3))
    ∧ V15 m ρ c (Pipeline.arrRef spec7 2) = row3 (F := Ideal) (m ((c : Thread nD τ).loc main_arg4))
    ∧ V15 m ρ c (Pipeline.arrRef spec7 3) = mat3 (F := Ideal) (m ((c : Thread nD τ).loc main_arg5))
    ∧ V15 m ρ c (Pipeline.arrRef spec7 4) = row3 (F := Ideal) (m ((c : Thread nD τ).loc main_arg6))
    ∧ V15 m ρ c (Pipeline.arrRef spec7 5) = (dat6 (F := Ideal) (V13 m ρ) c).arrAt 5 cfg6.N
    ∧ V15 m ρ c (Pipeline.arrRef spec7 6) = (dat6 (F := Ideal) (V13 m ρ) c).arrAt 6 cfg6.N
    ∧ V15 m ρ c (Pipeline.arrRef spec7 7) = row3 (F := Ideal) (m ((c : Thread nD τ).loc main_arg7))
    ∧ V15 m ρ c (Pipeline.arrRef spec7 8) = row3 (F := Ideal) (m ((c : Thread nD τ).loc main_arg8)) := by
  have T := stretch7 (W14 m ρ c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (W14_arg3 m ρ c) (W14_arg4 m ρ c) (W14_arg5 m ρ c) (W14_arg6 m ρ c) (W14_arg7 m ρ c) (W14_arg8 m ρ c)
  refine ⟨?_, T.1, T.2.1, T.2.2.1, T.2.2.2.1, ?_, ?_, T.2.2.2.2.1, T.2.2.2.2.2⟩
  · exact (W15_of m ρ c main_v143 (by decide)).trans ((W14_arr m ρ c 0).trans
      ((kept6 (V13 m ρ) c 0 (by decide)).trans (entry6 m ρ c).1))
  · exact (W15_of m ρ c main_v154_0 (by decide)).trans (W14_arr m ρ c 5)
  · exact (W15_of m ρ c main_v154_1 (by decide)).trans (W14_arr m ρ c 6)

/-- Layer 3's output at (p, q). -/
theorem chain3 (m : (ℓ : Loc nD τ sig) → Buf (Elt Ideal) ℓ) (ρ : Dev nD → PrngReg) (c : Dev nD) (p : Fin 50000) (q : Fin 128) :
    W16 m ρ c (Proc.devRef .tc main_v171) (ix2 p q)
      = Cert.Spec.bn (HK3 m ρ c) (Cert.Spec.meanK (HK3 m ρ c)) (Cert.Spec.varK (HK3 m ρ c))
          (fun k => row3 (F := Ideal) (m ((c : Thread nD τ).loc main_arg7)) (ix2 (0 : Fin 1) k)) (fun k => row3 (F := Ideal) (m ((c : Thread nD τ).loc main_arg8)) (ix2 (0 : Fin 1) k)) p q := by
  obtain ⟨f0, f1, f2, f3, f4, f5, f6, f7, f8⟩ := entry7 m ρ c
  refine (congrFun (W16_arr m ρ c 9) (ix2 p q)).trans ?_
  rw [final7_9 (V15 m ρ) c p q]
  simp only [f0, f1, f2, f3, f4, f5, f6, f7, f8]
  unfold Cert.Spec.bn
  dsimp only
  rw [(stats3 m ρ c q).1, (stats3 m ρ c q).2]
  rfl

end Cert.KernelIdeal.Hand

end
-- ==== Proof.KI.Val8.lean ====
import proofs.«132655_j36919538876779_2_alg».proof.Proof.KI.R8
import proofs.«132655_j36919538876779_2_alg».proof.Proof.Spec
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8's value over the extended reals

What the projection kernel leaves in its output array [256,128], as a function of the arrays the region was entered
with, read through coordinates: entry (p, q) is  max (Σ_k g p k * w k q + b q) 0,  which is `Cert.Spec.lin g w b p q`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx (ix2)

variable (V : (c : Dev nD) → (b : Ref sig .tc) → Buf (Elt Ideal) ((c : Thread nD τ).loc b))

/-! ## The payload at an index

At the exact instance a change of float format is the identity, the matrix product into the zero accumulator is the
plain sum over the contracted axis, and the bias row is broadcast down the rows: entry (p, q) of the store is
max (Σ_k g p k * w k q + b q) 0. -/

theorem hz8 : (![0, 0] : Fin 2 → Nat) = fun _ => 0 := funext fun a => by fin_cases a <;> rfl

theorem lhs8_0 (i : S256x128.Idx) (k : dot_S256x128_S128x128_S256x128_1_0_0_1_n_n.contr.Idx) : (dot_S256x128_S128x128_S256x128_1_0_0_1_n_n.lhsIdx i k 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs8_1 (i : S256x128.Idx) (k : dot_S256x128_S128x128_S256x128_1_0_0_1_n_n.contr.Idx) : (dot_S256x128_S128x128_S256x128_1_0_0_1_n_n.lhsIdx i k 1).val = (k ⟨0, by decide⟩).val :=
  dot_S256x128_S128x128_S256x128_1_0_0_1_n_n.lhsIdx_val_of_single rfl i k
theorem rhs8_0 (i : S256x128.Idx) (k : dot_S256x128_S128x128_S256x128_1_0_0_1_n_n.contr.Idx) : (dot_S256x128_S128x128_S256x128_1_0_0_1_n_n.rhsIdx i k 0).val = (k ⟨0, by decide⟩).val :=
  dot_S256x128_S128x128_S256x128_1_0_0_1_n_n.rhsIdx_val_of_single rfl i k
theorem rhs8_1 (i : S256x128.Idx) (k : dot_S256x128_S128x128_S256x128_1_0_0_1_n_n.contr.Idx) : (dot_S256x128_S128x128_S256x128_1_0_0_1_n_n.rhsIdx i k 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The matrix product into the zero accumulator, at entry (p, q): the sum over the contracted axis. -/
theorem matmul8_apply (a : FVec Ideal S256x128 .bf16) (b : FVec Ideal S128x128 .bf16) (p : Fin 256) (q : Fin 128) :
    matmul dot_S256x128_S128x128_S256x128_1_0_0_1_n_n none a b (constant (F := Ideal) S256x128 .f32 0x00000000#32) (ix2 p q)
      = ∑ k : Fin 128, a (ix2 p k) * b (ix2 k q) := by
  show FloatOps.matmul dot_S256x128_S128x128_S256x128_1_0_0_1_n_n none a b (constant (F := Ideal) S256x128 .f32 0x00000000#32) (ix2 p q) = _
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p q) ((ValueIdx.contrEquiv1 dot_S256x128_S128x128_S256x128_1_0_0_1_n_n 128 rfl rfl).symm k) = ix2 p k := funext fun a => Fin.ext (by
    match a with
    | ⟨0, _⟩ => exact lhs8_0 _ _
    | ⟨1, _⟩ => exact (lhs8_1 _ _).trans hk)
  have er : dot_S256x128_S128x128_S256x128_1_0_0_1_n_n.rhsIdx (ix2 p q) ((ValueIdx.contrEquiv1 dot_S256x128_S128x128_S256x128_1_0_0_1_n_n 128 rfl rfl).symm k) = ix2 k q := funext fun a => Fin.ext (by
    match a with
    | ⟨0, _⟩ => exact (rhs8_0 _ _).trans hk
    | ⟨1, _⟩ => exact rhs8_1 _ _)
  rw [el, er]

/-- The store's payload at entry (p, q). -/
theorem pay8_apply (x0 : Vec Ideal S256x128 .f32) (x1 : Vec Ideal S128x128 .f32) (x2 : Vec Ideal S1x128 .f32) (p : Fin 256) (q : Fin 128) :
    k8_pay1 (F := Ideal) x0 x1 x2 (ix2 p q) = max ((∑ k : Fin 128, x0 (ix2 p k) * x1 (ix2 k q)) + x2 (ix2 0 q)) 0 := by
  unfold k8_pay1
  rw [ValueIdx.maximumf_apply, ValueIdx.addf_apply, ValueIdx.broadcast_apply, shapeCast_self, shapeCast_self, matmul8_apply,
    broadcastTo_apply x2 broadcasts_S1x128_S256x128 (ix2 p q) (ix2 0 q) (fun a => by match a with | ⟨0, _⟩ => rfl | ⟨1, _⟩ => rfl)]
  show max (_ + _) (Ideal.ofBits .f32 0x00000000#32) = _
  rw [Ideal.ofBits_zero_f32]
  rfl

/-! ## From the one block to the array

The grid has one point and every window's block there is its whole array (every block index is 0), so the block the
body reads is the array the region was entered with, and the block it writes back is the whole output array. -/

/-- The printed index maps, decided over the grid: every window's block index is 0 on both axes. -/
theorem idx_facts8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- Input g's block, read at (p, k), is the array entry (p, k). -/
theorem iblk8_0_apply (c : Dev nD) (t : Fin cfg8.N) (p : Fin 256) (k : Fin 128) :
    iblk8 V c 0 t (ix2 p k) = V c (Pipeline.arrRef spec8 0) (ix2 p k) := by
  obtain ⟨e0, e1, -⟩ := idx_facts8 t
  show V c (Pipeline.arrRef spec8 0) (((cfg8.win 0).blk t).view.emb (ix2 p k)) = V c (Pipeline.arrRef spec8 0) (ix2 p k)
  refine congrArg (V c (Pipeline.arrRef spec8 0)) (funext fun a => Fin.ext ?_)
  match a with
  | ⟨0, _⟩ => show win8_0.index t (0 : Fin 2) * 256 + 1 * p.val = p.val; omega
  | ⟨1, _⟩ => show win8_0.index t (1 : Fin 2) * 128 + 1 * k.val = k.val; omega

/-- Input w's block, read at (k, q), is the array entry (k, q). -/
theorem iblk8_1_apply (c : Dev nD) (t : Fin cfg8.N) (k : Fin 128) (q : Fin 128) :
    iblk8 V c 1 t (ix2 k q) = V c (Pipeline.arrRef spec8 1) (ix2 k q) := by
  obtain ⟨-, -, e0, e1, -⟩ := idx_facts8 t
  show V c (Pipeline.arrRef spec8 1) (((cfg8.win 1).blk t).view.emb (ix2 k q)) = V c (Pipeline.arrRef spec8 1) (ix2 k q)
  refine congrArg (V c (Pipeline.arrRef spec8 1)) (funext fun a => Fin.ext ?_)
  match a with
  | ⟨0, _⟩ => show win8_1.index t (0 : Fin 2) * 128 + 1 * k.val = k.val; omega
  | ⟨1, _⟩ => show win8_1.index t (1 : Fin 2) * 128 + 1 * q.val = q.val; omega

/-- Input b's block, read at (0, q), is the array entry (0, q). -/
theorem iblk8_2_apply (c : Dev nD) (t : Fin cfg8.N) (q : Fin 128) :
    iblk8 V c 2 t (ix2 0 q) = V c (Pipeline.arrRef spec8 2) (ix2 0 q) := by
  obtain ⟨-, -, -, -, e0, e1, -⟩ := idx_facts8 t
  show V c (Pipeline.arrRef spec8 2) (((cfg8.win 2).blk t).view.emb (ix2 0 q)) = V c (Pipeline.arrRef spec8 2) (ix2 0 q)
  refine congrArg (V c (Pipeline.arrRef spec8 2)) (funext fun a => Fin.ext ?_)
  match a with
  | ⟨0, _⟩ => show win8_2.index t (0 : Fin 2) * 1 + 1 * (0 : Fin 1).val = (0 : Fin 1).val; omega
  | ⟨1, _⟩ => show win8_2.index t (1 : Fin 2) * 128 + 1 * q.val = q.val; omega

/-- What the output array ends holding: entry (p, q) is max (Σ_k g p k * w k q + b q) 0 of the arrays the region was
    entered with. -/
def G8 (c : Dev nD) : S256x128.Idx → EReal := fun i =>
  Cert.Spec.lin (fun p q => V c (Pipeline.arrRef spec8 0) (ix2 p q)) (fun p q => V c (Pipeline.arrRef spec8 1) (ix2 p q))
    (fun q => V c (Pipeline.arrRef spec8 2) (ix2 0 q)) ⟨(i 0).val, (i 0).isLt⟩ ⟨(i 1).val, (i 1).isLt⟩

/-- What the one point writes back is the block of `G8`. -/
theorem flushed8_3_eq (c : Dev nD) (t : Fin cfg8.N) :
    (dat8 (F := Ideal) V c).flushed 3 t = ((cfg8.win 3).blk t).view.read (Elt Ideal) (G8 V c) := by
  show (cfg8.win 3).cut (grid8.coords t) ((dat8 V c).after 3 t) = _
  rw [after8_3]
  unfold out8_3
  rw [View.canon_unit_zero hz8]
  simp only [View.ld_unit_zero (S := S256x128) hz8, View.ld_unit_zero (S := S128x128) hz8, View.ld_unit_zero (S := S1x128) hz8]
  obtain ⟨-, -, -, -, -, -, e6, e7⟩ := idx_facts8 t
  funext j
  obtain ⟨p, q, rfl⟩ : ∃ (p : Fin 256) (q : Fin 128), j = ix2 p q := ⟨j 0, j 1, ValueIdx.eq_ix2 j⟩
  show k8_pay1 (F := Ideal) (iblk8 V c 0 t) (iblk8 V c 1 t) (iblk8 V c 2 t) (ix2 p q) = G8 V c (((cfg8.win 3).blk t).view.emb (ix2 p q))
  refine (pay8_apply (iblk8 V c 0 t) (iblk8 V c 1 t) (iblk8 V c 2 t) p q).trans ?_
  have hemb : ((cfg8.win 3).blk t).view.emb (ix2 p q) = ix2 p q := funext fun a => Fin.ext (by
    match a with
    | ⟨0, _⟩ => show win8_3.index t (0 : Fin 2) * 256 + 1 * p.val = p.val; omega
    | ⟨1, _⟩ => show win8_3.index t (1 : Fin 2) * 128 + 1 * q.val = q.val; omega)
  rw [hemb]
  simp only [iblk8_0_apply, iblk8_1_apply, iblk8_2_apply]
  rfl

/-- The one point's block covers the output array. -/
theorem covered8_3 (i : S256x128.Idx) : ∃ t : Fin cfg8.N, (cfg8.win 3).flush t = true ∧ i ∈ ((cfg8.win 3).blk t).view.set := by
  refine ⟨t8_0, flush8_3 t8_0, ?_⟩
  obtain ⟨-, -, -, -, -, -, e6, e7⟩ := idx_facts8 t8_0
  show i ∈ ((View.whole main_v176).slice (win8_3.rect t8_0)).set
  rw [View.set_slice_whole, Rect.mem_set_unit]
  intro a
  match a with
  | ⟨0, _⟩ =>
    show win8_3.index t8_0 (0 : Fin 2) * 256 ≤ (i 0).val ∧ (i 0).val < win8_3.index t8_0 (0 : Fin 2) * 256 + 256
    have h : (i 0).val < 256 := (i 0).isLt
    omega
  | ⟨1, _⟩ =>
    show win8_3.index t8_0 (1 : Fin 2) * 128 ≤ (i 1).val ∧ (i 1).val < win8_3.index t8_0 (1 : Fin 2) * 128 + 128
    have h : (i 1).val < 128 := (i 1).isLt
    omega

/-- The output array after the region: relu (g · w + b) of the arrays the region was entered with, entry by entry. -/
theorem final8_3 (c : Dev nD) (p : Fin 256) (q : Fin 128) :
    (dat8 (F := Ideal) V c).arrAt 3 cfg8.N (ix2 p q)
      = Cert.Spec.lin (fun p q => V c (Pipeline.arrRef spec8 0) (ix2 p q)) (fun p q => V c (Pipeline.arrRef spec8 1) (ix2 p q))
          (fun q => V c (Pipeline.arrRef spec8 2) (ix2 0 q)) p q :=
  congrFun ((dat8 (F := Ideal) V c).arrAt_eq_of_cover 3 (G8 V c) (fun t _ => flushed8_3_eq V c t) (covered8_3)) (ix2 p q)

end Cert.KernelIdeal.Hand

end
-- ==== Proof.KI.Chain4.lean ====
import proofs.«132655_j36919538876779_2_alg».proof.Proof.KI.Carry
import proofs.«132655_j36919538876779_2_alg».proof.Proof.KI.Val8
import proofs.«132655_j36919538876779_2_alg».proof.Proof.Spec
import Idealize.ShloMosaic.Lib.ValueIdx

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-!
# The projection of the idealized kernel program, read at an entry

After the fourth layer the host sums the node rows of each graph; the last kernel applies Linear then ReLU to those
256 rows with the projection matrix and its bias.
-/

/-- What the last kernel finds: the per-graph sums, the projection matrix, the bias as one row. -/
theorem entry8 (m : (ℓ : Loc nD τ sig) → Buf (Elt Ideal) ℓ) (ρ : Dev nD → PrngReg) (c : Dev nD) :
    V17 m ρ c (Pipeline.arrRef spec8 0) = poolOf (F := Ideal) (W16 m ρ c (Proc.devRef .tc main_v171)) (m ((c : Thread nD τ).loc main_arg2))
    ∧ V17 m ρ c (Pipeline.arrRef spec8 1) = (m ((c : Thread nD τ).loc main_arg9))
    ∧ V17 m ρ c (Pipeline.arrRef spec8 2) = rowOfVec (F := Ideal) (m ((c : Thread nD τ).loc main_arg10)) := by
  have S := stretch8 (W16 m ρ c) (W16 m ρ c (Proc.devRef .tc main_v171)) (m ((c : Thread nD τ).loc main_arg2)) (m ((c : Thread nD τ).loc main_arg10)) rfl (W16_arg2 m ρ c) (W16_arg10 m ρ c)
  exact ⟨S.1, W17_arg9 m ρ c, S.2⟩

/-- The program's result at (p, q). -/
theorem chain4 (m : (ℓ : Loc nD τ sig) → Buf (Elt Ideal) ℓ) (ρ : Dev nD → PrngReg) (c : Dev nD) (p : Fin 256) (q : Fin 128) :
    W18 m ρ c (Proc.devRef .tc main_v176) (ix2 p q)
      = Cert.Spec.lin (fun p k => poolOf (F := Ideal) (W16 m ρ c (Proc.devRef .tc main_v171)) (m ((c : Thread nD τ).loc main_arg2)) (ix2 p k))
          (fun k q => (m ((c : Thread nD τ).loc main_arg9)) (ix2 k q)) (fun q => rowOfVec (F := Ideal) (m ((c : Thread nD τ).loc main_arg10)) (ix2 (0 : Fin 1) q)) p q := by
  obtain ⟨g0, g1, g2⟩ := entry8 m ρ c
  refine (congrFun (W18_arr m ρ c 3) (ix2 p q)).trans ?_
  rw [final8_3 (V17 m ρ) c p q]
  simp only [g0, g1, g2]

end Cert.KernelIdeal.Hand

end
-- ==== Proof.Ref.Base.lean ====
/-
  Constants the reference spells, as the extended reals they denote: the divisor word is the real 50000.
-/
import Idealize.ShloMosaic.PureOps.Ideal.Laws

noncomputable section

namespace Cert.ReferenceIdeal.Hand

open Idealize.ShloMosaic

/-- The f32 word 0x47435000 is 1.52587890625 * 2^15 = 50000 exactly. -/
theorem ofBits_50000 : Ideal.ofBits .f32 0x47435000#32 = ((50000 : ℝ) : EReal) := by
  simp [Ideal.ofBits, Ideal.ieee, -EReal.coe_mul]; norm_num

/-- A float sum's initial value, the zero word, adds nothing. -/
theorem zero_word_add (s : EReal) : Ideal.ofBits .f32 0x00000000#32 + s = s := by
  rw [Ideal.ofBits_zero_f32, zero_add]

end Cert.ReferenceIdeal.Hand

end
-- ==== Proof.Ref.L0.lean ====
/-
  Layer 0 of the reference, read at an index: from the aggregated features (taken as given) to the layer's output,
  Linear, ReLU, Linear, ReLU, then every column normalized by its mean and biased variance over the 50000 rows
  (both as quotients by 50000) and the affine map.
-/
import proofs.«132655_j36919538876779_2_alg».proof.Proof.RefReadP
import proofs.«132655_j36919538876779_2_alg».proof.Proof.Spec
import proofs.«132655_j36919538876779_2_alg».proof.Proof.Ref.Base

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo Idealize.ShloMosaic.ValueIdx

/-- The layer's w1: slice 0 of the stack of four, read by its two coordinates. -/
theorem w1_0 (x3 : (⟨S4x128x128, .f32⟩ : BufTy).Contents (Elt Ideal)) (j k : Fin 128) :
    val_main_v16 (F := Ideal) x3 (ix2 j k) = x3 (ix3 0 j k) := by
  rw [val_main_v16_apply, val_main_v15_apply]
  refine congrArg x3 (funext fun a => ?_)
  match a with
  | ⟨0, _⟩ => exact Fin.ext (by show 0 + 0 = 0; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b1: row 0 of the stack of four, the same on every row of the batch. -/
theorem b1_0 (x4 : (⟨S4x128, .f32⟩ : BufTy).Contents (Elt Ideal)) (p : Fin 50000) (k : Fin 128) :
    val_main_v21 (F := Ideal) x4 (ix2 p k) = x4 (ix2 0 k) := by
  rw [val_main_v21_apply, val_main_v20_apply, val_main_v19_apply, val_main_v18_apply]
  refine congrArg x4 (funext fun a => ?_)
  match a with
  | ⟨0, _⟩ => exact Fin.ext (by show 0 + 0 = 0; rfl)
  | ⟨1, _⟩ => exact Fin.ext (by have := k.isLt; show k.val % 128 = k.val; omega)

/-- The layer's w2: slice 0 of the stack of four, read by its two coordinates. -/
theorem w2_0 (x5 : (⟨S4x128x128, .f32⟩ : BufTy).Contents (Elt Ideal)) (j k : Fin 128) :
    val_main_v25 (F := Ideal) x5 (ix2 j k) = x5 (ix3 0 j k) := by
  rw [val_main_v25_apply, val_main_v24_apply]
  refine congrArg x5 (funext fun a => ?_)
  match a with
  | ⟨0, _⟩ => exact Fin.ext (by show 0 + 0 = 0; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b2: row 0 of the stack of four, the same on every row of the batch. -/
theorem b2_0 (x6 : (⟨S4x128, .f32⟩ : BufTy).Contents (Elt Ideal)) (p : Fin 50000) (k : Fin 128) :
    val_main_v30 (F := Ideal) x6 (ix2 p k) = x6 (ix2 0 k) := by
  rw [val_main_v30_apply, val_main_v29_apply, val_main_v28_apply, val_main_v27_apply]
  refine congrArg x6 (funext fun a => ?_)
  match a with
  | ⟨0, _⟩ => exact Fin.ext (by show 0 + 0 = 0; rfl)
  | ⟨1, _⟩ => exact Fin.ext (by have := k.isLt; show k.val % 128 = k.val; omega)

/-- The layer's gamma: row 0 of the stack of four, the same on every row of the batch. -/
theorem gamma_0 (x7 : (⟨S4x128, .f32⟩ : BufTy).Contents (Elt Ideal)) (p : Fin 50000) (k : Fin 128) :
    val_main_v55 (F := Ideal) x7 (ix2 p k) = x7 (ix2 0 k) := by
  rw [val_main_v55_apply, val_main_v54_apply, val_main_v53_apply, val_main_v52_apply]
  refine congrArg x7 (funext fun a => ?_)
  match a with
  | ⟨0, _⟩ => exact Fin.ext (by show 0 + 0 = 0; rfl)
  | ⟨1, _⟩ => exact Fin.ext (by have := k.isLt; show k.val % 128 = k.val; omega)

/-- The layer's beta: row 0 of the stack of four, the same on every row of the batch. -/
theorem beta_0 (x8 : (⟨S4x128, .f32⟩ : BufTy).Contents (Elt Ideal)) (p : Fin 50000) (k : Fin 128) :
    val_main_v60 (F := Ideal) x8 (ix2 p k) = x8 (ix2 0 k) := by
  rw [val_main_v60_apply, val_main_v59_apply, val_main_v58_apply, val_main_v57_apply]
  refine congrArg x8 (funext fun a => ?_)
  match a with
  | ⟨0, _⟩ => exact Fin.ext (by show 0 + 0 = 0; rfl)
  | ⟨1, _⟩ => exact Fin.ext (by have := k.isLt; show k.val % 128 = k.val; omega)

/-- The clamp's lower bound is the zero word, the real 0. -/
theorem reluA_0 (i : S50000x128.Idx) : val_main_call0_v0 (F := Ideal) i = 0 := by
  rw [val_main_call0_v0_apply, val_main_call0_cst_apply, Ideal.ofBits_def, Ideal.ofBits_zero_f32]

/-- The clamp's lower bound is the zero word, the real 0. -/
theorem reluB_0 (i : S50000x128.Idx) : val_main_call1_v0 (F := Ideal) i = 0 := by
  rw [val_main_call1_v0_apply, val_main_call1_cst_apply, Ideal.ofBits_def, Ideal.ofBits_zero_f32]

/-- The first Linear and ReLU at row p, column k. -/
theorem hid_0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (p : Fin 50000) (k : Fin 128) :
    val_main_v23 (F := Ideal) x0 x1 x3 x4 (ix2 p k) = Cert.Spec.lin (fun p j => val_main_v14 (F := Ideal) x0 x1 (ix2 p j)) (fun j k => x3 (ix3 0 j k)) (fun k => x4 (ix2 0 k)) p k := by
  have hs : (∑ j : Fin 128, (val_main_v14 (F := Ideal) x0 x1) (lidx_main_v17 (ix2 p k) j) * (val_main_v16 (F := Ideal) x3) (ridx_main_v17 (ix2 p k) j))
      = ∑ j : Fin 128, val_main_v14 (F := Ideal) x0 x1 (ix2 p j) * x3 (ix3 0 j k) :=
    Fintype.sum_congr _ _ fun j => by
      beta_reduce
      rw [show lidx_main_v17 (ix2 p k) j = ix2 p j from funext fun a => by match a with | ⟨0, _⟩ => rfl | ⟨1, _⟩ => rfl,
        show ridx_main_v17 (ix2 p k) j = ix2 j k from funext fun a => by match a with | ⟨0, _⟩ => rfl | ⟨1, _⟩ => rfl, w1_0]
  rw [val_main_v23_apply, val_main_v22_apply, val_main_v17_apply, reluA_0, b1_0, Ideal.maximumf_def, Ideal.addf_def, hs]
  simp only [Cert.Spec.lin]

/-- The second Linear and ReLU: the layer's features before normalization. -/
theorem hpre_0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (p : Fin 50000) (q : Fin 128) :
    val_main_v32 (F := Ideal) x0 x1 x3 x4 x5 x6 (ix2 p q) = Cert.Spec.mlp (fun p j => val_main_v14 (F := Ideal) x0 x1 (ix2 p j)) (fun j k => x3 (ix3 0 j k)) (fun k => x4 (ix2 0 k)) (fun j k => x5 (ix3 0 j k)) (fun k => x6 (ix2 0 k)) p q := by
  have hs : (∑ k : Fin 128, (val_main_v23 (F := Ideal) x0 x1 x3 x4) (lidx_main_v26 (ix2 p q) k) * (val_main_v25 (F := Ideal) x5) (ridx_main_v26 (ix2 p q) k))
      = ∑ k : Fin 128, Cert.Spec.lin (fun p j => val_main_v14 (F := Ideal) x0 x1 (ix2 p j)) (fun j k => x3 (ix3 0 j k)) (fun k => x4 (ix2 0 k)) p k * x5 (ix3 0 k q) :=
    Fintype.sum_congr _ _ fun k => by
      beta_reduce
      rw [show lidx_main_v26 (ix2 p q) k = ix2 p k from funext fun a => by match a with | ⟨0, _⟩ => rfl | ⟨1, _⟩ => rfl,
        show ridx_main_v26 (ix2 p q) k = ix2 k q from funext fun a => by match a with | ⟨0, _⟩ => rfl | ⟨1, _⟩ => rfl, w2_0, hid_0]
  rw [val_main_v32_apply, val_main_v31_apply, val_main_v26_apply, reluB_0, b2_0, Ideal.maximumf_def, Ideal.addf_def, hs]
  simp only [Cert.Spec.mlp, Cert.Spec.lin]

/-- The column mean: the column's sum over the 50000 rows, divided by 50000. -/
theorem mean_0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (q : Fin 128) :
    val_main_v35 (F := Ideal) x0 x1 x3 x4 x5 x6 (ix1 q) = Cert.Spec.meanR (fun p q => val_main_v32 (F := Ideal) x0 x1 x3 x4 x5 x6 (ix2 p q)) q := by
  have hs : (∑ k : Fin 50000, (val_main_v32 (F := Ideal) x0 x1 x3 x4 x5 x6) (idx_main_v33 (ix1 q) k)) = ∑ k : Fin 50000, val_main_v32 (F := Ideal) x0 x1 x3 x4 x5 x6 (ix2 k q) :=
    Fintype.sum_congr _ _ fun k =>
      congrArg _ (funext fun a => by match a with | ⟨0, _⟩ => rfl | ⟨1, _⟩ => rfl)
  rw [val_main_v35_apply, val_main_v33_apply, val_main_v34_apply, val_main_cst_2_apply, val_main_cst_1_apply, Ideal.hostDivf_def, Ideal.ofBits_def, Ideal.ofBits_def,
    zero_word_add, ofBits_50000, hs]
  simp only [Cert.Spec.meanR]

/-- The biased column variance: the sum of squared deviations from the column mean, divided by 50000. -/
theorem var_0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (q : Fin 128) :
    val_main_v42 (F := Ideal) x0 x1 x3 x4 x5 x6 (ix1 q) = Cert.Spec.varR (fun p q => val_main_v32 (F := Ideal) x0 x1 x3 x4 x5 x6 (ix2 p q)) q := by
  have hs : (∑ k : Fin 50000, (val_main_v39 (F := Ideal) x0 x1 x3 x4 x5 x6) (idx_main_v40 (ix1 q) k))
      = ∑ k : Fin 50000, (val_main_v32 (F := Ideal) x0 x1 x3 x4 x5 x6 (ix2 k q) - Cert.Spec.meanR (fun p q => val_main_v32 (F := Ideal) x0 x1 x3 x4 x5 x6 (ix2 p q)) q) * (val_main_v32 (F := Ideal) x0 x1 x3 x4 x5 x6 (ix2 k q) - Cert.Spec.meanR (fun p q => val_main_v32 (F := Ideal) x0 x1 x3 x4 x5 x6 (ix2 p q)) q) :=
    Fintype.sum_congr _ _ fun k => by
      beta_reduce
      rw [show idx_main_v40 (ix1 q) k = ix2 k q from funext fun a => by match a with | ⟨0, _⟩ => rfl | ⟨1, _⟩ => rfl,
        val_main_v39_apply, val_main_v38_apply, val_main_v37_apply, val_main_v36_apply,
        show idx_main_v36 (idx_main_v37 (ix2 k q)) = ix1 q from funext fun a => by match a with | ⟨0, _⟩ => rfl,
        mean_0, Ideal.mulf_def, Ideal.subf_def]
  rw [val_main_v42_apply, val_main_v40_apply, val_main_v41_apply, val_main_cst_4_apply, val_main_cst_3_apply, Ideal.hostDivf_def, Ideal.ofBits_def, Ideal.ofBits_def,
    zero_word_add, ofBits_50000, hs]
  simp only [Cert.Spec.varR]

/-- The layer's output over the features before normalization, with the reference's own mean and variance. -/
theorem bn_0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v61 (F := Ideal) x0 x1 x3 x4 x5 x6 x7 x8 (ix2 p q) = Cert.Spec.bn (fun p q => val_main_v32 (F := Ideal) x0 x1 x3 x4 x5 x6 (ix2 p q)) (Cert.Spec.meanR (fun p q => val_main_v32 (F := Ideal) x0 x1 x3 x4 x5 x6 (ix2 p q))) (Cert.Spec.varR (fun p q => val_main_v32 (F := Ideal) x0 x1 x3 x4 x5 x6 (ix2 p q))) (fun k => x7 (ix2 0 k)) (fun k => x8 (ix2 0 k)) p q := by
  rw [val_main_v61_apply, val_main_v56_apply, val_main_v51_apply, val_main_v45_apply, val_main_v44_apply, val_main_v43_apply, val_main_v50_apply, val_main_v49_apply, val_main_v48_apply, val_main_v47_apply, val_main_v46_apply, val_main_cst_5_apply,
    show idx_main_v43 (idx_main_v44 (ix2 p q)) = ix1 q from funext fun a => by match a with | ⟨0, _⟩ => rfl,
    show idx_main_v49 (idx_main_v50 (ix2 p q)) = ix1 q from funext fun a => by match a with | ⟨0, _⟩ => rfl,
    mean_0, var_0, gamma_0, beta_0, Ideal.addf_def, Ideal.addf_def, Ideal.mulf_def, Ideal.mulf_def, Ideal.subf_def,
    Ideal.hostUnary_rsqrt_def, Ideal.ofBits_def]
  rfl

/-- Layer 0: its output at row p, column q is the specification's layer of the aggregated features. -/
theorem layer0 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v61 (F := Ideal) x0 x1 x3 x4 x5 x6 x7 x8 (ix2 p q)
      = let H := Cert.Spec.mlp (fun p j => val_main_v14 (F := Ideal) x0 x1 (ix2 p j)) (fun j k => x3 (ix3 0 j k)) (fun k => x4 (ix2 0 k)) (fun j k => x5 (ix3 0 j k)) (fun k => x6 (ix2 0 k))
        Cert.Spec.bn H (Cert.Spec.meanR H) (Cert.Spec.varR H) (fun k => x7 (ix2 0 k)) (fun k => x8 (ix2 0 k)) p q := by
  have hH : (fun p q => val_main_v32 (F := Ideal) x0 x1 x3 x4 x5 x6 (ix2 p q)) = (Cert.Spec.mlp (fun p j => val_main_v14 (F := Ideal) x0 x1 (ix2 p j)) (fun j k => x3 (ix3 0 j k)) (fun k => x4 (ix2 0 k)) (fun j k => x5 (ix3 0 j k)) (fun k => x6 (ix2 0 k))) :=
    funext fun p => funext fun q => hpre_0 x0 x1 x3 x4 x5 x6 p q
  have h := bn_0 x0 x1 x3 x4 x5 x6 x7 x8 p q
  rw [hH] at h
  exact h

end Cert.ReferenceIdeal.Hand

end
-- ==== Proof.Ref.L1.lean ====
/-
  Layer 1 of the reference, read at an index: from the aggregated features (taken as given) to the layer's output,
  Linear, ReLU, Linear, ReLU, then every column normalized by its mean and biased variance over the 50000 rows
  (both as quotients by 50000) and the affine map.
-/
import proofs.«132655_j36919538876779_2_alg».proof.Proof.RefReadP
import proofs.«132655_j36919538876779_2_alg».proof.Proof.Spec
import proofs.«132655_j36919538876779_2_alg».proof.Proof.Ref.Base

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo Idealize.ShloMosaic.ValueIdx

/-- The layer's w1: slice 1 of the stack of four, read by its two coordinates. -/
theorem w1_1 (x3 : (⟨S4x128x128, .f32⟩ : BufTy).Contents (Elt Ideal)) (j k : Fin 128) :
    val_main_v74 (F := Ideal) x3 (ix2 j k) = x3 (ix3 1 j k) := by
  rw [val_main_v74_apply, val_main_v73_apply]
  refine congrArg x3 (funext fun a => ?_)
  match a with
  | ⟨0, _⟩ => exact Fin.ext (by show 1 + 0 = 1; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b1: row 1 of the stack of four, the same on every row of the batch. -/
theorem b1_1 (x4 : (⟨S4x128, .f32⟩ : BufTy).Contents (Elt Ideal)) (p : Fin 50000) (k : Fin 128) :
    val_main_v79 (F := Ideal) x4 (ix2 p k) = x4 (ix2 1 k) := by
  rw [val_main_v79_apply, val_main_v78_apply, val_main_v77_apply, val_main_v76_apply]
  refine congrArg x4 (funext fun a => ?_)
  match a with
  | ⟨0, _⟩ => exact Fin.ext (by show 1 + 0 = 1; rfl)
  | ⟨1, _⟩ => exact Fin.ext (by have := k.isLt; show k.val % 128 = k.val; omega)

/-- The layer's w2: slice 1 of the stack of four, read by its two coordinates. -/
theorem w2_1 (x5 : (⟨S4x128x128, .f32⟩ : BufTy).Contents (Elt Ideal)) (j k : Fin 128) :
    val_main_v83 (F := Ideal) x5 (ix2 j k) = x5 (ix3 1 j k) := by
  rw [val_main_v83_apply, val_main_v82_apply]
  refine congrArg x5 (funext fun a => ?_)
  match a with
  | ⟨0, _⟩ => exact Fin.ext (by show 1 + 0 = 1; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b2: row 1 of the stack of four, the same on every row of the batch. -/
theorem b2_1 (x6 : (⟨S4x128, .f32⟩ : BufTy).Contents (Elt Ideal)) (p : Fin 50000) (k : Fin 128) :
    val_main_v88 (F := Ideal) x6 (ix2 p k) = x6 (ix2 1 k) := by
  rw [val_main_v88_apply, val_main_v87_apply, val_main_v86_apply, val_main_v85_apply]
  refine congrArg x6 (funext fun a => ?_)
  match a with
  | ⟨0, _⟩ => exact Fin.ext (by show 1 + 0 = 1; rfl)
  | ⟨1, _⟩ => exact Fin.ext (by have := k.isLt; show k.val % 128 = k.val; omega)

/-- The layer's gamma: row 1 of the stack of four, the same on every row of the batch. -/
theorem gamma_1 (x7 : (⟨S4x128, .f32⟩ : BufTy).Contents (Elt Ideal)) (p : Fin 50000) (k : Fin 128) :
    val_main_v113 (F := Ideal) x7 (ix2 p k) = x7 (ix2 1 k) := by
  rw [val_main_v113_apply, val_main_v112_apply, val_main_v111_apply, val_main_v110_apply]
  refine congrArg x7 (funext fun a => ?_)
  match a with
  | ⟨0, _⟩ => exact Fin.ext (by show 1 + 0 = 1; rfl)
  | ⟨1, _⟩ => exact Fin.ext (by have := k.isLt; show k.val % 128 = k.val; omega)

/-- The layer's beta: row 1 of the stack of four, the same on every row of the batch. -/
theorem beta_1 (x8 : (⟨S4x128, .f32⟩ : BufTy).Contents (Elt Ideal)) (p : Fin 50000) (k : Fin 128) :
    val_main_v118 (F := Ideal) x8 (ix2 p k) = x8 (ix2 1 k) := by
  rw [val_main_v118_apply, val_main_v117_apply, val_main_v116_apply, val_main_v115_apply]
  refine congrArg x8 (funext fun a => ?_)
  match a with
  | ⟨0, _⟩ => exact Fin.ext (by show 1 + 0 = 1; rfl)
  | ⟨1, _⟩ => exact Fin.ext (by have := k.isLt; show k.val % 128 = k.val; omega)

/-- The clamp's lower bound is the zero word, the real 0. -/
theorem reluA_1 (i : S50000x128.Idx) : val_main_call2_v0 (F := Ideal) i = 0 := by
  rw [val_main_call2_v0_apply, val_main_call2_cst_apply, Ideal.ofBits_def, Ideal.ofBits_zero_f32]

/-- The clamp's lower bound is the zero word, the real 0. -/
theorem reluB_1 (i : S50000x128.Idx) : val_main_call3_v0 (F := Ideal) i = 0 := by
  rw [val_main_call3_v0_apply, val_main_call3_cst_apply, Ideal.ofBits_def, Ideal.ofBits_zero_f32]

/-- The first Linear and ReLU at row p, column k. -/
theorem hid_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (k : Fin 128) :
    val_main_v81 (F := Ideal) x0 x1 x3 x4 x5 x6 x7 x8 (ix2 p k) = Cert.Spec.lin (fun p j => val_main_v72 (F := Ideal) x0 x1 x3 x4 x5 x6 x7 x8 (ix2 p j)) (fun j k => x3 (ix3 1 j k)) (fun k => x4 (ix2 1 k)) p k := by
  have hs : (∑ j : Fin 128, (val_main_v72 (F := Ideal) x0 x1 x3 x4 x5 x6 x7 x8) (lidx_main_v75 (ix2 p k) j) * (val_main_v74 (F := Ideal) x3) (ridx_main_v75 (ix2 p k) j))
      = ∑ j : Fin 128, val_main_v72 (F := Ideal) x0 x1 x3 x4 x5 x6 x7 x8 (ix2 p j) * x3 (ix3 1 j k) :=
    Fintype.sum_congr _ _ fun j => by
      beta_reduce
      rw [show lidx_main_v75 (ix2 p k) j = ix2 p j from funext fun a => by match a with | ⟨0, _⟩ => rfl | ⟨1, _⟩ => rfl,
        show ridx_main_v75 (ix2 p k) j = ix2 j k from funext fun a => by match a with | ⟨0, _⟩ => rfl | ⟨1, _⟩ => rfl, w1_1]
  rw [val_main_v81_apply, val_main_v80_apply, val_main_v75_apply, reluA_1, b1_1, Ideal.maximumf_def, Ideal.addf_def, hs]
  simp only [Cert.Spec.lin]

/-- The second Linear and ReLU: the layer's features before normalization. -/
theorem hpre_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v90 (F := Ideal) x0 x1 x3 x4 x5 x6 x7 x8 (ix2 p q) = Cert.Spec.mlp (fun p j => val_main_v72 (F := Ideal) x0 x1 x3 x4 x5 x6 x7 x8 (ix2 p j)) (fun j k => x3 (ix3 1 j k)) (fun k => x4 (ix2 1 k)) (fun j k => x5 (ix3 1 j k)) (fun k => x6 (ix2 1 k)) p q := by
  have hs : (∑ k : Fin 128, (val_main_v81 (F := Ideal) x0 x1 x3 x4 x5 x6 x7 x8) (lidx_main_v84 (ix2 p q) k) * (val_main_v83 (F := Ideal) x5) (ridx_main_v84 (ix2 p q) k))
      = ∑ k : Fin 128, Cert.Spec.lin (fun p j => val_main_v72 (F := Ideal) x0 x1 x3 x4 x5 x6 x7 x8 (ix2 p j)) (fun j k => x3 (ix3 1 j k)) (fun k => x4 (ix2 1 k)) p k * x5 (ix3 1 k q) :=
    Fintype.sum_congr _ _ fun k => by
      beta_reduce
      rw [show lidx_main_v84 (ix2 p q) k = ix2 p k from funext fun a => by match a with | ⟨0, _⟩ => rfl | ⟨1, _⟩ => rfl,
        show ridx_main_v84 (ix2 p q) k = ix2 k q from funext fun a => by match a with | ⟨0, _⟩ => rfl | ⟨1, _⟩ => rfl, w2_1, hid_1]
  rw [val_main_v90_apply, val_main_v89_apply, val_main_v84_apply, reluB_1, b2_1, Ideal.maximumf_def, Ideal.addf_def, hs]
  simp only [Cert.Spec.mlp, Cert.Spec.lin]

/-- The column mean: the column's sum over the 50000 rows, divided by 50000. -/
theorem mean_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v93 (F := Ideal) x0 x1 x3 x4 x5 x6 x7 x8 (ix1 q) = Cert.Spec.meanR (fun p q => val_main_v90 (F := Ideal) x0 x1 x3 x4 x5 x6 x7 x8 (ix2 p q)) q := by
  have hs : (∑ k : Fin 50000, (val_main_v90 (F := Ideal) x0 x1 x3 x4 x5 x6 x7 x8) (idx_main_v91 (ix1 q) k)) = ∑ k : Fin 50000, val_main_v90 (F := Ideal) x0 x1 x3 x4 x5 x6 x7 x8 (ix2 k q) :=
    Fintype.sum_congr _ _ fun k =>
      congrArg _ (funext fun a => by match a with | ⟨0, _⟩ => rfl | ⟨1, _⟩ => rfl)
  rw [val_main_v93_apply, val_main_v91_apply, val_main_v92_apply, val_main_cst_10_apply, val_main_cst_9_apply, Ideal.hostDivf_def, Ideal.ofBits_def, Ideal.ofBits_def,
    zero_word_add, ofBits_50000, hs]
  simp only [Cert.Spec.meanR]

/-- The biased column variance: the sum of squared deviations from the column mean, divided by 50000. -/
theorem var_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v100 (F := Ideal) x0 x1 x3 x4 x5 x6 x7 x8 (ix1 q) = Cert.Spec.varR (fun p q => val_main_v90 (F := Ideal) x0 x1 x3 x4 x5 x6 x7 x8 (ix2 p q)) q := by
  have hs : (∑ k : Fin 50000, (val_main_v97 (F := Ideal) x0 x1 x3 x4 x5 x6 x7 x8) (idx_main_v98 (ix1 q) k))
      = ∑ k : Fin 50000, (val_main_v90 (F := Ideal) x0 x1 x3 x4 x5 x6 x7 x8 (ix2 k q) - Cert.Spec.meanR (fun p q => val_main_v90 (F := Ideal) x0 x1 x3 x4 x5 x6 x7 x8 (ix2 p q)) q) * (val_main_v90 (F := Ideal) x0 x1 x3 x4 x5 x6 x7 x8 (ix2 k q) - Cert.Spec.meanR (fun p q => val_main_v90 (F := Ideal) x0 x1 x3 x4 x5 x6 x7 x8 (ix2 p q)) q) :=
    Fintype.sum_congr _ _ fun k => by
      beta_reduce
      rw [show idx_main_v98 (ix1 q) k = ix2 k q from funext fun a => by match a with | ⟨0, _⟩ => rfl | ⟨1, _⟩ => rfl,
        val_main_v97_apply, val_main_v96_apply, val_main_v95_apply, val_main_v94_apply,
        show idx_main_v94 (idx_main_v95 (ix2 k q)) = ix1 q from funext fun a => by match a with | ⟨0, _⟩ => rfl,
        mean_1, Ideal.mulf_def, Ideal.subf_def]
  rw [val_main_v100_apply, val_main_v98_apply, val_main_v99_apply, val_main_cst_12_apply, val_main_cst_11_apply, Ideal.hostDivf_def, Ideal.ofBits_def, Ideal.ofBits_def,
    zero_word_add, ofBits_50000, hs]
  simp only [Cert.Spec.varR]

/-- The layer's output over the features before normalization, with the reference's own mean and variance. -/
theorem bn_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v119 (F := Ideal) x0 x1 x3 x4 x5 x6 x7 x8 (ix2 p q) = Cert.Spec.bn (fun p q => val_main_v90 (F := Ideal) x0 x1 x3 x4 x5 x6 x7 x8 (ix2 p q)) (Cert.Spec.meanR (fun p q => val_main_v90 (F := Ideal) x0 x1 x3 x4 x5 x6 x7 x8 (ix2 p q))) (Cert.Spec.varR (fun p q => val_main_v90 (F := Ideal) x0 x1 x3 x4 x5 x6 x7 x8 (ix2 p q))) (fun k => x7 (ix2 1 k)) (fun k => x8 (ix2 1 k)) p q := by
  rw [val_main_v119_apply, val_main_v114_apply, val_main_v109_apply, val_main_v103_apply, val_main_v102_apply, val_main_v101_apply, val_main_v108_apply, val_main_v107_apply, val_main_v106_apply, val_main_v105_apply, val_main_v104_apply, val_main_cst_13_apply,
    show idx_main_v101 (idx_main_v102 (ix2 p q)) = ix1 q from funext fun a => by match a with | ⟨0, _⟩ => rfl,
    show idx_main_v107 (idx_main_v108 (ix2 p q)) = ix1 q from funext fun a => by match a with | ⟨0, _⟩ => rfl,
    mean_1, var_1, gamma_1, beta_1, Ideal.addf_def, Ideal.addf_def, Ideal.mulf_def, Ideal.mulf_def, Ideal.subf_def,
    Ideal.hostUnary_rsqrt_def, Ideal.ofBits_def]
  rfl

/-- Layer 1: its output at row p, column q is the specification's layer of the aggregated features. -/
theorem layer1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v119 (F := Ideal) x0 x1 x3 x4 x5 x6 x7 x8 (ix2 p q)
      = let H := Cert.Spec.mlp (fun p j => val_main_v72 (F := Ideal) x0 x1 x3 x4 x5 x6 x7 x8 (ix2 p j)) (fun j k => x3 (ix3 1 j k)) (fun k => x4 (ix2 1 k)) (fun j k => x5 (ix3 1 j k)) (fun k => x6 (ix2 1 k))
        Cert.Spec.bn H (Cert.Spec.meanR H) (Cert.Spec.varR H) (fun k => x7 (ix2 1 k)) (fun k => x8 (ix2 1 k)) p q := by
  have hH : (fun p q => val_main_v90 (F := Ideal) x0 x1 x3 x4 x5 x6 x7 x8 (ix2 p q)) = (Cert.Spec.mlp (fun p j => val_main_v72 (F := Ideal) x0 x1 x3 x4 x5 x6 x7 x8 (ix2 p j)) (fun j k => x3 (ix3 1 j k)) (fun k => x4 (ix2 1 k)) (fun j k => x5 (ix3 1 j k)) (fun k => x6 (ix2 1 k))) :=
    funext fun p => funext fun q => hpre_1 x0 x1 x3 x4 x5 x6 x7 x8 p q
  have h := bn_1 x0 x1 x3 x4 x5 x6 x7 x8 p q
  rw [hH] at h
  exact h

end Cert.ReferenceIdeal.Hand

end
-- ==== Proof.Ref.L2.lean ====
/-
  Layer 2 of the reference, read at an index: from the aggregated features (taken as given) to the layer's output,
  Linear, ReLU, Linear, ReLU, then every column normalized by its mean and biased variance over the 50000 rows
  (both as quotients by 50000) and the affine map.
-/
import proofs.«132655_j36919538876779_2_alg».proof.Proof.RefReadP
import proofs.«132655_j36919538876779_2_alg».proof.Proof.Spec
import proofs.«132655_j36919538876779_2_alg».proof.Proof.Ref.Base

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo Idealize.ShloMosaic.ValueIdx

/-- The layer's w1: slice 2 of the stack of four, read by its two coordinates. -/
theorem w1_2 (x3 : (⟨S4x128x128, .f32⟩ : BufTy).Contents (Elt Ideal)) (j k : Fin 128) :
    val_main_v132 (F := Ideal) x3 (ix2 j k) = x3 (ix3 2 j k) := by
  rw [val_main_v132_apply, val_main_v131_apply]
  refine congrArg x3 (funext fun a => ?_)
  match a with
  | ⟨0, _⟩ => exact Fin.ext (by show 2 + 0 = 2; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b1: row 2 of the stack of four, the same on every row of the batch. -/
theorem b1_2 (x4 : (⟨S4x128, .f32⟩ : BufTy).Contents (Elt Ideal)) (p : Fin 50000) (k : Fin 128) :
    val_main_v137 (F := Ideal) x4 (ix2 p k) = x4 (ix2 2 k) := by
  rw [val_main_v137_apply, val_main_v136_apply, val_main_v135_apply, val_main_v134_apply]
  refine congrArg x4 (funext fun a => ?_)
  match a with
  | ⟨0, _⟩ => exact Fin.ext (by show 2 + 0 = 2; rfl)
  | ⟨1, _⟩ => exact Fin.ext (by have := k.isLt; show k.val % 128 = k.val; omega)

/-- The layer's w2: slice 2 of the stack of four, read by its two coordinates. -/
theorem w2_2 (x5 : (⟨S4x128x128, .f32⟩ : BufTy).Contents (Elt Ideal)) (j k : Fin 128) :
    val_main_v141 (F := Ideal) x5 (ix2 j k) = x5 (ix3 2 j k) := by
  rw [val_main_v141_apply, val_main_v140_apply]
  refine congrArg x5 (funext fun a => ?_)
  match a with
  | ⟨0, _⟩ => exact Fin.ext (by show 2 + 0 = 2; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b2: row 2 of the stack of four, the same on every row of the batch. -/
theorem b2_2 (x6 : (⟨S4x128, .f32⟩ : BufTy).Contents (Elt Ideal)) (p : Fin 50000) (k : Fin 128) :
    val_main_v146 (F := Ideal) x6 (ix2 p k) = x6 (ix2 2 k) := by
  rw [val_main_v146_apply, val_main_v145_apply, val_main_v144_apply, val_main_v143_apply]
  refine congrArg x6 (funext fun a => ?_)
  match a with
  | ⟨0, _⟩ => exact Fin.ext (by show 2 + 0 = 2; rfl)
  | ⟨1, _⟩ => exact Fin.ext (by have := k.isLt; show k.val % 128 = k.val; omega)

/-- The layer's gamma: row 2 of the stack of four, the same on every row of the batch. -/
theorem gamma_2 (x7 : (⟨S4x128, .f32⟩ : BufTy).Contents (Elt Ideal)) (p : Fin 50000) (k : Fin 128) :
    val_main_v171 (F := Ideal) x7 (ix2 p k) = x7 (ix2 2 k) := by
  rw [val_main_v171_apply, val_main_v170_apply, val_main_v169_apply, val_main_v168_apply]
  refine congrArg x7 (funext fun a => ?_)
  match a with
  | ⟨0, _⟩ => exact Fin.ext (by show 2 + 0 = 2; rfl)
  | ⟨1, _⟩ => exact Fin.ext (by have := k.isLt; show k.val % 128 = k.val; omega)

/-- The layer's beta: row 2 of the stack of four, the same on every row of the batch. -/
theorem beta_2 (x8 : (⟨S4x128, .f32⟩ : BufTy).Contents (Elt Ideal)) (p : Fin 50000) (k : Fin 128) :
    val_main_v176 (F := Ideal) x8 (ix2 p k) = x8 (ix2 2 k) := by
  rw [val_main_v176_apply, val_main_v175_apply, val_main_v174_apply, val_main_v173_apply]
  refine congrArg x8 (funext fun a => ?_)
  match a with
  | ⟨0, _⟩ => exact Fin.ext (by show 2 + 0 = 2; rfl)
  | ⟨1, _⟩ => exact Fin.ext (by have := k.isLt; show k.val % 128 = k.val; omega)

/-- The clamp's lower bound is the zero word, the real 0. -/
theorem reluA_2 (i : S50000x128.Idx) : val_main_call4_v0 (F := Ideal) i = 0 := by
  rw [val_main_call4_v0_apply, val_main_call4_cst_apply, Ideal.ofBits_def, Ideal.ofBits_zero_f32]

/-- The clamp's lower bound is the zero word, the real 0. -/
theorem reluB_2 (i : S50000x128.Idx) : val_main_call5_v0 (F := Ideal) i = 0 := by
  rw [val_main_call5_v0_apply, val_main_call5_cst_apply, Ideal.ofBits_def, Ideal.ofBits_zero_f32]

/-- The first Linear and ReLU at row p, column k. -/
theorem hid_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (k : Fin 128) :
    val_main_v139 (F := Ideal) x0 x1 x3 x4 x5 x6 x7 x8 (ix2 p k) = Cert.Spec.lin (fun p j => val_main_v130 (F := Ideal) x0 x1 x3 x4 x5 x6 x7 x8 (ix2 p j)) (fun j k => x3 (ix3 2 j k)) (fun k => x4 (ix2 2 k)) p k := by
  have hs : (∑ j : Fin 128, (val_main_v130 (F := Ideal) x0 x1 x3 x4 x5 x6 x7 x8) (lidx_main_v133 (ix2 p k) j) * (val_main_v132 (F := Ideal) x3) (ridx_main_v133 (ix2 p k) j))
      = ∑ j : Fin 128, val_main_v130 (F := Ideal) x0 x1 x3 x4 x5 x6 x7 x8 (ix2 p j) * x3 (ix3 2 j k) :=
    Fintype.sum_congr _ _ fun j => by
      beta_reduce
      rw [show lidx_main_v133 (ix2 p k) j = ix2 p j from funext fun a => by match a with | ⟨0, _⟩ => rfl | ⟨1, _⟩ => rfl,
        show ridx_main_v133 (ix2 p k) j = ix2 j k from funext fun a => by match a with | ⟨0, _⟩ => rfl | ⟨1, _⟩ => rfl, w1_2]
  rw [val_main_v139_apply, val_main_v138_apply, val_main_v133_apply, reluA_2, b1_2, Ideal.maximumf_def, Ideal.addf_def, hs]
  simp only [Cert.Spec.lin]

/-- The second Linear and ReLU: the layer's features before normalization. -/
theorem hpre_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v148 (F := Ideal) x0 x1 x3 x4 x5 x6 x7 x8 (ix2 p q) = Cert.Spec.mlp (fun p j => val_main_v130 (F := Ideal) x0 x1 x3 x4 x5 x6 x7 x8 (ix2 p j)) (fun j k => x3 (ix3 2 j k)) (fun k => x4 (ix2 2 k)) (fun j k => x5 (ix3 2 j k)) (fun k => x6 (ix2 2 k)) p q := by
  have hs : (∑ k : Fin 128, (val_main_v139 (F := Ideal) x0 x1 x3 x4 x5 x6 x7 x8) (lidx_main_v142 (ix2 p q) k) * (val_main_v141 (F := Ideal) x5) (ridx_main_v142 (ix2 p q) k))
      = ∑ k : Fin 128, Cert.Spec.lin (fun p j => val_main_v130 (F := Ideal) x0 x1 x3 x4 x5 x6 x7 x8 (ix2 p j)) (fun j k => x3 (ix3 2 j k)) (fun k => x4 (ix2 2 k)) p k * x5 (ix3 2 k q) :=
    Fintype.sum_congr _ _ fun k => by
      beta_reduce
      rw [show lidx_main_v142 (ix2 p q) k = ix2 p k from funext fun a => by match a with | ⟨0, _⟩ => rfl | ⟨1, _⟩ => rfl,
        show ridx_main_v142 (ix2 p q) k = ix2 k q from funext fun a => by match a with | ⟨0, _⟩ => rfl | ⟨1, _⟩ => rfl, w2_2, hid_2]
  rw [val_main_v148_apply, val_main_v147_apply, val_main_v142_apply, reluB_2, b2_2, Ideal.maximumf_def, Ideal.addf_def, hs]
  simp only [Cert.Spec.mlp, Cert.Spec.lin]

/-- The column mean: the column's sum over the 50000 rows, divided by 50000. -/
theorem mean_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v151 (F := Ideal) x0 x1 x3 x4 x5 x6 x7 x8 (ix1 q) = Cert.Spec.meanR (fun p q => val_main_v148 (F := Ideal) x0 x1 x3 x4 x5 x6 x7 x8 (ix2 p q)) q := by
  have hs : (∑ k : Fin 50000, (val_main_v148 (F := Ideal) x0 x1 x3 x4 x5 x6 x7 x8) (idx_main_v149 (ix1 q) k)) = ∑ k : Fin 50000, val_main_v148 (F := Ideal) x0 x1 x3 x4 x5 x6 x7 x8 (ix2 k q) :=
    Fintype.sum_congr _ _ fun k =>
      congrArg _ (funext fun a => by match a with | ⟨0, _⟩ => rfl | ⟨1, _⟩ => rfl)
  rw [val_main_v151_apply, val_main_v149_apply, val_main_v150_apply, val_main_cst_18_apply, val_main_cst_17_apply, Ideal.hostDivf_def, Ideal.ofBits_def, Ideal.ofBits_def,
    zero_word_add, ofBits_50000, hs]
  simp only [Cert.Spec.meanR]

/-- The biased column variance: the sum of squared deviations from the column mean, divided by 50000. -/
theorem var_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v158 (F := Ideal) x0 x1 x3 x4 x5 x6 x7 x8 (ix1 q) = Cert.Spec.varR (fun p q => val_main_v148 (F := Ideal) x0 x1 x3 x4 x5 x6 x7 x8 (ix2 p q)) q := by
  have hs : (∑ k : Fin 50000, (val_main_v155 (F := Ideal) x0 x1 x3 x4 x5 x6 x7 x8) (idx_main_v156 (ix1 q) k))
      = ∑ k : Fin 50000, (val_main_v148 (F := Ideal) x0 x1 x3 x4 x5 x6 x7 x8 (ix2 k q) - Cert.Spec.meanR (fun p q => val_main_v148 (F := Ideal) x0 x1 x3 x4 x5 x6 x7 x8 (ix2 p q)) q) * (val_main_v148 (F := Ideal) x0 x1 x3 x4 x5 x6 x7 x8 (ix2 k q) - Cert.Spec.meanR (fun p q => val_main_v148 (F := Ideal) x0 x1 x3 x4 x5 x6 x7 x8 (ix2 p q)) q) :=
    Fintype.sum_congr _ _ fun k => by
      beta_reduce
      rw [show idx_main_v156 (ix1 q) k = ix2 k q from funext fun a => by match a with | ⟨0, _⟩ => rfl | ⟨1, _⟩ => rfl,
        val_main_v155_apply, val_main_v154_apply, val_main_v153_apply, val_main_v152_apply,
        show idx_main_v152 (idx_main_v153 (ix2 k q)) = ix1 q from funext fun a => by match a with | ⟨0, _⟩ => rfl,
        mean_2, Ideal.mulf_def, Ideal.subf_def]
  rw [val_main_v158_apply, val_main_v156_apply, val_main_v157_apply, val_main_cst_20_apply, val_main_cst_19_apply, Ideal.hostDivf_def, Ideal.ofBits_def, Ideal.ofBits_def,
    zero_word_add, ofBits_50000, hs]
  simp only [Cert.Spec.varR]

/-- The layer's output over the features before normalization, with the reference's own mean and variance. -/
theorem bn_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v177 (F := Ideal) x0 x1 x3 x4 x5 x6 x7 x8 (ix2 p q) = Cert.Spec.bn (fun p q => val_main_v148 (F := Ideal) x0 x1 x3 x4 x5 x6 x7 x8 (ix2 p q)) (Cert.Spec.meanR (fun p q => val_main_v148 (F := Ideal) x0 x1 x3 x4 x5 x6 x7 x8 (ix2 p q))) (Cert.Spec.varR (fun p q => val_main_v148 (F := Ideal) x0 x1 x3 x4 x5 x6 x7 x8 (ix2 p q))) (fun k => x7 (ix2 2 k)) (fun k => x8 (ix2 2 k)) p q := by
  rw [val_main_v177_apply, val_main_v172_apply, val_main_v167_apply, val_main_v161_apply, val_main_v160_apply, val_main_v159_apply, val_main_v166_apply, val_main_v165_apply, val_main_v164_apply, val_main_v163_apply, val_main_v162_apply, val_main_cst_21_apply,
    show idx_main_v159 (idx_main_v160 (ix2 p q)) = ix1 q from funext fun a => by match a with | ⟨0, _⟩ => rfl,
    show idx_main_v165 (idx_main_v166 (ix2 p q)) = ix1 q from funext fun a => by match a with | ⟨0, _⟩ => rfl,
    mean_2, var_2, gamma_2, beta_2, Ideal.addf_def, Ideal.addf_def, Ideal.mulf_def, Ideal.mulf_def, Ideal.subf_def,
    Ideal.hostUnary_rsqrt_def, Ideal.ofBits_def]
  rfl

/-- Layer 2: its output at row p, column q is the specification's layer of the aggregated features. -/
theorem layer2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v177 (F := Ideal) x0 x1 x3 x4 x5 x6 x7 x8 (ix2 p q)
      = let H := Cert.Spec.mlp (fun p j => val_main_v130 (F := Ideal) x0 x1 x3 x4 x5 x6 x7 x8 (ix2 p j)) (fun j k => x3 (ix3 2 j k)) (fun k => x4 (ix2 2 k)) (fun j k => x5 (ix3 2 j k)) (fun k => x6 (ix2 2 k))
        Cert.Spec.bn H (Cert.Spec.meanR H) (Cert.Spec.varR H) (fun k => x7 (ix2 2 k)) (fun k => x8 (ix2 2 k)) p q := by
  have hH : (fun p q => val_main_v148 (F := Ideal) x0 x1 x3 x4 x5 x6 x7 x8 (ix2 p q)) = (Cert.Spec.mlp (fun p j => val_main_v130 (F := Ideal) x0 x1 x3 x4 x5 x6 x7 x8 (ix2 p j)) (fun j k => x3 (ix3 2 j k)) (fun k => x4 (ix2 2 k)) (fun j k => x5 (ix3 2 j k)) (fun k => x6 (ix2 2 k))) :=
    funext fun p => funext fun q => hpre_2 x0 x1 x3 x4 x5 x6 x7 x8 p q
  have h := bn_2 x0 x1 x3 x4 x5 x6 x7 x8 p q
  rw [hH] at h
  exact h

end Cert.ReferenceIdeal.Hand

end
-- ==== Proof.Ref.L3.lean ====
/-
  Layer 3 of the reference, read at an index: from the aggregated features (taken as given) to the layer's output,
  Linear, ReLU, Linear, ReLU, then every column normalized by its mean and biased variance over the 50000 rows
  (both as quotients by 50000) and the affine map.
-/
import proofs.«132655_j36919538876779_2_alg».proof.Proof.RefReadP
import proofs.«132655_j36919538876779_2_alg».proof.Proof.Spec
import proofs.«132655_j36919538876779_2_alg».proof.Proof.Ref.Base

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo Idealize.ShloMosaic.ValueIdx

/-- The layer's w1: slice 3 of the stack of four, read by its two coordinates. -/
theorem w1_3 (x3 : (⟨S4x128x128, .f32⟩ : BufTy).Contents (Elt Ideal)) (j k : Fin 128) :
    val_main_v190 (F := Ideal) x3 (ix2 j k) = x3 (ix3 3 j k) := by
  rw [val_main_v190_apply, val_main_v189_apply]
  refine congrArg x3 (funext fun a => ?_)
  match a with
  | ⟨0, _⟩ => exact Fin.ext (by show 3 + 0 = 3; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b1: row 3 of the stack of four, the same on every row of the batch. -/
theorem b1_3 (x4 : (⟨S4x128, .f32⟩ : BufTy).Contents (Elt Ideal)) (p : Fin 50000) (k : Fin 128) :
    val_main_v195 (F := Ideal) x4 (ix2 p k) = x4 (ix2 3 k) := by
  rw [val_main_v195_apply, val_main_v194_apply, val_main_v193_apply, val_main_v192_apply]
  refine congrArg x4 (funext fun a => ?_)
  match a with
  | ⟨0, _⟩ => exact Fin.ext (by show 3 + 0 = 3; rfl)
  | ⟨1, _⟩ => exact Fin.ext (by have := k.isLt; show k.val % 128 = k.val; omega)

/-- The layer's w2: slice 3 of the stack of four, read by its two coordinates. -/
theorem w2_3 (x5 : (⟨S4x128x128, .f32⟩ : BufTy).Contents (Elt Ideal)) (j k : Fin 128) :
    val_main_v199 (F := Ideal) x5 (ix2 j k) = x5 (ix3 3 j k) := by
  rw [val_main_v199_apply, val_main_v198_apply]
  refine congrArg x5 (funext fun a => ?_)
  match a with
  | ⟨0, _⟩ => exact Fin.ext (by show 3 + 0 = 3; rfl)
  | ⟨1, _⟩ => exact Fin.ext (by have := j.isLt; have := k.isLt; show (j.val * 128 + k.val) / 128 % 128 = j.val; omega)
  | ⟨2, _⟩ => exact Fin.ext (by have := j.isLt; have := k.isLt; show (j.val * 128 + k.val) % 128 = k.val; omega)

/-- The layer's b2: row 3 of the stack of four, the same on every row of the batch. -/
theorem b2_3 (x6 : (⟨S4x128, .f32⟩ : BufTy).Contents (Elt Ideal)) (p : Fin 50000) (k : Fin 128) :
    val_main_v204 (F := Ideal) x6 (ix2 p k) = x6 (ix2 3 k) := by
  rw [val_main_v204_apply, val_main_v203_apply, val_main_v202_apply, val_main_v201_apply]
  refine congrArg x6 (funext fun a => ?_)
  match a with
  | ⟨0, _⟩ => exact Fin.ext (by show 3 + 0 = 3; rfl)
  | ⟨1, _⟩ => exact Fin.ext (by have := k.isLt; show k.val % 128 = k.val; omega)

/-- The layer's gamma: row 3 of the stack of four, the same on every row of the batch. -/
theorem gamma_3 (x7 : (⟨S4x128, .f32⟩ : BufTy).Contents (Elt Ideal)) (p : Fin 50000) (k : Fin 128) :
    val_main_v229 (F := Ideal) x7 (ix2 p k) = x7 (ix2 3 k) := by
  rw [val_main_v229_apply, val_main_v228_apply, val_main_v227_apply, val_main_v226_apply]
  refine congrArg x7 (funext fun a => ?_)
  match a with
  | ⟨0, _⟩ => exact Fin.ext (by show 3 + 0 = 3; rfl)
  | ⟨1, _⟩ => exact Fin.ext (by have := k.isLt; show k.val % 128 = k.val; omega)

/-- The layer's beta: row 3 of the stack of four, the same on every row of the batch. -/
theorem beta_3 (x8 : (⟨S4x128, .f32⟩ : BufTy).Contents (Elt Ideal)) (p : Fin 50000) (k : Fin 128) :
    val_main_v234 (F := Ideal) x8 (ix2 p k) = x8 (ix2 3 k) := by
  rw [val_main_v234_apply, val_main_v233_apply, val_main_v232_apply, val_main_v231_apply]
  refine congrArg x8 (funext fun a => ?_)
  match a with
  | ⟨0, _⟩ => exact Fin.ext (by show 3 + 0 = 3; rfl)
  | ⟨1, _⟩ => exact Fin.ext (by have := k.isLt; show k.val % 128 = k.val; omega)

/-- The clamp's lower bound is the zero word, the real 0. -/
theorem reluA_3 (i : S50000x128.Idx) : val_main_call6_v0 (F := Ideal) i = 0 := by
  rw [val_main_call6_v0_apply, val_main_call6_cst_apply, Ideal.ofBits_def, Ideal.ofBits_zero_f32]

/-- The clamp's lower bound is the zero word, the real 0. -/
theorem reluB_3 (i : S50000x128.Idx) : val_main_call7_v0 (F := Ideal) i = 0 := by
  rw [val_main_call7_v0_apply, val_main_call7_cst_apply, Ideal.ofBits_def, Ideal.ofBits_zero_f32]

/-- The first Linear and ReLU at row p, column k. -/
theorem hid_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (k : Fin 128) :
    val_main_v197 (F := Ideal) x0 x1 x3 x4 x5 x6 x7 x8 (ix2 p k) = Cert.Spec.lin (fun p j => val_main_v188 (F := Ideal) x0 x1 x3 x4 x5 x6 x7 x8 (ix2 p j)) (fun j k => x3 (ix3 3 j k)) (fun k => x4 (ix2 3 k)) p k := by
  have hs : (∑ j : Fin 128, (val_main_v188 (F := Ideal) x0 x1 x3 x4 x5 x6 x7 x8) (lidx_main_v191 (ix2 p k) j) * (val_main_v190 (F := Ideal) x3) (ridx_main_v191 (ix2 p k) j))
      = ∑ j : Fin 128, val_main_v188 (F := Ideal) x0 x1 x3 x4 x5 x6 x7 x8 (ix2 p j) * x3 (ix3 3 j k) :=
    Fintype.sum_congr _ _ fun j => by
      beta_reduce
      rw [show lidx_main_v191 (ix2 p k) j = ix2 p j from funext fun a => by match a with | ⟨0, _⟩ => rfl | ⟨1, _⟩ => rfl,
        show ridx_main_v191 (ix2 p k) j = ix2 j k from funext fun a => by match a with | ⟨0, _⟩ => rfl | ⟨1, _⟩ => rfl, w1_3]
  rw [val_main_v197_apply, val_main_v196_apply, val_main_v191_apply, reluA_3, b1_3, Ideal.maximumf_def, Ideal.addf_def, hs]
  simp only [Cert.Spec.lin]

/-- The second Linear and ReLU: the layer's features before normalization. -/
theorem hpre_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v206 (F := Ideal) x0 x1 x3 x4 x5 x6 x7 x8 (ix2 p q) = Cert.Spec.mlp (fun p j => val_main_v188 (F := Ideal) x0 x1 x3 x4 x5 x6 x7 x8 (ix2 p j)) (fun j k => x3 (ix3 3 j k)) (fun k => x4 (ix2 3 k)) (fun j k => x5 (ix3 3 j k)) (fun k => x6 (ix2 3 k)) p q := by
  have hs : (∑ k : Fin 128, (val_main_v197 (F := Ideal) x0 x1 x3 x4 x5 x6 x7 x8) (lidx_main_v200 (ix2 p q) k) * (val_main_v199 (F := Ideal) x5) (ridx_main_v200 (ix2 p q) k))
      = ∑ k : Fin 128, Cert.Spec.lin (fun p j => val_main_v188 (F := Ideal) x0 x1 x3 x4 x5 x6 x7 x8 (ix2 p j)) (fun j k => x3 (ix3 3 j k)) (fun k => x4 (ix2 3 k)) p k * x5 (ix3 3 k q) :=
    Fintype.sum_congr _ _ fun k => by
      beta_reduce
      rw [show lidx_main_v200 (ix2 p q) k = ix2 p k from funext fun a => by match a with | ⟨0, _⟩ => rfl | ⟨1, _⟩ => rfl,
        show ridx_main_v200 (ix2 p q) k = ix2 k q from funext fun a => by match a with | ⟨0, _⟩ => rfl | ⟨1, _⟩ => rfl, w2_3, hid_3]
  rw [val_main_v206_apply, val_main_v205_apply, val_main_v200_apply, reluB_3, b2_3, Ideal.maximumf_def, Ideal.addf_def, hs]
  simp only [Cert.Spec.mlp, Cert.Spec.lin]

/-- The column mean: the column's sum over the 50000 rows, divided by 50000. -/
theorem mean_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v209 (F := Ideal) x0 x1 x3 x4 x5 x6 x7 x8 (ix1 q) = Cert.Spec.meanR (fun p q => val_main_v206 (F := Ideal) x0 x1 x3 x4 x5 x6 x7 x8 (ix2 p q)) q := by
  have hs : (∑ k : Fin 50000, (val_main_v206 (F := Ideal) x0 x1 x3 x4 x5 x6 x7 x8) (idx_main_v207 (ix1 q) k)) = ∑ k : Fin 50000, val_main_v206 (F := Ideal) x0 x1 x3 x4 x5 x6 x7 x8 (ix2 k q) :=
    Fintype.sum_congr _ _ fun k =>
      congrArg _ (funext fun a => by match a with | ⟨0, _⟩ => rfl | ⟨1, _⟩ => rfl)
  rw [val_main_v209_apply, val_main_v207_apply, val_main_v208_apply, val_main_cst_26_apply, val_main_cst_25_apply, Ideal.hostDivf_def, Ideal.ofBits_def, Ideal.ofBits_def,
    zero_word_add, ofBits_50000, hs]
  simp only [Cert.Spec.meanR]

/-- The biased column variance: the sum of squared deviations from the column mean, divided by 50000. -/
theorem var_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (q : Fin 128) :
    val_main_v216 (F := Ideal) x0 x1 x3 x4 x5 x6 x7 x8 (ix1 q) = Cert.Spec.varR (fun p q => val_main_v206 (F := Ideal) x0 x1 x3 x4 x5 x6 x7 x8 (ix2 p q)) q := by
  have hs : (∑ k : Fin 50000, (val_main_v213 (F := Ideal) x0 x1 x3 x4 x5 x6 x7 x8) (idx_main_v214 (ix1 q) k))
      = ∑ k : Fin 50000, (val_main_v206 (F := Ideal) x0 x1 x3 x4 x5 x6 x7 x8 (ix2 k q) - Cert.Spec.meanR (fun p q => val_main_v206 (F := Ideal) x0 x1 x3 x4 x5 x6 x7 x8 (ix2 p q)) q) * (val_main_v206 (F := Ideal) x0 x1 x3 x4 x5 x6 x7 x8 (ix2 k q) - Cert.Spec.meanR (fun p q => val_main_v206 (F := Ideal) x0 x1 x3 x4 x5 x6 x7 x8 (ix2 p q)) q) :=
    Fintype.sum_congr _ _ fun k => by
      beta_reduce
      rw [show idx_main_v214 (ix1 q) k = ix2 k q from funext fun a => by match a with | ⟨0, _⟩ => rfl | ⟨1, _⟩ => rfl,
        val_main_v213_apply, val_main_v212_apply, val_main_v211_apply, val_main_v210_apply,
        show idx_main_v210 (idx_main_v211 (ix2 k q)) = ix1 q from funext fun a => by match a with | ⟨0, _⟩ => rfl,
        mean_3, Ideal.mulf_def, Ideal.subf_def]
  rw [val_main_v216_apply, val_main_v214_apply, val_main_v215_apply, val_main_cst_28_apply, val_main_cst_27_apply, Ideal.hostDivf_def, Ideal.ofBits_def, Ideal.ofBits_def,
    zero_word_add, ofBits_50000, hs]
  simp only [Cert.Spec.varR]

/-- The layer's output over the features before normalization, with the reference's own mean and variance. -/
theorem bn_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v235 (F := Ideal) x0 x1 x3 x4 x5 x6 x7 x8 (ix2 p q) = Cert.Spec.bn (fun p q => val_main_v206 (F := Ideal) x0 x1 x3 x4 x5 x6 x7 x8 (ix2 p q)) (Cert.Spec.meanR (fun p q => val_main_v206 (F := Ideal) x0 x1 x3 x4 x5 x6 x7 x8 (ix2 p q))) (Cert.Spec.varR (fun p q => val_main_v206 (F := Ideal) x0 x1 x3 x4 x5 x6 x7 x8 (ix2 p q))) (fun k => x7 (ix2 3 k)) (fun k => x8 (ix2 3 k)) p q := by
  rw [val_main_v235_apply, val_main_v230_apply, val_main_v225_apply, val_main_v219_apply, val_main_v218_apply, val_main_v217_apply, val_main_v224_apply, val_main_v223_apply, val_main_v222_apply, val_main_v221_apply, val_main_v220_apply, val_main_cst_29_apply,
    show idx_main_v217 (idx_main_v218 (ix2 p q)) = ix1 q from funext fun a => by match a with | ⟨0, _⟩ => rfl,
    show idx_main_v223 (idx_main_v224 (ix2 p q)) = ix1 q from funext fun a => by match a with | ⟨0, _⟩ => rfl,
    mean_3, var_3, gamma_3, beta_3, Ideal.addf_def, Ideal.addf_def, Ideal.mulf_def, Ideal.mulf_def, Ideal.subf_def,
    Ideal.hostUnary_rsqrt_def, Ideal.ofBits_def]
  rfl

/-- Layer 3: its output at row p, column q is the specification's layer of the aggregated features. -/
theorem layer3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (p : Fin 50000) (q : Fin 128) :
    val_main_v235 (F := Ideal) x0 x1 x3 x4 x5 x6 x7 x8 (ix2 p q)
      = let H := Cert.Spec.mlp (fun p j => val_main_v188 (F := Ideal) x0 x1 x3 x4 x5 x6 x7 x8 (ix2 p j)) (fun j k => x3 (ix3 3 j k)) (fun k => x4 (ix2 3 k)) (fun j k => x5 (ix3 3 j k)) (fun k => x6 (ix2 3 k))
        Cert.Spec.bn H (Cert.Spec.meanR H) (Cert.Spec.varR H) (fun k => x7 (ix2 3 k)) (fun k => x8 (ix2 3 k)) p q := by
  have hH : (fun p q => val_main_v206 (F := Ideal) x0 x1 x3 x4 x5 x6 x7 x8 (ix2 p q)) = (Cert.Spec.mlp (fun p j => val_main_v188 (F := Ideal) x0 x1 x3 x4 x5 x6 x7 x8 (ix2 p j)) (fun j k => x3 (ix3 3 j k)) (fun k => x4 (ix2 3 k)) (fun j k => x5 (ix3 3 j k)) (fun k => x6 (ix2 3 k))) :=
    funext fun p => funext fun q => hpre_3 x0 x1 x3 x4 x5 x6 x7 x8 p q
  have h := bn_3 x0 x1 x3 x4 x5 x6 x7 x8 p q
  rw [hH] at h
  exact h

end Cert.ReferenceIdeal.Hand

end
-- ==== Proof.Ref.Tail.lean ====
/-
  The reference's tail, read at an index: the per-graph sums of the last layer's features (taken as given) through the
  projection, Linear then ReLU.
-/
import proofs.«132655_j36919538876779_2_alg».proof.Proof.RefReadP
import proofs.«132655_j36919538876779_2_alg».proof.Proof.Spec

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo Idealize.ShloMosaic.ValueIdx

/-- The projection's clamp has the zero word, the real 0, as its lower bound. -/
theorem reluTail (i : S256x128.Idx) : val_main_call8_v0 (F := Ideal) i = 0 := by
  rw [val_main_call8_v0_apply, val_main_call8_cst_apply, Ideal.ofBits_def, Ideal.ofBits_zero_f32]

/-- The result at graph p, column q: row p of the per-graph sums times column q of the projection, plus the bias,
    clamped below at 0. -/
theorem tail (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) (x9 : (⟨S128x128, .f32⟩ : BufTy).Contents (Elt Ideal)) (x10 : (⟨S128, .f32⟩ : BufTy).Contents (Elt Ideal)) (p : Fin 256) (q : Fin 128) :
    val_main_v243 (F := Ideal) x0 x1 x2 x3 x4 x5 x6 x7 x8 x9 x10 (ix2 p q)
      = Cert.Spec.lin (fun p k => val_main_v238 (F := Ideal) x0 x1 x2 x3 x4 x5 x6 x7 x8 (ix2 p k)) (fun k q => x9 (ix2 k q)) (fun q => x10 (ix1 q)) p q := by
  have hs : (∑ k : Fin 128, (val_main_v238 (F := Ideal) x0 x1 x2 x3 x4 x5 x6 x7 x8) (lidx_main_v239 (ix2 p q) k) * x9 (ridx_main_v239 (ix2 p q) k))
      = ∑ k : Fin 128, val_main_v238 (F := Ideal) x0 x1 x2 x3 x4 x5 x6 x7 x8 (ix2 p k) * x9 (ix2 k q) :=
    Fintype.sum_congr _ _ fun k => by
      beta_reduce
      rw [show lidx_main_v239 (ix2 p q) k = ix2 p k from funext fun a => by match a with | ⟨0, _⟩ => rfl | ⟨1, _⟩ => rfl,
        show ridx_main_v239 (ix2 p q) k = ix2 k q from funext fun a => by match a with | ⟨0, _⟩ => rfl | ⟨1, _⟩ => rfl]
  rw [val_main_v243_apply, val_main_v242_apply, val_main_v239_apply, val_main_v241_apply, val_main_v240_apply, reluTail,
    show idx_main_v240 (idx_main_v241 (ix2 p q)) = ix1 q from funext fun a => by match a with | ⟨0, _⟩ => rfl,
    Ideal.maximumf_def, Ideal.addf_def, hs]
  simp only [Cert.Spec.lin]

end Cert.ReferenceIdeal.Hand

end
-- ==== Proof.Ref.AggDefs.lean ====
/-
  The aggregation stages of the reference as whole arrays, by definition: each layer's aggregated features are the
  layer's input plus a scatter-add, into zeros at the destination column, of the gathered source rows; the pooled
  features are a scatter-add, into zeros at the graph column, of the last layer's output.
-/
import proofs.«132655_j36919538876779_2_alg».proof.Proof.RefReadP

noncomputable section

namespace Cert.ReferenceIdeal.Hand

open Cert.ReferenceIdeal Cert.ReferenceIdeal.Gen Cert.ReferenceIdeal.ReadP Idealize.ShloMosaic Idealize.ShloMosaic.TcCoe
  Idealize.ShloMosaic.StableHlo

/-- Layer 0's aggregated features: the layer's input plus the scatter-add of the gathered rows. -/
theorem agg_def_0 (x0 : (⟨S50000x128, .f32⟩ : BufTy).Contents (Elt Ideal)) (x1 : (⟨S2x800000, .i32⟩ : BufTy).Contents (Elt Ideal)) :
    val_main_v14 (F := Ideal) x0 x1
      = addf (F := Ideal) (φ := .f32) (x0) (Host.scatterAdd (F := Ideal) (φ := .f32) scatter_S50000x128_S800000x1_S800000x128_1_0_0_1 (val_main_v11 (F := Ideal)) (val_main_v12 (F := Ideal) x1) (val_main_v10 (F := Ideal) x0 x1)) := rfl

/-- Layer 0's scatter-add starts from zeros. -/
theorem zeros_0 (i : S50000x128.Idx) : val_main_v11 (F := Ideal) i = 0 := by
  rw [val_main_v11_apply, val_main_cst_apply, Ideal.ofBits_def, Ideal.ofBits_zero_f32]

/-- Layer 0's gathered rows: the layer's input at the normalized source column. -/
theorem gather_def_0 (x0 : (⟨S50000x128, .f32⟩ : BufTy).Contents (Elt Ideal)) (x1 : (⟨S2x800000, .i32⟩ : BufTy).Contents (Elt Ideal)) :
    val_main_v10 (F := Ideal) x0 x1
      = Host.gather gather_S50000x128_S800000x1_S800000x128_1_0_n_n_0_1_1128 (x0) (val_main_v9 (F := Ideal) x1) := rfl

/-- Layer 1's aggregated features: the layer's input plus the scatter-add of the gathered rows. -/
theorem agg_def_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v72 (F := Ideal) x0 x1 x3 x4 x5 x6 x7 x8
      = addf (F := Ideal) (φ := .f32) (val_main_v61 (F := Ideal) x0 x1 x3 x4 x5 x6 x7 x8) (Host.scatterAdd (F := Ideal) (φ := .f32) scatter_S50000x128_S800000x1_S800000x128_1_0_0_1 (val_main_v69 (F := Ideal)) (val_main_v70 (F := Ideal) x1) (val_main_v68 (F := Ideal) x0 x1 x3 x4 x5 x6 x7 x8)) := rfl

/-- Layer 1's scatter-add starts from zeros. -/
theorem zeros_1 (i : S50000x128.Idx) : val_main_v69 (F := Ideal) i = 0 := by
  rw [val_main_v69_apply, val_main_cst_8_apply, Ideal.ofBits_def, Ideal.ofBits_zero_f32]

/-- Layer 1's gathered rows: the layer's input at the normalized source column. -/
theorem gather_def_1 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v68 (F := Ideal) x0 x1 x3 x4 x5 x6 x7 x8
      = Host.gather gather_S50000x128_S800000x1_S800000x128_1_0_n_n_0_1_1128 (val_main_v61 (F := Ideal) x0 x1 x3 x4 x5 x6 x7 x8) (val_main_v67 (F := Ideal) x1) := rfl

/-- Layer 2's aggregated features: the layer's input plus the scatter-add of the gathered rows. -/
theorem agg_def_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v130 (F := Ideal) x0 x1 x3 x4 x5 x6 x7 x8
      = addf (F := Ideal) (φ := .f32) (val_main_v119 (F := Ideal) x0 x1 x3 x4 x5 x6 x7 x8) (Host.scatterAdd (F := Ideal) (φ := .f32) scatter_S50000x128_S800000x1_S800000x128_1_0_0_1 (val_main_v127 (F := Ideal)) (val_main_v128 (F := Ideal) x1) (val_main_v126 (F := Ideal) x0 x1 x3 x4 x5 x6 x7 x8)) := rfl

/-- Layer 2's scatter-add starts from zeros. -/
theorem zeros_2 (i : S50000x128.Idx) : val_main_v127 (F := Ideal) i = 0 := by
  rw [val_main_v127_apply, val_main_cst_16_apply, Ideal.ofBits_def, Ideal.ofBits_zero_f32]

/-- Layer 2's gathered rows: the layer's input at the normalized source column. -/
theorem gather_def_2 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v126 (F := Ideal) x0 x1 x3 x4 x5 x6 x7 x8
      = Host.gather gather_S50000x128_S800000x1_S800000x128_1_0_n_n_0_1_1128 (val_main_v119 (F := Ideal) x0 x1 x3 x4 x5 x6 x7 x8) (val_main_v125 (F := Ideal) x1) := rfl

/-- Layer 3's aggregated features: the layer's input plus the scatter-add of the gathered rows. -/
theorem agg_def_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v188 (F := Ideal) x0 x1 x3 x4 x5 x6 x7 x8
      = addf (F := Ideal) (φ := .f32) (val_main_v177 (F := Ideal) x0 x1 x3 x4 x5 x6 x7 x8) (Host.scatterAdd (F := Ideal) (φ := .f32) scatter_S50000x128_S800000x1_S800000x128_1_0_0_1 (val_main_v185 (F := Ideal)) (val_main_v186 (F := Ideal) x1) (val_main_v184 (F := Ideal) x0 x1 x3 x4 x5 x6 x7 x8)) := rfl

/-- Layer 3's scatter-add starts from zeros. -/
theorem zeros_3 (i : S50000x128.Idx) : val_main_v185 (F := Ideal) i = 0 := by
  rw [val_main_v185_apply, val_main_cst_24_apply, Ideal.ofBits_def, Ideal.ofBits_zero_f32]

/-- Layer 3's gathered rows: the layer's input at the normalized source column. -/
theorem gather_def_3 (x0 : (⟨S50000x128, .f32⟩ : BufTy).Contents (Elt Ideal)) (x1 : (⟨S2x800000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v184 (F := Ideal) x0 x1 x3 x4 x5 x6 x7 x8
      = Host.gather gather_S50000x128_S800000x1_S800000x128_1_0_n_n_0_1_1128 (val_main_v177 (F := Ideal) x0 x1 x3 x4 x5 x6 x7 x8) (val_main_v183 (F := Ideal) x1) := rfl

/-- The pooled features: the scatter-add, into zeros at the graph column, of the last layer's output. -/
theorem pool_def (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S4x128, .f32⟩ : BufTy).Contents (Elt Ideal)) (x8 : (⟨S4x128, .f32⟩ : BufTy).Contents (Elt Ideal)) :
    val_main_v238 (F := Ideal) x0 x1 x2 x3 x4 x5 x6 x7 x8
      = Host.scatterAdd (F := Ideal) (φ := .f32) scatter_S256x128_S50000x1_S50000x128_1_0_0_1 (val_main_v236 (F := Ideal)) (val_main_v237 (F := Ideal) x2) (val_main_v235 (F := Ideal) x0 x1 x3 x4 x5 x6 x7 x8) := rfl

/-- The pooling starts from zeros. -/
theorem pool_zeros (i : S256x128.Idx) : val_main_v236 (F := Ideal) i = 0 := by
  rw [val_main_v236_apply, val_main_cst_30_apply, Ideal.ofBits_def, Ideal.ofBits_zero_f32]

end Cert.ReferenceIdeal.Hand

end
-- ==== Proof.Ref.Reads.lean ====
/-
  Three layout reads over literal shapes, for any element type: one matrix of a stack of four, one row of a stack
  of four (as a [1, 128] array), and a vector laid out as a [1, 128] array. Each is the slice's offset added on the
  stacked axis and a row-major position computed on both sides of a reshape.
-/
import Idealize.ShloMosaic.Lib.ValueIdx
import Idealize.ShloMosaic.Lib.Pipeline.Value
import Idealize.ShloMosaic.Lib.ValueLayout

noncomputable section

namespace Cert.Reads

open Idealize.ShloMosaic Idealize.ShloMosaic.ValueIdx

/-- Slice l of a [4, 128, 128] stack, reshaped to [128, 128], at (j, k) is the stack at (l, j, k). -/
theorem slice_mat {α : Type} (off : Fin 3 → ℕ) (l : Fin 4) (h0 : off 0 = l.val) (h1 : off 1 = 0) (h2 : off 2 = 0)
    (hs : (⟨3, ![4, 128, 128]⟩ : Shape).Slices off ⟨3, ![1, 128, 128]⟩)
    (hc : (⟨3, ![1, 128, 128]⟩ : Shape).ShapeCasts ⟨2, ![128, 128]⟩)
    (a : (⟨3, ![4, 128, 128]⟩ : Shape).Idx → α) (j k : Fin 128) :
    shapeCast ⟨2, ![128, 128]⟩ (extractStridedSlice ⟨3, ![1, 128, 128]⟩ off a hs) hc (ix2 j k) = a (ix3 l j k) := by
  refine (shapeCast_apply _ hc (ix2 j k) (ix3 (0 : Fin 1) j k) ?_).trans
    (extractStridedSlice_apply off a hs (ix3 (0 : Fin 1) j k) (ix3 l j k) fun b => ?_)
  · rw [Shape.rowMajor_val_three, Shape.rowMajor_val_two]
    show (0 * 128 + j.val) * 128 + k.val = j.val * 128 + k.val
    omega
  · match b with
    | ⟨0, _⟩ => show l.val = off 0 + 0; omega
    | ⟨1, _⟩ => show j.val = off 1 + j.val; omega
    | ⟨2, _⟩ => show k.val = off 2 + k.val; omega

/-- Row l of a [4, 128] stack, flattened to [128] and laid out again as [1, 128], at (0, k) is the stack at (l, k). -/
theorem slice_row {α : Type} (off : Fin 2 → ℕ) (l : Fin 4) (h0 : off 0 = l.val) (h1 : off 1 = 0)
    (hs : (⟨2, ![4, 128]⟩ : Shape).Slices off ⟨2, ![1, 128]⟩)
    (hc1 : (⟨2, ![1, 128]⟩ : Shape).ShapeCasts ⟨1, ![128]⟩)
    (hc2 : (⟨1, ![128]⟩ : Shape).ShapeCasts ⟨2, ![1, 128]⟩)
    (a : (⟨2, ![4, 128]⟩ : Shape).Idx → α) (k : Fin 128) :
    shapeCast ⟨2, ![1, 128]⟩ (shapeCast ⟨1, ![128]⟩ (extractStridedSlice ⟨2, ![1, 128]⟩ off a hs) hc1) hc2 (ix2 0 k)
      = a (ix2 l k) := by
  refine (shapeCast_apply _ hc2 (ix2 (0 : Fin 1) k) (ix1 k) ?_).trans
    ((shapeCast_apply _ hc1 (ix1 k) (ix2 (0 : Fin 1) k) ?_).trans
      (extractStridedSlice_apply off a hs (ix2 (0 : Fin 1) k) (ix2 l k) fun b => ?_))
  · rw [Shape.rowMajor_val_one, Shape.rowMajor_val_two]
    show k.val = 0 * 128 + k.val
    omega
  · rw [Shape.rowMajor_val_two, Shape.rowMajor_val_one]
    show 0 * 128 + k.val = k.val
    omega
  · match b with
    | ⟨0, _⟩ => show l.val = off 0 + 0; omega
    | ⟨1, _⟩ => show k.val = off 1 + k.val; omega

/-- A [128] vector laid out as a [1, 128] array, at (0, k), is the vector at k. -/
theorem vec_row {α : Type} (hc : (⟨1, ![128]⟩ : Shape).ShapeCasts ⟨2, ![1, 128]⟩)
    (v : (⟨1, ![128]⟩ : Shape).Idx → α) (k : Fin 128) :
    shapeCast ⟨2, ![1, 128]⟩ v hc (ix2 0 k) = v (ix1 k) := by
  refine shapeCast_apply v hc (ix2 (0 : Fin 1) k) (ix1 k) ?_
  rw [Shape.rowMajor_val_one, Shape.rowMajor_val_two]
  show k.val = 0 * 128 + k.val
  omega

end Cert.Reads

end
-- ==== Proof.Law.lean ====
/-
  The law that joins the two forms of the column statistics.

  The mean: dividing an extended real by 50000 IS multiplying it by the real 1/50000, for every extended real, so the two
  means agree with no hypothesis.

  The variance: for real entries x_p with mean M = (sum x_p)/n,
      sum (x_p - M)^2 = sum x_p^2 - 2 M sum x_p + n M^2 = sum x_p^2 - n M^2,
  so  (sum (x_p - M)^2)/n = (sum x_p^2)/n - M^2,  and the left side is a sum of squares over n, hence nonnegative, so the
  clamp at 0 is the identity. Here the entries must be real: on the extended reals the expansion of the square fails at
  the infinities.

  Also: Linear-then-ReLU of real operands is real (a finite sum of products of reals, plus a real, clamped at 0).
-/
import proofs.«132655_j36919538876779_2_alg».proof.Proof.Spec
import Mathlib.Tactic.Ring
import Mathlib.Tactic.Positivity
import Mathlib.Tactic.NormNum
import Mathlib.Tactic.Linarith

noncomputable section

namespace Cert.Spec

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum of two numbers (it is monotone). -/
theorem coe_max (a b : ℝ) : ((max a b : ℝ) : EReal) = max (a : EReal) (b : EReal) :=
  EReal.coe_strictMono.monotone.map_max

/-- An array all of whose entries are real numbers. -/
def IsReal {α β : Type} (x : α → β → EReal) : Prop := ∀ p q, ∃ r : ℝ, x p q = (r : EReal)

/-- A vector all of whose entries are real numbers. -/
def IsReal1 {α : Type} (x : α → EReal) : Prop := ∀ q, ∃ r : ℝ, x q = (r : EReal)

/-- The two means agree on every array: a quotient by 50000 is the product with 1/50000. -/
theorem mean_law (x : Fin 50000 → Fin 128 → EReal) (q : Fin 128) : meanK x q = meanR x q := by
  unfold meanK meanR invN
  rw [Ideal.div_coe (by norm_num : (50000 : ℝ) ≠ 0)]

/-- The variance identity over the reals: E[x^2] - M^2, clamped at 0, is the mean squared deviation. -/
theorem real_var (f : Fin 50000 → ℝ) :
    max ((∑ p, f p * f p) * (1 / 50000) - ((∑ p, f p) * (1 / 50000)) * ((∑ p, f p) * (1 / 50000))) 0
      = (∑ p, (f p - (∑ p, f p) * (1 / 50000)) * (f p - (∑ p, f p) * (1 / 50000))) * (1 / 50000) := by
  generalize hM : (∑ p, f p) * (1 / 50000) = M
  have hS : ∑ p, f p = 50000 * M := by rw [← hM]; ring
  have key : ∑ p, (f p - M) * (f p - M) = (∑ p, f p * f p) - 50000 * M * M := by
    have e : ∀ p, (f p - M) * (f p - M) = f p * f p - 2 * M * f p + M * M := fun p => by ring
    simp only [e, Finset.sum_add_distrib, Finset.sum_sub_distrib, ← Finset.mul_sum, Finset.sum_const,
      Finset.card_univ, Fintype.card_fin, nsmul_eq_mul, hS]
    push_cast; ring
  have hnn : 0 ≤ ∑ p, (f p - M) * (f p - M) := Finset.sum_nonneg fun p _ => mul_self_nonneg _
  rw [key] at hnn ⊢
  have e2 : (∑ p, f p * f p) * (1 / 50000) - M * M = ((∑ p, f p * f p) - 50000 * M * M) * (1 / 50000) := by ring
  rw [e2, max_eq_left (mul_nonneg hnn (by norm_num))]

/-- The two variances agree on an array of real entries. -/
theorem var_law (x : Fin 50000 → Fin 128 → EReal) (hx : IsReal x) (q : Fin 128) : varK x q = varR x q := by
  choose f hf using hx
  have hm : meanR x q = (((∑ p, f p q) * (1 / 50000) : ℝ) : EReal) := by
    rw [← mean_law]; unfold meanK invN
    simp only [hf]; rw [← coe_sum, ← EReal.coe_mul]
  unfold varK varR
  rw [mean_law, hm, Ideal.div_coe (by norm_num : (50000 : ℝ) ≠ 0)]
  simp only [hf]
  simp only [← EReal.coe_mul, ← EReal.coe_sub, ← coe_sum]
  rw [← EReal.coe_zero, ← coe_max, real_var (fun p => f p q)]

/-- Linear-then-ReLU of real operands is real. -/
theorem lin_real {n : ℕ} (x : Fin n → Fin 128 → EReal) (w : Fin 128 → Fin 128 → EReal) (b : Fin 128 → EReal)
    (hx : IsReal x) (hw : IsReal w) (hb : IsReal1 b) : IsReal (lin x w b) := by
  choose fx hfx using hx
  choose fw hfw using hw
  choose fb hfb using hb
  intro p q
  refine ⟨max ((∑ k, fx p k * fw k q) + fb q) 0, ?_⟩
  unfold lin
  simp only [hfx, hfw, hfb]
  simp only [← EReal.coe_mul, ← coe_sum, ← EReal.coe_add]
  rw [← EReal.coe_zero, ← coe_max]

/-- Linear, ReLU, Linear, ReLU of real operands is real. -/
theorem mlp_real {n : ℕ} (x : Fin n → Fin 128 → EReal) (w1 : Fin 128 → Fin 128 → EReal) (b1 : Fin 128 → EReal)
    (w2 : Fin 128 → Fin 128 → EReal) (b2 : Fin 128 → EReal)
    (hx : IsReal x) (hw1 : IsReal w1) (hb1 : IsReal1 b1) (hw2 : IsReal w2) (hb2 : IsReal1 b2) :
    IsReal (mlp x w1 b1 w2 b2) :=
  lin_real _ _ _ (lin_real _ _ _ hx hw1 hb1) hw2 hb2

end Cert.Spec

end
-- ==== Proof.LibRowScatter.lean ====
import Idealize.ShloMosaic.PureOps.Ideal
import Idealize.ShloMosaic.Lib.ValueIdx

/-!
# Row gather and row accumulating scatter, read at an index

For a table `x` of `N` rows and `D` columns and a column `idx` of `E` integer row numbers:

* the ROW GATHER `x[idx]` has `E` rows; its row `e` is row `idx e` of `x`, the row number read as a signed
  integer and clamped into `[0, N - 1]`;
* the ROW ACCUMULATING SCATTER (a segment sum) of updates `upd` of `E` rows and `D` columns adds, to the entry
  `(p, q)` of `x`, the entries `upd (e, q)` of all rows `e` whose row number `idx e`, read as a signed integer, is
  exactly `p`; a row whose number is negative or at least `N` is dropped.

Both are stated for any dimension-number record whose lists are those of a gather or scatter along axis 0 with whole
rows as slices, over natural numbers `N`, `D`, `E` that stay symbolic.
-/

noncomputable section

open scoped BigOperators

namespace Idealize.ShloMosaic.RowScatter

open Idealize.ShloMosaic Idealize.ShloMosaic.ValueIdx

/-! ## The row accumulating scatter -/

section Scatter
variable {N D E : Nat}

/-- The dimension numbers of a scatter of whole rows along axis 0: operand `[N, D]`, scatter indices `[E, 1]` (one
    row number per update row, the index vector on axis 1), updates `[E, D]` whose axis 1 is the window axis. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update `(e, c)` starts at the signed row number of `e`. -/
theorem rowScatterDims_start_zero {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 0 = (idx (ix2 (j 0) 0)).toInt := by
  unfold ScatterDims.start
  rw [dif_pos (show (0 : Fin 2) ∈ (rowScatterDims N D E wf).scatterDimsToOperandDims from List.mem_singleton.mpr rfl)]
  have hsi : (rowScatterDims N D E wf).siIdx j ⟨List.idxOf (0 : Fin 2) (rowScatterDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every window starts at `0`: no scatter index names that axis. -/
theorem rowScatterDims_start_one {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 1 = 0 := by
  unfold ScatterDims.start
  rw [dif_neg (show (1 : Fin 2) ∉ ([0] : List (Fin 2)) by decide)]

/-- The row axis is an inserted axis: its window coordinate is `0`. -/
theorem rowScatterDims_window_zero (wf : ScatterDims.WF ⟨2, ![N, D]⟩ ⟨2, ![E, 1]⟩ ⟨2, ![E, D]⟩ [1] [0] [0] 1)
    (j : (⟨2, ![E, D]⟩ : Shape).Idx) :
    (rowScatterDims N D E wf).window j 0 = 0 := by
  unfold ScatterDims.window
  rw [dif_neg (by simp [Shape.kept, List.mem_filter])]

/-- The column axis is the window axis: its window coordinate is the update's column. -/
theorem rowScatterDims_window_one (wf : ScatterDims.WF ⟨2, ![N, D]⟩ ⟨2, ![E, 1]⟩ ⟨2, ![E, D]⟩ [1] [0] [0] 1)
    (j : (⟨2, ![E, D]⟩ : Shape).Idx) :
    (rowScatterDims N D E wf).window j 1 = (j 1).val := by
  unfold ScatterDims.window
  rw [dif_pos (by simp [Shape.kept, List.mem_filter])]
  rfl

/-- WHERE AN UPDATE LANDS: update `j = (e, c)` lands on entry `(p, q)` exactly when the signed row number of `e` is
    `p` and `c = q`. A row number outside `[0, N)` equals no `p`, so such an update lands nowhere. -/
theorem rowScatterDims_resultIdx?_eq_some_iff {w : Nat}
    (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (p : Fin N) (q : Fin D) :
    (rowScatterDims N D E wf).resultIdx? j idx = some (ix2 p q) ↔
      (idx (ix2 (j 0) 0)).toInt = (p.val : Int) ∧ j 1 = q := by
  have hs0 := rowScatterDims_start_zero wf j idx
  have hs1 := rowScatterDims_start_one wf j idx
  have hw0 := rowScatterDims_window_zero wf j
  have hw1 := rowScatterDims_window_one wf j
  have hjD : (j 1).val < D := idx2_lt1 j
  have hpN : p.val < N := p.isLt
  unfold ScatterDims.resultIdx?
  split
  · rename_i h
    rw [Option.some.injEq]
    constructor
    · intro hf
      have e0 : ((rowScatterDims N D E wf).start j idx 0 + ((rowScatterDims N D E wf).window j 0 : Nat)).toNat = p.val :=
        congrArg (fun f : (⟨2, ![N, D]⟩ : Shape).Idx => (f 0).val) hf
      have e1 : ((rowScatterDims N D E wf).start j idx 1 + ((rowScatterDims N D E wf).window j 1 : Nat)).toNat = q.val :=
        congrArg (fun f : (⟨2, ![N, D]⟩ : Shape).Idx => (f 1).val) hf
      have h0 := (h 0).1
      rw [hs0, hw0] at e0 h0
      rw [hs1, hw1] at e1
      refine ⟨by omega, Fin.ext (by omega)⟩
    · rintro ⟨ht, hq⟩
      funext a; refine Fin.ext ?_
      match a with
      | ⟨0, _⟩ =>
        show ((rowScatterDims N D E wf).start j idx 0 + ((rowScatterDims N D E wf).window j 0 : Nat)).toNat = p.val
        rw [hs0, hw0, ht]; omega
      | ⟨1, _⟩ =>
        show ((rowScatterDims N D E wf).start j idx 1 + ((rowScatterDims N D E wf).window j 1 : Nat)).toNat = q.val
        rw [hs1, hw1, hq]; omega
  · rename_i h
    constructor
    · intro hn; cases hn
    · rintro ⟨ht, hq⟩
      refine absurd (fun a => ?_) h
      match a with
      | ⟨0, _⟩ =>
        show 0 ≤ (rowScatterDims N D E wf).start j idx 0 + ((rowScatterDims N D E wf).window j 0 : Nat) ∧
          (rowScatterDims N D E wf).start j idx 0 + ((rowScatterDims N D E wf).window j 0 : Nat) < (N : Int)
        rw [hs0, hw0, ht]; omega
      | ⟨1, _⟩ =>
        show 0 ≤ (rowScatterDims N D E wf).start j idx 1 + ((rowScatterDims N D E wf).window j 1 : Nat) ∧
          (rowScatterDims N D E wf).start j idx 1 + ((rowScatterDims N D E wf).window j 1 : Nat) < (D : Int)
        rw [hs1, hw1]; omega

/-- THE ROW ACCUMULATING SCATTER READ AT `(p, q)`, at the ideal instance: the operand's entry plus the sum, over the
    update rows `e` whose signed row number is exactly `p`, of the update's entry `(e, q)`. Update rows whose row
    number is negative or at least `N` contribute nothing. Holds for every record `d` with these dimension
    numbers. -/
theorem scatterAdd_rows_apply {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (p : Fin N) (q : Fin D) :
    Host.scatterAdd (F := Ideal) d x idx upd (ix2 p q) =
      x (ix2 p q) + ∑ e ∈ Finset.univ.filter (fun e : Fin E => (idx (ix2 e 0)).toInt = (p.val : Int)), upd (ix2 e q) := by
  obtain ⟨uw, iw, sd, iv, wf⟩ := d
  simp only at h1 h2 h3 h4
  subst h1 h2 h3 h4
  show x (ix2 p q) + ∑ j ∈ Finset.univ.filter
      (fun j => (rowScatterDims N D E wf).resultIdx? j idx = some (ix2 p q)), upd j = _
  congr 1
  rw [Finset.sum_filter, Finset.sum_filter, sum_idx2]
  refine Finset.sum_congr rfl fun e _ => ?_
  have hcond : ∀ b : Fin D, ((rowScatterDims N D E wf).resultIdx? (ix2 e b) idx = some (ix2 p q)) ↔
      ((idx (ix2 e 0)).toInt = (p.val : Int) ∧ b = q) :=
    fun b => rowScatterDims_resultIdx?_eq_some_iff wf (ix2 e b) idx p q
  simp only [hcond]
  by_cases hp : (idx (ix2 e 0)).toInt = (p.val : Int)
  · simp [hp]
  · simp [hp]

/-- The same scatter when every update entry is one value `c` (a count of the rows sent to `p`, weighted by `c`): the
    operand's entry plus `c` summed once for every update row whose signed row number is exactly `p`. -/
theorem scatterAdd_rows_apply_of_const {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ) (c : Ideal φ)
    (hc : ∀ j, upd j = c) (p : Fin N) (q : Fin D) :
    Host.scatterAdd (F := Ideal) d x idx upd (ix2 p q) =
      x (ix2 p q) + ∑ _e ∈ Finset.univ.filter (fun e : Fin E => (idx (ix2 e 0)).toInt = (p.val : Int)), c := by
  rw [scatterAdd_rows_apply d h1 h2 h3 h4 x idx upd p q]
  simp only [hc]

end Scatter

/-! ## The row gather -/

section Gather
variable {N D E : Nat} {α : Type}

/-- The row number of gathered row `e`: the entry `idx (e, 0)` read as a signed integer and clamped into
    `[0, N - 1]` (a negative number reads row `0`, a number past the end reads the last row). -/
def clampRow {w : Nat} (hN : 0 < N) (idx : IVec ⟨2, ![E, 1]⟩ w) (e : Fin E) : Fin N :=
  ⟨min (idx (ix2 e 0)).toInt.toNat (N - 1), by omega⟩

/-- The clamped row number as a natural number. -/
theorem clampRow_val {w : Nat} (hN : 0 < N) (idx : IVec ⟨2, ![E, 1]⟩ w) (e : Fin E) :
    (clampRow hN idx e).val = min (idx (ix2 e 0)).toInt.toNat (N - 1) := rfl

/-- A row number that is already in range is not changed by the clamp. -/
theorem clampRow_of_toInt_eq {w : Nat} (hN : 0 < N) (idx : IVec ⟨2, ![E, 1]⟩ w) (e : Fin E) (p : Fin N)
    (h : (idx (ix2 e 0)).toInt = (p.val : Int)) : clampRow hN idx e = p := by
  refine Fin.ext ?_
  have hp := p.isLt
  rw [clampRow_val, h]
  omega

/-- A row number below `N` is clamped from below only: the clamp is its natural-number part (`0` when it is negative). -/
theorem clampRow_val_of_lt {w : Nat} (hN : 0 < N) (idx : IVec ⟨2, ![E, 1]⟩ w) (e : Fin E)
    (h : (idx (ix2 e 0)).toInt < (N : Int)) : (clampRow hN idx e).val = (idx (ix2 e 0)).toInt.toNat := by
  rw [clampRow_val]
  omega

/-- The dimension numbers of a gather of whole rows along axis 0: operand `[N, D]`, start indices `[E, 1]` (one row
    number per result row, the index vector on axis 1), slices of one row (`[1, D]`) with the row axis collapsed,
    result `[E, D]` whose axis 1 is the offset axis. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the operand's entry in column `q` of the row whose number is `idx (e, 0)`, read
    signed and clamped into `[0, N - 1]`. Holds for every record `g` with these dimension numbers and slice sizes. -/
theorem gather_rows_apply {w : Nat} (hN : 0 < N) (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D])
    (x : (⟨2, ![N, D]⟩ : Shape).Idx → α) (idx : IVec ⟨2, ![E, 1]⟩ w) (e : Fin E) (q : Fin D) :
    Host.gather g x idx (ix2 e q) = x (ix2 (clampRow hN idx e) q) := by
  obtain ⟨od, cd, ob, sb, sm, iv, ss, wf⟩ := g
  simp only at h1 h2 h3 h4 h5 h6 h7
  subst h1 h2 h3 h4 h5 h6 h7
  show x ((rowGatherDims N D E wf).operandIdx (ix2 e q) idx) = _
  congr 1
  funext a; refine Fin.ext ?_
  match a with
  | ⟨0, _⟩ =>
    show (rowGatherDims N D E wf).start (ix2 e q) idx 0 + (rowGatherDims N D E wf).batchCoord (ix2 e q) 0 +
      (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1 +
      (rowGatherDims N D E wf).offCoord (ix2 e q) 1 = q.val
    have hst : (rowGatherDims N D E wf).start (ix2 e q) idx 1 = 0 := by
      unfold GatherDims.start
      rw [dif_neg (show (1 : Fin 2) ∉ ([0] : List (Fin 2)) by decide)]
    have hoff : (rowGatherDims N D E wf).offCoord (ix2 e q) 1 = q.val := by
      unfold GatherDims.offCoord
      rw [dif_pos (by simp [Shape.kept, List.mem_filter])]
      rfl
    rw [GatherDims.batchCoord_eq_zero _ _ _ List.not_mem_nil, hst, hoff]
    omega

end Gather

end Idealize.ShloMosaic.RowScatter

end
-- ==== Proof.Law2.lean ====
/-
  Consequences of the statistics law for a whole layer.

  * The mean and the biased variance of a real array are real, the variance nonnegative; the variance floor is a
    positive real; the reciprocal square root of a positive real is real. So the normalized, affinely mapped array is
    real again: finiteness passes from one layer to the next.
  * With real entries the two forms of a layer's normalization are one function.
  * The neighbour sum: adding, into row p of h, the updates of all edges whose destination is p gives the same row
    whether the accumulation starts from h itself or starts from zero and h is added afterwards. A destination index
    that is nonnegative as a signed integer is left unchanged by "add the number of rows if negative", so both
    programs accumulate over the same edges.
-/
import proofs.«132655_j36919538876779_2_alg».proof.Proof.Law
import proofs.«132655_j36919538876779_2_alg».proof.Proof.LibRowScatter

noncomputable section

namespace Cert.Spec

open Idealize.ShloMosaic Idealize.ShloMosaic.ValueIdx

/-- The variance floor is a positive real number. -/
theorem eps_pos : ∃ r : ℝ, 0 < r ∧ eps = (r : EReal) := by
  unfold eps; simp [Ideal.ofBits, Ideal.ieee, -EReal.coe_mul]

/-- The f32 word 0x47435000 is the real number 50000. -/
theorem fifty_thousand : Ideal.ofBits .f32 0x47435000#32 = ((50000 : ℝ) : EReal) := by
  simp [Ideal.ofBits, Ideal.ieee, -EReal.coe_mul]; norm_num

/-- The column means of a real array are real. -/
theorem meanR_real (x : Fin 50000 → Fin 128 → EReal) (hx : IsReal x) : IsReal1 (meanR x) := by
  choose f hf using hx
  intro q
  refine ⟨(∑ p, f p q) * (1 / 50000), ?_⟩
  rw [← mean_law]; unfold meanK invN
  simp only [hf]; rw [← coe_sum, ← EReal.coe_mul]

/-- The column variances of a real array are nonnegative reals. -/
theorem varR_real (x : Fin 50000 → Fin 128 → EReal) (hx : IsReal x) (q : Fin 128) :
    ∃ r : ℝ, 0 ≤ r ∧ varR x q = (r : EReal) := by
  obtain ⟨M, hM⟩ := meanR_real x hx q
  choose f hf using hx
  refine ⟨(∑ p, (f p q - M) * (f p q - M)) * (1 / 50000),
    mul_nonneg (Finset.sum_nonneg fun p _ => mul_self_nonneg _) (by norm_num), ?_⟩
  unfold varR
  rw [hM, Ideal.div_coe (by norm_num : (50000 : ℝ) ≠ 0)]
  simp only [hf]
  simp only [← EReal.coe_mul, ← EReal.coe_sub, ← coe_sum]

/-- The reciprocal square root of a positive real is the real 1/sqrt. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- Normalizing a real array by its own statistics and applying a real affine map gives a real array. -/
theorem bn_real (x : Fin 50000 → Fin 128 → EReal) (γ β : Fin 128 → EReal)
    (hx : IsReal x) (hγ : IsReal1 γ) (hβ : IsReal1 β) : IsReal (bn x (meanR x) (varR x) γ β) := by
  intro p q
  obtain ⟨fx, hfx⟩ := hx p q
  obtain ⟨M, hM⟩ := meanR_real x hx q
  obtain ⟨v, hv0, hv⟩ := varR_real x hx q
  obtain ⟨e, he0, he⟩ := eps_pos
  obtain ⟨g, hg⟩ := hγ q
  obtain ⟨b, hb⟩ := hβ q
  refine ⟨(fx - M) * (Real.sqrt (v + e))⁻¹ * g + b, ?_⟩
  unfold bn
  rw [hfx, hM, hv, he, hg, hb, ← EReal.coe_add v e, rsqrt_pos _ (by positivity)]
  simp only [← EReal.coe_sub, ← EReal.coe_mul, ← EReal.coe_add]

/-- On a real array the two forms of the normalization are one function. -/
theorem layer_law (x : Fin 50000 → Fin 128 → EReal) (γ β : Fin 128 → EReal) (hx : IsReal x) :
    bn x (meanK x) (varK x) γ β = bn x (meanR x) (varR x) γ β := by
  funext p q
  unfold bn
  rw [mean_law, var_law x hx]

/-- A signed-nonnegative word is not below zero, so "if negative add n, else keep" keeps it. -/
theorem select_neg_fix (w n : BitVec 32) (h : 0 ≤ w.toInt) :
    Scalar.select (IntOp.cmpi .slt w (0#32)) (IntOp.addi w n) w = w := by
  unfold Scalar.select IntOp.cmpi
  have : w.slt (0#32) = false := by
    simp only [BitVec.slt, decide_eq_false_iff_not, not_lt]
    simpa using h
  simp [this]

section Agg
variable {N D E : Nat}

/-- Accumulating the updates into h, or into zero and then adding h, gives the same entry: at (p, q) both are
    h (p, q) plus the updates of the rows whose number is p. -/
theorem scatter_into_eq {w : Nat}
    (dK dR : ScatterDims ⟨2, ![N, D]⟩ ⟨2, ![E, 1]⟩ ⟨2, ![E, D]⟩)
    (k1 : dK.updateWindowDims = [1]) (k2 : dK.insertedWindowDims = [0]) (k3 : dK.scatterDimsToOperandDims = [0]) (k4 : dK.indexVectorDim = 1)
    (r1 : dR.updateWindowDims = [1]) (r2 : dR.insertedWindowDims = [0]) (r3 : dR.scatterDimsToOperandDims = [0]) (r4 : dR.indexVectorDim = 1)
    (h z : FVec Ideal ⟨2, ![N, D]⟩ .f32) (hz : ∀ i, z i = 0) (idx : IVec ⟨2, ![E, 1]⟩ w) (upd : FVec Ideal ⟨2, ![E, D]⟩ .f32)
    (p : Fin N) (q : Fin D) :
    Host.scatterAdd (F := Ideal) dK h idx upd (ix2 p q) = h (ix2 p q) + Host.scatterAdd (F := Ideal) dR z idx upd (ix2 p q) := by
  rw [RowScatter.scatterAdd_rows_apply dK k1 k2 k3 k4, RowScatter.scatterAdd_rows_apply dR r1 r2 r3 r4, hz, zero_add]

end Agg

end Cert.Spec

end
-- ==== Proof.Law3.lean ====
/-
  Whole-array forms of the neighbour-sum facts.

  * "If the destination is negative add the number of rows, else keep it" is the identity on an index vector all of whose
    entries are nonnegative as signed integers.
  * Gathering rows of a real table gives a real table; accumulating real updates into a real table gives a real table
    (each entry is a real plus a finite sum of reals).
-/
import proofs.«132655_j36919538876779_2_alg».proof.Proof.Law2

noncomputable section

namespace Cert.Spec

open Idealize.ShloMosaic Idealize.ShloMosaic.ValueIdx

/-- On a vector of signed-nonnegative words the wrap of negative indices changes nothing. -/
theorem norm_fix {s : Shape} (v z n : IVec s 32) (hz : ∀ i, z i = 0#32) (h : ∀ i, 0 ≤ (v i).toInt) :
    select (cmpi .slt v z) (addi v n) v = v := by
  funext i
  show Scalar.select (IntOp.cmpi .slt (v i) (z i)) (IntOp.addi (v i) (n i)) (v i) = v i
  rw [hz]
  exact select_neg_fix _ _ (h i)

/-- A table all of whose entries are real numbers, read through its two coordinates. -/
def IsRealArr {N D : Nat} (x : FVec Ideal ⟨2, ![N, D]⟩ .f32) : Prop := ∀ (p : Fin N) (q : Fin D), ∃ r : ℝ, x (ix2 p q) = (r : EReal)

section
variable {N D E : Nat}

/-- Rows gathered from a real table are real. -/
theorem gather_real {w : Nat} (hN : 0 < N) (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D])
    (x : FVec Ideal ⟨2, ![N, D]⟩ .f32) (hx : IsRealArr x) (idx : IVec ⟨2, ![E, 1]⟩ w) :
    IsRealArr (Host.gather g x idx) := by
  intro e q
  rw [RowScatter.gather_rows_apply hN g h1 h2 h3 h4 h5 h6 h7]
  exact hx _ _

/-- Real updates accumulated into a real table give a real table. -/
theorem scatter_real {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ .f32) (hx : IsRealArr x) (idx : IVec ⟨2, ![E, 1]⟩ w)
    (upd : FVec Ideal ⟨2, ![E, D]⟩ .f32) (hu : IsRealArr upd) :
    IsRealArr (Host.scatterAdd (F := Ideal) d x idx upd) := by
  intro p q
  rw [RowScatter.scatterAdd_rows_apply d h1 h2 h3 h4]
  obtain ⟨r, hr⟩ := hx p q
  choose f hf using hu
  refine ⟨r + ∑ e ∈ Finset.univ.filter (fun e : Fin E => (idx (ix2 e 0)).toInt = (p.val : Int)), f e q, ?_⟩
  rw [hr, EReal.coe_add, coe_sum]
  simp only [hf]

end

end Cert.Spec

end
-- ==== Proof.Law4.lean ====
/-
  The neighbour sum and the per-graph sum of two tables that agree entry by entry.

  If hK and hR agree at every (p, q), then gathering rows of either at the same row numbers gives the same rows, so
  accumulating them at the same destinations into hK gives, at (p, q), hR (p, q) plus what accumulating them into a
  table of zeros gives. Likewise the per-graph sums of hK and of hR into zeros agree.
-/
import proofs.«132655_j36919538876779_2_alg».proof.Proof.Law3

noncomputable section

namespace Cert.Spec

open Idealize.ShloMosaic Idealize.ShloMosaic.ValueIdx

section
variable {N D E : Nat}

/-- The neighbour sum accumulated into hK is hR plus the neighbour sum accumulated into zeros. -/
theorem agg_join {w : Nat} (hN : 0 < N)
    (scK scR : ScatterDims ⟨2, ![N, D]⟩ ⟨2, ![E, 1]⟩ ⟨2, ![E, D]⟩)
    (k1 : scK.updateWindowDims = [1]) (k2 : scK.insertedWindowDims = [0]) (k3 : scK.scatterDimsToOperandDims = [0]) (k4 : scK.indexVectorDim = 1)
    (r1 : scR.updateWindowDims = [1]) (r2 : scR.insertedWindowDims = [0]) (r3 : scR.scatterDimsToOperandDims = [0]) (r4 : scR.indexVectorDim = 1)
    (gK gR : GatherDims ⟨2, ![N, D]⟩ ⟨2, ![E, 1]⟩ ⟨2, ![E, D]⟩)
    (a1 : gK.offsetDims = [1]) (a2 : gK.collapsedSliceDims = [0]) (a3 : gK.operandBatchingDims = [])
    (a4 : gK.startIndicesBatchingDims = []) (a5 : gK.startIndexMap = [0]) (a6 : gK.indexVectorDim = 1) (a7 : gK.sliceSizes = ![1, D])
    (b1 : gR.offsetDims = [1]) (b2 : gR.collapsedSliceDims = [0]) (b3 : gR.operandBatchingDims = [])
    (b4 : gR.startIndicesBatchingDims = []) (b5 : gR.startIndexMap = [0]) (b6 : gR.indexVectorDim = 1) (b7 : gR.sliceSizes = ![1, D])
    (hK hR z : FVec Ideal ⟨2, ![N, D]⟩ .f32) (hh : ∀ p q, hK (ix2 p q) = hR (ix2 p q)) (hz : ∀ i, z i = 0)
    (idx src : IVec ⟨2, ![E, 1]⟩ w) (p : Fin N) (q : Fin D) :
    Host.scatterAdd (F := Ideal) scK hK idx (Host.gather gK hK src) (ix2 p q)
      = hR (ix2 p q) + Host.scatterAdd (F := Ideal) scR z idx (Host.gather gR hR src) (ix2 p q) := by
  rw [RowScatter.scatterAdd_rows_apply scK k1 k2 k3 k4, RowScatter.scatterAdd_rows_apply scR r1 r2 r3 r4, hz, zero_add, hh p q]
  congr 1
  refine Finset.sum_congr rfl fun e _ => ?_
  rw [RowScatter.gather_rows_apply hN gK a1 a2 a3 a4 a5 a6 a7, RowScatter.gather_rows_apply hN gR b1 b2 b3 b4 b5 b6 b7]
  exact hh _ _

/-- Sums over groups of rows, into zeros, of two tables that agree entry by entry agree. -/
theorem pool_join {w : Nat}
    (scK scR : ScatterDims ⟨2, ![N, D]⟩ ⟨2, ![E, 1]⟩ ⟨2, ![E, D]⟩)
    (k1 : scK.updateWindowDims = [1]) (k2 : scK.insertedWindowDims = [0]) (k3 : scK.scatterDimsToOperandDims = [0]) (k4 : scK.indexVectorDim = 1)
    (r1 : scR.updateWindowDims = [1]) (r2 : scR.insertedWindowDims = [0]) (r3 : scR.scatterDimsToOperandDims = [0]) (r4 : scR.indexVectorDim = 1)
    (zK zR : FVec Ideal ⟨2, ![N, D]⟩ .f32) (hzK : ∀ i, zK i = 0) (hzR : ∀ i, zR i = 0)
    (hK hR : FVec Ideal ⟨2, ![E, D]⟩ .f32) (hh : ∀ e q, hK (ix2 e q) = hR (ix2 e q))
    (idx : IVec ⟨2, ![E, 1]⟩ w) (p : Fin N) (q : Fin D) :
    Host.scatterAdd (F := Ideal) scK zK idx hK (ix2 p q) = Host.scatterAdd (F := Ideal) scR zR idx hR (ix2 p q) := by
  rw [RowScatter.scatterAdd_rows_apply scK k1 k2 k3 k4, RowScatter.scatterAdd_rows_apply scR r1 r2 r3 r4, hzK, hzR]
  congr 1
  exact Finset.sum_congr rfl fun e _ => hh _ _

end

end Cert.Spec

end
-- ==== Proof.Pre.lean ====
/-
  The precondition, decoded. It is a conjunction of ten facts, each stated in the printed program as "a reduction by
  `and` of an array of truth values is true":
  * for each of the nine float inputs, every entry has absolute value strictly below +infinity, that is, every entry
    is a real number;
  * every entry of the second row of the edge list (the destination node of each edge) is nonnegative as a signed
    integer.
  A reduction by `and` into a single truth value is true only if every element is.
-/
import proofs.«132655_j36919538876779_2_alg».proof.Pre_finite_inputs
import proofs.«132655_j36919538876779_2_alg».proof.Proof.Gen.Pre_finite_inputs
import Idealize.ShloMosaic.PureOps.Ideal
import Idealize.ShloMosaic.Lib.ReduceAll
import Idealize.ShloMosaic.Lib.Affine

noncomputable section

namespace Cert.Proof.Pre

open Idealize.ShloMosaic Cert.Pre_finite_inputs

/-- The shape with no axes has exactly one index. -/
instance : Subsingleton S_.Idx := ⟨fun a b => funext fun d => d.elim0⟩

/-- An extended real whose absolute value is strictly below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A truth value built from a proposition is true exactly when the proposition holds. -/
theorem ofBool_eq_one (b : Bool) : BitVec.ofBool b = 1#1 ↔ b = true := by cases b <;> decide

/-- The f32 word 0x7F800000 denotes +infinity. -/
theorem inf_word : Ideal.ofBits .f32 0x7F800000#32 = (⊤ : EReal) := by simp [Ideal.ofBits, Ideal.ieee]

/-- "all (|a| < +inf)" true: every entry of `a` is real. -/
theorem all_real {s : Shape} {axes : List (Fin s.rank)} (a : FVec Ideal s .f32)
    (hb : S_.BroadcastsInDim s (![] : Fin 0 → Fin s.rank)) (hr : s.ReducesTo axes S_) (hS : 0 < S_.numel) (j : S_.Idx)
    (e : Host.reduce IntOp.andi (cmpf .olt (Host.absf a) (broadcastInDim s ![] hb (constant S_ .f32 0x7F800000#32)))
      (constantI S_ 1 1#1) hr hS j = 1#1) (i : s.Idx) : ∃ r : ℝ, a i = (r : EReal) := by
  have h := Host.reduce_andi_all _ _ hr hS j e i
  have h2 : Ideal.cmp .olt (max (a i) (-(a i))) (Ideal.ofBits .f32 0x7F800000#32) = 1#1 := h
  rw [inf_word] at h2
  unfold Ideal.cmp at h2
  rw [ofBool_eq_one] at h2
  exact real_of_abs_lt_top _ (by simpa using h2)

/-- "all (v >= 0)" true, signed: every entry of `v` is nonnegative as a signed integer. -/
theorem all_nonneg {s : Shape} {axes : List (Fin s.rank)} (v : IVec s 32)
    (hb : S_.BroadcastsInDim s (![] : Fin 0 → Fin s.rank)) (hr : s.ReducesTo axes S_) (hS : 0 < S_.numel) (j : S_.Idx)
    (e : Host.reduce IntOp.andi (cmpi .sge v (broadcastInDim s ![] hb (constantI S_ 32 0#32)))
      (constantI S_ 1 1#1) hr hS j = 1#1) (i : s.Idx) : 0 ≤ (v i).toInt := by
  have h := Host.reduce_andi_all _ _ hr hS j e i
  have h2 : IntOp.cmpi .sge (v i) (0#32) = 1#1 := h
  unfold IntOp.cmpi at h2
  rw [ofBool_eq_one] at h2
  simpa [BitVec.sle] using h2

variable [Facts]
open Facts

/-- The destination node of each edge: row 1 of the edge list, as a vector. -/
abbrev dstOf (a1 : IVec S2x800000 32) : IVec S800000 32 :=
  shapeCast S800000 (extractStridedSlice S1x800000 ![1, 0] a1 slices_S2x800000_S1x800000_1_0) shapeCasts_S1x800000_S800000

/-- What the precondition says of the eleven argument arrays. -/
structure Decoded (a0 : FVec Ideal S50000x128 .f32) (a1 : IVec S2x800000 32) (a3 : FVec Ideal S4x128x128 .f32)
    (a4 : FVec Ideal S4x128 .f32) (a5 : FVec Ideal S4x128x128 .f32) (a6 a7 a8 : FVec Ideal S4x128 .f32)
    (a9 : FVec Ideal S128x128 .f32) (a10 : FVec Ideal S128 .f32) : Prop where
  r0 : ∀ i, ∃ r : ℝ, a0 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  dst : ∀ i, 0 ≤ (dstOf a1 i).toInt

/-- The precondition gives the ten facts. -/
theorem decode (a0 : FVec Ideal S50000x128 .f32) (a1 : IVec S2x800000 32) (a2 : IVec S50000 32) (a3 : FVec Ideal S4x128x128 .f32)
    (a4 : FVec Ideal S4x128 .f32) (a5 : FVec Ideal S4x128x128 .f32) (a6 a7 a8 : FVec Ideal S4x128 .f32)
    (a9 : FVec Ideal S128x128 .f32) (a10 : FVec Ideal S128 .f32)
    (h : fn (F := Ideal) a0 a1 a2 a3 a4 a5 a6 a7 a8 a9 a10 = fun _ => 1#1) :
    Decoded a0 a1 a3 a4 a5 a6 a7 a8 a9 a10 := by
  have e := congrFun h (fun d => d.elim0)
  dsimp only [fn, fn_part1, fn_part2] at e
  simp only [andi, IntOp.andi_eq_one] at e
  obtain ⟨⟨⟨⟨⟨⟨⟨⟨⟨e0, e3⟩, e4⟩, e5⟩, e6⟩, e7⟩, e8⟩, e9⟩, e10⟩, ed⟩ := e
  exact ⟨all_real _ _ _ _ _ e0, all_real _ _ _ _ _ e3, all_real _ _ _ _ _ e4, all_real _ _ _ _ _ e5, all_real _ _ _ _ _ e6,
    all_real _ _ _ _ _ e7, all_real _ _ _ _ _ e8, all_real _ _ _ _ _ e9, all_real _ _ _ _ _ e10, all_nonneg _ _ _ _ _ ed⟩

end Cert.Proof.Pre

end
-- ==== Proof.Join.lean ====
import proofs.«132655_j36919538876779_2_alg».proof.Proof.KI.Chain0
import proofs.«132655_j36919538876779_2_alg».proof.Proof.KI.Chain1
import proofs.«132655_j36919538876779_2_alg».proof.Proof.KI.Chain2
import proofs.«132655_j36919538876779_2_alg».proof.Proof.KI.Chain3
import proofs.«132655_j36919538876779_2_alg».proof.Proof.KI.Chain4
import proofs.«132655_j36919538876779_2_alg».proof.Proof.Ref.L0
import proofs.«132655_j36919538876779_2_alg».proof.Proof.Ref.L1
import proofs.«132655_j36919538876779_2_alg».proof.Proof.Ref.L2
import proofs.«132655_j36919538876779_2_alg».proof.Proof.Ref.L3
import proofs.«132655_j36919538876779_2_alg».proof.Proof.Ref.Tail
import proofs.«132655_j36919538876779_2_alg».proof.Proof.Ref.AggDefs
import proofs.«132655_j36919538876779_2_alg».proof.Proof.Ref.Reads
import proofs.«132655_j36919538876779_2_alg».proof.Proof.Law4
import proofs.«132655_j36919538876779_2_alg».proof.Proof.Pre

/-!
# The two idealized programs compute the same result

Layer by layer. Suppose the layer's input is the same table in both programs, entry by entry, and all its entries are
real. Then the neighbour sums agree (the destination indices are nonnegative, so wrapping negative ones changes
nothing, and accumulating into the table or into zeros and adding the table afterwards gives the same entries); the
parameter slices are the same entries of the stacked arrays; so the activations H agree and are real; on a real H the
accumulated-sums form of the column statistics is the quotient form; so the layer's outputs agree, and they are real
again. After four layers the per-graph sums agree, and the projection of equal rows is equal.
-/

set_option maxRecDepth 16384

noncomputable section

namespace Cert.Proof.Join

open Idealize.ShloMosaic Idealize.ShloMosaic.TcCoe Idealize.ShloMosaic.ValueIdx Idealize.SL.Sem
open Cert.Spec

/-- Argument 0 as launched on core c. -/
abbrev a0 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg0)
/-- Argument 1 as launched on core c. -/
abbrev a1 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg1)
/-- Argument 2 as launched on core c. -/
abbrev a2 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg2)
/-- Argument 3 as launched on core c. -/
abbrev a3 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg3)
/-- Argument 4 as launched on core c. -/
abbrev a4 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg4)
/-- Argument 5 as launched on core c. -/
abbrev a5 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg5)
/-- Argument 6 as launched on core c. -/
abbrev a6 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg6)
/-- Argument 7 as launched on core c. -/
abbrev a7 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg7)
/-- Argument 8 as launched on core c. -/
abbrev a8 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg8)
/-- Argument 9 as launched on core c. -/
abbrev a9 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg9)
/-- Argument 10 as launched on core c. -/
abbrev a10 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg10)

/-- What the precondition says of the launch memory on core c. -/
abbrev Dec (m : (ℓ : Loc Cert.KernelIdeal.nD Cert.KernelIdeal.τ Cert.KernelIdeal.sig) → Buf (Elt Ideal) ℓ) (c : Dev Cert.KernelIdeal.nD) : Prop := Cert.Proof.Pre.Decoded (a0 m c) (a1 m c) (a3 m c) (a4 m c) (a5 m c) (a6 m c) (a7 m c) (a8 m c) (a9 m c) (a10 m c)

/-- A table filled with the zero word reads 0 everywhere. -/
theorem zeros_word {s : Shape} (hb : (⟨0, ![]⟩ : Shape).BroadcastsInDim s (![] : Fin 0 → Fin s.rank)) (i : s.Idx) :
    broadcastInDim s ![] hb (constant (F := Ideal) ⟨0, ![]⟩ .f32 0x00000000#32) i = 0 := by
  show Ideal.ofBits .f32 0x00000000#32 = 0
  simp [Ideal.ofBits, Ideal.ieee]

/-- The invariant entering layer 0 (after the last layer for 4): the two programs' tables agree entry by entry and are real. -/
def Inv0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) : Prop :=
  (∀ (p : Fin 50000) (q : Fin 128), (a0 m c) (ix2 p q) = (a0 m c) (ix2 p q)) ∧ IsRealArr (N := 50000) (D := 128) (a0 m c)

/-- The invariant entering layer 1 (after the last layer for 4): the two programs' tables agree entry by entry and are real. -/
def Inv1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) : Prop :=
  (∀ (p : Fin 50000) (q : Fin 128), (Cert.KernelIdeal.Hand.W4 m ρ c (Proc.devRef .tc Cert.KernelIdeal.main_v45)) (ix2 p q) = (Cert.ReferenceIdeal.ReadP.val_main_v61 (F := Ideal) (a0 m c) (a1 m c) (a3 m c) (a4 m c) (a5 m c) (a6 m c) (a7 m c) (a8 m c)) (ix2 p q)) ∧ IsRealArr (N := 50000) (D := 128) (Cert.KernelIdeal.Hand.W4 m ρ c (Proc.devRef .tc Cert.KernelIdeal.main_v45))

/-- The invariant entering layer 2 (after the last layer for 4): the two programs' tables agree entry by entry and are real. -/
def Inv2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) : Prop :=
  (∀ (p : Fin 50000) (q : Fin 128), (Cert.KernelIdeal.Hand.W8 m ρ c (Proc.devRef .tc Cert.KernelIdeal.main_v87)) (ix2 p q) = (Cert.ReferenceIdeal.ReadP.val_main_v119 (F := Ideal) (a0 m c) (a1 m c) (a3 m c) (a4 m c) (a5 m c) (a6 m c) (a7 m c) (a8 m c)) (ix2 p q)) ∧ IsRealArr (N := 50000) (D := 128) (Cert.KernelIdeal.Hand.W8 m ρ c (Proc.devRef .tc Cert.KernelIdeal.main_v87))

/-- The invariant entering layer 3 (after the last layer for 4): the two programs' tables agree entry by entry and are real. -/
def Inv3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) : Prop :=
  (∀ (p : Fin 50000) (q : Fin 128), (Cert.KernelIdeal.Hand.W12 m ρ c (Proc.devRef .tc Cert.KernelIdeal.main_v129)) (ix2 p q) = (Cert.ReferenceIdeal.ReadP.val_main_v177 (F := Ideal) (a0 m c) (a1 m c) (a3 m c) (a4 m c) (a5 m c) (a6 m c) (a7 m c) (a8 m c)) (ix2 p q)) ∧ IsRealArr (N := 50000) (D := 128) (Cert.KernelIdeal.Hand.W12 m ρ c (Proc.devRef .tc Cert.KernelIdeal.main_v129))

/-- The invariant entering layer 4 (after the last layer for 4): the two programs' tables agree entry by entry and are real. -/
def Inv4 (m : (ℓ : Loc Cert.KernelIdeal.nD Cert.KernelIdeal.τ Cert.KernelIdeal.sig) → Buf (Elt Ideal) ℓ) (ρ : Dev Cert.KernelIdeal.nD → PrngReg) (c : Dev Cert.KernelIdeal.nD) : Prop :=
  (∀ (p : Fin 50000) (q : Fin 128), (Cert.KernelIdeal.Hand.W16 m ρ c (Proc.devRef .tc Cert.KernelIdeal.main_v171)) (ix2 p q) = (Cert.ReferenceIdeal.ReadP.val_main_v235 (F := Ideal) (a0 m c) (a1 m c) (a3 m c) (a4 m c) (a5 m c) (a6 m c) (a7 m c) (a8 m c)) (ix2 p q)) ∧ IsRealArr (N := 50000) (D := 128) (Cert.KernelIdeal.Hand.W16 m ρ c (Proc.devRef .tc Cert.KernelIdeal.main_v171))

/-! ## Layer 0 -/

/-- The neighbour sums of layer 0 agree. -/
theorem agg0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv0 m ρ c) (p : Fin 50000) (j : Fin 128) :
    Cert.KernelIdeal.Hand.aggOf (F := Ideal) (a0 m c) (Cert.KernelIdeal.Hand.srcOf (a1 m c)) (Cert.KernelIdeal.Hand.dstOf (a1 m c)) (ix2 p j) = (Cert.ReferenceIdeal.ReadP.val_main_v14 (F := Ideal) (a0 m c) (a1 m c)) (ix2 p j) := by
  have hn : Cert.KernelIdeal.Hand.normIdx (Cert.KernelIdeal.Hand.dstOf (a1 m c)) = Cert.KernelIdeal.Hand.dstOf (a1 m c) :=
    norm_fix _ _ _ (fun _ => rfl) hd.dst
  rw [Cert.ReferenceIdeal.Hand.agg_def_0 (a0 m c) (a1 m c), Cert.ReferenceIdeal.Hand.gather_def_0 (a0 m c) (a1 m c)]
  unfold Cert.KernelIdeal.Hand.aggOf
  rw [hn]
  exact agg_join (by norm_num) _ _ rfl rfl rfl rfl rfl rfl rfl rfl _ _ rfl rfl rfl rfl rfl rfl rfl rfl rfl rfl rfl rfl rfl rfl
    (a0 m c) (a0 m c) _ inv.1 Cert.ReferenceIdeal.Hand.zeros_0 _ _ p j

/-- The neighbour sum of a real table along real-indexed edges is real. -/
theorem aggReal0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv0 m ρ c) :
    IsReal (fun p j => Cert.KernelIdeal.Hand.aggOf (F := Ideal) (a0 m c) (Cert.KernelIdeal.Hand.srcOf (a1 m c)) (Cert.KernelIdeal.Hand.dstOf (a1 m c)) (ix2 p j)) := by
  unfold Cert.KernelIdeal.Hand.aggOf
  exact scatter_real _ rfl rfl rfl rfl _ inv.2 _ _ (gather_real (by norm_num) _ rfl rfl rfl rfl rfl rfl rfl _ inv.2 _)

/-- The activations of layer 0 in the reference's spelling. -/
abbrev HR0 (m : (ℓ : Loc Cert.KernelIdeal.nD Cert.KernelIdeal.τ Cert.KernelIdeal.sig) → Buf (Elt Ideal) ℓ) (c : Dev Cert.KernelIdeal.nD) : Fin 50000 → Fin 128 → EReal :=
  Cert.Spec.mlp (fun p j => (Cert.ReferenceIdeal.ReadP.val_main_v14 (F := Ideal) (a0 m c) (a1 m c)) (ix2 p j)) (fun j k => (a3 m c) (ix3 0 j k)) (fun k => (a4 m c) (ix2 0 k))
    (fun j k => (a5 m c) (ix3 0 j k)) (fun k => (a6 m c) (ix2 0 k))

/-- The activations agree. -/
theorem H0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv0 m ρ c) : Cert.KernelIdeal.Hand.HK0 m ρ c = HR0 m c := by
  unfold Cert.KernelIdeal.Hand.HK0 HR0
  have e0 : (fun p j => Cert.KernelIdeal.Hand.aggOf (F := Ideal) (a0 m c) (Cert.KernelIdeal.Hand.srcOf (a1 m c)) (Cert.KernelIdeal.Hand.dstOf (a1 m c)) (ix2 p j)) = fun p j => (Cert.ReferenceIdeal.ReadP.val_main_v14 (F := Ideal) (a0 m c) (a1 m c)) (ix2 p j) :=
    funext fun p => funext fun j => agg0 m ρ c hd inv p j
  have e1 : (fun j k => Cert.KernelIdeal.Hand.mat0 (F := Ideal) (a3 m c) (ix2 j k)) = fun j k => (a3 m c) (ix3 0 j k) :=
    funext fun j => funext fun k => Cert.Reads.slice_mat _ 0 rfl rfl rfl _ _ _ j k
  have e2 : (fun k => Cert.KernelIdeal.Hand.row0 (F := Ideal) (a4 m c) (ix2 (0 : Fin 1) k)) = fun k => (a4 m c) (ix2 0 k) :=
    funext fun k => Cert.Reads.slice_row _ 0 rfl rfl _ _ _ _ k
  have e3 : (fun j k => Cert.KernelIdeal.Hand.mat0 (F := Ideal) (a5 m c) (ix2 j k)) = fun j k => (a5 m c) (ix3 0 j k) :=
    funext fun j => funext fun k => Cert.Reads.slice_mat _ 0 rfl rfl rfl _ _ _ j k
  have e4 : (fun k => Cert.KernelIdeal.Hand.row0 (F := Ideal) (a6 m c) (ix2 (0 : Fin 1) k)) = fun k => (a6 m c) (ix2 0 k) :=
    funext fun k => Cert.Reads.slice_row _ 0 rfl rfl _ _ _ _ k
  rw [e0, e1, e2, e3, e4]

/-- The activations are real. -/
theorem HReal0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv0 m ρ c) : IsReal (HR0 m c) := by
  rw [← H0 m ρ c hd inv]
  unfold Cert.KernelIdeal.Hand.HK0
  refine mlp_real _ _ _ _ _ (aggReal0 m ρ c inv) ?_ ?_ ?_ ?_
  · intro j k
    obtain ⟨r, hr⟩ := hd.r3 (ix3 0 j k)
    exact ⟨r, (Cert.Reads.slice_mat _ 0 rfl rfl rfl _ _ (a3 m c) j k).trans hr⟩
  · intro k
    obtain ⟨r, hr⟩ := hd.r4 (ix2 0 k)
    exact ⟨r, (Cert.Reads.slice_row _ 0 rfl rfl _ _ _ (a4 m c) k).trans hr⟩
  · intro j k
    obtain ⟨r, hr⟩ := hd.r5 (ix3 0 j k)
    exact ⟨r, (Cert.Reads.slice_mat _ 0 rfl rfl rfl _ _ (a5 m c) j k).trans hr⟩
  · intro k
    obtain ⟨r, hr⟩ := hd.r6 (ix2 0 k)
    exact ⟨r, (Cert.Reads.slice_row _ 0 rfl rfl _ _ _ (a6 m c) k).trans hr⟩

/-- Layer 0's outputs agree and are real. -/
theorem step0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv0 m ρ c) : Inv1 m ρ c := by
  have hH := H0 m ρ c hd inv
  have hrR := HReal0 m ρ c hd inv
  have hrK : IsReal (Cert.KernelIdeal.Hand.HK0 m ρ c) := by rw [hH]; exact hrR
  have hγ : (fun k => Cert.KernelIdeal.Hand.row0 (F := Ideal) (a7 m c) (ix2 (0 : Fin 1) k)) = fun k => (a7 m c) (ix2 0 k) :=
    funext fun k => Cert.Reads.slice_row _ 0 rfl rfl _ _ _ _ k
  have hβ : (fun k => Cert.KernelIdeal.Hand.row0 (F := Ideal) (a8 m c) (ix2 (0 : Fin 1) k)) = fun k => (a8 m c) (ix2 0 k) :=
    funext fun k => Cert.Reads.slice_row _ 0 rfl rfl _ _ _ _ k
  have key : ∀ (p : Fin 50000) (q : Fin 128), (Cert.KernelIdeal.Hand.W4 m ρ c (Proc.devRef .tc Cert.KernelIdeal.main_v45)) (ix2 p q)
      = Cert.Spec.bn (HR0 m c) (Cert.Spec.meanR (HR0 m c)) (Cert.Spec.varR (HR0 m c)) (fun k => (a7 m c) (ix2 0 k)) (fun k => (a8 m c) (ix2 0 k)) p q := by
    intro p q
    rw [Cert.KernelIdeal.Hand.chain0 m ρ c p q, layer_law _ _ _ hrK, hγ, hβ, hH]
  refine ⟨fun p q => ?_, fun p q => ?_⟩
  · rw [key p q]; exact (Cert.ReferenceIdeal.Hand.layer0 (a0 m c) (a1 m c) (a3 m c) (a4 m c) (a5 m c) (a6 m c) (a7 m c) (a8 m c) p q).symm
  · rw [key p q]; exact bn_real _ _ _ hrR (fun k => hd.r7 _) (fun k => hd.r8 _) p q

/-! ## Layer 1 -/

/-- The neighbour sums of layer 1 agree. -/
theorem agg1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv1 m ρ c) (p : Fin 50000) (j : Fin 128) :
    Cert.KernelIdeal.Hand.aggOf (F := Ideal) (Cert.KernelIdeal.Hand.W4 m ρ c (Proc.devRef .tc Cert.KernelIdeal.main_v45)) (Cert.KernelIdeal.Hand.srcOf (a1 m c)) (Cert.KernelIdeal.Hand.dstOf (a1 m c)) (ix2 p j) = (Cert.ReferenceIdeal.ReadP.val_main_v72 (F := Ideal) (a0 m c) (a1 m c) (a3 m c) (a4 m c) (a5 m c) (a6 m c) (a7 m c) (a8 m c)) (ix2 p j) := by
  have hn : Cert.KernelIdeal.Hand.normIdx (Cert.KernelIdeal.Hand.dstOf (a1 m c)) = Cert.KernelIdeal.Hand.dstOf (a1 m c) :=
    norm_fix _ _ _ (fun _ => rfl) hd.dst
  rw [Cert.ReferenceIdeal.Hand.agg_def_1 (a0 m c) (a1 m c) (a3 m c) (a4 m c) (a5 m c) (a6 m c) (a7 m c) (a8 m c), Cert.ReferenceIdeal.Hand.gather_def_1 (a0 m c) (a1 m c) (a3 m c) (a4 m c) (a5 m c) (a6 m c) (a7 m c) (a8 m c)]
  unfold Cert.KernelIdeal.Hand.aggOf
  rw [hn]
  exact agg_join (by norm_num) _ _ rfl rfl rfl rfl rfl rfl rfl rfl _ _ rfl rfl rfl rfl rfl rfl rfl rfl rfl rfl rfl rfl rfl rfl
    (Cert.KernelIdeal.Hand.W4 m ρ c (Proc.devRef .tc Cert.KernelIdeal.main_v45)) (Cert.ReferenceIdeal.ReadP.val_main_v61 (F := Ideal) (a0 m c) (a1 m c) (a3 m c) (a4 m c) (a5 m c) (a6 m c) (a7 m c) (a8 m c)) _ inv.1 Cert.ReferenceIdeal.Hand.zeros_1 _ _ p j

/-- The neighbour sum of a real table along real-indexed edges is real. -/
theorem aggReal1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv1 m ρ c) :
    IsReal (fun p j => Cert.KernelIdeal.Hand.aggOf (F := Ideal) (Cert.KernelIdeal.Hand.W4 m ρ c (Proc.devRef .tc Cert.KernelIdeal.main_v45)) (Cert.KernelIdeal.Hand.srcOf (a1 m c)) (Cert.KernelIdeal.Hand.dstOf (a1 m c)) (ix2 p j)) := by
  unfold Cert.KernelIdeal.Hand.aggOf
  exact scatter_real _ rfl rfl rfl rfl _ inv.2 _ _ (gather_real (by norm_num) _ rfl rfl rfl rfl rfl rfl rfl _ inv.2 _)

/-- The activations of layer 1 in the reference's spelling. -/
abbrev HR1 (m : (ℓ : Loc Cert.KernelIdeal.nD Cert.KernelIdeal.τ Cert.KernelIdeal.sig) → Buf (Elt Ideal) ℓ) (c : Dev Cert.KernelIdeal.nD) : Fin 50000 → Fin 128 → EReal :=
  Cert.Spec.mlp (fun p j => (Cert.ReferenceIdeal.ReadP.val_main_v72 (F := Ideal) (a0 m c) (a1 m c) (a3 m c) (a4 m c) (a5 m c) (a6 m c) (a7 m c) (a8 m c)) (ix2 p j)) (fun j k => (a3 m c) (ix3 1 j k)) (fun k => (a4 m c) (ix2 1 k))
    (fun j k => (a5 m c) (ix3 1 j k)) (fun k => (a6 m c) (ix2 1 k))

/-- The activations agree. -/
theorem H1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv1 m ρ c) : Cert.KernelIdeal.Hand.HK1 m ρ c = HR1 m c := by
  unfold Cert.KernelIdeal.Hand.HK1 HR1
  have e0 : (fun p j => Cert.KernelIdeal.Hand.aggOf (F := Ideal) (Cert.KernelIdeal.Hand.W4 m ρ c (Proc.devRef .tc Cert.KernelIdeal.main_v45)) (Cert.KernelIdeal.Hand.srcOf (a1 m c)) (Cert.KernelIdeal.Hand.dstOf (a1 m c)) (ix2 p j)) = fun p j => (Cert.ReferenceIdeal.ReadP.val_main_v72 (F := Ideal) (a0 m c) (a1 m c) (a3 m c) (a4 m c) (a5 m c) (a6 m c) (a7 m c) (a8 m c)) (ix2 p j) :=
    funext fun p => funext fun j => agg1 m ρ c hd inv p j
  have e1 : (fun j k => Cert.KernelIdeal.Hand.mat1 (F := Ideal) (a3 m c) (ix2 j k)) = fun j k => (a3 m c) (ix3 1 j k) :=
    funext fun j => funext fun k => Cert.Reads.slice_mat _ 1 rfl rfl rfl _ _ _ j k
  have e2 : (fun k => Cert.KernelIdeal.Hand.row1 (F := Ideal) (a4 m c) (ix2 (0 : Fin 1) k)) = fun k => (a4 m c) (ix2 1 k) :=
    funext fun k => Cert.Reads.slice_row _ 1 rfl rfl _ _ _ _ k
  have e3 : (fun j k => Cert.KernelIdeal.Hand.mat1 (F := Ideal) (a5 m c) (ix2 j k)) = fun j k => (a5 m c) (ix3 1 j k) :=
    funext fun j => funext fun k => Cert.Reads.slice_mat _ 1 rfl rfl rfl _ _ _ j k
  have e4 : (fun k => Cert.KernelIdeal.Hand.row1 (F := Ideal) (a6 m c) (ix2 (0 : Fin 1) k)) = fun k => (a6 m c) (ix2 1 k) :=
    funext fun k => Cert.Reads.slice_row _ 1 rfl rfl _ _ _ _ k
  rw [e0, e1, e2, e3, e4]

/-- The activations are real. -/
theorem HReal1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv1 m ρ c) : IsReal (HR1 m c) := by
  rw [← H1 m ρ c hd inv]
  unfold Cert.KernelIdeal.Hand.HK1
  refine mlp_real _ _ _ _ _ (aggReal1 m ρ c inv) ?_ ?_ ?_ ?_
  · intro j k
    obtain ⟨r, hr⟩ := hd.r3 (ix3 1 j k)
    exact ⟨r, (Cert.Reads.slice_mat _ 1 rfl rfl rfl _ _ (a3 m c) j k).trans hr⟩
  · intro k
    obtain ⟨r, hr⟩ := hd.r4 (ix2 1 k)
    exact ⟨r, (Cert.Reads.slice_row _ 1 rfl rfl _ _ _ (a4 m c) k).trans hr⟩
  · intro j k
    obtain ⟨r, hr⟩ := hd.r5 (ix3 1 j k)
    exact ⟨r, (Cert.Reads.slice_mat _ 1 rfl rfl rfl _ _ (a5 m c) j k).trans hr⟩
  · intro k
    obtain ⟨r, hr⟩ := hd.r6 (ix2 1 k)
    exact ⟨r, (Cert.Reads.slice_row _ 1 rfl rfl _ _ _ (a6 m c) k).trans hr⟩

/-- Layer 1's outputs agree and are real. -/
theorem step1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv1 m ρ c) : Inv2 m ρ c := by
  have hH := H1 m ρ c hd inv
  have hrR := HReal1 m ρ c hd inv
  have hrK : IsReal (Cert.KernelIdeal.Hand.HK1 m ρ c) := by rw [hH]; exact hrR
  have hγ : (fun k => Cert.KernelIdeal.Hand.row1 (F := Ideal) (a7 m c) (ix2 (0 : Fin 1) k)) = fun k => (a7 m c) (ix2 1 k) :=
    funext fun k => Cert.Reads.slice_row _ 1 rfl rfl _ _ _ _ k
  have hβ : (fun k => Cert.KernelIdeal.Hand.row1 (F := Ideal) (a8 m c) (ix2 (0 : Fin 1) k)) = fun k => (a8 m c) (ix2 1 k) :=
    funext fun k => Cert.Reads.slice_row _ 1 rfl rfl _ _ _ _ k
  have key : ∀ (p : Fin 50000) (q : Fin 128), (Cert.KernelIdeal.Hand.W8 m ρ c (Proc.devRef .tc Cert.KernelIdeal.main_v87)) (ix2 p q)
      = Cert.Spec.bn (HR1 m c) (Cert.Spec.meanR (HR1 m c)) (Cert.Spec.varR (HR1 m c)) (fun k => (a7 m c) (ix2 1 k)) (fun k => (a8 m c) (ix2 1 k)) p q := by
    intro p q
    rw [Cert.KernelIdeal.Hand.chain1 m ρ c p q, layer_law _ _ _ hrK, hγ, hβ, hH]
  refine ⟨fun p q => ?_, fun p q => ?_⟩
  · rw [key p q]; exact (Cert.ReferenceIdeal.Hand.layer1 (a0 m c) (a1 m c) (a3 m c) (a4 m c) (a5 m c) (a6 m c) (a7 m c) (a8 m c) p q).symm
  · rw [key p q]; exact bn_real _ _ _ hrR (fun k => hd.r7 _) (fun k => hd.r8 _) p q

/-! ## Layer 2 -/

/-- The neighbour sums of layer 2 agree. -/
theorem agg2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv2 m ρ c) (p : Fin 50000) (j : Fin 128) :
    Cert.KernelIdeal.Hand.aggOf (F := Ideal) (Cert.KernelIdeal.Hand.W8 m ρ c (Proc.devRef .tc Cert.KernelIdeal.main_v87)) (Cert.KernelIdeal.Hand.srcOf (a1 m c)) (Cert.KernelIdeal.Hand.dstOf (a1 m c)) (ix2 p j) = (Cert.ReferenceIdeal.ReadP.val_main_v130 (F := Ideal) (a0 m c) (a1 m c) (a3 m c) (a4 m c) (a5 m c) (a6 m c) (a7 m c) (a8 m c)) (ix2 p j) := by
  have hn : Cert.KernelIdeal.Hand.normIdx (Cert.KernelIdeal.Hand.dstOf (a1 m c)) = Cert.KernelIdeal.Hand.dstOf (a1 m c) :=
    norm_fix _ _ _ (fun _ => rfl) hd.dst
  rw [Cert.ReferenceIdeal.Hand.agg_def_2 (a0 m c) (a1 m c) (a3 m c) (a4 m c) (a5 m c) (a6 m c) (a7 m c) (a8 m c), Cert.ReferenceIdeal.Hand.gather_def_2 (a0 m c) (a1 m c) (a3 m c) (a4 m c) (a5 m c) (a6 m c) (a7 m c) (a8 m c)]
  unfold Cert.KernelIdeal.Hand.aggOf
  rw [hn]
  exact agg_join (by norm_num) _ _ rfl rfl rfl rfl rfl rfl rfl rfl _ _ rfl rfl rfl rfl rfl rfl rfl rfl rfl rfl rfl rfl rfl rfl
    (Cert.KernelIdeal.Hand.W8 m ρ c (Proc.devRef .tc Cert.KernelIdeal.main_v87)) (Cert.ReferenceIdeal.ReadP.val_main_v119 (F := Ideal) (a0 m c) (a1 m c) (a3 m c) (a4 m c) (a5 m c) (a6 m c) (a7 m c) (a8 m c)) _ inv.1 Cert.ReferenceIdeal.Hand.zeros_2 _ _ p j

/-- The neighbour sum of a real table along real-indexed edges is real. -/
theorem aggReal2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv2 m ρ c) :
    IsReal (fun p j => Cert.KernelIdeal.Hand.aggOf (F := Ideal) (Cert.KernelIdeal.Hand.W8 m ρ c (Proc.devRef .tc Cert.KernelIdeal.main_v87)) (Cert.KernelIdeal.Hand.srcOf (a1 m c)) (Cert.KernelIdeal.Hand.dstOf (a1 m c)) (ix2 p j)) := by
  unfold Cert.KernelIdeal.Hand.aggOf
  exact scatter_real _ rfl rfl rfl rfl _ inv.2 _ _ (gather_real (by norm_num) _ rfl rfl rfl rfl rfl rfl rfl _ inv.2 _)

/-- The activations of layer 2 in the reference's spelling. -/
abbrev HR2 (m : (ℓ : Loc Cert.KernelIdeal.nD Cert.KernelIdeal.τ Cert.KernelIdeal.sig) → Buf (Elt Ideal) ℓ) (c : Dev Cert.KernelIdeal.nD) : Fin 50000 → Fin 128 → EReal :=
  Cert.Spec.mlp (fun p j => (Cert.ReferenceIdeal.ReadP.val_main_v130 (F := Ideal) (a0 m c) (a1 m c) (a3 m c) (a4 m c) (a5 m c) (a6 m c) (a7 m c) (a8 m c)) (ix2 p j)) (fun j k => (a3 m c) (ix3 2 j k)) (fun k => (a4 m c) (ix2 2 k))
    (fun j k => (a5 m c) (ix3 2 j k)) (fun k => (a6 m c) (ix2 2 k))

/-- The activations agree. -/
theorem H2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv2 m ρ c) : Cert.KernelIdeal.Hand.HK2 m ρ c = HR2 m c := by
  unfold Cert.KernelIdeal.Hand.HK2 HR2
  have e0 : (fun p j => Cert.KernelIdeal.Hand.aggOf (F := Ideal) (Cert.KernelIdeal.Hand.W8 m ρ c (Proc.devRef .tc Cert.KernelIdeal.main_v87)) (Cert.KernelIdeal.Hand.srcOf (a1 m c)) (Cert.KernelIdeal.Hand.dstOf (a1 m c)) (ix2 p j)) = fun p j => (Cert.ReferenceIdeal.ReadP.val_main_v130 (F := Ideal) (a0 m c) (a1 m c) (a3 m c) (a4 m c) (a5 m c) (a6 m c) (a7 m c) (a8 m c)) (ix2 p j) :=
    funext fun p => funext fun j => agg2 m ρ c hd inv p j
  have e1 : (fun j k => Cert.KernelIdeal.Hand.mat2 (F := Ideal) (a3 m c) (ix2 j k)) = fun j k => (a3 m c) (ix3 2 j k) :=
    funext fun j => funext fun k => Cert.Reads.slice_mat _ 2 rfl rfl rfl _ _ _ j k
  have e2 : (fun k => Cert.KernelIdeal.Hand.row2 (F := Ideal) (a4 m c) (ix2 (0 : Fin 1) k)) = fun k => (a4 m c) (ix2 2 k) :=
    funext fun k => Cert.Reads.slice_row _ 2 rfl rfl _ _ _ _ k
  have e3 : (fun j k => Cert.KernelIdeal.Hand.mat2 (F := Ideal) (a5 m c) (ix2 j k)) = fun j k => (a5 m c) (ix3 2 j k) :=
    funext fun j => funext fun k => Cert.Reads.slice_mat _ 2 rfl rfl rfl _ _ _ j k
  have e4 : (fun k => Cert.KernelIdeal.Hand.row2 (F := Ideal) (a6 m c) (ix2 (0 : Fin 1) k)) = fun k => (a6 m c) (ix2 2 k) :=
    funext fun k => Cert.Reads.slice_row _ 2 rfl rfl _ _ _ _ k
  rw [e0, e1, e2, e3, e4]

/-- The activations are real. -/
theorem HReal2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv2 m ρ c) : IsReal (HR2 m c) := by
  rw [← H2 m ρ c hd inv]
  unfold Cert.KernelIdeal.Hand.HK2
  refine mlp_real _ _ _ _ _ (aggReal2 m ρ c inv) ?_ ?_ ?_ ?_
  · intro j k
    obtain ⟨r, hr⟩ := hd.r3 (ix3 2 j k)
    exact ⟨r, (Cert.Reads.slice_mat _ 2 rfl rfl rfl _ _ (a3 m c) j k).trans hr⟩
  · intro k
    obtain ⟨r, hr⟩ := hd.r4 (ix2 2 k)
    exact ⟨r, (Cert.Reads.slice_row _ 2 rfl rfl _ _ _ (a4 m c) k).trans hr⟩
  · intro j k
    obtain ⟨r, hr⟩ := hd.r5 (ix3 2 j k)
    exact ⟨r, (Cert.Reads.slice_mat _ 2 rfl rfl rfl _ _ (a5 m c) j k).trans hr⟩
  · intro k
    obtain ⟨r, hr⟩ := hd.r6 (ix2 2 k)
    exact ⟨r, (Cert.Reads.slice_row _ 2 rfl rfl _ _ _ (a6 m c) k).trans hr⟩

/-- Layer 2's outputs agree and are real. -/
theorem step2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv2 m ρ c) : Inv3 m ρ c := by
  have hH := H2 m ρ c hd inv
  have hrR := HReal2 m ρ c hd inv
  have hrK : IsReal (Cert.KernelIdeal.Hand.HK2 m ρ c) := by rw [hH]; exact hrR
  have hγ : (fun k => Cert.KernelIdeal.Hand.row2 (F := Ideal) (a7 m c) (ix2 (0 : Fin 1) k)) = fun k => (a7 m c) (ix2 2 k) :=
    funext fun k => Cert.Reads.slice_row _ 2 rfl rfl _ _ _ _ k
  have hβ : (fun k => Cert.KernelIdeal.Hand.row2 (F := Ideal) (a8 m c) (ix2 (0 : Fin 1) k)) = fun k => (a8 m c) (ix2 2 k) :=
    funext fun k => Cert.Reads.slice_row _ 2 rfl rfl _ _ _ _ k
  have key : ∀ (p : Fin 50000) (q : Fin 128), (Cert.KernelIdeal.Hand.W12 m ρ c (Proc.devRef .tc Cert.KernelIdeal.main_v129)) (ix2 p q)
      = Cert.Spec.bn (HR2 m c) (Cert.Spec.meanR (HR2 m c)) (Cert.Spec.varR (HR2 m c)) (fun k => (a7 m c) (ix2 2 k)) (fun k => (a8 m c) (ix2 2 k)) p q := by
    intro p q
    rw [Cert.KernelIdeal.Hand.chain2 m ρ c p q, layer_law _ _ _ hrK, hγ, hβ, hH]
  refine ⟨fun p q => ?_, fun p q => ?_⟩
  · rw [key p q]; exact (Cert.ReferenceIdeal.Hand.layer2 (a0 m c) (a1 m c) (a3 m c) (a4 m c) (a5 m c) (a6 m c) (a7 m c) (a8 m c) p q).symm
  · rw [key p q]; exact bn_real _ _ _ hrR (fun k => hd.r7 _) (fun k => hd.r8 _) p q

/-! ## Layer 3 -/

/-- The neighbour sums of layer 3 agree. -/
theorem agg3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv3 m ρ c) (p : Fin 50000) (j : Fin 128) :
    Cert.KernelIdeal.Hand.aggOf (F := Ideal) (Cert.KernelIdeal.Hand.W12 m ρ c (Proc.devRef .tc Cert.KernelIdeal.main_v129)) (Cert.KernelIdeal.Hand.srcOf (a1 m c)) (Cert.KernelIdeal.Hand.dstOf (a1 m c)) (ix2 p j) = (Cert.ReferenceIdeal.ReadP.val_main_v188 (F := Ideal) (a0 m c) (a1 m c) (a3 m c) (a4 m c) (a5 m c) (a6 m c) (a7 m c) (a8 m c)) (ix2 p j) := by
  have hn : Cert.KernelIdeal.Hand.normIdx (Cert.KernelIdeal.Hand.dstOf (a1 m c)) = Cert.KernelIdeal.Hand.dstOf (a1 m c) :=
    norm_fix _ _ _ (fun _ => rfl) hd.dst
  rw [Cert.ReferenceIdeal.Hand.agg_def_3 (a0 m c) (a1 m c) (a3 m c) (a4 m c) (a5 m c) (a6 m c) (a7 m c) (a8 m c), Cert.ReferenceIdeal.Hand.gather_def_3 (a0 m c) (a1 m c) (a3 m c) (a4 m c) (a5 m c) (a6 m c) (a7 m c) (a8 m c)]
  unfold Cert.KernelIdeal.Hand.aggOf
  rw [hn]
  exact agg_join (by norm_num) _ _ rfl rfl rfl rfl rfl rfl rfl rfl _ _ rfl rfl rfl rfl rfl rfl rfl rfl rfl rfl rfl rfl rfl rfl
    (Cert.KernelIdeal.Hand.W12 m ρ c (Proc.devRef .tc Cert.KernelIdeal.main_v129)) (Cert.ReferenceIdeal.ReadP.val_main_v177 (F := Ideal) (a0 m c) (a1 m c) (a3 m c) (a4 m c) (a5 m c) (a6 m c) (a7 m c) (a8 m c)) _ inv.1 Cert.ReferenceIdeal.Hand.zeros_3 _ _ p j

/-- The neighbour sum of a real table along real-indexed edges is real. -/
theorem aggReal3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv3 m ρ c) :
    IsReal (fun p j => Cert.KernelIdeal.Hand.aggOf (F := Ideal) (Cert.KernelIdeal.Hand.W12 m ρ c (Proc.devRef .tc Cert.KernelIdeal.main_v129)) (Cert.KernelIdeal.Hand.srcOf (a1 m c)) (Cert.KernelIdeal.Hand.dstOf (a1 m c)) (ix2 p j)) := by
  unfold Cert.KernelIdeal.Hand.aggOf
  exact scatter_real _ rfl rfl rfl rfl _ inv.2 _ _ (gather_real (by norm_num) _ rfl rfl rfl rfl rfl rfl rfl _ inv.2 _)

/-- The activations of layer 3 in the reference's spelling. -/
abbrev HR3 (m : (ℓ : Loc Cert.KernelIdeal.nD Cert.KernelIdeal.τ Cert.KernelIdeal.sig) → Buf (Elt Ideal) ℓ) (c : Dev Cert.KernelIdeal.nD) : Fin 50000 → Fin 128 → EReal :=
  Cert.Spec.mlp (fun p j => (Cert.ReferenceIdeal.ReadP.val_main_v188 (F := Ideal) (a0 m c) (a1 m c) (a3 m c) (a4 m c) (a5 m c) (a6 m c) (a7 m c) (a8 m c)) (ix2 p j)) (fun j k => (a3 m c) (ix3 3 j k)) (fun k => (a4 m c) (ix2 3 k))
    (fun j k => (a5 m c) (ix3 3 j k)) (fun k => (a6 m c) (ix2 3 k))

/-- The activations agree. -/
theorem H3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv3 m ρ c) : Cert.KernelIdeal.Hand.HK3 m ρ c = HR3 m c := by
  unfold Cert.KernelIdeal.Hand.HK3 HR3
  have e0 : (fun p j => Cert.KernelIdeal.Hand.aggOf (F := Ideal) (Cert.KernelIdeal.Hand.W12 m ρ c (Proc.devRef .tc Cert.KernelIdeal.main_v129)) (Cert.KernelIdeal.Hand.srcOf (a1 m c)) (Cert.KernelIdeal.Hand.dstOf (a1 m c)) (ix2 p j)) = fun p j => (Cert.ReferenceIdeal.ReadP.val_main_v188 (F := Ideal) (a0 m c) (a1 m c) (a3 m c) (a4 m c) (a5 m c) (a6 m c) (a7 m c) (a8 m c)) (ix2 p j) :=
    funext fun p => funext fun j => agg3 m ρ c hd inv p j
  have e1 : (fun j k => Cert.KernelIdeal.Hand.mat3 (F := Ideal) (a3 m c) (ix2 j k)) = fun j k => (a3 m c) (ix3 3 j k) :=
    funext fun j => funext fun k => Cert.Reads.slice_mat _ 3 rfl rfl rfl _ _ _ j k
  have e2 : (fun k => Cert.KernelIdeal.Hand.row3 (F := Ideal) (a4 m c) (ix2 (0 : Fin 1) k)) = fun k => (a4 m c) (ix2 3 k) :=
    funext fun k => Cert.Reads.slice_row _ 3 rfl rfl _ _ _ _ k
  have e3 : (fun j k => Cert.KernelIdeal.Hand.mat3 (F := Ideal) (a5 m c) (ix2 j k)) = fun j k => (a5 m c) (ix3 3 j k) :=
    funext fun j => funext fun k => Cert.Reads.slice_mat _ 3 rfl rfl rfl _ _ _ j k
  have e4 : (fun k => Cert.KernelIdeal.Hand.row3 (F := Ideal) (a6 m c) (ix2 (0 : Fin 1) k)) = fun k => (a6 m c) (ix2 3 k) :=
    funext fun k => Cert.Reads.slice_row _ 3 rfl rfl _ _ _ _ k
  rw [e0, e1, e2, e3, e4]

/-- The activations are real. -/
theorem HReal3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv3 m ρ c) : IsReal (HR3 m c) := by
  rw [← H3 m ρ c hd inv]
  unfold Cert.KernelIdeal.Hand.HK3
  refine mlp_real _ _ _ _ _ (aggReal3 m ρ c inv) ?_ ?_ ?_ ?_
  · intro j k
    obtain ⟨r, hr⟩ := hd.r3 (ix3 3 j k)
    exact ⟨r, (Cert.Reads.slice_mat _ 3 rfl rfl rfl _ _ (a3 m c) j k).trans hr⟩
  · intro k
    obtain ⟨r, hr⟩ := hd.r4 (ix2 3 k)
    exact ⟨r, (Cert.Reads.slice_row _ 3 rfl rfl _ _ _ (a4 m c) k).trans hr⟩
  · intro j k
    obtain ⟨r, hr⟩ := hd.r5 (ix3 3 j k)
    exact ⟨r, (Cert.Reads.slice_mat _ 3 rfl rfl rfl _ _ (a5 m c) j k).trans hr⟩
  · intro k
    obtain ⟨r, hr⟩ := hd.r6 (ix2 3 k)
    exact ⟨r, (Cert.Reads.slice_row _ 3 rfl rfl _ _ _ (a6 m c) k).trans hr⟩

/-- Layer 3's outputs agree and are real. -/
theorem step3 (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) (inv : Inv3 m ρ c) : Inv4 m ρ c := by
  have hH := H3 m ρ c hd inv
  have hrR := HReal3 m ρ c hd inv
  have hrK : IsReal (Cert.KernelIdeal.Hand.HK3 m ρ c) := by rw [hH]; exact hrR
  have hγ : (fun k => Cert.KernelIdeal.Hand.row3 (F := Ideal) (a7 m c) (ix2 (0 : Fin 1) k)) = fun k => (a7 m c) (ix2 3 k) :=
    funext fun k => Cert.Reads.slice_row _ 3 rfl rfl _ _ _ _ k
  have hβ : (fun k => Cert.KernelIdeal.Hand.row3 (F := Ideal) (a8 m c) (ix2 (0 : Fin 1) k)) = fun k => (a8 m c) (ix2 3 k) :=
    funext fun k => Cert.Reads.slice_row _ 3 rfl rfl _ _ _ _ k
  have key : ∀ (p : Fin 50000) (q : Fin 128), (Cert.KernelIdeal.Hand.W16 m ρ c (Proc.devRef .tc Cert.KernelIdeal.main_v171)) (ix2 p q)
      = Cert.Spec.bn (HR3 m c) (Cert.Spec.meanR (HR3 m c)) (Cert.Spec.varR (HR3 m c)) (fun k => (a7 m c) (ix2 3 k)) (fun k => (a8 m c) (ix2 3 k)) p q := by
    intro p q
    rw [Cert.KernelIdeal.Hand.chain3 m ρ c p q, layer_law _ _ _ hrK, hγ, hβ, hH]
  refine ⟨fun p q => ?_, fun p q => ?_⟩
  · rw [key p q]; exact (Cert.ReferenceIdeal.Hand.layer3 (a0 m c) (a1 m c) (a3 m c) (a4 m c) (a5 m c) (a6 m c) (a7 m c) (a8 m c) p q).symm
  · rw [key p q]; exact bn_real _ _ _ hrR (fun k => hd.r7 _) (fun k => hd.r8 _) p q

/-! ## The projection -/

/-- The per-graph sums agree. -/
theorem pool (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv4 m ρ c) (p : Fin 256) (k : Fin 128) :
    Cert.KernelIdeal.Hand.poolOf (F := Ideal) (Cert.KernelIdeal.Hand.W16 m ρ c (Proc.devRef .tc Cert.KernelIdeal.main_v171)) (a2 m c) (ix2 p k) = Cert.ReferenceIdeal.ReadP.val_main_v238 (F := Ideal) (a0 m c) (a1 m c) (a2 m c) (a3 m c) (a4 m c) (a5 m c) (a6 m c) (a7 m c) (a8 m c) (ix2 p k) := by
  rw [Cert.ReferenceIdeal.Hand.pool_def (a0 m c) (a1 m c) (a2 m c) (a3 m c) (a4 m c) (a5 m c) (a6 m c) (a7 m c) (a8 m c)]
  unfold Cert.KernelIdeal.Hand.poolOf
  exact pool_join _ _ rfl rfl rfl rfl rfl rfl rfl rfl _ _ (zeros_word _) Cert.ReferenceIdeal.Hand.pool_zeros _ _ inv.1 _ p k

/-- The two programs' results agree at every index. -/
theorem result (m : (ℓ : Loc Cert.KernelIdeal.nD Cert.KernelIdeal.τ Cert.KernelIdeal.sig) → Buf (Elt Ideal) ℓ) (ρ : Dev Cert.KernelIdeal.nD → PrngReg) (c : Dev Cert.KernelIdeal.nD) (inv : Inv4 m ρ c) (i : Cert.KernelIdeal.S256x128.Idx) :
    Cert.KernelIdeal.Hand.W18 m ρ c (Proc.devRef .tc Cert.KernelIdeal.main_v176) i = Cert.ReferenceIdeal.ReadP.val_main_v243 (F := Ideal) (a0 m c) (a1 m c) (a2 m c) (a3 m c) (a4 m c) (a5 m c) (a6 m c) (a7 m c) (a8 m c) (a9 m c) (a10 m c) i := by
  obtain ⟨p, q, rfl⟩ : ∃ (p : Fin 256) (q : Fin 128), i = ix2 p q := ⟨i 0, i 1, eq_ix2 i⟩
  rw [Cert.KernelIdeal.Hand.chain4 m ρ c p q, Cert.ReferenceIdeal.Hand.tail (a0 m c) (a1 m c) (a2 m c) (a3 m c) (a4 m c) (a5 m c) (a6 m c) (a7 m c) (a8 m c) (a9 m c) (a10 m c) p q]
  have e0 : (fun p k => Cert.KernelIdeal.Hand.poolOf (F := Ideal) (Cert.KernelIdeal.Hand.W16 m ρ c (Proc.devRef .tc Cert.KernelIdeal.main_v171)) (a2 m c) (ix2 p k)) = fun p k => Cert.ReferenceIdeal.ReadP.val_main_v238 (F := Ideal) (a0 m c) (a1 m c) (a2 m c) (a3 m c) (a4 m c) (a5 m c) (a6 m c) (a7 m c) (a8 m c) (ix2 p k) :=
    funext fun p => funext fun k => pool m ρ c inv p k
  have e2 : (fun q => Cert.KernelIdeal.Hand.rowOfVec (F := Ideal) (a10 m c) (ix2 (0 : Fin 1) q)) = fun q => (a10 m c) (ix1 q) :=
    funext fun q => Cert.Reads.vec_row _ _ q
  rw [e0, e2]

/-- Under the precondition the idealized kernel program's result is the reference's result of the same arguments. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hd : Dec m c) :
    Cert.KernelIdeal.Hand.W18 m ρ c (Proc.devRef .tc Cert.KernelIdeal.main_v176) = Cert.ReferenceIdeal.ReadP.val_main_v243 (F := Ideal) (a0 m c) (a1 m c) (a2 m c) (a3 m c) (a4 m c) (a5 m c) (a6 m c) (a7 m c) (a8 m c) (a9 m c) (a10 m c) := by
  have i0 : Inv0 m ρ c := ⟨fun _ _ => rfl, fun _ _ => hd.r0 _⟩
  exact funext fun i => result m ρ c
    (step3 m ρ c hd (step2 m ρ c hd (step1 m ρ c hd (step0 m ρ c hd i0)))) i

end Cert.Proof.Join

end
-- ==== Proof.Ledger.lean ====
/-
  The idealized kernel differs from the kernel as printed in one respect only: the f32 literal 0x37A7C5AC, which the
  four statistics kernels multiply a column sum (and a column sum of squares) by, is read as the exact rational
  1/50000 it rounds from. Each of the eight sites is the same statement: the certificate's table gives the name
  "inv_50000" the value 1/50000, so the named constant denotes that real at the ideal instance.
-/
import proofs.«132655_j36919538876779_2_alg».proof.Defs

noncomputable section

namespace Cert.Proof.Ledger

open Idealize.ShloMosaic

/-- One site: the name "inv_50000" denotes 1/50000. -/
theorem site : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

/-- All eight sites (two per statistics kernel, four kernels). -/
theorem preserves : Cert.preserves_Kernel_KernelIdeal :=
  ⟨site, site, site, site, site, site, site, site⟩

end Cert.Proof.Ledger

end
-- ==== Proof.RefFrame.lean ====
/-
  The reference is a straight-line host program: every weakly fair execution runs its operations in order and ends
  with each argument array as launched. This is its run with the statement about the result dropped.
-/
import proofs.«132655_j36919538876779_2_alg».proof.Defs
import proofs.«132655_j36919538876779_2_alg».proof.Proof.Ref.Run
import proofs.«132655_j36919538876779_2_alg».proof.Proof.Gen.Pre_finite_inputs

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.Hand.run (F := Ideal) m ρ)

end Cert.Proof.RefFrame

end
-- ==== Proof.Algebraic.lean ====
/-
  The five claims from their parts.

  Each kernel program's frame is its run with the statement about the result dropped. The algebraic claim: the
  idealized kernel program ends with its result buffer at a table R(m) read off its run; the reference ends with its
  result at the composition of its operations applied to its arguments, which are the kernel program's arguments; and
  under the precondition (every float input real, every edge's destination nonnegative) that composition is R(m).
-/
import proofs.«132655_j36919538876779_2_alg».proof.Defs
import proofs.«132655_j36919538876779_2_alg».proof.Proof.KI.Run
import proofs.«132655_j36919538876779_2_alg».proof.Proof.K.Run
import proofs.«132655_j36919538876779_2_alg».proof.Proof.Ref.Run
import proofs.«132655_j36919538876779_2_alg».proof.Proof.Join
import proofs.«132655_j36919538876779_2_alg».proof.Proof.Ledger
import proofs.«132655_j36919538876779_2_alg».proof.Proof.RefFrame
import proofs.«132655_j36919538876779_2_alg».proof.Proof.Gen.Kernel
import proofs.«132655_j36919538876779_2_alg».proof.Proof.Gen.KernelIdeal
import proofs.«132655_j36919538876779_2_alg».proof.Proof.Gen.ReferenceIdeal
import proofs.«132655_j36919538876779_2_alg».proof.Proof.Gen.Pre_finite_inputs

set_option maxRecDepth 16384

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem algebraic : Cert.algebraic_KernelIdeal_ReferenceIdeal := by
  intro m ρ m' ρ' hpre hagree
  refine ⟨fun c => Cert.KernelIdeal.Hand.W18 m ρ c (Proc.devRef .tc Cert.KernelIdeal.main_v176),
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10⟩ := hagree c
  rw [h0, h1, h2, h3, h4, h5, h6, h7, h8, h9, h10]
  exact (Cert.Proof.Join.result_eq m ρ c (Cert.Proof.Pre.decode _ _ _ _ _ _ _ _ _ _ _ (hpre c))).symm

end Cert.Proof.Claims

end
-- ==== Proof.lean ====
/-
  The certificate: a four-layer graph-isomorphism encoder whose per-layer perceptron and batch normalization run as
  two tiled kernels (column statistics accumulated over the row tiles, then the normalization recomputed tile by tile),
  followed by a per-graph sum and a projection, against the same computation written with whole-array operations.

  The two kernel programs run to the end and leave their arguments as launched (each of the nine kernel launches staged,
  run at every grid point and flushed; the host stretches between them pure). The idealized program differs from the
  printed one only in reading the constant 1/50000 exactly. At the ideal instance the two sides agree entry by entry: a
  change of float format is the identity, a tiled matrix product is the plain sum, the tile-by-tile column sums are the
  column sums, E[x^2] - (E x)^2 is the mean squared deviation on real entries, and the neighbour sum accumulated into
  the table is the table plus the neighbour sum when every destination index is nonnegative.
-/
import proofs.«132655_j36919538876779_2_alg».proof.Defs
import proofs.«132655_j36919538876779_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.RefFrame.frame_ri, Cert.Proof.Ledger.preserves,
    Cert.Proof.Claims.algebraic⟩

end Cert.Proof

end
